-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v268)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v268) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v373) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1000000 : Shape := ⟨2, ![2, 1000000]⟩
abbrev S100000 : Shape := ⟨1, ![100000]⟩
abbrev S1x64 : Shape := ⟨2, ![1, 64]⟩
abbrev S64 : Shape := ⟨1, ![64]⟩
abbrev S12x64x64 : Shape := ⟨3, ![12, 64, 64]⟩
abbrev S12x64 : Shape := ⟨2, ![12, 64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S1x64 : S_.BroadcastsInDim S1x64 (![] : Fin 0 → Fin S1x64.rank)
  reducesTo_S1x64_S_d0_1 : S1x64.ReducesTo [0, 1] S_
  h_S_ : 0 < S_.numel
  bcast_S_S64 : S_.BroadcastsInDim S64 (![] : Fin 0 → Fin S64.rank)
  reducesTo_S64_S_d0 : S64.ReducesTo [0] S_
  bcast_S_S12x64x64 : S_.BroadcastsInDim S12x64x64 (![] : Fin 0 → Fin S12x64x64.rank)
  reducesTo_S12x64x64_S_d0_1_2 : S12x64x64.ReducesTo [0, 1, 2] S_
  bcast_S_S12x64 : S_.BroadcastsInDim S12x64 (![] : Fin 0 → Fin S12x64.rank)
  reducesTo_S12x64_S_d0_1 : S12x64.ReducesTo [0, 1] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg9 : FVec F S64 .f32) (main_arg10 : FVec F S64x16 .f32) (main_arg11 : FVec F S16 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x16 .f32 := Host.absf main_arg10
  let main_cst_14 : FVec F S_ .f32 := constant S_ .f32 0x7F800000#32
  let main_v40 : FVec F S64x16 .f32 := broadcastInDim S64x16 ![] bcast_S_S64x16 main_cst_14
  let main_v41 : IVec S64x16 1 := cmpf .olt main_v39 main_v40
  let main_c_15 : IVec S_ 1 := constantI S_ 1 1#1
  let main_v42 : IVec S_ 1 := (fun x v => Host.reduce IntOp.andi x v reducesTo_S64x16_S_d0_1 h_S_) main_v41 main_c_15
  let main_v43 : IVec S_ 1 := andi main_v38 main_v42
  let main_v44 : FVec F S16 .f32 := Host.absf main_arg11
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg6 : FVec F S12x64x64 .f32) (main_arg7 : FVec F S12x64 .f32) (main_arg8 : FVec F S64x64 .f32) (main_arg9 : FVec F S64 .f32) (main_arg10 : FVec F S64x16 .f32) (main_arg11 : FVec F S16 .f32) (main_v13 : IVec S_ 1) (main_v16 : IVec S12x64 1) : IVec S_ 1 :=
  let main_c_5 : IVec S_ 1 := constantI S_ 1 1#1
  let main_v17 : IVec S_ 1 := (fun x v => Host.reduce IntOp.andi x v reducesTo_S12x64_S_d0_1 h_S_) main_v16 main_c_5
  let main_v18 : IVec S_ 1 := andi main_v13 main_v17
  let main_v19 : FVec F S12x64x64 .f32 := Host.absf main_arg6
  let main_cst_6 : FVec F S_ .f32 := constant S_ .f32 0x7F800000#32
  let main_v20 : FVec F S12x64x64 .f32 := broadcastInDim S12x64x64 ![] bcast_S_S12x64x64 main_cst_6
  let main_v21 : IVec S12x64x64 1 := cmpf .olt main_v19 main_v20
  let main_c_7 : IVec S_ 1 := constantI S_ 1 1#1
  let main_v22 : IVec S_ 1 := (fun x v => Host.reduce IntOp.andi x v reducesTo_S12x64x64_S_d0_1_2 h_S_) main_v21 main_c_7
  let main_v23 : IVec S_ 1 := andi main_v18 main_v22
  let main_v24 : FVec F S12x64 .f32 := Host.absf main_arg7
  let main_cst_8 : FVec F S_ .f32 := constant S_ .f32 0x7F800000#32
  let main_v25 : FVec F S12x64 .f32 := broadcastInDim S12x64 ![] bcast_S_S12x64 main_cst_8
  let main_v26 : IVec S12x64 1 := cmpf .olt main_v24 main_v25
  let main_c_9 : IVec S_ 1 := constantI S_ 1 1#1
  let main_v27 : IVec S_ 1 := (fun x v => Host.reduce IntOp.andi x v reducesTo_S12x64_S_d0_1 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_v33

def fn {F : FTy → Type} [FloatOps F] (main_arg0 : IVec S2x1000000 32) (main_arg1 : IVec S100000 32) (main_arg2 : FVec F S1x64 .f32) (main_arg3 : FVec F S64 .f32) (main_arg4 : FVec F S12x64x64 .f32) (main_arg5 : FVec F S12x64 .f32) (main_arg6 : FVec F S12x64x64 .f32) (main_arg7 : FVec F S12x64 .f32) (main_arg8 : FVec F S64x64 .f32) (main_arg9 : FVec F S64 .f32) (main_arg10 : FVec F S64x16 .f32) (main_arg11 : FVec F S16 .f32) : IVec S_ 1 :=
  let main_v0 : FVec F S1x64 .f32 := Host.absf main_arg2
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_c : IVec S_ 1 := constantI S_ 1 1#1
  let main_v3 : IVec S_ 1 := (fun x v => Host.reduce IntOp.andi x v reducesTo_S1x64_S_d0_1 h_S_) main_v2 main_c
  let main_v4 : FVec F S64 .f32 := Host.absf main_arg3
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S12x64x64 .f32 := Host.absf main_arg4
  let main_cst_2 : FVec F S_ .f32 := constant S_ .f32 0x7F800000#32
  let main_v10 : FVec F S12x64x64 .f32 := broadcastInDim S12x64x64 ![] bcast_S_S12x64x64 main_cst_2
  let main_v11 : IVec S12x64x64 1 := cmpf .olt main_v9 main_v10
  let main_c_3 : IVec S_ 1 := constantI S_ 1 1#1
  let main_v12 : IVec S_ 1 := (fun x v => Host.reduce IntOp.andi x v reducesTo_S12x64x64_S_d0_1_2 h_S_) main_v11 main_c_3
  let main_v13 : IVec S_ 1 := andi main_v8 main_v12
  let main_v14 : FVec F S12x64 .f32 := Host.absf main_arg5
  let main_cst_4 : FVec F S_ .f32 := constant S_ .f32 0x7F800000#32
  let main_v15 : FVec F S12x64 .f32 := broadcastInDim S12x64 ![] bcast_S_S12x64 main_cst_4
  let main_v16 : IVec S12x64 1 := cmpf .olt main_v14 main_v15
  fn_part1 (F := F) main_arg6 main_arg7 main_arg8 main_arg9 main_arg10 main_arg11 main_v13 main_v16
-- ==== Kernel.lean ====
abbrev S2x1000000 : Shape := ⟨2, ![2, 1000000]⟩
abbrev S100000 : Shape := ⟨1, ![100000]⟩
abbrev S1x64 : Shape := ⟨2, ![1, 64]⟩
abbrev S64 : Shape := ⟨1, ![64]⟩
abbrev S12x64x64 : Shape := ⟨3, ![12, 64, 64]⟩
abbrev S12x64 : Shape := ⟨2, ![12, 64]⟩
abbrev S64x64 : Shape := ⟨2, ![64, 64]⟩
abbrev S64x16 : Shape := ⟨2, ![64, 16]⟩
abbrev S16 : Shape := ⟨1, ![16]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S100000x1 : Shape := ⟨2, ![100000, 1]⟩
abbrev S100000x64 : Shape := ⟨2, ![100000, 64]⟩
abbrev S10000x1 : Shape := ⟨2, ![10000, 1]⟩
abbrev S10000x64 : Shape := ⟨2, ![10000, 64]⟩
abbrev S1000000x64 : Shape := ⟨2, ![1000000, 64]⟩
abbrev S1x64x64 : Shape := ⟨3, ![1, 64, 64]⟩
abbrev S256x64 : Shape := ⟨2, ![256, 64]⟩
abbrev S1x16 : Shape := ⟨2, ![1, 16]⟩
abbrev S256x16 : Shape := ⟨2, ![256, 16]⟩

abbrev nBuf : Space → Nat
  | .hbm => 320
  | .vmem => 132
  | .smem => 0
  | _ => 0

abbrev hbmTy0_0 (i : Nat) : BufTy := match i % 128 with
  | 0 => ⟨S2x1000000, .i32⟩
  | 1 => ⟨S100000, .i32⟩
  | 2 => ⟨S1x64, .f32⟩
  | 3 => ⟨S64, .f32⟩
  | 4 => ⟨S12x64x64, .f32⟩
  | 5 => ⟨S12x64, .f32⟩
  | 6 => ⟨S12x64x64, .f32⟩
  | 7 => ⟨S12x64, .f32⟩
  | 8 => ⟨S64x64, .f32⟩
  | 9 => ⟨S64, .f32⟩
  | 10 => ⟨S64x16, .f32⟩
  | 11 => ⟨S16, .f32⟩
  | 12 => ⟨S1x1000000, .i32⟩
  | 13 => ⟨S1000000, .i32⟩
  | 14 => ⟨S1x1000000, .i32⟩
  | 15 => ⟨S1000000, .i32⟩
  | 16 => ⟨S_, .f32⟩
  | 17 => ⟨S1000000, .f32⟩
  | 18 => ⟨S_, .f32⟩
  | 19 => ⟨S100000, .f32⟩
  | 20 => ⟨S1000000x1, .i32⟩
  | 21 => ⟨S100000, .f32⟩
  | 22 => ⟨S100000x1, .f32⟩
  | 23 => ⟨S1x64, .f32⟩
  | 24 => ⟨S100000x64, .f32⟩
  | 25 => ⟨S_, .i32⟩
  | 26 => ⟨S1000000, .i32⟩
  | 27 => ⟨S1000000, .i1⟩
  | 28 => ⟨S_, .i32⟩
  | 29 => ⟨S1000000, .i32⟩
  | 30 => ⟨S1000000, .i32⟩
  | 31 => ⟨S1000000, .i32⟩
  | 32 => ⟨S1000000x1, .i32⟩
  | 33 => ⟨S1000000x64, .f32⟩
  | 34 => ⟨S_, .f32⟩
  | 35 => ⟨S100000x64, .f32⟩
  | 36 => ⟨S1000000x1, .i32⟩
  | 37 => ⟨S100000x64, .f32⟩
  | 38 => ⟨S1x64x64, .f32⟩
  | 39 => ⟨S64x64, .f32⟩
  | 40 => ⟨S1x64, .f32⟩
  | 41 => ⟨S64, .f32⟩
  | 42 => ⟨S1x64, .f32⟩
  | 43 => ⟨S1x64x64, .f32⟩
  | 44 => ⟨S64x64, .f32⟩
  | 45 => ⟨S1x64, .f32⟩
  | 46 => ⟨S64, .f32⟩
  | 47 => ⟨S1x64, .f32⟩
  | 48 => ⟨S100000x64, .f32⟩
  | 49 => ⟨S_, .i32⟩
  | 50 => ⟨S1000000, .i32⟩
  | 51 => ⟨S1000000, .i1⟩
  | 52 => ⟨S_, .i32⟩
  | 53 => ⟨S1000000, .i32⟩
  | 54 => ⟨S1000000, .i32⟩
  | 55 => ⟨S1000000, .i32⟩
  | 56 => ⟨S1000000x1, .i32⟩
  | 57 => ⟨S1000000x64, .f32⟩
  | 58 => ⟨S_, .f32⟩
  | 59 => ⟨S100000x64, .f32⟩
  | 60 => ⟨S1000000x1, .i32⟩
  | 61 => ⟨S100000x64, .f32⟩
  | 62 => ⟨S1x64x64, .f32⟩
  | 63 => ⟨S64x64, .f32⟩
  | 64 => ⟨S1x64, .f32⟩
  | 65 => ⟨S64, .f32⟩
  | 66 => ⟨S1x64, .f32⟩
  | 67 => ⟨S1x64x64, .f32⟩
  | 68 => ⟨S64x64, .f32⟩
  | 69 => ⟨S1x64, .f32⟩
  | 70 => ⟨S64, .f32⟩
  | 71 => ⟨S1x64, .f32⟩
  | 72 => ⟨S100000x64, .f32⟩
  | 73 => ⟨S_, .i32⟩
  | 74 => ⟨S1000000, .i32⟩
  | 75 => ⟨S1000000, .i1⟩
  | 76 => ⟨S_, .i32⟩
  | 77 => ⟨S1000000, .i32⟩
  | 78 => ⟨S1000000, .i32⟩
  | 79 => ⟨S1000000, .i32⟩
  | 80 => ⟨S1000000x1, .i32⟩
  | 81 => ⟨S1000000x64, .f32⟩
  | 82 => ⟨S_, .f32⟩
  | 83 => ⟨S100000x64, .f32⟩
  | 84 => ⟨S1000000x1, .i32⟩
  | 85 => ⟨S100000x64, .f32⟩
  | 86 => ⟨S1x64x64, .f32⟩
  | 87 => ⟨S64x64, .f32⟩
  | 88 => ⟨S1x64, .f32⟩
  | 89 => ⟨S64, .f32⟩
  | 90 => ⟨S1x64, .f32⟩
  | 91 => ⟨S1x64x64, .f32⟩
  | 92 => ⟨S64x64, .f32⟩
  | 93 => ⟨S1x64, .f32⟩
  | 94 => ⟨S64, .f32⟩
  | 95 => ⟨S1x64, .f32⟩
  | 96 => ⟨S100000x64, .f32⟩
  | 97 => ⟨S_, .i32⟩
  | 98 => ⟨S1000000, .i32⟩
  | 99 => ⟨S1000000, .i1⟩
  | 100 => ⟨S_, .i32⟩
  | 101 => ⟨S1000000, .i32⟩
  | 102 => ⟨S1000000, .i32⟩
  | 103 => ⟨S1000000, .i32⟩
  | 104 => ⟨S1000000x1, .i32⟩
  | 105 => ⟨S1000000x64, .f32⟩
  | 106 => ⟨S_, .f32⟩
  | 107 => ⟨S100000x64, .f32⟩
  | 108 => ⟨S1000000x1, .i32⟩
  | 109 => ⟨S100000x64, .f32⟩
  | 110 => ⟨S1x64x64, .f32⟩
  | 111 => ⟨S64x64, .f32⟩
  | 112 => ⟨S1x64, .f32⟩
  | 113 => ⟨S64, .f32⟩
  | 114 => ⟨S1x64, .f32⟩
  | 115 => ⟨S1x64x64, .f32⟩
  | 116 => ⟨S64x64, .f32⟩
  | 117 => ⟨S1x64, .f32⟩
  | 118 => ⟨S64, .f32⟩
  | 119 => ⟨S1x64, .f32⟩
  | 120 => ⟨S100000x64, .f32⟩
  | 121 => ⟨S_, .i32⟩
  | 122 => ⟨S1000000, .i32⟩
  | 123 => ⟨S1000000, .i1⟩
  | 124 => ⟨S_, .i32⟩
  | 125 => ⟨S1000000, .i32⟩
  | 126 => ⟨S1000000, .i32⟩
  | 127 => ⟨S1000000, .i32⟩
  | _ => ⟨S2x1000000, .i32⟩

abbrev hbmTy0_1 (i : Nat) : BufTy := match i % 128 with
  | 0 => ⟨S1000000x1, .i32⟩
  | 1 => ⟨S1000000x64, .f32⟩
  | 2 => ⟨S_, .f32⟩
  | 3 => ⟨S100000x64, .f32⟩
  | 4 => ⟨S1000000x1, .i32⟩
  | 5 => ⟨S100000x64, .f32⟩
  | 6 => ⟨S1x64x64, .f32⟩
  | 7 => ⟨S64x64, .f32⟩
  | 8 => ⟨S1x64, .f32⟩
  | 9 => ⟨S64, .f32⟩
  | 10 => ⟨S1x64, .f32⟩
  | 11 => ⟨S1x64x64, .f32⟩
  | 12 => ⟨S64x64, .f32⟩
  | 13 => ⟨S1x64, .f32⟩
  | 14 => ⟨S64, .f32⟩
  | 15 => ⟨S1x64, .f32⟩
  | 16 => ⟨S100000x64, .f32⟩
  | 17 => ⟨S_, .i32⟩
  | 18 => ⟨S1000000, .i32⟩
  | 19 => ⟨S1000000, .i1⟩
  | 20 => ⟨S_, .i32⟩
  | 21 => ⟨S1000000, .i32⟩
  | 22 => ⟨S1000000, .i32⟩
  | 23 => ⟨S1000000, .i32⟩
  | 24 => ⟨S1000000x1, .i32⟩
  | 25 => ⟨S1000000x64, .f32⟩
  | 26 => ⟨S_, .f32⟩
  | 27 => ⟨S100000x64, .f32⟩
  | 28 => ⟨S1000000x1, .i32⟩
  | 29 => ⟨S100000x64, .f32⟩
  | 30 => ⟨S1x64x64, .f32⟩
  | 31 => ⟨S64x64, .f32⟩
  | 32 => ⟨S1x64, .f32⟩
  | 33 => ⟨S64, .f32⟩
  | 34 => ⟨S1x64, .f32⟩
  | 35 => ⟨S1x64x64, .f32⟩
  | 36 => ⟨S64x64, .f32⟩
  | 37 => ⟨S1x64, .f32⟩
  | 38 => ⟨S64, .f32⟩
  | 39 => ⟨S1x64, .f32⟩
  | 40 => ⟨S100000x64, .f32⟩
  | 41 => ⟨S_, .i32⟩
  | 42 => ⟨S1000000, .i32⟩
  | 43 => ⟨S1000000, .i1⟩
  | 44 => ⟨S_, .i32⟩
  | 45 => ⟨S1000000, .i32⟩
  | 46 => ⟨S1000000, .i32⟩
  | 47 => ⟨S1000000, .i32⟩
  | 48 => ⟨S1000000x1, .i32⟩
  | 49 => ⟨S1000000x64, .f32⟩
  | 50 => ⟨S_, .f32⟩
  | 51 => ⟨S100000x64, .f32⟩
  | 52 => ⟨S1000000x1, .i32⟩
  | 53 => ⟨S100000x64, .f32⟩
  | 54 => ⟨S1x64x64, .f32⟩
  | 55 => ⟨S64x64, .f32⟩
  | 56 => ⟨S1x64, .f32⟩
  | 57 => ⟨S64, .f32⟩
  | 58 => ⟨S1x64, .f32⟩
  | 59 => ⟨S1x64x64, .f32⟩
  | 60 => ⟨S64x64, .f32⟩
  | 61 => ⟨S1x64, .f32⟩
  | 62 => ⟨S64, .f32⟩
  | 63 => ⟨S1x64, .f32⟩
  | 64 => ⟨S100000x64, .f32⟩
  | 65 => ⟨S_, .i32⟩
  | 66 => ⟨S1000000, .i32⟩
  | 67 => ⟨S1000000, .i1⟩
  | 68 => ⟨S_, .i32⟩
  | 69 => ⟨S1000000, .i32⟩
  | 70 => ⟨S1000000, .i32⟩
  | 71 => ⟨S1000000, .i32⟩
  | 72 => ⟨S1000000x1, .i32⟩
  | 73 => ⟨S1000000x64, .f32⟩
  | 74 => ⟨S_, .f32⟩
  | 75 => ⟨S100000x64, .f32⟩
  | 76 => ⟨S1000000x1, .i32⟩
  | 77 => ⟨S100000x64, .f32⟩
  | 78 => ⟨S1x64x64, .f32⟩
  | 79 => ⟨S64x64, .f32⟩
  | 80 => ⟨S1x64, .f32⟩
  | 81 => ⟨S64, .f32⟩
  | 82 => ⟨S1x64, .f32⟩
  | 83 => ⟨S1x64x64, .f32⟩
  | 84 => ⟨S64x64, .f32⟩
  | 85 => ⟨S1x64, .f32⟩
  | 86 => ⟨S64, .f32⟩
  | 87 => ⟨S1x64, .f32⟩
  | 88 => ⟨S100000x64, .f32⟩
  | 89 => ⟨S_, .i32⟩
  | 90 => ⟨S1000000, .i32⟩
  | 91 => ⟨S1000000, .i1⟩
  | 92 => ⟨S_, .i32⟩
  | 93 => ⟨S1000000, .i32⟩
  | 94 => ⟨S1000000, .i32⟩
  | 95 => ⟨S1000000, .i32⟩
  | 96 => ⟨S1000000x1, .i32⟩
  | 97 => ⟨S1000000x64, .f32⟩
  | 98 => ⟨S_, .f32⟩
  | 99 => ⟨S100000x64, .f32⟩
  | 100 => ⟨S1000000x1, .i32⟩
  | 101 => ⟨S100000x64, .f32⟩
  | 102 => ⟨S1x64x64, .f32⟩
  | 103 => ⟨S64x64, .f32⟩
  | 104 => ⟨S1x64, .f32⟩
  | 105 => ⟨S64, .f32⟩
  | 106 => ⟨S1x64, .f32⟩
  | 107 => ⟨S1x64x64, .f32⟩
  | 108 => ⟨S64x64, .f32⟩
  | 109 => ⟨S1x64, .f32⟩
  | 110 => ⟨S64, .f32⟩
  | 111 => ⟨S1x64, .f32⟩
  | 112 => ⟨S100000x64, .f32⟩
  | 113 => ⟨S_, .i32⟩
  | 114 => ⟨S1000000, .i32⟩
  | 115 => ⟨S1000000, .i1⟩
  | 116 => ⟨S_, .i32⟩
  | 117 => ⟨S1000000, .i32⟩
  | 118 => ⟨S1000000, .i32⟩
  | 119 => ⟨S1000000, .i32⟩
  | 120 => ⟨S1000000x1, .i32⟩
  | 121 => ⟨S1000000x64, .f32⟩
  | 122 => ⟨S_, .f32⟩
  | 123 => ⟨S100000x64, .f32⟩
  | 124 => ⟨S1000000x1, .i32⟩
  | 125 => ⟨S100000x64, .f32⟩
  | 126 => ⟨S1x64x64, .f32⟩
  | 127 => ⟨S64x64, .f32⟩
  | _ => ⟨S2x1000000, .i32⟩

abbrev hbmTy0_2 (i : Nat) : BufTy := match i % 128 with
  | 0 => ⟨S1x64, .f32⟩
  | 1 => ⟨S64, .f32⟩
  | 2 => ⟨S1x64, .f32⟩
  | 3 => ⟨S1x64x64, .f32⟩
  | 4 => ⟨S64x64, .f32⟩
  | 5 => ⟨S1x64, .f32⟩
  | 6 => ⟨S64, .f32⟩
  | 7 => ⟨S1x64, .f32⟩
  | 8 => ⟨S100000x64, .f32⟩
  | 9 => ⟨S_, .i32⟩
  | 10 => ⟨S1000000, .i32⟩
  | 11 => ⟨S1000000, .i1⟩
  | 12 => ⟨S_, .i32⟩
  | 13 => ⟨S1000000, .i32⟩
  | 14 => ⟨S1000000, .i32⟩
  | 15 => ⟨S1000000, .i32⟩
  | 16 => ⟨S1000000x1, .i32⟩
  | 17 => ⟨S1000000x64, .f32⟩
  | 18 => ⟨S_, .f32⟩
  | 19 => ⟨S100000x64, .f32⟩
  | 20 => ⟨S1000000x1, .i32⟩
  | 21 => ⟨S100000x64, .f32⟩
  | 22 => ⟨S1x64x64, .f32⟩
  | 23 => ⟨S64x64, .f32⟩
  | 24 => ⟨S1x64, .f32⟩
  | 25 => ⟨S64, .f32⟩
  | 26 => ⟨S1x64, .f32⟩
  | 27 => ⟨S1x64x64, .f32⟩
  | 28 => ⟨S64x64, .f32⟩
  | 29 => ⟨S1x64, .f32⟩
  | 30 => ⟨S64, .f32⟩
  | 31 => ⟨S1x64, .f32⟩
  | 32 => ⟨S100000x64, .f32⟩
  | 33 => ⟨S_, .i32⟩
  | 34 => ⟨S1000000, .i32⟩
  | 35 => ⟨S1000000, .i1⟩
  | 36 => ⟨S_, .i32⟩
  | 37 => ⟨S1000000, .i32⟩
  | 38 => ⟨S1000000, .i32⟩
  | 39 => ⟨S1000000, .i32⟩
  | 40 => ⟨S1000000x1, .i32⟩
  | 41 => ⟨S1000000x64, .f32⟩
  | 42 => ⟨S_, .f32⟩
  | 43 => ⟨S100000x64, .f32⟩
  | 44 => ⟨S1000000x1, .i32⟩
  | 45 => ⟨S100000x64, .f32⟩
  | 46 => ⟨S1x64x64, .f32⟩
  | 47 => ⟨S64x64, .f32⟩
  | 48 => ⟨S1x64, .f32⟩
  | 49 => ⟨S64, .f32⟩
  | 50 => ⟨S1x64, .f32⟩
  | 51 => ⟨S1x64x64, .f32⟩
  | 52 => ⟨S64x64, .f32⟩
  | 53 => ⟨S1x64, .f32⟩
  | 54 => ⟨S64, .f32⟩
  | 55 => ⟨S1x64, .f32⟩
  | 56 => ⟨S100000x64, .f32⟩
  | 57 => ⟨S_, .f32⟩
  | 58 => ⟨S256x64, .f32⟩
  | 59 => ⟨S100000x1, .i32⟩
  | 60 => ⟨S256x64, .f32⟩
  | 61 => ⟨S1x64, .f32⟩
  | 62 => ⟨S1x16, .f32⟩
  | 63 => ⟨S256x16, .f32⟩
  | _ => ⟨S2x1000000, .i32⟩

abbrev hbmTy (i : Nat) : BufTy := match i / 128 with
  | 0 => hbmTy0_0 i
  | 1 => hbmTy0_1 i
  | 2 => hbmTy0_2 i
  | _ => ⟨S2x1000000, .i32⟩

abbrev vmemTy0_0 (i : Nat) : BufTy := match i % 128 with
  | 0 => ⟨S10000x1, .f32⟩
  | 1 => ⟨S10000x1, .f32⟩
  | 2 => ⟨S1x64, .f32⟩
  | 3 => ⟨S1x64, .f32⟩
  | 4 => ⟨S10000x64, .f32⟩
  | 5 => ⟨S10000x64, .f32⟩
  | 6 => ⟨S10000x64, .f32⟩
  | 7 => ⟨S10000x64, .f32⟩
  | 8 => ⟨S10000x64, .f32⟩
  | 9 => ⟨S10000x64, .f32⟩
  | 10 => ⟨S64x64, .f32⟩
  | 11 => ⟨S1x64, .f32⟩
  | 12 => ⟨S64x64, .f32⟩
  | 13 => ⟨S1x64, .f32⟩
  | 14 => ⟨S10000x64, .f32⟩
  | 15 => ⟨S10000x64, .f32⟩
  | 16 => ⟨S10000x64, .f32⟩
  | 17 => ⟨S10000x64, .f32⟩
  | 18 => ⟨S10000x64, .f32⟩
  | 19 => ⟨S10000x64, .f32⟩
  | 20 => ⟨S64x64, .f32⟩
  | 21 => ⟨S1x64, .f32⟩
  | 22 => ⟨S64x64, .f32⟩
  | 23 => ⟨S1x64, .f32⟩
  | 24 => ⟨S10000x64, .f32⟩
  | 25 => ⟨S10000x64, .f32⟩
  | 26 => ⟨S10000x64, .f32⟩
  | 27 => ⟨S10000x64, .f32⟩
  | 28 => ⟨S10000x64, .f32⟩
  | 29 => ⟨S10000x64, .f32⟩
  | 30 => ⟨S64x64, .f32⟩
  | 31 => ⟨S1x64, .f32⟩
  | 32 => ⟨S64x64, .f32⟩
  | 33 => ⟨S1x64, .f32⟩
  | 34 => ⟨S10000x64, .f32⟩
  | 35 => ⟨S10000x64, .f32⟩
  | 36 => ⟨S10000x64, .f32⟩
  | 37 => ⟨S10000x64, .f32⟩
  | 38 => ⟨S10000x64, .f32⟩
  | 39 => ⟨S10000x64, .f32⟩
  | 40 => ⟨S64x64, .f32⟩
  | 41 => ⟨S1x64, .f32⟩
  | 42 => ⟨S64x64, .f32⟩
  | 43 => ⟨S1x64, .f32⟩
  | 44 => ⟨S10000x64, .f32⟩
  | 45 => ⟨S10000x64, .f32⟩
  | 46 => ⟨S10000x64, .f32⟩
  | 47 => ⟨S10000x64, .f32⟩
  | 48 => ⟨S10000x64, .f32⟩
  | 49 => ⟨S10000x64, .f32⟩
  | 50 => ⟨S64x64, .f32⟩
  | 51 => ⟨S1x64, .f32⟩
  | 52 => ⟨S64x64, .f32⟩
  | 53 => ⟨S1x64, .f32⟩
  | 54 => ⟨S10000x64, .f32⟩
  | 55 => ⟨S10000x64, .f32⟩
  | 56 => ⟨S10000x64, .f32⟩
  | 57 => ⟨S10000x64, .f32⟩
  | 58 => ⟨S10000x64, .f32⟩
  | 59 => ⟨S10000x64, .f32⟩
  | 60 => ⟨S64x64, .f32⟩
  | 61 => ⟨S1x64, .f32⟩
  | 62 => ⟨S64x64, .f32⟩
  | 63 => ⟨S1x64, .f32⟩
  | 64 => ⟨S10000x64, .f32⟩
  | 65 => ⟨S10000x64, .f32⟩
  | 66 => ⟨S10000x64, .f32⟩
  | 67 => ⟨S10000x64, .f32⟩
  | 68 => ⟨S10000x64, .f32⟩
  | 69 => ⟨S10000x64, .f32⟩
  | 70 => ⟨S64x64, .f32⟩
  | 71 => ⟨S1x64, .f32⟩
  | 72 => ⟨S64x64, .f32⟩
  | 73 => ⟨S1x64, .f32⟩
  | 74 => ⟨S10000x64, .f32⟩
  | 75 => ⟨S10000x64, .f32⟩
  | 76 => ⟨S10000x64, .f32⟩
  | 77 => ⟨S10000x64, .f32⟩
  | 78 => ⟨S10000x64, .f32⟩
  | 79 => ⟨S10000x64, .f32⟩
  | 80 => ⟨S64x64, .f32⟩
  | 81 => ⟨S1x64, .f32⟩
  | 82 => ⟨S64x64, .f32⟩
  | 83 => ⟨S1x64, .f32⟩
  | 84 => ⟨S10000x64, .f32⟩
  | 85 => ⟨S10000x64, .f32⟩
  | 86 => ⟨S10000x64, .f32⟩
  | 87 => ⟨S10000x64, .f32⟩
  | 88 => ⟨S10000x64, .f32⟩
  | 89 => ⟨S10000x64, .f32⟩
  | 90 => ⟨S64x64, .f32⟩
  | 91 => ⟨S1x64, .f32⟩
  | 92 => ⟨S64x64, .f32⟩
  | 93 => ⟨S1x64, .f32⟩
  | 94 => ⟨S10000x64, .f32⟩
  | 95 => ⟨S10000x64, .f32⟩
  | 96 => ⟨S10000x64, .f32⟩
  | 97 => ⟨S10000x64, .f32⟩
  | 98 => ⟨S10000x64, .f32⟩
  | 99 => ⟨S10000x64, .f32⟩
  | 100 => ⟨S64x64, .f32⟩
  | 101 => ⟨S1x64, .f32⟩
  | 102 => ⟨S64x64, .f32⟩
  | 103 => ⟨S1x64, .f32⟩
  | 104 => ⟨S10000x64, .f32⟩
  | 105 => ⟨S10000x64, .f32⟩
  | 106 => ⟨S10000x64, .f32⟩
  | 107 => ⟨S10000x64, .f32⟩
  | 108 => ⟨S10000x64, .f32⟩
  | 109 => ⟨S10000x64, .f32⟩
  | 110 => ⟨S64x64, .f32⟩
  | 111 => ⟨S1x64, .f32⟩
  | 112 => ⟨S64x64, .f32⟩
  | 113 => ⟨S1x64, .f32⟩
  | 114 => ⟨S10000x64, .f32⟩
  | 115 => ⟨S10000x64, .f32⟩
  | 116 => ⟨S10000x64, .f32⟩
  | 117 => ⟨S10000x64, .f32⟩
  | 118 => ⟨S10000x64, .f32⟩
  | 119 => ⟨S10000x64, .f32⟩
  | 120 => ⟨S64x64, .f32⟩
  | 121 => ⟨S1x64, .f32⟩
  | 122 => ⟨S64x64, .f32⟩
  | 123 => ⟨S1x64, .f32⟩
  | 124 => ⟨S10000x64, .f32⟩
  | 125 => ⟨S10000x64, .f32⟩
  | 126 => ⟨S256x64, .f32⟩
  | 127 => ⟨S64x64, .f32⟩
  | _ => ⟨S2x1000000, .i32⟩

abbrev vmemTy0_1 (i : Nat) : BufTy := match i % 128 with
  | 0 => ⟨S1x64, .f32⟩
  | 1 => ⟨S64x16, .f32⟩
  | 2 => ⟨S1x16, .f32⟩
  | 3 => ⟨S256x16, .f32⟩
  | _ => ⟨S2x1000000, .i32⟩

abbrev vmemTy (i : Nat) : BufTy := match i / 128 with
  | 0 => vmemTy0_0 i
  | 1 => vmemTy0_1 i
  | _ => ⟨S2x1000000, .i32⟩

abbrev bufTy : (tb : Table) → Fin (tcTables nBuf tb) → BufTy
  | .hbm, ⟨i, _⟩ => hbmTy i
  | .local _ .vmem, ⟨i, _⟩ => vmemTy i
  | _, _ => ⟨S2x1000000, .i32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 132 → Bool
  | ⟨i, _⟩ => dmaSemScopedAt i

abbrev sig : RefSig :=
  ofTc nBuf bufTy 0 132 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_3 : Ref sig .tc := ⟨.hbm, 49, rfl⟩
abbrev main_v32 : Ref sig .tc := ⟨.hbm, 50, rfl⟩
abbrev main_v33 : Ref sig .tc := ⟨.hbm, 51, rfl⟩
abbrev main_c_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_6 : Ref sig .tc := ⟨.hbm, 73, rfl⟩
abbrev main_v53 : Ref sig .tc := ⟨.hbm, 74, rfl⟩
abbrev main_v54 : Ref sig .tc := ⟨.hbm, 75, rfl⟩
abbrev main_c_7 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_8 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_c_9 : Ref sig .tc := ⟨.hbm, 97, rfl⟩
abbrev main_v74 : Ref sig .tc := ⟨.hbm, 98, rfl⟩
abbrev main_v75 : Ref sig .tc := ⟨.hbm, 99, rfl⟩
abbrev main_c_10 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_11 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_c_12 : Ref sig .tc := ⟨.hbm, 121, rfl⟩
abbrev main_v95 : Ref sig .tc := ⟨.hbm, 122, rfl⟩
abbrev main_v96 : Ref sig .tc := ⟨.hbm, 123, rfl⟩
abbrev main_c_13 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_14 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_c_15 : Ref sig .tc := ⟨.hbm, 145, rfl⟩
abbrev main_v116 : Ref sig .tc := ⟨.hbm, 146, rfl⟩
abbrev main_v117 : Ref sig .tc := ⟨.hbm, 147, rfl⟩
abbrev main_c_16 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_cst_17 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_c_18 : Ref sig .tc := ⟨.hbm, 169, rfl⟩
abbrev main_v137 : Ref sig .tc := ⟨.hbm, 170, rfl⟩
abbrev main_v138 : Ref sig .tc := ⟨.hbm, 171, rfl⟩
abbrev main_c_19 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_cst_20 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_c_21 : Ref sig .tc := ⟨.hbm, 193, rfl⟩
abbrev main_v158 : Ref sig .tc := ⟨.hbm, 194, rfl⟩
abbrev main_v159 : Ref sig .tc := ⟨.hbm, 195, rfl⟩
abbrev main_c_22 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_cst_23 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_c_24 : Ref sig .tc := ⟨.hbm, 217, rfl⟩
abbrev main_v179 : Ref sig .tc := ⟨.hbm, 218, rfl⟩
abbrev main_v180 : Ref sig .tc := ⟨.hbm, 219, rfl⟩
abbrev main_c_25 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_cst_26 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_c_27 : Ref sig .tc := ⟨.hbm, 241, rfl⟩
abbrev main_v200 : Ref sig .tc := ⟨.hbm, 242, rfl⟩
abbrev main_v201 : Ref sig .tc := ⟨.hbm, 243, rfl⟩
abbrev main_c_28 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_cst_29 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_c_30 : Ref sig .tc := ⟨.hbm, 265, rfl⟩
abbrev main_v221 : Ref sig .tc := ⟨.hbm, 266, rfl⟩
abbrev main_v222 : Ref sig .tc := ⟨.hbm, 267, rfl⟩
abbrev main_c_31 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_v226 : Ref sig .tc := ⟨.hbm, 272, rfl⟩
abbrev main_v227 : Ref sig .tc := ⟨.hbm, 273, rfl⟩
abbrev main_cst_32 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev main_v237 : Ref sig .tc := ⟨.hbm, 284, rfl⟩
abbrev main_v238 : Ref sig .tc := ⟨.hbm, 285, rfl⟩
abbrev main_v239 : Ref sig .tc := ⟨.hbm, 286, rfl⟩
abbrev main_v240 : Ref sig .tc := ⟨.hbm, 287, rfl⟩
abbrev main_v241 : Ref sig .tc := ⟨.hbm, 288, rfl⟩
abbrev main_c_33 : Ref sig .tc := ⟨.hbm, 289, rfl⟩
abbrev main_v242 : Ref sig .tc := ⟨.hbm, 290, rfl⟩
abbrev main_v243 : Ref sig .tc := ⟨.hbm, 291, rfl⟩
abbrev main_c_34 : Ref sig .tc := ⟨.hbm, 292, rfl⟩
abbrev main_v244 : Ref sig .tc := ⟨.hbm, 293, rfl⟩
abbrev main_v245 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_cst_35 : Ref sig .tc := ⟨.hbm, 298, rfl⟩
abbrev main_v249 : Ref sig .tc := ⟨.hbm, 299, rfl⟩
abbrev main_v250 : Ref sig .tc := ⟨.hbm, 300, rfl⟩
abbrev main_v251 : Ref sig .tc := ⟨.hbm, 301, rfl⟩
abbrev main_v252 : Ref sig .tc := ⟨.hbm, 302, rfl⟩
abbrev main_v253 : Ref sig .tc := ⟨.hbm, 303, rfl⟩
abbrev main_v254 : Ref sig .tc := ⟨.hbm, 304, rfl⟩
abbrev main_v255 : Ref sig .tc := ⟨.hbm, 305, rfl⟩
abbrev main_v256 : Ref sig .tc := ⟨.hbm, 306, rfl⟩
abbrev main_v257 : Ref sig .tc := ⟨.hbm, 307, rfl⟩
abbrev main_v258 : Ref sig .tc := ⟨.hbm, 308, rfl⟩
abbrev main_v259 : Ref sig .tc := ⟨.hbm, 309, rfl⟩
abbrev main_v260 : Ref sig .tc := ⟨.hbm, 310, rfl⟩
abbrev main_v261 : Ref sig .tc := ⟨.hbm, 311, rfl⟩
abbrev main_v262 : Ref sig .tc := ⟨.hbm, 312, rfl⟩
abbrev main_cst_36 : Ref sig .tc := ⟨.hbm, 313, rfl⟩
abbrev main_v263 : Ref sig .tc := ⟨.hbm, 314, rfl⟩
abbrev main_v264 : Ref sig .tc := ⟨.hbm, 315, rfl⟩
abbrev main_v265 : Ref sig .tc := ⟨.hbm, 316, rfl⟩
abbrev main_v266 : Ref sig .tc := ⟨.hbm, 317, rfl⟩
abbrev main_v267 : Ref sig .tc := ⟨.hbm, 318, rfl⟩
abbrev main_v268 : Ref sig .tc := ⟨.hbm, 319, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg6_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg5_0 : Ref sig .tc := ⟨.vmem, 53, rfl⟩
abbrev cc5_stg6_0 : Ref sig .tc := ⟨.vmem, 54, rfl⟩
abbrev cc5_stg6_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg1_1 : Ref sig .tc := ⟨.vmem, 59, rfl⟩
abbrev cc6_stg2_0 : Ref sig .tc := ⟨.vmem, 60, rfl⟩
abbrev cc6_stg3_0 : Ref sig .tc := ⟨.vmem, 61, rfl⟩
abbrev cc6_stg4_0 : Ref sig .tc := ⟨.vmem, 62, rfl⟩
abbrev cc6_stg5_0 : Ref sig .tc := ⟨.vmem, 63, rfl⟩
abbrev cc6_stg6_0 : Ref sig .tc := ⟨.vmem, 64, rfl⟩
abbrev cc6_stg6_1 : Ref sig .tc := ⟨.vmem, 65, rfl⟩
abbrev cc7_stg0_0 : Ref sig .tc := ⟨.vmem, 66, rfl⟩
abbrev cc7_stg0_1 : Ref sig .tc := ⟨.vmem, 67, rfl⟩
abbrev cc7_stg1_0 : Ref sig .tc := ⟨.vmem, 68, rfl⟩
abbrev cc7_stg1_1 : Ref sig .tc := ⟨.vmem, 69, rfl⟩
abbrev cc7_stg2_0 : Ref sig .tc := ⟨.vmem, 70, rfl⟩
abbrev cc7_stg3_0 : Ref sig .tc := ⟨.vmem, 71, rfl⟩
abbrev cc7_stg4_0 : Ref sig .tc := ⟨.vmem, 72, rfl⟩
abbrev cc7_stg5_0 : Ref sig .tc := ⟨.vmem, 73, rfl⟩
abbrev cc7_stg6_0 : Ref sig .tc := ⟨.vmem, 74, rfl⟩
abbrev cc7_stg6_1 : Ref sig .tc := ⟨.vmem, 75, rfl⟩
abbrev cc8_stg0_0 : Ref sig .tc := ⟨.vmem, 76, rfl⟩
abbrev cc8_stg0_1 : Ref sig .tc := ⟨.vmem, 77, rfl⟩
abbrev cc8_stg1_0 : Ref sig .tc := ⟨.vmem, 78, rfl⟩
abbrev cc8_stg1_1 : Ref sig .tc := ⟨.vmem, 79, rfl⟩
abbrev cc8_stg2_0 : Ref sig .tc := ⟨.vmem, 80, rfl⟩
abbrev cc8_stg3_0 : Ref sig .tc := ⟨.vmem, 81, rfl⟩
abbrev cc8_stg4_0 : Ref sig .tc := ⟨.vmem, 82, rfl⟩
abbrev cc8_stg5_0 : Ref sig .tc := ⟨.vmem, 83, rfl⟩
abbrev cc8_stg6_0 : Ref sig .tc := ⟨.vmem, 84, rfl⟩
abbrev cc8_stg6_1 : Ref sig .tc := ⟨.vmem, 85, rfl⟩
abbrev cc9_stg0_0 : Ref sig .tc := ⟨.vmem, 86, rfl⟩
abbrev cc9_stg0_1 : Ref sig .tc := ⟨.vmem, 87, rfl⟩
abbrev cc9_stg1_0 : Ref sig .tc := ⟨.vmem, 88, rfl⟩
abbrev cc9_stg1_1 : Ref sig .tc := ⟨.vmem, 89, rfl⟩
abbrev cc9_stg2_0 : Ref sig .tc := ⟨.vmem, 90, rfl⟩
abbrev cc9_stg3_0 : Ref sig .tc := ⟨.vmem, 91, rfl⟩
abbrev cc9_stg4_0 : Ref sig .tc := ⟨.vmem, 92, rfl⟩
abbrev cc9_stg5_0 : Ref sig .tc := ⟨.vmem, 93, rfl⟩
abbrev cc9_stg6_0 : Ref sig .tc := ⟨.vmem, 94, rfl⟩
abbrev cc9_stg6_1 : Ref sig .tc := ⟨.vmem, 95, rfl⟩
abbrev cc10_stg0_0 : Ref sig .tc := ⟨.vmem, 96, rfl⟩
abbrev cc10_stg0_1 : Ref sig .tc := ⟨.vmem, 97, rfl⟩
abbrev cc10_stg1_0 : Ref sig .tc := ⟨.vmem, 98, rfl⟩
abbrev cc10_stg1_1 : Ref sig .tc := ⟨.vmem, 99, rfl⟩
abbrev cc10_stg2_0 : Ref sig .tc := ⟨.vmem, 100, rfl⟩
abbrev cc10_stg3_0 : Ref sig .tc := ⟨.vmem, 101, rfl⟩
abbrev cc10_stg4_0 : Ref sig .tc := ⟨.vmem, 102, rfl⟩
abbrev cc10_stg5_0 : Ref sig .tc := ⟨.vmem, 103, rfl⟩
abbrev cc10_stg6_0 : Ref sig .tc := ⟨.vmem, 104, rfl⟩
abbrev cc10_stg6_1 : Ref sig .tc := ⟨.vmem, 105, rfl⟩
abbrev cc11_stg0_0 : Ref sig .tc := ⟨.vmem, 106, rfl⟩
abbrev cc11_stg0_1 : Ref sig .tc := ⟨.vmem, 107, rfl⟩
abbrev cc11_stg1_0 : Ref sig .tc := ⟨.vmem, 108, rfl⟩
abbrev cc11_stg1_1 : Ref sig .tc := ⟨.vmem, 109, rfl⟩
abbrev cc11_stg2_0 : Ref sig .tc := ⟨.vmem, 110, rfl⟩
abbrev cc11_stg3_0 : Ref sig .tc := ⟨.vmem, 111, rfl⟩
abbrev cc11_stg4_0 : Ref sig .tc := ⟨.vmem, 112, rfl⟩
abbrev cc11_stg5_0 : Ref sig .tc := ⟨.vmem, 113, rfl⟩
abbrev cc11_stg6_0 : Ref sig .tc := ⟨.vmem, 114, rfl⟩
abbrev cc11_stg6_1 : Ref sig .tc := ⟨.vmem, 115, rfl⟩
abbrev cc12_stg0_0 : Ref sig .tc := ⟨.vmem, 116, rfl⟩
abbrev cc12_stg0_1 : Ref sig .tc := ⟨.vmem, 117, rfl⟩
abbrev cc12_stg1_0 : Ref sig .tc := ⟨.vmem, 118, rfl⟩
abbrev cc12_stg1_1 : Ref sig .tc := ⟨.vmem, 119, rfl⟩
abbrev cc12_stg2_0 : Ref sig .tc := ⟨.vmem, 120, rfl⟩
abbrev cc12_stg3_0 : Ref sig .tc := ⟨.vmem, 121, rfl⟩
abbrev cc12_stg4_0 : Ref sig .tc := ⟨.vmem, 122, rfl⟩
abbrev cc12_stg5_0 : Ref sig .tc := ⟨.vmem, 123, rfl⟩
abbrev cc12_stg6_0 : Ref sig .tc := ⟨.vmem, 124, rfl⟩
abbrev cc12_stg6_1 : Ref sig .tc := ⟨.vmem, 125, rfl⟩
abbrev cc13_stg0_0 : Ref sig .tc := ⟨.vmem, 126, rfl⟩
abbrev cc13_stg1_0 : Ref sig .tc := ⟨.vmem, 127, rfl⟩
abbrev cc13_stg2_0 : Ref sig .tc := ⟨.vmem, 128, rfl⟩
abbrev cc13_stg3_0 : Ref sig .tc := ⟨.vmem, 129, rfl⟩
abbrev cc13_stg4_0 : Ref sig .tc := ⟨.vmem, 130, rfl⟩
abbrev cc13_stg5_0 : Ref sig .tc := ⟨.vmem, 131, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem6_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem3_0 : DmaSem sig := 51
abbrev cc5_sem4_0 : DmaSem sig := 52
abbrev cc5_sem5_0 : DmaSem sig := 53
abbrev cc5_sem6_0 : DmaSem sig := 54
abbrev cc5_sem6_1 : DmaSem sig := 55
abbrev cc6_sem0_0 : DmaSem sig := 56
abbrev cc6_sem0_1 : DmaSem sig := 57
abbrev cc6_sem1_0 : DmaSem sig := 58
abbrev cc6_sem1_1 : DmaSem sig := 59
abbrev cc6_sem2_0 : DmaSem sig := 60
abbrev cc6_sem3_0 : DmaSem sig := 61
abbrev cc6_sem4_0 : DmaSem sig := 62
abbrev cc6_sem5_0 : DmaSem sig := 63
abbrev cc6_sem6_0 : DmaSem sig := 64
abbrev cc6_sem6_1 : DmaSem sig := 65
abbrev cc7_sem0_0 : DmaSem sig := 66
abbrev cc7_sem0_1 : DmaSem sig := 67
abbrev cc7_sem1_0 : DmaSem sig := 68
abbrev cc7_sem1_1 : DmaSem sig := 69
abbrev cc7_sem2_0 : DmaSem sig := 70
abbrev cc7_sem3_0 : DmaSem sig := 71
abbrev cc7_sem4_0 : DmaSem sig := 72
abbrev cc7_sem5_0 : DmaSem sig := 73
abbrev cc7_sem6_0 : DmaSem sig := 74
abbrev cc7_sem6_1 : DmaSem sig := 75
abbrev cc8_sem0_0 : DmaSem sig := 76
abbrev cc8_sem0_1 : DmaSem sig := 77
abbrev cc8_sem1_0 : DmaSem sig := 78
abbrev cc8_sem1_1 : DmaSem sig := 79
abbrev cc8_sem2_0 : DmaSem sig := 80
abbrev cc8_sem3_0 : DmaSem sig := 81
abbrev cc8_sem4_0 : DmaSem sig := 82
abbrev cc8_sem5_0 : DmaSem sig := 83
abbrev cc8_sem6_0 : DmaSem sig := 84
abbrev cc8_sem6_1 : DmaSem sig := 85
abbrev cc9_sem0_0 : DmaSem sig := 86
abbrev cc9_sem0_1 : DmaSem sig := 87
abbrev cc9_sem1_0 : DmaSem sig := 88
abbrev cc9_sem1_1 : DmaSem sig := 89
abbrev cc9_sem2_0 : DmaSem sig := 90
abbrev cc9_sem3_0 : DmaSem sig := 91
abbrev cc9_sem4_0 : DmaSem sig := 92
abbrev cc9_sem5_0 : DmaSem sig := 93
abbrev cc9_sem6_0 : DmaSem sig := 94
abbrev cc9_sem6_1 : DmaSem sig := 95
abbrev cc10_sem0_0 : DmaSem sig := 96
abbrev cc10_sem0_1 : DmaSem sig := 97
abbrev cc10_sem1_0 : DmaSem sig := 98
abbrev cc10_sem1_1 : DmaSem sig := 99
abbrev cc10_sem2_0 : DmaSem sig := 100
abbrev cc10_sem3_0 : DmaSem sig := 101
abbrev cc10_sem4_0 : DmaSem sig := 102
abbrev cc10_sem5_0 : DmaSem sig := 103
abbrev cc10_sem6_0 : DmaSem sig := 104
abbrev cc10_sem6_1 : DmaSem sig := 105
abbrev cc11_sem0_0 : DmaSem sig := 106
abbrev cc11_sem0_1 : DmaSem sig := 107
abbrev cc11_sem1_0 : DmaSem sig := 108
abbrev cc11_sem1_1 : DmaSem sig := 109
abbrev cc11_sem2_0 : DmaSem sig := 110
abbrev cc11_sem3_0 : DmaSem sig := 111
abbrev cc11_sem4_0 : DmaSem sig := 112
abbrev cc11_sem5_0 : DmaSem sig := 113
abbrev cc11_sem6_0 : DmaSem sig := 114
abbrev cc11_sem6_1 : DmaSem sig := 115
abbrev cc12_sem0_0 : DmaSem sig := 116
abbrev cc12_sem0_1 : DmaSem sig := 117
abbrev cc12_sem1_0 : DmaSem sig := 118
abbrev cc12_sem1_1 : DmaSem sig := 119
abbrev cc12_sem2_0 : DmaSem sig := 120
abbrev cc12_sem3_0 : DmaSem sig := 121
abbrev cc12_sem4_0 : DmaSem sig := 122
abbrev cc12_sem5_0 : DmaSem sig := 123
abbrev cc12_sem6_0 : DmaSem sig := 124
abbrev cc12_sem6_1 : DmaSem sig := 125
abbrev cc13_sem0_0 : DmaSem sig := 126
abbrev cc13_sem1_0 : DmaSem sig := 127
abbrev cc13_sem2_0 : DmaSem sig := 128
abbrev cc13_sem3_0 : DmaSem sig := 129
abbrev cc13_sem4_0 : DmaSem sig := 130
abbrev cc13_sem5_0 : DmaSem sig := 131

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S10000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S10000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S10000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S64x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S10000x64 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S64x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S10000x64 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S10000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S64x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S64x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x64 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S10000x64 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S10000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S64x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S64x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x64 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 2 → Memref sig .tc .vmem S10000x64 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S10000x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S64x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S64x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x64 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 2 → Memref sig .tc .vmem S10000x64 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S10000x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S64x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x64 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S64x64 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S1x64 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 2 → Memref sig .tc .vmem S10000x64 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev grid13 : Pipeline.Grid := ⟨1, ![1], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 1 → Memref sig .tc .vmem S256x64 .f32 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![false]

abbrev stage13_1 : Fin 1 → Memref sig .tc .vmem S64x64 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x64 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S64x16 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x16 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S256x16 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  shapeCasts_S64_S1x64 : S64.ShapeCasts S1x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S10000x1_S10000x64 : S10000x1.Broadcasts S10000x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  slices_S12x64x64_S1x64x64_0_0_0 : S12x64x64.Slices ![0, 0, 0] S1x64x64
  shapeCasts_S1x64x64_S64x64 : S1x64x64.ShapeCasts S64x64
  slices_S12x64_S1x64_0_0 : S12x64.Slices ![0, 0] S1x64
  shapeCasts_S1x64_S64 : S1x64.ShapeCasts S64
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S12x64x64_S1x64x64_1_0_0 : S12x64x64.Slices ![1, 0, 0] S1x64x64
  slices_S12x64_S1x64_1_0 : S12x64.Slices ![1, 0] S1x64
  slices_S12x64x64_S1x64x64_2_0_0 : S12x64x64.Slices ![2, 0, 0] S1x64x64
  slices_S12x64_S1x64_2_0 : S12x64.Slices ![2, 0] S1x64
  slices_S12x64x64_S1x64x64_3_0_0 : S12x64x64.Slices ![3, 0, 0] S1x64x64
  slices_S12x64_S1x64_3_0 : S12x64.Slices ![3, 0] S1x64
  slices_S12x64x64_S1x64x64_4_0_0 : S12x64x64.Slices ![4, 0, 0] S1x64x64
  slices_S12x64_S1x64_4_0 : S12x64.Slices ![4, 0] S1x64
  slices_S12x64x64_S1x64x64_5_0_0 : S12x64x64.Slices ![5, 0, 0] S1x64x64
  slices_S12x64_S1x64_5_0 : S12x64.Slices ![5, 0] S1x64
  slices_S12x64x64_S1x64x64_6_0_0 : S12x64x64.Slices ![6, 0, 0] S1x64x64
  slices_S12x64_S1x64_6_0 : S12x64.Slices ![6, 0] S1x64
  slices_S12x64x64_S1x64x64_7_0_0 : S12x64x64.Slices ![7, 0, 0] S1x64x64
  slices_S12x64_S1x64_7_0 : S12x64.Slices ![7, 0] S1x64
  slices_S12x64x64_S1x64x64_8_0_0 : S12x64x64.Slices ![8, 0, 0] S1x64x64
  slices_S12x64_S1x64_8_0 : S12x64.Slices ![8, 0] S1x64
  slices_S12x64x64_S1x64x64_9_0_0 : S12x64x64.Slices ![9, 0, 0] S1x64x64
  slices_S12x64_S1x64_9_0 : S12x64.Slices ![9, 0] S1x64
  slices_S12x64x64_S1x64x64_10_0_0 : S12x64x64.Slices ![10, 0, 0] S1x64x64
  slices_S12x64_S1x64_10_0 : S12x64.Slices ![10, 0] S1x64
  slices_S12x64x64_S1x64x64_11_0_0 : S12x64x64.Slices ![11, 0, 0] S1x64x64
  slices_S12x64_S1x64_11_0 : S12x64.Slices ![11, 0] S1x64
  bcast_S_S256x64 : S_.BroadcastsInDim S256x64 (![] : Fin 0 → Fin S256x64.rank)
  bcast_S100000_S100000x1_0 : S100000.BroadcastsInDim S100000x1 (![0] : Fin 1 → Fin S100000x1.rank)
  shapeCasts_S16_S1x16 : S16.ShapeCasts S1x16
  inb_S256x64_S256x64_0_0 : ∀ a, (![0, 0] : Fin 2 → Nat) a + S256x64.size a ≤ S256x64.size a
  h_S256x64 : 0 < S256x64.numel
  shapeCasts_S256x64_S256x64 : S256x64.ShapeCasts S256x64
  broadcasts_S1x64_S256x64 : S1x64.Broadcasts S256x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S256x16 : S1x16.Broadcasts S256x16
  inb_S256x16_S256x16_0_0 : ∀ a, (![0, 0] : Fin 2 → Nat) a + S256x16.size a ≤ S256x16.size a
  h_S256x16 : 0 < S256x16.numel
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S64x64_S10000x64_1_0_0_1_n_n_wf : DotDims.WF S10000x64 S64x64 S10000x64 [1] [0] [0] [1] [] []
  scatter_S256x64_S100000x1_S100000x64_1_0_0_1_wf : ScatterDims.WF S256x64 S100000x1 S100000x64 [1] [0] [0] 1
  dot_S256x64_S64x64_S256x64_1_0_0_1_n_n_wf : DotDims.WF S256x64 S64x64 S256x64 [1] [0] [0] [1] [] []
  dot_S256x64_S64x16_S256x16_1_0_0_1_n_n_wf : DotDims.WF S256x64 S64x16 S256x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .f32 = 32 ∨ (Rect.block (s := S100000x1) S10000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S100000x64.size a
  hwx2_6 : ∀ i : grid2.Coords, EltTy.bits .f32 = 32 ∨ (Rect.block (s := S100000x64) S10000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x64.size a ≤ S100000x64.size a
  hwx3_6 : ∀ i : grid3.Coords, EltTy.bits .f32 = 32 ∨ (Rect.block (s := S100000x64) S10000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S10000x64.size a ≤ S100000x64.size a
  hwx4_6 : ∀ i : grid4.Coords, EltTy.bits .f32 = 32 ∨ (Rect.block (s := S100000x64) S10000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x64.size a ≤ S100000x64.size a
  hwx5_6 : ∀ i : grid5.Coords, EltTy.bits .f32 = 32 ∨ (Rect.block (s := S100000x64) S10000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S100000x64.size a
  hwx6_1 : ∀ i : grid6.Coords, EltTy.bits .f32 = 32 ∨ (Rect.block (s := S100000x64) S10000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .f32 = 32 ∨ (Rect.block (s := S64x64) S64x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S10000x64.size a ≤ S100000x64.size a
  hwx6_6 : ∀ i : grid6.Coords, EltTy.bits .f32 = 32 ∨ (Rect.block (s := S100000x64) S10000x64.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x64.size a ≤ S100000x64.size a
  hwx7_1 : ∀ i : grid7.Coords, EltTy.bits .f32 = 32 ∨ (Rect.block (s := S100000x64) S10000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x64.size a ≤ S64x64.size a
  hwx7_2 : ∀ i : grid7.Coords, EltTy.bits .f32 = 32 ∨ (Rect.block (s := S64x64) S64x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S64x64.size a ≤ S64x64.size a
  hwx7_4 : ∀ i : grid7.Coords, EltTy.bits .f32 = 32 ∨ (Rect.block (s := S64x64) S64x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S10000x64.size a ≤ S100000x64.size a
  hwx7_6 : ∀ i : grid7.Coords, EltTy.bits .f32 = 32 ∨ (Rect.block (s := S100000x64) S10000x64.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x64.size a ≤ S100000x64.size a
  hwx8_1 : ∀ i : grid8.Coords, EltTy.bits .f32 = 32 ∨ (Rect.block (s := S100000x64) S10000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x64.size a ≤ S64x64.size a
  hwx8_2 : ∀ i : grid8.Coords, EltTy.bits .f32 = 32 ∨ (Rect.block (s := S64x64) S64x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S64x64.size a ≤ S64x64.size a
  hwx8_4 : ∀ i : grid8.Coords, EltTy.bits .f32 = 32 ∨ (Rect.block (s := S64x64) S64x64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x64.size a ≤ S1x64.size a
  hwx8_5 : ∀ i : grid8.Coords, EltTy.bits .f32 = 32 ∨ (Rect.block (s := S1x64) S1x64.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S10000x64.size a ≤ S100000x64.size a
  hwx8_6 : ∀ i : grid8.Coords, EltTy.bits .f32 = 32 ∨ (Rect.block (s := S100000x64) S10000x64.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S100000x64.size a
  hwx9_0 : ∀ i : grid9.Coords, EltTy.bits .f32 = 32 ∨ (Rect.block (s := S100000x64) S10000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S10000x64.size a ≤ S100000x64.size a
  hwx9_1 : ∀ i : grid9.Coords, EltTy.bits .f32 = 32 ∨ (Rect.block (s := S100000x64) S10000x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64x64.size a ≤ S64x64.size a
  hwx9_2 : ∀ i : grid9.Coords, EltTy.bits .f32 = 32 ∨ (Rect.block (s := S64x64) S64x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S64x64.size a ≤ S64x64.size a
  hwx9_4 : ∀ i : grid9.Coords, EltTy.bits .f32 = 32 ∨ (Rect.block (s := S64x64) S64x64.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x64.size a ≤ S1x64.size a
  hwx9_5 : ∀ i : grid9.Coords, EltTy.bits .f32 = 32 ∨ (Rect.block (s := S1x64) S1x64.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S10000x64.size a ≤ S100000x64.size a
  hwx9_6 : ∀ i : grid9.Coords, EltTy.bits .f32 = 32 ∨ (Rect.block (s := S100000x64) S10000x64.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x64.size a ≤ S100000x64.size a
  hwx10_0 : ∀ i : grid10.Coords, EltTy.bits .f32 = 32 ∨ (Rect.block (s := S100000x64) S10000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S10000x64.size a ≤ S100000x64.size a
  hwx10_1 : ∀ i : grid10.Coords, EltTy.bits .f32 = 32 ∨ (Rect.block (s := S100000x64) S10000x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S64x64.size a ≤ S64x64.size a
  hwx10_2 : ∀ i : grid10.Coords, EltTy.bits .f32 = 32 ∨ (Rect.block (s := S64x64) S64x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x64.size a ≤ S1x64.size a
  hwx10_3 : ∀ i : grid10.Coords, EltTy.bits .f32 = 32 ∨ (Rect.block (s := S1x64) S1x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S64x64.size a ≤ S64x64.size a
  hwx10_4 : ∀ i : grid10.Coords, EltTy.bits .f32 = 32 ∨ (Rect.block (s := S64x64) S64x64.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x64.size a ≤ S1x64.size a
  hwx10_5 : ∀ i : grid10.Coords, EltTy.bits .f32 = 32 ∨ (Rect.block (s := S1x64) S1x64.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S10000x64.size a ≤ S100000x64.size a
  hwx10_6 : ∀ i : grid10.Coords, EltTy.bits .f32 = 32 ∨ (Rect.block (s := S100000x64) S10000x64.size (cc10_transform_6 i) (hinb10_6 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x64.size a ≤ S100000x64.size a
  hwx11_0 : ∀ i : grid11.Coords, EltTy.bits .f32 = 32 ∨ (Rect.block (s := S100000x64) S10000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S10000x64.size a ≤ S100000x64.size a
  hwx11_1 : ∀ i : grid11.Coords, EltTy.bits .f32 = 32 ∨ (Rect.block (s := S100000x64) S10000x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S64x64.size a ≤ S64x64.size a
  hwx11_2 : ∀ i : grid11.Coords, EltTy.bits .f32 = 32 ∨ (Rect.block (s := S64x64) S64x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x64.size a ≤ S1x64.size a
  hwx11_3 : ∀ i : grid11.Coords, EltTy.bits .f32 = 32 ∨ (Rect.block (s := S1x64) S1x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S64x64.size a ≤ S64x64.size a
  hwx11_4 : ∀ i : grid11.Coords, EltTy.bits .f32 = 32 ∨ (Rect.block (s := S64x64) S64x64.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x64.size a ≤ S1x64.size a
  hwx11_5 : ∀ i : grid11.Coords, EltTy.bits .f32 = 32 ∨ (Rect.block (s := S1x64) S1x64.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S10000x64.size a ≤ S100000x64.size a
  hwx11_6 : ∀ i : grid11.Coords, EltTy.bits .f32 = 32 ∨ (Rect.block (s := S100000x64) S10000x64.size (cc11_transform_6 i) (hinb11_6 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x64.size a ≤ S100000x64.size a
  hwx12_0 : ∀ i : grid12.Coords, EltTy.bits .f32 = 32 ∨ (Rect.block (s := S100000x64) S10000x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S10000x64.size a ≤ S100000x64.size a
  hwx12_1 : ∀ i : grid12.Coords, EltTy.bits .f32 = 32 ∨ (Rect.block (s := S100000x64) S10000x64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S64x64.size a ≤ S64x64.size a
  hwx12_2 : ∀ i : grid12.Coords, EltTy.bits .f32 = 32 ∨ (Rect.block (s := S64x64) S64x64.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x64.size a ≤ S1x64.size a
  hwx12_3 : ∀ i : grid12.Coords, EltTy.bits .f32 = 32 ∨ (Rect.block (s := S1x64) S1x64.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S64x64.size a ≤ S64x64.size a
  hwx12_4 : ∀ i : grid12.Coords, EltTy.bits .f32 = 32 ∨ (Rect.block (s := S64x64) S64x64.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S1x64.size a ≤ S1x64.size a
  hwx12_5 : ∀ i : grid12.Coords, EltTy.bits .f32 = 32 ∨ (Rect.block (s := S1x64) S1x64.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S10000x64.size a ≤ S100000x64.size a
  hwx12_6 : ∀ i : grid12.Coords, EltTy.bits .f32 = 32 ∨ (Rect.block (s := S100000x64) S10000x64.size (cc12_transform_6 i) (hinb12_6 i)).WholeWords (EltTy.packing .f32)
  hrank13 : 0 < grid13.rank
  hstage13_0 : ∀ j, (stage13_0 j).IsWhole
  nbuf13_0 : grid13.bufCount reads13_0 true = 1
  hreads13_0 : ∀ i i' : grid13.Coords, (∀ a, reads13_0 a = true → i a = i' a) → cc13_transform_0 i = cc13_transform_0 i'
  hinb13_0 : ∀ (i : grid13.Coords) a, (cc13_transform_0 i a + 1) * S256x64.size a ≤ S256x64.size a
  hwx13_0 : ∀ i : grid13.Coords, EltTy.bits .f32 = 32 ∨ (Rect.block (s := S256x64) S256x64.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S64x64.size a ≤ S64x64.size a
  hwx13_1 : ∀ i : grid13.Coords, EltTy.bits .f32 = 32 ∨ (Rect.block (s := S64x64) S64x64.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x64.size a ≤ S1x64.size a
  hwx13_2 : ∀ i : grid13.Coords, EltTy.bits .f32 = 32 ∨ (Rect.block (s := S1x64) S1x64.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S64x16.size a ≤ S64x16.size a
  hwx13_3 : ∀ i : grid13.Coords, EltTy.bits .f32 = 32 ∨ (Rect.block (s := S64x16) S64x16.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x16.size a ≤ S1x16.size a
  hwx13_4 : ∀ i : grid13.Coords, EltTy.bits .f32 = 32 ∨ (Rect.block (s := S1x16) S1x16.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S256x16.size a ≤ S256x16.size a
  hwx13_5 : ∀ i : grid13.Coords, EltTy.bits .f32 = 32 ∨ (Rect.block (s := S256x16) S256x16.size (cc13_transform_5 i) (hinb13_5 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x16_S256x16_1_0_0_1_n_n : DotDims S256x64 S64x16 S256x16 where
  lhsContracting := [1]
  rhsContracting := [0]
  lhsNonContracting := [0]
  rhsNonContracting := [1]
  lhsBatch := []
  rhsBatch := []
  wf := dot_S256x64_S64x16_S256x16_1_0_0_1_n_n_wf

abbrev win0_0 : Pipeline.Window sig grid0 :=
  Pipeline.Window.ofSpec (Memref.whole main_v8) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v31) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v52) S10000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v52) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v64) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v69) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v72) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v73) S10000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v73) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v83) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v85) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v88) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v90) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v93) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v94) S10000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v94) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v104) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v106) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v109) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v111) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v114) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v115) S10000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v115) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v125) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v127) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v130) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v132) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v135) S1x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v136) S10000x64.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v136) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v146) S10000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v148) S64x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v151) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v153) S64x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v156) S1x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v157) S10000x64.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v157) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v167) S10000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v169) S64x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v172) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v174) S64x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v177) S1x64.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v178) S10000x64.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v178) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v188) S10000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v190) S64x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v193) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v195) S64x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v198) S1x64.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v199) S10000x64.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v199) S10000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v209) S10000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v211) S64x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v214) S1x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v216) S64x64.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v219) S1x64.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v220) S10000x64.size cc10_transform_6 reads10_6 true false 2 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev win11_0 : Pipeline.Window sig grid11 :=
  Pipeline.Window.ofSpec (Memref.whole main_v220) S10000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v230) S10000x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v232) S64x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v235) S1x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v237) S64x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v240) S1x64.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v241) S10000x64.size cc11_transform_6 reads11_6 true false 2 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

abbrev win12_0 : Pipeline.Window sig grid12 :=
  Pipeline.Window.ofSpec (Memref.whole main_v241) S10000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v251) S10000x64.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v253) S64x64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v256) S1x64.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v258) S64x64.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v261) S1x64.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v262) S10000x64.size cc12_transform_6 reads12_6 true false 2 stage12_6 sem12_6
    hrank12 hreads12_6 hinb12_6 nbuf12_6 (Memref.isWhole_whole _) hwx12_6 hstage12_6

abbrev win12 : Fin 7 → Pipeline.Window sig grid12 := fun | 0 => win12_0 | 1 => win12_1 | 2 => win12_2 | 3 => win12_3 | 4 => win12_4 | 5 => win12_5 | 6 => win12_6 | ⟨_ + 7, h⟩ => absurd h (Nat.not_lt.2 (Nat.le_add_left _ _))
abbrev spec12 : Fin 7 → Pipeline.WinSpec sig grid12.rank := fun w => (win12 w).toWinSpec

abbrev win13_0 : Pipeline.Window sig grid13 :=
  Pipeline.Window.ofSpec (Memref.whole main_v265) S256x64.size cc13_transform_0 reads13_0 false true 1 stage13_0 sem13_0
    hrank13 hreads13_0 hinb13_0 nbuf13_0 (Memref.isWhole_whole _) hwx13_0 hstage13_0

abbrev win13_1 : Pipeline.Window sig grid13 :=
  Pipeline.Window.ofSpec (Memref.whole main_arg8) S64x64.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v266) S1x64.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_arg10) S64x16.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v267) S1x16.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v268) S256x16.size cc13_transform_5 reads13_5 true true 1 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

class Facts : Prop extends Facts₀ where

variable [Facts]
-- ==== ReferenceIdeal.lean ====
abbrev S2x1000000 : Shape := ⟨2, ![2, 1000000]⟩
abbrev S100000 : Shape := ⟨1, ![100000]⟩
abbrev S1x64 : Shape := ⟨2, ![1, 64]⟩
abbrev S64 : Shape := ⟨1, ![64]⟩
abbrev S12x64x64 : Shape := ⟨3, ![12, 64, 64]⟩
abbrev S12x64 : Shape := ⟨2, ![12, 64]⟩
abbrev S64x64 : Shape := ⟨2, ![64, 64]⟩
abbrev S64x16 : Shape := ⟨2, ![64, 16]⟩
abbrev S16 : Shape := ⟨1, ![16]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S100000x1 : Shape := ⟨2, ![100000, 1]⟩
abbrev S100000x64 : Shape := ⟨2, ![100000, 64]⟩
abbrev S1000000x64 : Shape := ⟨2, ![1000000, 64]⟩
abbrev S1x64x64 : Shape := ⟨3, ![1, 64, 64]⟩
abbrev S256x64 : Shape := ⟨2, ![256, 64]⟩
abbrev S256x16 : Shape := ⟨2, ![256, 16]⟩
abbrev S1x16 : Shape := ⟨2, ![1, 16]⟩

abbrev nBuf : Space → Nat
  | .hbm => 477
  | .vmem => 0
  | .smem => 0
  | _ => 0

abbrev hbmTy0_0 (i : Nat) : BufTy := match i % 128 with
  | 0 => ⟨S2x1000000, .i32⟩
  | 1 => ⟨S100000, .i32⟩
  | 2 => ⟨S1x64, .f32⟩
  | 3 => ⟨S64, .f32⟩
  | 4 => ⟨S12x64x64, .f32⟩
  | 5 => ⟨S12x64, .f32⟩
  | 6 => ⟨S12x64x64, .f32⟩
  | 7 => ⟨S12x64, .f32⟩
  | 8 => ⟨S64x64, .f32⟩
  | 9 => ⟨S64, .f32⟩
  | 10 => ⟨S64x16, .f32⟩
  | 11 => ⟨S16, .f32⟩
  | 12 => ⟨S1x1000000, .i32⟩
  | 13 => ⟨S1000000, .i32⟩
  | 14 => ⟨S1x1000000, .i32⟩
  | 15 => ⟨S1000000, .i32⟩
  | 16 => ⟨S_, .f32⟩
  | 17 => ⟨S1000000, .f32⟩
  | 18 => ⟨S_, .f32⟩
  | 19 => ⟨S100000, .f32⟩
  | 20 => ⟨S1000000x1, .i32⟩
  | 21 => ⟨S100000, .f32⟩
  | 22 => ⟨S100000x1, .f32⟩
  | 23 => ⟨S100000x64, .f32⟩
  | 24 => ⟨S1x64, .f32⟩
  | 25 => ⟨S100000x64, .f32⟩
  | 26 => ⟨S100000x64, .f32⟩
  | 27 => ⟨S_, .f32⟩
  | 28 => ⟨S100000x64, .f32⟩
  | 29 => ⟨S100000x64, .f32⟩
  | 30 => ⟨S_, .i32⟩
  | 31 => ⟨S1000000, .i32⟩
  | 32 => ⟨S1000000, .i1⟩
  | 33 => ⟨S_, .i32⟩
  | 34 => ⟨S1000000, .i32⟩
  | 35 => ⟨S1000000, .i32⟩
  | 36 => ⟨S1000000, .i32⟩
  | 37 => ⟨S1000000x1, .i32⟩
  | 38 => ⟨S1000000x64, .f32⟩
  | 39 => ⟨S_, .f32⟩
  | 40 => ⟨S100000x64, .f32⟩
  | 41 => ⟨S1000000x1, .i32⟩
  | 42 => ⟨S100000x64, .f32⟩
  | 43 => ⟨S100000x64, .f32⟩
  | 44 => ⟨S1x64x64, .f32⟩
  | 45 => ⟨S64x64, .f32⟩
  | 46 => ⟨S100000x64, .f32⟩
  | 47 => ⟨S1x64, .f32⟩
  | 48 => ⟨S64, .f32⟩
  | 49 => ⟨S1x64, .f32⟩
  | 50 => ⟨S100000x64, .f32⟩
  | 51 => ⟨S100000x64, .f32⟩
  | 52 => ⟨S_, .f32⟩
  | 53 => ⟨S100000x64, .f32⟩
  | 54 => ⟨S100000x64, .f32⟩
  | 55 => ⟨S1x64x64, .f32⟩
  | 56 => ⟨S64x64, .f32⟩
  | 57 => ⟨S100000x64, .f32⟩
  | 58 => ⟨S1x64, .f32⟩
  | 59 => ⟨S64, .f32⟩
  | 60 => ⟨S1x64, .f32⟩
  | 61 => ⟨S100000x64, .f32⟩
  | 62 => ⟨S100000x64, .f32⟩
  | 63 => ⟨S_, .f32⟩
  | 64 => ⟨S100000x64, .f32⟩
  | 65 => ⟨S100000x64, .f32⟩
  | 66 => ⟨S_, .i32⟩
  | 67 => ⟨S1000000, .i32⟩
  | 68 => ⟨S1000000, .i1⟩
  | 69 => ⟨S_, .i32⟩
  | 70 => ⟨S1000000, .i32⟩
  | 71 => ⟨S1000000, .i32⟩
  | 72 => ⟨S1000000, .i32⟩
  | 73 => ⟨S1000000x1, .i32⟩
  | 74 => ⟨S1000000x64, .f32⟩
  | 75 => ⟨S_, .f32⟩
  | 76 => ⟨S100000x64, .f32⟩
  | 77 => ⟨S1000000x1, .i32⟩
  | 78 => ⟨S100000x64, .f32⟩
  | 79 => ⟨S100000x64, .f32⟩
  | 80 => ⟨S1x64x64, .f32⟩
  | 81 => ⟨S64x64, .f32⟩
  | 82 => ⟨S100000x64, .f32⟩
  | 83 => ⟨S1x64, .f32⟩
  | 84 => ⟨S64, .f32⟩
  | 85 => ⟨S1x64, .f32⟩
  | 86 => ⟨S100000x64, .f32⟩
  | 87 => ⟨S100000x64, .f32⟩
  | 88 => ⟨S_, .f32⟩
  | 89 => ⟨S100000x64, .f32⟩
  | 90 => ⟨S100000x64, .f32⟩
  | 91 => ⟨S1x64x64, .f32⟩
  | 92 => ⟨S64x64, .f32⟩
  | 93 => ⟨S100000x64, .f32⟩
  | 94 => ⟨S1x64, .f32⟩
  | 95 => ⟨S64, .f32⟩
  | 96 => ⟨S1x64, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S_, .i32⟩
  | 103 => ⟨S1000000, .i32⟩
  | 104 => ⟨S1000000, .i1⟩
  | 105 => ⟨S_, .i32⟩
  | 106 => ⟨S1000000, .i32⟩
  | 107 => ⟨S1000000, .i32⟩
  | 108 => ⟨S1000000, .i32⟩
  | 109 => ⟨S1000000x1, .i32⟩
  | 110 => ⟨S1000000x64, .f32⟩
  | 111 => ⟨S_, .f32⟩
  | 112 => ⟨S100000x64, .f32⟩
  | 113 => ⟨S1000000x1, .i32⟩
  | 114 => ⟨S100000x64, .f32⟩
  | 115 => ⟨S100000x64, .f32⟩
  | 116 => ⟨S1x64x64, .f32⟩
  | 117 => ⟨S64x64, .f32⟩
  | 118 => ⟨S100000x64, .f32⟩
  | 119 => ⟨S1x64, .f32⟩
  | 120 => ⟨S64, .f32⟩
  | 121 => ⟨S1x64, .f32⟩
  | 122 => ⟨S100000x64, .f32⟩
  | 123 => ⟨S100000x64, .f32⟩
  | 124 => ⟨S_, .f32⟩
  | 125 => ⟨S100000x64, .f32⟩
  | 126 => ⟨S100000x64, .f32⟩
  | 127 => ⟨S1x64x64, .f32⟩
  | _ => ⟨S2x1000000, .i32⟩

abbrev hbmTy0_1 (i : Nat) : BufTy := match i % 128 with
  | 0 => ⟨S64x64, .f32⟩
  | 1 => ⟨S100000x64, .f32⟩
  | 2 => ⟨S1x64, .f32⟩
  | 3 => ⟨S64, .f32⟩
  | 4 => ⟨S1x64, .f32⟩
  | 5 => ⟨S100000x64, .f32⟩
  | 6 => ⟨S100000x64, .f32⟩
  | 7 => ⟨S_, .f32⟩
  | 8 => ⟨S100000x64, .f32⟩
  | 9 => ⟨S100000x64, .f32⟩
  | 10 => ⟨S_, .i32⟩
  | 11 => ⟨S1000000, .i32⟩
  | 12 => ⟨S1000000, .i1⟩
  | 13 => ⟨S_, .i32⟩
  | 14 => ⟨S1000000, .i32⟩
  | 15 => ⟨S1000000, .i32⟩
  | 16 => ⟨S1000000, .i32⟩
  | 17 => ⟨S1000000x1, .i32⟩
  | 18 => ⟨S1000000x64, .f32⟩
  | 19 => ⟨S_, .f32⟩
  | 20 => ⟨S100000x64, .f32⟩
  | 21 => ⟨S1000000x1, .i32⟩
  | 22 => ⟨S100000x64, .f32⟩
  | 23 => ⟨S100000x64, .f32⟩
  | 24 => ⟨S1x64x64, .f32⟩
  | 25 => ⟨S64x64, .f32⟩
  | 26 => ⟨S100000x64, .f32⟩
  | 27 => ⟨S1x64, .f32⟩
  | 28 => ⟨S64, .f32⟩
  | 29 => ⟨S1x64, .f32⟩
  | 30 => ⟨S100000x64, .f32⟩
  | 31 => ⟨S100000x64, .f32⟩
  | 32 => ⟨S_, .f32⟩
  | 33 => ⟨S100000x64, .f32⟩
  | 34 => ⟨S100000x64, .f32⟩
  | 35 => ⟨S1x64x64, .f32⟩
  | 36 => ⟨S64x64, .f32⟩
  | 37 => ⟨S100000x64, .f32⟩
  | 38 => ⟨S1x64, .f32⟩
  | 39 => ⟨S64, .f32⟩
  | 40 => ⟨S1x64, .f32⟩
  | 41 => ⟨S100000x64, .f32⟩
  | 42 => ⟨S100000x64, .f32⟩
  | 43 => ⟨S_, .f32⟩
  | 44 => ⟨S100000x64, .f32⟩
  | 45 => ⟨S100000x64, .f32⟩
  | 46 => ⟨S_, .i32⟩
  | 47 => ⟨S1000000, .i32⟩
  | 48 => ⟨S1000000, .i1⟩
  | 49 => ⟨S_, .i32⟩
  | 50 => ⟨S1000000, .i32⟩
  | 51 => ⟨S1000000, .i32⟩
  | 52 => ⟨S1000000, .i32⟩
  | 53 => ⟨S1000000x1, .i32⟩
  | 54 => ⟨S1000000x64, .f32⟩
  | 55 => ⟨S_, .f32⟩
  | 56 => ⟨S100000x64, .f32⟩
  | 57 => ⟨S1000000x1, .i32⟩
  | 58 => ⟨S100000x64, .f32⟩
  | 59 => ⟨S100000x64, .f32⟩
  | 60 => ⟨S1x64x64, .f32⟩
  | 61 => ⟨S64x64, .f32⟩
  | 62 => ⟨S100000x64, .f32⟩
  | 63 => ⟨S1x64, .f32⟩
  | 64 => ⟨S64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S1x64x64, .f32⟩
  | 72 => ⟨S64x64, .f32⟩
  | 73 => ⟨S100000x64, .f32⟩
  | 74 => ⟨S1x64, .f32⟩
  | 75 => ⟨S64, .f32⟩
  | 76 => ⟨S1x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S_, .i32⟩
  | 83 => ⟨S1000000, .i32⟩
  | 84 => ⟨S1000000, .i1⟩
  | 85 => ⟨S_, .i32⟩
  | 86 => ⟨S1000000, .i32⟩
  | 87 => ⟨S1000000, .i32⟩
  | 88 => ⟨S1000000, .i32⟩
  | 89 => ⟨S1000000x1, .i32⟩
  | 90 => ⟨S1000000x64, .f32⟩
  | 91 => ⟨S_, .f32⟩
  | 92 => ⟨S100000x64, .f32⟩
  | 93 => ⟨S1000000x1, .i32⟩
  | 94 => ⟨S100000x64, .f32⟩
  | 95 => ⟨S100000x64, .f32⟩
  | 96 => ⟨S1x64x64, .f32⟩
  | 97 => ⟨S64x64, .f32⟩
  | 98 => ⟨S100000x64, .f32⟩
  | 99 => ⟨S1x64, .f32⟩
  | 100 => ⟨S64, .f32⟩
  | 101 => ⟨S1x64, .f32⟩
  | 102 => ⟨S100000x64, .f32⟩
  | 103 => ⟨S100000x64, .f32⟩
  | 104 => ⟨S_, .f32⟩
  | 105 => ⟨S100000x64, .f32⟩
  | 106 => ⟨S100000x64, .f32⟩
  | 107 => ⟨S1x64x64, .f32⟩
  | 108 => ⟨S64x64, .f32⟩
  | 109 => ⟨S100000x64, .f32⟩
  | 110 => ⟨S1x64, .f32⟩
  | 111 => ⟨S64, .f32⟩
  | 112 => ⟨S1x64, .f32⟩
  | 113 => ⟨S100000x64, .f32⟩
  | 114 => ⟨S100000x64, .f32⟩
  | 115 => ⟨S_, .f32⟩
  | 116 => ⟨S100000x64, .f32⟩
  | 117 => ⟨S100000x64, .f32⟩
  | 118 => ⟨S_, .i32⟩
  | 119 => ⟨S1000000, .i32⟩
  | 120 => ⟨S1000000, .i1⟩
  | 121 => ⟨S_, .i32⟩
  | 122 => ⟨S1000000, .i32⟩
  | 123 => ⟨S1000000, .i32⟩
  | 124 => ⟨S1000000, .i32⟩
  | 125 => ⟨S1000000x1, .i32⟩
  | 126 => ⟨S1000000x64, .f32⟩
  | 127 => ⟨S_, .f32⟩
  | _ => ⟨S2x1000000, .i32⟩

abbrev hbmTy0_2 (i : Nat) : BufTy := match i % 128 with
  | 0 => ⟨S100000x64, .f32⟩
  | 1 => ⟨S1000000x1, .i32⟩
  | 2 => ⟨S100000x64, .f32⟩
  | 3 => ⟨S100000x64, .f32⟩
  | 4 => ⟨S1x64x64, .f32⟩
  | 5 => ⟨S64x64, .f32⟩
  | 6 => ⟨S100000x64, .f32⟩
  | 7 => ⟨S1x64, .f32⟩
  | 8 => ⟨S64, .f32⟩
  | 9 => ⟨S1x64, .f32⟩
  | 10 => ⟨S100000x64, .f32⟩
  | 11 => ⟨S100000x64, .f32⟩
  | 12 => ⟨S_, .f32⟩
  | 13 => ⟨S100000x64, .f32⟩
  | 14 => ⟨S100000x64, .f32⟩
  | 15 => ⟨S1x64x64, .f32⟩
  | 16 => ⟨S64x64, .f32⟩
  | 17 => ⟨S100000x64, .f32⟩
  | 18 => ⟨S1x64, .f32⟩
  | 19 => ⟨S64, .f32⟩
  | 20 => ⟨S1x64, .f32⟩
  | 21 => ⟨S100000x64, .f32⟩
  | 22 => ⟨S100000x64, .f32⟩
  | 23 => ⟨S_, .f32⟩
  | 24 => ⟨S100000x64, .f32⟩
  | 25 => ⟨S100000x64, .f32⟩
  | 26 => ⟨S_, .i32⟩
  | 27 => ⟨S1000000, .i32⟩
  | 28 => ⟨S1000000, .i1⟩
  | 29 => ⟨S_, .i32⟩
  | 30 => ⟨S1000000, .i32⟩
  | 31 => ⟨S1000000, .i32⟩
  | 32 => ⟨S1000000, .i32⟩
  | 33 => ⟨S1000000x1, .i32⟩
  | 34 => ⟨S1000000x64, .f32⟩
  | 35 => ⟨S_, .f32⟩
  | 36 => ⟨S100000x64, .f32⟩
  | 37 => ⟨S1000000x1, .i32⟩
  | 38 => ⟨S100000x64, .f32⟩
  | 39 => ⟨S100000x64, .f32⟩
  | 40 => ⟨S1x64x64, .f32⟩
  | 41 => ⟨S64x64, .f32⟩
  | 42 => ⟨S100000x64, .f32⟩
  | 43 => ⟨S1x64, .f32⟩
  | 44 => ⟨S64, .f32⟩
  | 45 => ⟨S1x64, .f32⟩
  | 46 => ⟨S100000x64, .f32⟩
  | 47 => ⟨S100000x64, .f32⟩
  | 48 => ⟨S_, .f32⟩
  | 49 => ⟨S100000x64, .f32⟩
  | 50 => ⟨S100000x64, .f32⟩
  | 51 => ⟨S1x64x64, .f32⟩
  | 52 => ⟨S64x64, .f32⟩
  | 53 => ⟨S100000x64, .f32⟩
  | 54 => ⟨S1x64, .f32⟩
  | 55 => ⟨S64, .f32⟩
  | 56 => ⟨S1x64, .f32⟩
  | 57 => ⟨S100000x64, .f32⟩
  | 58 => ⟨S100000x64, .f32⟩
  | 59 => ⟨S_, .f32⟩
  | 60 => ⟨S100000x64, .f32⟩
  | 61 => ⟨S100000x64, .f32⟩
  | 62 => ⟨S_, .i32⟩
  | 63 => ⟨S1000000, .i32⟩
  | 64 => ⟨S1000000, .i1⟩
  | 65 => ⟨S_, .i32⟩
  | 66 => ⟨S1000000, .i32⟩
  | 67 => ⟨S1000000, .i32⟩
  | 68 => ⟨S1000000, .i32⟩
  | 69 => ⟨S1000000x1, .i32⟩
  | 70 => ⟨S1000000x64, .f32⟩
  | 71 => ⟨S_, .f32⟩
  | 72 => ⟨S100000x64, .f32⟩
  | 73 => ⟨S1000000x1, .i32⟩
  | 74 => ⟨S100000x64, .f32⟩
  | 75 => ⟨S100000x64, .f32⟩
  | 76 => ⟨S1x64x64, .f32⟩
  | 77 => ⟨S64x64, .f32⟩
  | 78 => ⟨S100000x64, .f32⟩
  | 79 => ⟨S1x64, .f32⟩
  | 80 => ⟨S64, .f32⟩
  | 81 => ⟨S1x64, .f32⟩
  | 82 => ⟨S100000x64, .f32⟩
  | 83 => ⟨S100000x64, .f32⟩
  | 84 => ⟨S_, .f32⟩
  | 85 => ⟨S100000x64, .f32⟩
  | 86 => ⟨S100000x64, .f32⟩
  | 87 => ⟨S1x64x64, .f32⟩
  | 88 => ⟨S64x64, .f32⟩
  | 89 => ⟨S100000x64, .f32⟩
  | 90 => ⟨S1x64, .f32⟩
  | 91 => ⟨S64, .f32⟩
  | 92 => ⟨S1x64, .f32⟩
  | 93 => ⟨S100000x64, .f32⟩
  | 94 => ⟨S100000x64, .f32⟩
  | 95 => ⟨S_, .f32⟩
  | 96 => ⟨S100000x64, .f32⟩
  | 97 => ⟨S100000x64, .f32⟩
  | 98 => ⟨S_, .i32⟩
  | 99 => ⟨S1000000, .i32⟩
  | 100 => ⟨S1000000, .i1⟩
  | 101 => ⟨S_, .i32⟩
  | 102 => ⟨S1000000, .i32⟩
  | 103 => ⟨S1000000, .i32⟩
  | 104 => ⟨S1000000, .i32⟩
  | 105 => ⟨S1000000x1, .i32⟩
  | 106 => ⟨S1000000x64, .f32⟩
  | 107 => ⟨S_, .f32⟩
  | 108 => ⟨S100000x64, .f32⟩
  | 109 => ⟨S1000000x1, .i32⟩
  | 110 => ⟨S100000x64, .f32⟩
  | 111 => ⟨S100000x64, .f32⟩
  | 112 => ⟨S1x64x64, .f32⟩
  | 113 => ⟨S64x64, .f32⟩
  | 114 => ⟨S100000x64, .f32⟩
  | 115 => ⟨S1x64, .f32⟩
  | 116 => ⟨S64, .f32⟩
  | 117 => ⟨S1x64, .f32⟩
  | 118 => ⟨S100000x64, .f32⟩
  | 119 => ⟨S100000x64, .f32⟩
  | 120 => ⟨S_, .f32⟩
  | 121 => ⟨S100000x64, .f32⟩
  | 122 => ⟨S100000x64, .f32⟩
  | 123 => ⟨S1x64x64, .f32⟩
  | 124 => ⟨S64x64, .f32⟩
  | 125 => ⟨S100000x64, .f32⟩
  | 126 => ⟨S1x64, .f32⟩
  | 127 => ⟨S64, .f32⟩
  | _ => ⟨S2x1000000, .i32⟩

abbrev hbmTy0_3 (i : Nat) : BufTy := match i % 128 with
  | 0 => ⟨S1x64, .f32⟩
  | 1 => ⟨S100000x64, .f32⟩
  | 2 => ⟨S100000x64, .f32⟩
  | 3 => ⟨S_, .f32⟩
  | 4 => ⟨S100000x64, .f32⟩
  | 5 => ⟨S100000x64, .f32⟩
  | 6 => ⟨S_, .i32⟩
  | 7 => ⟨S1000000, .i32⟩
  | 8 => ⟨S1000000, .i1⟩
  | 9 => ⟨S_, .i32⟩
  | 10 => ⟨S1000000, .i32⟩
  | 11 => ⟨S1000000, .i32⟩
  | 12 => ⟨S1000000, .i32⟩
  | 13 => ⟨S1000000x1, .i32⟩
  | 14 => ⟨S1000000x64, .f32⟩
  | 15 => ⟨S_, .f32⟩
  | 16 => ⟨S100000x64, .f32⟩
  | 17 => ⟨S1000000x1, .i32⟩
  | 18 => ⟨S100000x64, .f32⟩
  | 19 => ⟨S100000x64, .f32⟩
  | 20 => ⟨S1x64x64, .f32⟩
  | 21 => ⟨S64x64, .f32⟩
  | 22 => ⟨S100000x64, .f32⟩
  | 23 => ⟨S1x64, .f32⟩
  | 24 => ⟨S64, .f32⟩
  | 25 => ⟨S1x64, .f32⟩
  | 26 => ⟨S100000x64, .f32⟩
  | 27 => ⟨S100000x64, .f32⟩
  | 28 => ⟨S_, .f32⟩
  | 29 => ⟨S100000x64, .f32⟩
  | 30 => ⟨S100000x64, .f32⟩
  | 31 => ⟨S1x64x64, .f32⟩
  | 32 => ⟨S64x64, .f32⟩
  | 33 => ⟨S100000x64, .f32⟩
  | 34 => ⟨S1x64, .f32⟩
  | 35 => ⟨S64, .f32⟩
  | 36 => ⟨S1x64, .f32⟩
  | 37 => ⟨S100000x64, .f32⟩
  | 38 => ⟨S100000x64, .f32⟩
  | 39 => ⟨S_, .f32⟩
  | 40 => ⟨S100000x64, .f32⟩
  | 41 => ⟨S100000x64, .f32⟩
  | 42 => ⟨S_, .i32⟩
  | 43 => ⟨S1000000, .i32⟩
  | 44 => ⟨S1000000, .i1⟩
  | 45 => ⟨S_, .i32⟩
  | 46 => ⟨S1000000, .i32⟩
  | 47 => ⟨S1000000, .i32⟩
  | 48 => ⟨S1000000, .i32⟩
  | 49 => ⟨S1000000x1, .i32⟩
  | 50 => ⟨S1000000x64, .f32⟩
  | 51 => ⟨S_, .f32⟩
  | 52 => ⟨S100000x64, .f32⟩
  | 53 => ⟨S1000000x1, .i32⟩
  | 54 => ⟨S100000x64, .f32⟩
  | 55 => ⟨S100000x64, .f32⟩
  | 56 => ⟨S1x64x64, .f32⟩
  | 57 => ⟨S64x64, .f32⟩
  | 58 => ⟨S100000x64, .f32⟩
  | 59 => ⟨S1x64, .f32⟩
  | 60 => ⟨S64, .f32⟩
  | 61 => ⟨S1x64, .f32⟩
  | 62 => ⟨S100000x64, .f32⟩
  | 63 => ⟨S100000x64, .f32⟩
  | 64 => ⟨S_, .f32⟩
  | 65 => ⟨S100000x64, .f32⟩
  | 66 => ⟨S100000x64, .f32⟩
  | 67 => ⟨S1x64x64, .f32⟩
  | 68 => ⟨S64x64, .f32⟩
  | 69 => ⟨S100000x64, .f32⟩
  | 70 => ⟨S1x64, .f32⟩
  | 71 => ⟨S64, .f32⟩
  | 72 => ⟨S1x64, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S_, .f32⟩
  | 79 => ⟨S256x64, .f32⟩
  | 80 => ⟨S100000x1, .i32⟩
  | 81 => ⟨S256x64, .f32⟩
  | 82 => ⟨S256x64, .f32⟩
  | 83 => ⟨S1x64, .f32⟩
  | 84 => ⟨S256x64, .f32⟩
  | 85 => ⟨S256x64, .f32⟩
  | 86 => ⟨S_, .f32⟩
  | 87 => ⟨S256x64, .f32⟩
  | 88 => ⟨S256x64, .f32⟩
  | 89 => ⟨S256x16, .f32⟩
  | 90 => ⟨S1x16, .f32⟩
  | 91 => ⟨S256x16, .f32⟩
  | 92 => ⟨S256x16, .f32⟩
  | _ => ⟨S2x1000000, .i32⟩

abbrev hbmTy (i : Nat) : BufTy := match i / 128 with
  | 0 => hbmTy0_0 i
  | 1 => hbmTy0_1 i
  | 2 => hbmTy0_2 i
  | 3 => hbmTy0_3 i
  | _ => ⟨S2x1000000, .i32⟩

abbrev bufTy : (tb : Table) → Fin (tcTables nBuf tb) → BufTy
  | .hbm, ⟨i, _⟩ => hbmTy i
  | _, _ => ⟨S2x1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call0_cst : Ref sig .tc := ⟨.hbm, 27, rfl⟩
abbrev main_call0_v0 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call1_cst : Ref sig .tc := ⟨.hbm, 52, rfl⟩
abbrev main_call1_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_call2_cst : Ref sig .tc := ⟨.hbm, 63, rfl⟩
abbrev main_call2_v0 : Ref sig .tc := ⟨.hbm, 64, rfl⟩
abbrev main_v42 : Ref sig .tc := ⟨.hbm, 65, rfl⟩
abbrev main_c_3 : Ref sig .tc := ⟨.hbm, 66, rfl⟩
abbrev main_v43 : Ref sig .tc := ⟨.hbm, 67, rfl⟩
abbrev main_v44 : Ref sig .tc := ⟨.hbm, 68, rfl⟩
abbrev main_c_4 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_5 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call3_cst : Ref sig .tc := ⟨.hbm, 88, rfl⟩
abbrev main_call3_v0 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_call4_cst : Ref sig .tc := ⟨.hbm, 99, rfl⟩
abbrev main_call4_v0 : Ref sig .tc := ⟨.hbm, 100, rfl⟩
abbrev main_v71 : Ref sig .tc := ⟨.hbm, 101, rfl⟩
abbrev main_c_6 : Ref sig .tc := ⟨.hbm, 102, rfl⟩
abbrev main_v72 : Ref sig .tc := ⟨.hbm, 103, rfl⟩
abbrev main_v73 : Ref sig .tc := ⟨.hbm, 104, rfl⟩
abbrev main_c_7 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_8 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_call5_cst : Ref sig .tc := ⟨.hbm, 124, rfl⟩
abbrev main_call5_v0 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_call6_cst : Ref sig .tc := ⟨.hbm, 135, rfl⟩
abbrev main_call6_v0 : Ref sig .tc := ⟨.hbm, 136, rfl⟩
abbrev main_v100 : Ref sig .tc := ⟨.hbm, 137, rfl⟩
abbrev main_c_9 : Ref sig .tc := ⟨.hbm, 138, rfl⟩
abbrev main_v101 : Ref sig .tc := ⟨.hbm, 139, rfl⟩
abbrev main_v102 : Ref sig .tc := ⟨.hbm, 140, rfl⟩
abbrev main_c_10 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_11 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_call7_cst : Ref sig .tc := ⟨.hbm, 160, rfl⟩
abbrev main_call7_v0 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_call8_cst : Ref sig .tc := ⟨.hbm, 171, rfl⟩
abbrev main_call8_v0 : Ref sig .tc := ⟨.hbm, 172, rfl⟩
abbrev main_v129 : Ref sig .tc := ⟨.hbm, 173, rfl⟩
abbrev main_c_12 : Ref sig .tc := ⟨.hbm, 174, rfl⟩
abbrev main_v130 : Ref sig .tc := ⟨.hbm, 175, rfl⟩
abbrev main_v131 : Ref sig .tc := ⟨.hbm, 176, rfl⟩
abbrev main_c_13 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_cst_14 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_call9_cst : Ref sig .tc := ⟨.hbm, 196, rfl⟩
abbrev main_call9_v0 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_call10_cst : Ref sig .tc := ⟨.hbm, 207, rfl⟩
abbrev main_call10_v0 : Ref sig .tc := ⟨.hbm, 208, rfl⟩
abbrev main_v158 : Ref sig .tc := ⟨.hbm, 209, rfl⟩
abbrev main_c_15 : Ref sig .tc := ⟨.hbm, 210, rfl⟩
abbrev main_v159 : Ref sig .tc := ⟨.hbm, 211, rfl⟩
abbrev main_v160 : Ref sig .tc := ⟨.hbm, 212, rfl⟩
abbrev main_c_16 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_cst_17 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_call11_cst : Ref sig .tc := ⟨.hbm, 232, rfl⟩
abbrev main_call11_v0 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_call12_cst : Ref sig .tc := ⟨.hbm, 243, rfl⟩
abbrev main_call12_v0 : Ref sig .tc := ⟨.hbm, 244, rfl⟩
abbrev main_v187 : Ref sig .tc := ⟨.hbm, 245, rfl⟩
abbrev main_c_18 : Ref sig .tc := ⟨.hbm, 246, rfl⟩
abbrev main_v188 : Ref sig .tc := ⟨.hbm, 247, rfl⟩
abbrev main_v189 : Ref sig .tc := ⟨.hbm, 248, rfl⟩
abbrev main_c_19 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_cst_20 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_call13_cst : Ref sig .tc := ⟨.hbm, 268, rfl⟩
abbrev main_call13_v0 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_call14_cst : Ref sig .tc := ⟨.hbm, 279, rfl⟩
abbrev main_call14_v0 : Ref sig .tc := ⟨.hbm, 280, rfl⟩
abbrev main_v216 : Ref sig .tc := ⟨.hbm, 281, rfl⟩
abbrev main_c_21 : Ref sig .tc := ⟨.hbm, 282, rfl⟩
abbrev main_v217 : Ref sig .tc := ⟨.hbm, 283, rfl⟩
abbrev main_v218 : Ref sig .tc := ⟨.hbm, 284, rfl⟩
abbrev main_c_22 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_cst_23 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_v234 : Ref sig .tc := ⟨.hbm, 302, rfl⟩
abbrev main_v235 : Ref sig .tc := ⟨.hbm, 303, rfl⟩
abbrev main_call15_cst : Ref sig .tc := ⟨.hbm, 304, rfl⟩
abbrev main_call15_v0 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_v242 : Ref sig .tc := ⟨.hbm, 312, rfl⟩
abbrev main_v243 : Ref sig .tc := ⟨.hbm, 313, rfl⟩
abbrev main_v244 : Ref sig .tc := ⟨.hbm, 314, rfl⟩
abbrev main_call16_cst : Ref sig .tc := ⟨.hbm, 315, rfl⟩
abbrev main_call16_v0 : Ref sig .tc := ⟨.hbm, 316, rfl⟩
abbrev main_v245 : Ref sig .tc := ⟨.hbm, 317, rfl⟩
abbrev main_c_24 : Ref sig .tc := ⟨.hbm, 318, rfl⟩
abbrev main_v246 : Ref sig .tc := ⟨.hbm, 319, rfl⟩
abbrev main_v247 : Ref sig .tc := ⟨.hbm, 320, rfl⟩
abbrev main_c_25 : Ref sig .tc := ⟨.hbm, 321, rfl⟩
abbrev main_v248 : Ref sig .tc := ⟨.hbm, 322, rfl⟩
abbrev main_v249 : Ref sig .tc := ⟨.hbm, 323, rfl⟩
abbrev main_v250 : Ref sig .tc := ⟨.hbm, 324, rfl⟩
abbrev main_v251 : Ref sig .tc := ⟨.hbm, 325, rfl⟩
abbrev main_v252 : Ref sig .tc := ⟨.hbm, 326, rfl⟩
abbrev main_cst_26 : Ref sig .tc := ⟨.hbm, 327, rfl⟩
abbrev main_v253 : Ref sig .tc := ⟨.hbm, 328, rfl⟩
abbrev main_v254 : Ref sig .tc := ⟨.hbm, 329, rfl⟩
abbrev main_v255 : Ref sig .tc := ⟨.hbm, 330, rfl⟩
abbrev main_v256 : Ref sig .tc := ⟨.hbm, 331, rfl⟩
abbrev main_v257 : Ref sig .tc := ⟨.hbm, 332, rfl⟩
abbrev main_v258 : Ref sig .tc := ⟨.hbm, 333, rfl⟩
abbrev main_v259 : Ref sig .tc := ⟨.hbm, 334, rfl⟩
abbrev main_v260 : Ref sig .tc := ⟨.hbm, 335, rfl⟩
abbrev main_v261 : Ref sig .tc := ⟨.hbm, 336, rfl⟩
abbrev main_v262 : Ref sig .tc := ⟨.hbm, 337, rfl⟩
abbrev main_v263 : Ref sig .tc := ⟨.hbm, 338, rfl⟩
abbrev main_v264 : Ref sig .tc := ⟨.hbm, 339, rfl⟩
abbrev main_call17_cst : Ref sig .tc := ⟨.hbm, 340, rfl⟩
abbrev main_call17_v0 : Ref sig .tc := ⟨.hbm, 341, rfl⟩
abbrev main_v265 : Ref sig .tc := ⟨.hbm, 342, rfl⟩
abbrev main_v266 : Ref sig .tc := ⟨.hbm, 343, rfl⟩
abbrev main_v267 : Ref sig .tc := ⟨.hbm, 344, rfl⟩
abbrev main_v268 : Ref sig .tc := ⟨.hbm, 345, rfl⟩
abbrev main_v269 : Ref sig .tc := ⟨.hbm, 346, rfl⟩
abbrev main_v270 : Ref sig .tc := ⟨.hbm, 347, rfl⟩
abbrev main_v271 : Ref sig .tc := ⟨.hbm, 348, rfl⟩
abbrev main_v272 : Ref sig .tc := ⟨.hbm, 349, rfl⟩
abbrev main_v273 : Ref sig .tc := ⟨.hbm, 350, rfl⟩
abbrev main_call18_cst : Ref sig .tc := ⟨.hbm, 351, rfl⟩
abbrev main_call18_v0 : Ref sig .tc := ⟨.hbm, 352, rfl⟩
abbrev main_v274 : Ref sig .tc := ⟨.hbm, 353, rfl⟩
abbrev main_c_27 : Ref sig .tc := ⟨.hbm, 354, rfl⟩
abbrev main_v275 : Ref sig .tc := ⟨.hbm, 355, rfl⟩
abbrev main_v276 : Ref sig .tc := ⟨.hbm, 356, rfl⟩
abbrev main_c_28 : Ref sig .tc := ⟨.hbm, 357, rfl⟩
abbrev main_v277 : Ref sig .tc := ⟨.hbm, 358, rfl⟩
abbrev main_v278 : Ref sig .tc := ⟨.hbm, 359, rfl⟩
abbrev main_v279 : Ref sig .tc := ⟨.hbm, 360, rfl⟩
abbrev main_v280 : Ref sig .tc := ⟨.hbm, 361, rfl⟩
abbrev main_v281 : Ref sig .tc := ⟨.hbm, 362, rfl⟩
abbrev main_cst_29 : Ref sig .tc := ⟨.hbm, 363, rfl⟩
abbrev main_v282 : Ref sig .tc := ⟨.hbm, 364, rfl⟩
abbrev main_v283 : Ref sig .tc := ⟨.hbm, 365, rfl⟩
abbrev main_v284 : Ref sig .tc := ⟨.hbm, 366, rfl⟩
abbrev main_v285 : Ref sig .tc := ⟨.hbm, 367, rfl⟩
abbrev main_v286 : Ref sig .tc := ⟨.hbm, 368, rfl⟩
abbrev main_v287 : Ref sig .tc := ⟨.hbm, 369, rfl⟩
abbrev main_v288 : Ref sig .tc := ⟨.hbm, 370, rfl⟩
abbrev main_v289 : Ref sig .tc := ⟨.hbm, 371, rfl⟩
abbrev main_v290 : Ref sig .tc := ⟨.hbm, 372, rfl⟩
abbrev main_v291 : Ref sig .tc := ⟨.hbm, 373, rfl⟩
abbrev main_v292 : Ref sig .tc := ⟨.hbm, 374, rfl⟩
abbrev main_v293 : Ref sig .tc := ⟨.hbm, 375, rfl⟩
abbrev main_call19_cst : Ref sig .tc := ⟨.hbm, 376, rfl⟩
abbrev main_call19_v0 : Ref sig .tc := ⟨.hbm, 377, rfl⟩
abbrev main_v294 : Ref sig .tc := ⟨.hbm, 378, rfl⟩
abbrev main_v295 : Ref sig .tc := ⟨.hbm, 379, rfl⟩
abbrev main_v296 : Ref sig .tc := ⟨.hbm, 380, rfl⟩
abbrev main_v297 : Ref sig .tc := ⟨.hbm, 381, rfl⟩
abbrev main_v298 : Ref sig .tc := ⟨.hbm, 382, rfl⟩
abbrev main_v299 : Ref sig .tc := ⟨.hbm, 383, rfl⟩
abbrev main_v300 : Ref sig .tc := ⟨.hbm, 384, rfl⟩
abbrev main_v301 : Ref sig .tc := ⟨.hbm, 385, rfl⟩
abbrev main_v302 : Ref sig .tc := ⟨.hbm, 386, rfl⟩
abbrev main_call20_cst : Ref sig .tc := ⟨.hbm, 387, rfl⟩
abbrev main_call20_v0 : Ref sig .tc := ⟨.hbm, 388, rfl⟩
abbrev main_v303 : Ref sig .tc := ⟨.hbm, 389, rfl⟩
abbrev main_c_30 : Ref sig .tc := ⟨.hbm, 390, rfl⟩
abbrev main_v304 : Ref sig .tc := ⟨.hbm, 391, rfl⟩
abbrev main_v305 : Ref sig .tc := ⟨.hbm, 392, rfl⟩
abbrev main_c_31 : Ref sig .tc := ⟨.hbm, 393, rfl⟩
abbrev main_v306 : Ref sig .tc := ⟨.hbm, 394, rfl⟩
abbrev main_v307 : Ref sig .tc := ⟨.hbm, 395, rfl⟩
abbrev main_v308 : Ref sig .tc := ⟨.hbm, 396, rfl⟩
abbrev main_v309 : Ref sig .tc := ⟨.hbm, 397, rfl⟩
abbrev main_v310 : Ref sig .tc := ⟨.hbm, 398, rfl⟩
abbrev main_cst_32 : Ref sig .tc := ⟨.hbm, 399, rfl⟩
abbrev main_v311 : Ref sig .tc := ⟨.hbm, 400, rfl⟩
abbrev main_v312 : Ref sig .tc := ⟨.hbm, 401, rfl⟩
abbrev main_v313 : Ref sig .tc := ⟨.hbm, 402, rfl⟩
abbrev main_v314 : Ref sig .tc := ⟨.hbm, 403, rfl⟩
abbrev main_v315 : Ref sig .tc := ⟨.hbm, 404, rfl⟩
abbrev main_v316 : Ref sig .tc := ⟨.hbm, 405, rfl⟩
abbrev main_v317 : Ref sig .tc := ⟨.hbm, 406, rfl⟩
abbrev main_v318 : Ref sig .tc := ⟨.hbm, 407, rfl⟩
abbrev main_v319 : Ref sig .tc := ⟨.hbm, 408, rfl⟩
abbrev main_v320 : Ref sig .tc := ⟨.hbm, 409, rfl⟩
abbrev main_v321 : Ref sig .tc := ⟨.hbm, 410, rfl⟩
abbrev main_v322 : Ref sig .tc := ⟨.hbm, 411, rfl⟩
abbrev main_call21_cst : Ref sig .tc := ⟨.hbm, 412, rfl⟩
abbrev main_call21_v0 : Ref sig .tc := ⟨.hbm, 413, rfl⟩
abbrev main_v323 : Ref sig .tc := ⟨.hbm, 414, rfl⟩
abbrev main_v324 : Ref sig .tc := ⟨.hbm, 415, rfl⟩
abbrev main_v325 : Ref sig .tc := ⟨.hbm, 416, rfl⟩
abbrev main_v326 : Ref sig .tc := ⟨.hbm, 417, rfl⟩
abbrev main_v327 : Ref sig .tc := ⟨.hbm, 418, rfl⟩
abbrev main_v328 : Ref sig .tc := ⟨.hbm, 419, rfl⟩
abbrev main_v329 : Ref sig .tc := ⟨.hbm, 420, rfl⟩
abbrev main_v330 : Ref sig .tc := ⟨.hbm, 421, rfl⟩
abbrev main_v331 : Ref sig .tc := ⟨.hbm, 422, rfl⟩
abbrev main_call22_cst : Ref sig .tc := ⟨.hbm, 423, rfl⟩
abbrev main_call22_v0 : Ref sig .tc := ⟨.hbm, 424, rfl⟩
abbrev main_v332 : Ref sig .tc := ⟨.hbm, 425, rfl⟩
abbrev main_c_33 : Ref sig .tc := ⟨.hbm, 426, rfl⟩
abbrev main_v333 : Ref sig .tc := ⟨.hbm, 427, rfl⟩
abbrev main_v334 : Ref sig .tc := ⟨.hbm, 428, rfl⟩
abbrev main_c_34 : Ref sig .tc := ⟨.hbm, 429, rfl⟩
abbrev main_v335 : Ref sig .tc := ⟨.hbm, 430, rfl⟩
abbrev main_v336 : Ref sig .tc := ⟨.hbm, 431, rfl⟩
abbrev main_v337 : Ref sig .tc := ⟨.hbm, 432, rfl⟩
abbrev main_v338 : Ref sig .tc := ⟨.hbm, 433, rfl⟩
abbrev main_v339 : Ref sig .tc := ⟨.hbm, 434, rfl⟩
abbrev main_cst_35 : Ref sig .tc := ⟨.hbm, 435, rfl⟩
abbrev main_v340 : Ref sig .tc := ⟨.hbm, 436, rfl⟩
abbrev main_v341 : Ref sig .tc := ⟨.hbm, 437, rfl⟩
abbrev main_v342 : Ref sig .tc := ⟨.hbm, 438, rfl⟩
abbrev main_v343 : Ref sig .tc := ⟨.hbm, 439, rfl⟩
abbrev main_v344 : Ref sig .tc := ⟨.hbm, 440, rfl⟩
abbrev main_v345 : Ref sig .tc := ⟨.hbm, 441, rfl⟩
abbrev main_v346 : Ref sig .tc := ⟨.hbm, 442, rfl⟩
abbrev main_v347 : Ref sig .tc := ⟨.hbm, 443, rfl⟩
abbrev main_v348 : Ref sig .tc := ⟨.hbm, 444, rfl⟩
abbrev main_v349 : Ref sig .tc := ⟨.hbm, 445, rfl⟩
abbrev main_v350 : Ref sig .tc := ⟨.hbm, 446, rfl⟩
abbrev main_v351 : Ref sig .tc := ⟨.hbm, 447, rfl⟩
abbrev main_call23_cst : Ref sig .tc := ⟨.hbm, 448, rfl⟩
abbrev main_call23_v0 : Ref sig .tc := ⟨.hbm, 449, rfl⟩
abbrev main_v352 : Ref sig .tc := ⟨.hbm, 450, rfl⟩
abbrev main_v353 : Ref sig .tc := ⟨.hbm, 451, rfl⟩
abbrev main_v354 : Ref sig .tc := ⟨.hbm, 452, rfl⟩
abbrev main_v355 : Ref sig .tc := ⟨.hbm, 453, rfl⟩
abbrev main_v356 : Ref sig .tc := ⟨.hbm, 454, rfl⟩
abbrev main_v357 : Ref sig .tc := ⟨.hbm, 455, rfl⟩
abbrev main_v358 : Ref sig .tc := ⟨.hbm, 456, rfl⟩
abbrev main_v359 : Ref sig .tc := ⟨.hbm, 457, rfl⟩
abbrev main_v360 : Ref sig .tc := ⟨.hbm, 458, rfl⟩
abbrev main_call24_cst : Ref sig .tc := ⟨.hbm, 459, rfl⟩
abbrev main_call24_v0 : Ref sig .tc := ⟨.hbm, 460, rfl⟩
abbrev main_v361 : Ref sig .tc := ⟨.hbm, 461, rfl⟩
abbrev main_cst_36 : Ref sig .tc := ⟨.hbm, 462, rfl⟩
abbrev main_v362 : Ref sig .tc := ⟨.hbm, 463, rfl⟩
abbrev main_v363 : Ref sig .tc := ⟨.hbm, 464, rfl⟩
abbrev main_v364 : Ref sig .tc := ⟨.hbm, 465, rfl⟩
abbrev main_v365 : Ref sig .tc := ⟨.hbm, 466, rfl⟩
abbrev main_v366 : Ref sig .tc := ⟨.hbm, 467, rfl⟩
abbrev main_v367 : Ref sig .tc := ⟨.hbm, 468, rfl⟩
abbrev main_v368 : Ref sig .tc := ⟨.hbm, 469, rfl⟩
abbrev main_call25_cst : Ref sig .tc := ⟨.hbm, 470, rfl⟩
abbrev main_call25_v0 : Ref sig .tc := ⟨.hbm, 471, rfl⟩
abbrev main_v369 : Ref sig .tc := ⟨.hbm, 472, rfl⟩
abbrev main_v370 : Ref sig .tc := ⟨.hbm, 473, rfl⟩
abbrev main_v371 : Ref sig .tc := ⟨.hbm, 474, rfl⟩
abbrev main_v372 : Ref sig .tc := ⟨.hbm, 475, rfl⟩
abbrev main_v373 : Ref sig .tc := ⟨.hbm, 476, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S12x64x64_S1x64x64_0_0_0 : S12x64x64.Slices ![0, 0, 0] S1x64x64
  shapeCasts_S1x64x64_S64x64 : S1x64x64.ShapeCasts S64x64
  slices_S12x64_S1x64_0_0 : S12x64.Slices ![0, 0] S1x64
  shapeCasts_S1x64_S64 : S1x64.ShapeCasts S64
  slices_S12x64x64_S1x64x64_1_0_0 : S12x64x64.Slices ![1, 0, 0] S1x64x64
  slices_S12x64_S1x64_1_0 : S12x64.Slices ![1, 0] S1x64
  slices_S12x64x64_S1x64x64_2_0_0 : S12x64x64.Slices ![2, 0, 0] S1x64x64
  slices_S12x64_S1x64_2_0 : S12x64.Slices ![2, 0] S1x64
  slices_S12x64x64_S1x64x64_3_0_0 : S12x64x64.Slices ![3, 0, 0] S1x64x64
  slices_S12x64_S1x64_3_0 : S12x64.Slices ![3, 0] S1x64
  slices_S12x64x64_S1x64x64_4_0_0 : S12x64x64.Slices ![4, 0, 0] S1x64x64
  slices_S12x64_S1x64_4_0 : S12x64.Slices ![4, 0] S1x64
  slices_S12x64x64_S1x64x64_5_0_0 : S12x64x64.Slices ![5, 0, 0] S1x64x64
  slices_S12x64_S1x64_5_0 : S12x64.Slices ![5, 0] S1x64
  slices_S12x64x64_S1x64x64_6_0_0 : S12x64x64.Slices ![6, 0, 0] S1x64x64
  slices_S12x64_S1x64_6_0 : S12x64.Slices ![6, 0] S1x64
  slices_S12x64x64_S1x64x64_7_0_0 : S12x64x64.Slices ![7, 0, 0] S1x64x64
  slices_S12x64_S1x64_7_0 : S12x64.Slices ![7, 0] S1x64
  slices_S12x64x64_S1x64x64_8_0_0 : S12x64x64.Slices ![8, 0, 0] S1x64x64
  slices_S12x64_S1x64_8_0 : S12x64.Slices ![8, 0] S1x64
  slices_S12x64x64_S1x64x64_9_0_0 : S12x64x64.Slices ![9, 0, 0] S1x64x64
  slices_S12x64_S1x64_9_0 : S12x64.Slices ![9, 0] S1x64
  slices_S12x64x64_S1x64x64_10_0_0 : S12x64x64.Slices ![10, 0, 0] S1x64x64
  slices_S12x64_S1x64_10_0 : S12x64.Slices ![10, 0] S1x64
  slices_S12x64x64_S1x64x64_11_0_0 : S12x64x64.Slices ![11, 0, 0] S1x64x64
  slices_S12x64_S1x64_11_0 : S12x64.Slices ![11, 0] S1x64
  bcast_S_S256x64 : S_.BroadcastsInDim S256x64 (![] : Fin 0 → Fin S256x64.rank)
  bcast_S1x64_S256x64_0_1 : S1x64.BroadcastsInDim S256x64 (![0, 1] : Fin 2 → Fin S256x64.rank)
  bcast_S16_S1x16_1 : S16.BroadcastsInDim S1x16 (![1] : Fin 1 → Fin S1x16.rank)
  bcast_S1x16_S256x16_0_1 : S1x16.BroadcastsInDim S256x16 (![0, 1] : Fin 2 → Fin S256x16.rank)
  scatter_S100000_S1000000x1_S1000000_n_0_0_1_wf : ScatterDims.WF S100000 S1000000x1 S1000000 [] [0] [0] 1
  dot_S100000x1_S1x64_S100000x64_1_0_0_1_n_n_wf : DotDims.WF S100000x1 S1x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1
  dot_S256x64_S64x64_S256x64_1_0_0_1_n_n_wf : DotDims.WF S256x64 S64x64 S256x64 [1] [0] [0] [1] [] []
  dot_S256x64_S64x16_S256x16_1_0_0_1_n_n_wf : DotDims.WF S256x64 S64x16 S256x16 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x1_S1x64_S100000x64_1_0_0_1_n_n : DotDims S100000x1 S1x64 S100000x64 where
  lhsContracting := [1]
  rhsContracting := [0]
  lhsNonContracting := [0]
  rhsNonContracting := [1]
  lhsBatch := []
  rhsBatch := []
  wf := dot_S100000x1_S1x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x16_S256x16_1_0_0_1_n_n : DotDims S256x64 S64x16 S256x16 where
  lhsContracting := [1]
  rhsContracting := [0]
  lhsNonContracting := [0]
  rhsNonContracting := [1]
  lhsBatch := []
  rhsBatch := []
  wf := dot_S256x64_S64x16_S256x16_1_0_0_1_n_n_wf

class Facts : Prop extends Facts₀ where

variable [Facts]
-- ==== Proof.KRun.lean ====
/-
  The idealized kernel program's run with its result named.  Every weakly fair execution of the program, from any
  memory with zero counters, terminates without a fault; at the end every buffer that no scope hides holds the
  contents the last segment boundary assigns it.  Read at the result buffer this names the result, and read at each
  argument it gives the argument back as launched.
-/
import proofs.«124003_j47699906789506_1_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the implicit arguments of the theorem about a run of regions are found by unifying its conclusion with this one
set_option backward.isDefEq.respectTransparency.types false in
/-- The run: the result buffer ends at the last boundary's contents, every argument as launched. -/
theorem run_value : θ_run defs (onTc (τ := τ) (main (F := F))) ⟨m, fun _ => 0, ρ⟩ (fun r => ∀ c : Dev nD,
      r.2.mem ((c.tc : Thread nD τ).loc main_v268) = W28 m ρ c (Proc.devRef .tc main_v268)
      ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W28 m ρ c b)
    (hfin := fun c s' => by
      iintro ⟨⟨Hh, -⟩, HSI⟩
      unfold StableHlo.held
      imodintro
      iapply (pointsTo_read_all (Pipeline.ucRefs τ sig) (fun b => (((c : Thread nD τ)).1, b)) (W28 m ρ c) s')
      isplitl [Hh] <;> iassumption)
    (hQ := fun s h c =>
      ⟨h c _ (mem_uc main_v268 (by decide)),
       (h c _ (mem_uc main_arg0 (by decide))).trans (W28_main_arg0 m ρ c),
       (h c _ (mem_uc main_arg1 (by decide))).trans (W28_main_arg1 m ρ c),
       (h c _ (mem_uc main_arg2 (by decide))).trans (W28_main_arg2 m ρ c),
       (h c _ (mem_uc main_arg3 (by decide))).trans (W28_main_arg3 m ρ c),
       (h c _ (mem_uc main_arg4 (by decide))).trans (W28_main_arg4 m ρ c),
       (h c _ (mem_uc main_arg5 (by decide))).trans (W28_main_arg5 m ρ c),
       (h c _ (mem_uc main_arg6 (by decide))).trans (W28_main_arg6 m ρ c),
       (h c _ (mem_uc main_arg7 (by decide))).trans (W28_main_arg7 m ρ c),
       (h c _ (mem_uc main_arg8 (by decide))).trans (W28_main_arg8 m ρ c),
       (h c _ (mem_uc main_arg9 (by decide))).trans (W28_main_arg9 m ρ c),
       (h c _ (mem_uc main_arg10 (by decide))).trans (W28_main_arg10 m ρ c),
       (h c _ (mem_uc main_arg11 (by decide))).trans (W28_main_arg11 m ρ c)⟩)

end Cert.KernelIdeal.KValue

end
-- ==== Proof.Spec.lean ====
/-
  The dense stages of the graph network as functions of their operands, entry by entry, on the extended reals.

  A dense stage takes an array x with 64 columns, a 64×k weight matrix W and a one-row bias b, and gives
  x·W + b: entry (r, q) is the sum over j of x(r, j)·W(j, q), plus b(0, q).  The rectifier takes the larger of an
  entry and zero.  The node encoder is rect(d·w + b) for a one-column array d of node degrees: entry (r, q) is
  d(r, 0)·w(0, q) + b(0, q) rectified.  One layer of the network is two rectified dense stages applied to x + agg,
  and the decoder is a rectified dense stage followed by a plain one.

  Every stage is stated for an array of any number n of rows: entry (r, q) depends on row r of x alone, which is
  why a block of rows of the result is the same stage applied to that block of rows.
-/
import Idealize.ShloMosaic.PureOps.Ideal
import Idealize.ShloMosaic.Lib.ValueIdx

noncomputable section

namespace Cert.Net

open Idealize.ShloMosaic Idealize.ShloMosaic.ValueIdx

/-- The zero the rectifier compares with: the float word 0 read as an extended real. -/
abbrev z32 : Ideal .f32 := Ideal.ofBits .f32 0x00000000#32

/-- The rectifier, entry by entry. -/
def rect {s : Shape} (x : FVec Ideal s .f32) : FVec Ideal s .f32 := fun i => max (x i) z32

/-- A dense stage x·W + b: entry (r, q) is the sum over j of x(r, j)·W(j, q), plus b(0, q). -/
def dense {n k : ℕ} (x : FVec Ideal ⟨2, ![n, 64]⟩ .f32) (W : FVec Ideal ⟨2, ![64, k]⟩ .f32)
    (b : FVec Ideal ⟨2, ![1, k]⟩ .f32) : FVec Ideal ⟨2, ![n, k]⟩ .f32 :=
  fun i => (∑ j : Fin 64, x (ix2 (i 0) j) * W (ix2 j (i 1))) + b (ix2 (0 : Fin 1) (i 1))

/-- The node encoder rect(d·w + b): entry (r, q) is d(r, 0)·w(0, q) + b(0, q), rectified. -/
def encode {n : ℕ} (d : FVec Ideal ⟨2, ![n, 1]⟩ .f32) (w b : FVec Ideal ⟨2, ![1, 64]⟩ .f32) :
    FVec Ideal ⟨2, ![n, 64]⟩ .f32 :=
  fun i => max (d (ix2 (i 0) (0 : Fin 1)) * w (ix2 (0 : Fin 1) (i 1)) + b (ix2 (0 : Fin 1) (i 1))) z32

/-- One layer: two rectified dense stages applied to x + agg. -/
def layer {n : ℕ} (x agg : FVec Ideal ⟨2, ![n, 64]⟩ .f32) (W₁ : FVec Ideal ⟨2, ![64, 64]⟩ .f32)
    (b₁ : FVec Ideal ⟨2, ![1, 64]⟩ .f32) (W₂ : FVec Ideal ⟨2, ![64, 64]⟩ .f32) (b₂ : FVec Ideal ⟨2, ![1, 64]⟩ .f32) :
    FVec Ideal ⟨2, ![n, 64]⟩ .f32 :=
  rect (dense (rect (dense (fun i => x i + agg i) W₁ b₁)) W₂ b₂)

/-- The decoder: a rectified dense stage, then a plain one onto 16 columns. -/
def decode {n : ℕ} (g : FVec Ideal ⟨2, ![n, 64]⟩ .f32) (W₁ : FVec Ideal ⟨2, ![64, 64]⟩ .f32)
    (b₁ : FVec Ideal ⟨2, ![1, 64]⟩ .f32) (W₂ : FVec Ideal ⟨2, ![64, 16]⟩ .f32) (b₂ : FVec Ideal ⟨2, ![1, 16]⟩ .f32) :
    FVec Ideal ⟨2, ![n, 16]⟩ .f32 :=
  dense (rect (dense g W₁ b₁)) W₂ b₂

theorem rect_apply {s : Shape} (x : FVec Ideal s .f32) (i : s.Idx) : rect x i = max (x i) z32 := rfl

theorem dense_apply {n k : ℕ} (x : FVec Ideal ⟨2, ![n, 64]⟩ .f32) (W : FVec Ideal ⟨2, ![64, k]⟩ .f32)
    (b : FVec Ideal ⟨2, ![1, k]⟩ .f32) (r : Fin n) (q : Fin k) :
    dense x W b (ix2 r q) = (∑ j : Fin 64, x (ix2 r j) * W (ix2 j q)) + b (ix2 (0 : Fin 1) q) := rfl

theorem encode_apply {n : ℕ} (d : FVec Ideal ⟨2, ![n, 1]⟩ .f32) (w b : FVec Ideal ⟨2, ![1, 64]⟩ .f32)
    (r : Fin n) (q : Fin 64) :
    encode d w b (ix2 r q) = max (d (ix2 r (0 : Fin 1)) * w (ix2 (0 : Fin 1) q) + b (ix2 (0 : Fin 1) q)) z32 := rfl

end Cert.Net

end
-- ==== Proof.Network.lean ====
/-
  The whole network as one function of the twelve argument arrays, built from the dense stages and from the
  sparse operations both programs share.

  From the 2×E edge list: src is its first row, dst its second.  The degree of a node is the number of edges whose
  src it is (a scatter-add of ones into zeros).  The encoder turns the one-column array of degrees into x₀.  A layer
  gathers x at src (a negative index counted from the end, as jnp does), scatter-adds the gathered rows at dst into
  zeros (the neighbour sum agg), and applies two rectified dense stages, with that layer's weights, to x + agg.
  After twelve layers the rows are summed per graph (a scatter-add at the batch index into 256 rows of zeros) and
  the decoder maps the 256×64 result to 256×16.

  Layer l's weights are slice l of the stacked weight arrays, a bias being recast from a vector to a one-row matrix.
-/
import proofs.«124003_j47699906789506_1_alg».proof.KernelIdeal
import proofs.«124003_j47699906789506_1_alg».proof.Proof.Gen.KernelIdeal
import proofs.«124003_j47699906789506_1_alg».proof.Proof.Spec

noncomputable section

namespace Cert.Net

open Idealize.ShloMosaic Cert.KernelIdeal Cert.KernelIdeal.Gen

/-- Integer and float arrays as the programs hold them, at the ideal values. -/
abbrev IArr (s : Shape) : Type := (⟨s, .i32⟩ : BufTy).Contents (Elt Ideal)
abbrev FArr (s : Shape) : Type := (⟨s, .f32⟩ : BufTy).Contents (Elt Ideal)

/-- The edges' source nodes: row 0 of the edge list. -/
def srcOf (ei : IArr S2x1000000) : IArr S1000000 :=
  shapeCast S1000000 (extractStridedSlice S1x1000000 ![0, 0] ei slices_S2x1000000_S1x1000000_0_0) shapeCasts_S1x1000000_S1000000

/-- The edges' destination nodes: row 1 of the edge list. -/
def dstOf (ei : IArr S2x1000000) : IArr S1000000 :=
  shapeCast S1000000 (extractStridedSlice S1x1000000 ![1, 0] ei slices_S2x1000000_S1x1000000_1_0) shapeCasts_S1x1000000_S1000000

/-- A node's degree: ones scatter-added at src into zeros. -/
def degOf (src : IArr S1000000) : FArr S100000 :=
  Host.scatterAdd (F := Ideal) scatter_S100000_S1000000x1_S1000000_n_0_0_1
    (broadcastInDim S100000 ![] bcast_S_S100000 (constant (F := Ideal) S_ .f32 0x00000000#32))
    (broadcastInDim S1000000x1 ![0] bcast_S1000000_S1000000x1_0 src)
    (broadcastInDim S1000000 ![] bcast_S_S1000000 (constant (F := Ideal) S_ .f32 0x3F800000#32))

/-- The neighbour sum: rows of x gathered at src (negative indices counted from the end), scatter-added at dst
    into zeros. -/
def aggOf (src dst : IArr S1000000) (x : FArr S100000x64) : FArr S100000x64 :=
  Host.scatterAdd (F := Ideal) scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 dst)
    (Host.gather gather_S100000x64_S1000000x1_S1000000x64_1_0_n_n_0_1_164 x
      (broadcastInDim S1000000x1 ![0] bcast_S1000000_S1000000x1_0
        (select (cmpi .slt src (broadcastInDim S1000000 ![] bcast_S_S1000000 (constantI S_ 32 0#32)))
          (addi src (broadcastInDim S1000000 ![] bcast_S_S1000000 (constantI S_ 32 100000#32))) src)))

/-- The per-graph sum: rows of x scatter-added at the batch index into 256 rows of zeros. -/
def poolOf (batch : IArr S100000) (x : FArr S100000x64) : FArr S256x64 :=
  Host.scatterAdd (F := Ideal) scatter_S256x64_S100000x1_S100000x64_1_0_0_1
    (broadcastInDim S256x64 ![] bcast_S_S256x64 (constant (F := Ideal) S_ .f32 0x00000000#32))
    (broadcastInDim S100000x1 ![0] bcast_S100000_S100000x1_0 batch) x

/-- A bias vector as a one-row matrix. -/
def row64 (b : FArr S64) : FArr S1x64 := shapeCast S1x64 b shapeCasts_S64_S1x64
def row16 (b : FArr S16) : FArr S1x16 := shapeCast S1x16 b shapeCasts_S16_S1x16

/-- Slice 0 of a stack of twelve 64×64 matrices, and of a stack of twelve bias vectors. -/
def mat0 (W : FArr S12x64x64) : FArr S64x64 :=
  shapeCast S64x64 (extractStridedSlice S1x64x64 ![0, 0, 0] W slices_S12x64x64_S1x64x64_0_0_0) shapeCasts_S1x64x64_S64x64
def vec0 (b : FArr S12x64) : FArr S64 :=
  shapeCast S64 (extractStridedSlice S1x64 ![0, 0] b slices_S12x64_S1x64_0_0) shapeCasts_S1x64_S64
/-- Slice 1 of a stack of twelve 64×64 matrices, and of a stack of twelve bias vectors. -/
def mat1 (W : FArr S12x64x64) : FArr S64x64 :=
  shapeCast S64x64 (extractStridedSlice S1x64x64 ![1, 0, 0] W slices_S12x64x64_S1x64x64_1_0_0) shapeCasts_S1x64x64_S64x64
def vec1 (b : FArr S12x64) : FArr S64 :=
  shapeCast S64 (extractStridedSlice S1x64 ![1, 0] b slices_S12x64_S1x64_1_0) shapeCasts_S1x64_S64
/-- Slice 2 of a stack of twelve 64×64 matrices, and of a stack of twelve bias vectors. -/
def mat2 (W : FArr S12x64x64) : FArr S64x64 :=
  shapeCast S64x64 (extractStridedSlice S1x64x64 ![2, 0, 0] W slices_S12x64x64_S1x64x64_2_0_0) shapeCasts_S1x64x64_S64x64
def vec2 (b : FArr S12x64) : FArr S64 :=
  shapeCast S64 (extractStridedSlice S1x64 ![2, 0] b slices_S12x64_S1x64_2_0) shapeCasts_S1x64_S64
/-- Slice 3 of a stack of twelve 64×64 matrices, and of a stack of twelve bias vectors. -/
def mat3 (W : FArr S12x64x64) : FArr S64x64 :=
  shapeCast S64x64 (extractStridedSlice S1x64x64 ![3, 0, 0] W slices_S12x64x64_S1x64x64_3_0_0) shapeCasts_S1x64x64_S64x64
def vec3 (b : FArr S12x64) : FArr S64 :=
  shapeCast S64 (extractStridedSlice S1x64 ![3, 0] b slices_S12x64_S1x64_3_0) shapeCasts_S1x64_S64
/-- Slice 4 of a stack of twelve 64×64 matrices, and of a stack of twelve bias vectors. -/
def mat4 (W : FArr S12x64x64) : FArr S64x64 :=
  shapeCast S64x64 (extractStridedSlice S1x64x64 ![4, 0, 0] W slices_S12x64x64_S1x64x64_4_0_0) shapeCasts_S1x64x64_S64x64
def vec4 (b : FArr S12x64) : FArr S64 :=
  shapeCast S64 (extractStridedSlice S1x64 ![4, 0] b slices_S12x64_S1x64_4_0) shapeCasts_S1x64_S64
/-- Slice 5 of a stack of twelve 64×64 matrices, and of a stack of twelve bias vectors. -/
def mat5 (W : FArr S12x64x64) : FArr S64x64 :=
  shapeCast S64x64 (extractStridedSlice S1x64x64 ![5, 0, 0] W slices_S12x64x64_S1x64x64_5_0_0) shapeCasts_S1x64x64_S64x64
def vec5 (b : FArr S12x64) : FArr S64 :=
  shapeCast S64 (extractStridedSlice S1x64 ![5, 0] b slices_S12x64_S1x64_5_0) shapeCasts_S1x64_S64
/-- Slice 6 of a stack of twelve 64×64 matrices, and of a stack of twelve bias vectors. -/
def mat6 (W : FArr S12x64x64) : FArr S64x64 :=
  shapeCast S64x64 (extractStridedSlice S1x64x64 ![6, 0, 0] W slices_S12x64x64_S1x64x64_6_0_0) shapeCasts_S1x64x64_S64x64
def vec6 (b : FArr S12x64) : FArr S64 :=
  shapeCast S64 (extractStridedSlice S1x64 ![6, 0] b slices_S12x64_S1x64_6_0) shapeCasts_S1x64_S64
/-- Slice 7 of a stack of twelve 64×64 matrices, and of a stack of twelve bias vectors. -/
def mat7 (W : FArr S12x64x64) : FArr S64x64 :=
  shapeCast S64x64 (extractStridedSlice S1x64x64 ![7, 0, 0] W slices_S12x64x64_S1x64x64_7_0_0) shapeCasts_S1x64x64_S64x64
def vec7 (b : FArr S12x64) : FArr S64 :=
  shapeCast S64 (extractStridedSlice S1x64 ![7, 0] b slices_S12x64_S1x64_7_0) shapeCasts_S1x64_S64
/-- Slice 8 of a stack of twelve 64×64 matrices, and of a stack of twelve bias vectors. -/
def mat8 (W : FArr S12x64x64) : FArr S64x64 :=
  shapeCast S64x64 (extractStridedSlice S1x64x64 ![8, 0, 0] W slices_S12x64x64_S1x64x64_8_0_0) shapeCasts_S1x64x64_S64x64
def vec8 (b : FArr S12x64) : FArr S64 :=
  shapeCast S64 (extractStridedSlice S1x64 ![8, 0] b slices_S12x64_S1x64_8_0) shapeCasts_S1x64_S64
/-- Slice 9 of a stack of twelve 64×64 matrices, and of a stack of twelve bias vectors. -/
def mat9 (W : FArr S12x64x64) : FArr S64x64 :=
  shapeCast S64x64 (extractStridedSlice S1x64x64 ![9, 0, 0] W slices_S12x64x64_S1x64x64_9_0_0) shapeCasts_S1x64x64_S64x64
def vec9 (b : FArr S12x64) : FArr S64 :=
  shapeCast S64 (extractStridedSlice S1x64 ![9, 0] b slices_S12x64_S1x64_9_0) shapeCasts_S1x64_S64
/-- Slice 10 of a stack of twelve 64×64 matrices, and of a stack of twelve bias vectors. -/
def mat10 (W : FArr S12x64x64) : FArr S64x64 :=
  shapeCast S64x64 (extractStridedSlice S1x64x64 ![10, 0, 0] W slices_S12x64x64_S1x64x64_10_0_0) shapeCasts_S1x64x64_S64x64
def vec10 (b : FArr S12x64) : FArr S64 :=
  shapeCast S64 (extractStridedSlice S1x64 ![10, 0] b slices_S12x64_S1x64_10_0) shapeCasts_S1x64_S64
/-- Slice 11 of a stack of twelve 64×64 matrices, and of a stack of twelve bias vectors. -/
def mat11 (W : FArr S12x64x64) : FArr S64x64 :=
  shapeCast S64x64 (extractStridedSlice S1x64x64 ![11, 0, 0] W slices_S12x64x64_S1x64x64_11_0_0) shapeCasts_S1x64x64_S64x64
def vec11 (b : FArr S12x64) : FArr S64 :=
  shapeCast S64 (extractStridedSlice S1x64 ![11, 0] b slices_S12x64_S1x64_11_0) shapeCasts_S1x64_S64

/-- The twelve argument arrays. -/
structure Args where
  ei : IArr S2x1000000
  batch : IArr S100000
  Wenc : FArr S1x64
  benc : FArr S64
  W1 : FArr S12x64x64
  b1 : FArr S12x64
  W2 : FArr S12x64x64
  b2 : FArr S12x64
  Wd1 : FArr S64x64
  bd1 : FArr S64
  Wd2 : FArr S64x16
  bd2 : FArr S16

/-- One layer from x with given weights: two rectified dense stages on x + agg. -/
def step (a : Args) (x : FArr S100000x64) (W₁ : FArr S64x64) (b₁ : FArr S64) (W₂ : FArr S64x64) (b₂ : FArr S64) :
    FArr S100000x64 :=
  layer (n := 100000) x (aggOf (srcOf a.ei) (dstOf a.ei) x) W₁ (row64 b₁) W₂ (row64 b₂)

/-- The node features after the encoder. -/
def feat0 (a : Args) : FArr S100000x64 :=
  encode (n := 100000) (shapeCast S100000x1 (degOf (srcOf a.ei)) shapeCasts_S100000_S100000x1) a.Wenc (row64 a.benc)
/-- The node features after layer 0. -/
def feat1 (a : Args) : FArr S100000x64 := step a (feat0 a) (mat0 a.W1) (vec0 a.b1) (mat0 a.W2) (vec0 a.b2)
/-- The node features after layer 1. -/
def feat2 (a : Args) : FArr S100000x64 := step a (feat1 a) (mat1 a.W1) (vec1 a.b1) (mat1 a.W2) (vec1 a.b2)
/-- The node features after layer 2. -/
def feat3 (a : Args) : FArr S100000x64 := step a (feat2 a) (mat2 a.W1) (vec2 a.b1) (mat2 a.W2) (vec2 a.b2)
/-- The node features after layer 3. -/
def feat4 (a : Args) : FArr S100000x64 := step a (feat3 a) (mat3 a.W1) (vec3 a.b1) (mat3 a.W2) (vec3 a.b2)
/-- The node features after layer 4. -/
def feat5 (a : Args) : FArr S100000x64 := step a (feat4 a) (mat4 a.W1) (vec4 a.b1) (mat4 a.W2) (vec4 a.b2)
/-- The node features after layer 5. -/
def feat6 (a : Args) : FArr S100000x64 := step a (feat5 a) (mat5 a.W1) (vec5 a.b1) (mat5 a.W2) (vec5 a.b2)
/-- The node features after layer 6. -/
def feat7 (a : Args) : FArr S100000x64 := step a (feat6 a) (mat6 a.W1) (vec6 a.b1) (mat6 a.W2) (vec6 a.b2)
/-- The node features after layer 7. -/
def feat8 (a : Args) : FArr S100000x64 := step a (feat7 a) (mat7 a.W1) (vec7 a.b1) (mat7 a.W2) (vec7 a.b2)
/-- The node features after layer 8. -/
def feat9 (a : Args) : FArr S100000x64 := step a (feat8 a) (mat8 a.W1) (vec8 a.b1) (mat8 a.W2) (vec8 a.b2)
/-- The node features after layer 9. -/
def feat10 (a : Args) : FArr S100000x64 := step a (feat9 a) (mat9 a.W1) (vec9 a.b1) (mat9 a.W2) (vec9 a.b2)
/-- The node features after layer 10. -/
def feat11 (a : Args) : FArr S100000x64 := step a (feat10 a) (mat10 a.W1) (vec10 a.b1) (mat10 a.W2) (vec10 a.b2)
/-- The node features after layer 11. -/
def feat12 (a : Args) : FArr S100000x64 := step a (feat11 a) (mat11 a.W1) (vec11 a.b1) (mat11 a.W2) (vec11 a.b2)

/-- The network's result: the decoder on the per-graph sums of the last layer's features. -/
def network (a : Args) : FArr S256x16 :=
  decode (n := 256) (poolOf a.batch (feat12 a)) a.Wd1 (row64 a.bd1) a.Wd2 (row16 a.bd2)

end Cert.Net

end
-- ==== Proof.KCarry.lean ====
/-
  What a layer needs of the buffers it does not write.  Between the encoder and the decoder every stretch of host
  operations and every region leaves thirteen buffers alone: the two rows of the edge list (src and dst, cut out once
  at the start), the batch index and the stacked weights and biases of the layers and of the decoder.  `Carried a U`
  says that a valuation U of the buffers holds, at those buffers, what the argument record a names.
-/
import proofs.«124003_j47699906789506_1_alg».proof.Proof.Gen.KernelIdeal.Frame
import proofs.«124003_j47699906789506_1_alg».proof.Proof.Network

set_option maxRecDepth 16384

noncomputable section

namespace Cert.KernelIdeal.KChain

open Cert.KernelIdeal Cert.KernelIdeal.Gen Idealize.ShloMosaic Idealize.ShloMosaic.StableHlo Idealize.ShloMosaic.TcCoe Idealize.SL.Sem Cert.Net

/-- The argument record read off a memory at a device. -/
def argsOf (m : (ℓ : Loc nD τ sig) → Buf (Elt Ideal) ℓ) (c : Dev nD) : Args where
  ei := m ((c.tc : Thread nD τ).loc main_arg0)
  batch := m ((c.tc : Thread nD τ).loc main_arg1)
  Wenc := m ((c.tc : Thread nD τ).loc main_arg2)
  benc := m ((c.tc : Thread nD τ).loc main_arg3)
  W1 := m ((c.tc : Thread nD τ).loc main_arg4)
  b1 := m ((c.tc : Thread nD τ).loc main_arg5)
  W2 := m ((c.tc : Thread nD τ).loc main_arg6)
  b2 := m ((c.tc : Thread nD τ).loc main_arg7)
  Wd1 := m ((c.tc : Thread nD τ).loc main_arg8)
  bd1 := m ((c.tc : Thread nD τ).loc main_arg9)
  Wd2 := m ((c.tc : Thread nD τ).loc main_arg10)
  bd2 := m ((c.tc : Thread nD τ).loc main_arg11)

/-- The buffers every later segment reads and none writes hold what the argument record names. -/
structure Carried (a : Args) (U : Valuation τ sig (Elt Ideal)) : Prop where
  src : U (Proc.devRef .tc main_v1) = srcOf a.ei
  dst : U (Proc.devRef .tc main_v3) = dstOf a.ei
  batch : U (Proc.devRef .tc main_arg1) = a.batch
  W1 : U (Proc.devRef .tc main_arg4) = a.W1
  b1 : U (Proc.devRef .tc main_arg5) = a.b1
  W2 : U (Proc.devRef .tc main_arg6) = a.W2
  b2 : U (Proc.devRef .tc main_arg7) = a.b2
  Wd1 : U (Proc.devRef .tc main_arg8) = a.Wd1
  bd1 : U (Proc.devRef .tc main_arg9) = a.bd1
  Wd2 : U (Proc.devRef .tc main_arg10) = a.Wd2
  bd2 : U (Proc.devRef .tc main_arg11) = a.bd2

end Cert.KernelIdeal.KChain

end
-- ==== Proof.KBase.lean ====
/-
  The start of the network in the kernel program: the first stretch of host operations, and region 0, the encoder.

  The stretch cuts src and dst out of the edge list, counts each node's degree by scatter-adding ones at src into
  zeros, recasts the degrees to a one-column array and the encoder's bias to a one-row matrix.  Region 0 leaves in
  its output array the encoder applied to those.  So after region 0 the output buffer holds the features after the
  encoder, src and dst sit in their buffers, and the argument arrays are as launched.
-/
import proofs.«124003_j47699906789506_1_alg».proof.Proof.KCarry

set_option maxRecDepth 16384

noncomputable section

namespace Cert.KernelIdeal.KChain

open Cert.KernelIdeal Cert.KernelIdeal.Gen Idealize.ShloMosaic Idealize.ShloMosaic.StableHlo Idealize.ShloMosaic.TcCoe Idealize.SL.Sem Cert.Net

section Stretch
variable (U : Valuation τ sig (Elt Ideal))

/-- src: row 0 of the edge list. -/
theorem s0_src : after hostOps0 U (Proc.devRef .tc main_v1) = srcOf (U (Proc.devRef .tc main_arg0)) := by
  simp only [hostOps0, List.flatten_cons, List.flatten_nil, List.append_nil, List.cons_append, List.nil_append]
  after_results
  rfl
/-- dst: row 1 of the edge list. -/
theorem s0_dst : after hostOps0 U (Proc.devRef .tc main_v3) = dstOf (U (Proc.devRef .tc main_arg0)) := by
  simp only [hostOps0, List.flatten_cons, List.flatten_nil, List.append_nil, List.cons_append, List.nil_append]
  after_results
  rfl
/-- The degrees as a one-column array. -/
theorem s0_deg : after hostOps0 U (Proc.devRef .tc main_v8)
    = shapeCast S100000x1 (degOf (srcOf (U (Proc.devRef .tc main_arg0)))) shapeCasts_S100000_S100000x1 := by
  simp only [hostOps0, List.flatten_cons, List.flatten_nil, List.append_nil, List.cons_append, List.nil_append]
  after_results
  rfl
/-- The encoder's bias as a one-row matrix. -/
theorem s0_benc : after hostOps0 U (Proc.devRef .tc main_v9) = row64 (U (Proc.devRef .tc main_arg3)) := by
  simp only [hostOps0, List.flatten_cons, List.flatten_nil, List.append_nil, List.cons_append, List.nil_append]
  after_results
  rfl
/-- The stretch does not write main_arg2. -/
theorem s0_keep_Wenc : after hostOps0 U (Proc.devRef .tc main_arg2) = U (Proc.devRef .tc main_arg2) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The stretch does not write main_arg1. -/
theorem s0_keep_batch : after hostOps0 U (Proc.devRef .tc main_arg1) = U (Proc.devRef .tc main_arg1) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The stretch does not write main_arg4. -/
theorem s0_keep_W1 : after hostOps0 U (Proc.devRef .tc main_arg4) = U (Proc.devRef .tc main_arg4) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The stretch does not write main_arg5. -/
theorem s0_keep_b1 : after hostOps0 U (Proc.devRef .tc main_arg5) = U (Proc.devRef .tc main_arg5) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The stretch does not write main_arg6. -/
theorem s0_keep_W2 : after hostOps0 U (Proc.devRef .tc main_arg6) = U (Proc.devRef .tc main_arg6) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The stretch does not write main_arg7. -/
theorem s0_keep_b2 : after hostOps0 U (Proc.devRef .tc main_arg7) = U (Proc.devRef .tc main_arg7) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The stretch does not write main_arg8. -/
theorem s0_keep_Wd1 : after hostOps0 U (Proc.devRef .tc main_arg8) = U (Proc.devRef .tc main_arg8) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The stretch does not write main_arg9. -/
theorem s0_keep_bd1 : after hostOps0 U (Proc.devRef .tc main_arg9) = U (Proc.devRef .tc main_arg9) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The stretch does not write main_arg10. -/
theorem s0_keep_Wd2 : after hostOps0 U (Proc.devRef .tc main_arg10) = U (Proc.devRef .tc main_arg10) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The stretch does not write main_arg11. -/
theorem s0_keep_bd2 : after hostOps0 U (Proc.devRef .tc main_arg11) = U (Proc.devRef .tc main_arg11) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Stretch

variable (m : (ℓ : Loc nD τ sig) → Buf (Elt Ideal) ℓ) (ρ : Dev nD → PrngReg)

/-- After region 0 the carried buffers hold what the launch memory's argument record names. -/
theorem carried0 (c : Dev nD) : Carried (argsOf m c) (W2 m ρ c) where
  src := (W2_of_ne m ρ c main_v1 (by decide)).trans (s0_src _)
  dst := (W2_of_ne m ρ c main_v3 (by decide)).trans (s0_dst _)
  batch := (W2_of_ne m ρ c main_arg1 (by decide)).trans (s0_keep_batch _)
  W1 := (W2_of_ne m ρ c main_arg4 (by decide)).trans (s0_keep_W1 _)
  b1 := (W2_of_ne m ρ c main_arg5 (by decide)).trans (s0_keep_b1 _)
  W2 := (W2_of_ne m ρ c main_arg6 (by decide)).trans (s0_keep_W2 _)
  b2 := (W2_of_ne m ρ c main_arg7 (by decide)).trans (s0_keep_b2 _)
  Wd1 := (W2_of_ne m ρ c main_arg8 (by decide)).trans (s0_keep_Wd1 _)
  bd1 := (W2_of_ne m ρ c main_arg9 (by decide)).trans (s0_keep_bd1 _)
  Wd2 := (W2_of_ne m ρ c main_arg10 (by decide)).trans (s0_keep_Wd2 _)
  bd2 := (W2_of_ne m ρ c main_arg11 (by decide)).trans (s0_keep_bd2 _)

/-- The features after the encoder, from region 0's output as one whole-array encoder. -/
theorem feat_step0 (c : Dev nD)
    (hreg : (dat0 (V1 m ρ) c).arrAt 3 cfg0.N
      = encode (n := 100000) (V1 m ρ c (Pipeline.arrRef spec0 0)) (V1 m ρ c (Pipeline.arrRef spec0 1))
          (V1 m ρ c (Pipeline.arrRef spec0 2))) :
    W2 m ρ c (Proc.devRef .tc main_v10) = feat0 (argsOf m c) := by
  have e : W2 m ρ c (Proc.devRef .tc main_v10) = (dat0 (V1 m ρ) c).arrAt 3 cfg0.N := W2_arr m ρ c 3
  rw [e, hreg]
  show encode (n := 100000) (after hostOps0 (W0 m ρ c) (Proc.devRef .tc main_v8))
      (after hostOps0 (W0 m ρ c) (Proc.devRef .tc main_arg2))
      (after hostOps0 (W0 m ρ c) (Proc.devRef .tc main_v9)) = _
  rw [s0_deg, s0_keep_Wenc, s0_benc]
  rfl

end Cert.KernelIdeal.KChain

end
-- ==== Proof.KStep1.lean ====
/-
  Layer 0 of the network in the kernel program: the stretch of host operations before region 1, and region 1.

  The stretch gathers the rows of x at src, scatter-adds them at dst into zeros (the neighbour sum), and cuts slice 0
  out of the four stacked weight arrays; it writes none of the buffers carried along and not x itself.  The region
  then leaves in its output array the layer applied to what the stretch left.  So if before the stretch x's buffer
  holds the features after layer 0 - 1 (after the encoder, for layer 0), after the region the output buffer holds the
  features after layer 0; and the carried buffers are as they were.
-/
import proofs.«124003_j47699906789506_1_alg».proof.Proof.KCarry

set_option maxRecDepth 16384

noncomputable section

namespace Cert.KernelIdeal.KChain

open Cert.KernelIdeal Cert.KernelIdeal.Gen Idealize.ShloMosaic Idealize.ShloMosaic.StableHlo Idealize.ShloMosaic.TcCoe Idealize.SL.Sem Cert.Net

section Stretch
variable (U : Valuation τ sig (Elt Ideal))

set_option maxHeartbeats 1000000 in
/-- The neighbour sum the stretch leaves: gathered at src, scatter-added at dst. -/
theorem s1_agg : after hostOps1 U (Proc.devRef .tc main_v20)
    = aggOf (U (Proc.devRef .tc main_v1)) (U (Proc.devRef .tc main_v3)) (U (Proc.devRef .tc main_v10)) := by
  simp only [hostOps1, List.flatten_cons, List.flatten_nil, List.append_nil, List.cons_append, List.nil_append]
  after_results
  rfl
set_option maxHeartbeats 1000000 in
/-- Slice 0 of the first stage's weights. -/
theorem s1_w1 : after hostOps1 U (Proc.devRef .tc main_v22) = mat0 (U (Proc.devRef .tc main_arg4)) := by
  simp only [hostOps1, List.flatten_cons, List.flatten_nil, List.append_nil, List.cons_append, List.nil_append]
  after_results
  rfl
set_option maxHeartbeats 1000000 in
/-- Slice 0 of the first stage's biases, as a one-row matrix. -/
theorem s1_b1 : after hostOps1 U (Proc.devRef .tc main_v25) = row64 (vec0 (U (Proc.devRef .tc main_arg5))) := by
  simp only [hostOps1, List.flatten_cons, List.flatten_nil, List.append_nil, List.cons_append, List.nil_append]
  after_results
  rfl
set_option maxHeartbeats 1000000 in
/-- Slice 0 of the second stage's weights. -/
theorem s1_w2 : after hostOps1 U (Proc.devRef .tc main_v27) = mat0 (U (Proc.devRef .tc main_arg6)) := by
  simp only [hostOps1, List.flatten_cons, List.flatten_nil, List.append_nil, List.cons_append, List.nil_append]
  after_results
  rfl
set_option maxHeartbeats 1000000 in
/-- Slice 0 of the second stage's biases, as a one-row matrix. -/
theorem s1_b2 : after hostOps1 U (Proc.devRef .tc main_v30) = row64 (vec0 (U (Proc.devRef .tc main_arg7))) := by
  simp only [hostOps1, List.flatten_cons, List.flatten_nil, List.append_nil, List.cons_append, List.nil_append]
  after_results
  rfl

set_option maxHeartbeats 1000000 in
/-- The stretch does not write main_v10. -/
theorem s1_keep_x : after hostOps1 U (Proc.devRef .tc main_v10) = U (Proc.devRef .tc main_v10) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_v1. -/
theorem s1_keep_src : after hostOps1 U (Proc.devRef .tc main_v1) = U (Proc.devRef .tc main_v1) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_v3. -/
theorem s1_keep_dst : after hostOps1 U (Proc.devRef .tc main_v3) = U (Proc.devRef .tc main_v3) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg1. -/
theorem s1_keep_batch : after hostOps1 U (Proc.devRef .tc main_arg1) = U (Proc.devRef .tc main_arg1) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg4. -/
theorem s1_keep_W1 : after hostOps1 U (Proc.devRef .tc main_arg4) = U (Proc.devRef .tc main_arg4) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg5. -/
theorem s1_keep_b1 : after hostOps1 U (Proc.devRef .tc main_arg5) = U (Proc.devRef .tc main_arg5) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg6. -/
theorem s1_keep_W2 : after hostOps1 U (Proc.devRef .tc main_arg6) = U (Proc.devRef .tc main_arg6) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg7. -/
theorem s1_keep_b2 : after hostOps1 U (Proc.devRef .tc main_arg7) = U (Proc.devRef .tc main_arg7) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg8. -/
theorem s1_keep_Wd1 : after hostOps1 U (Proc.devRef .tc main_arg8) = U (Proc.devRef .tc main_arg8) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg9. -/
theorem s1_keep_bd1 : after hostOps1 U (Proc.devRef .tc main_arg9) = U (Proc.devRef .tc main_arg9) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg10. -/
theorem s1_keep_Wd2 : after hostOps1 U (Proc.devRef .tc main_arg10) = U (Proc.devRef .tc main_arg10) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg11. -/
theorem s1_keep_bd2 : after hostOps1 U (Proc.devRef .tc main_arg11) = U (Proc.devRef .tc main_arg11) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Stretch

variable (m : (ℓ : Loc nD τ sig) → Buf (Elt Ideal) ℓ) (ρ : Dev nD → PrngReg)

/-- The carried buffers pass the stretch and the region untouched. -/
theorem carried1 (a : Args) (c : Dev nD) (h : Carried a (W2 m ρ c)) : Carried a (W4 m ρ c) where
  src := (W4_of_ne m ρ c main_v1 (by decide)).trans ((s1_keep_src _).trans h.src)
  dst := (W4_of_ne m ρ c main_v3 (by decide)).trans ((s1_keep_dst _).trans h.dst)
  batch := (W4_of_ne m ρ c main_arg1 (by decide)).trans ((s1_keep_batch _).trans h.batch)
  W1 := (W4_of_ne m ρ c main_arg4 (by decide)).trans ((s1_keep_W1 _).trans h.W1)
  b1 := (W4_of_ne m ρ c main_arg5 (by decide)).trans ((s1_keep_b1 _).trans h.b1)
  W2 := (W4_of_ne m ρ c main_arg6 (by decide)).trans ((s1_keep_W2 _).trans h.W2)
  b2 := (W4_of_ne m ρ c main_arg7 (by decide)).trans ((s1_keep_b2 _).trans h.b2)
  Wd1 := (W4_of_ne m ρ c main_arg8 (by decide)).trans ((s1_keep_Wd1 _).trans h.Wd1)
  bd1 := (W4_of_ne m ρ c main_arg9 (by decide)).trans ((s1_keep_bd1 _).trans h.bd1)
  Wd2 := (W4_of_ne m ρ c main_arg10 (by decide)).trans ((s1_keep_Wd2 _).trans h.Wd2)
  bd2 := (W4_of_ne m ρ c main_arg11 (by decide)).trans ((s1_keep_bd2 _).trans h.bd2)

/-- The features after layer 0, from the features before it and the region's output as one whole-array layer. -/
theorem feat_step1 (a : Args) (c : Dev nD) (h : Carried a (W2 m ρ c))
    (hx : W2 m ρ c (Proc.devRef .tc main_v10) = feat0 a)
    (hreg : (dat1 (V3 m ρ) c).arrAt 6 cfg1.N
      = layer (n := 100000) (V3 m ρ c (Pipeline.arrRef spec1 0)) (V3 m ρ c (Pipeline.arrRef spec1 1))
          (V3 m ρ c (Pipeline.arrRef spec1 2)) (V3 m ρ c (Pipeline.arrRef spec1 3))
          (V3 m ρ c (Pipeline.arrRef spec1 4)) (V3 m ρ c (Pipeline.arrRef spec1 5))) :
    W4 m ρ c (Proc.devRef .tc main_v31) = feat1 a := by
  have e : W4 m ρ c (Proc.devRef .tc main_v31) = (dat1 (V3 m ρ) c).arrAt 6 cfg1.N := W4_arr m ρ c 6
  rw [e, hreg]
  show layer (n := 100000) (after hostOps1 (W2 m ρ c) (Proc.devRef .tc main_v10))
      (after hostOps1 (W2 m ρ c) (Proc.devRef .tc main_v20))
      (after hostOps1 (W2 m ρ c) (Proc.devRef .tc main_v22))
      (after hostOps1 (W2 m ρ c) (Proc.devRef .tc main_v25))
      (after hostOps1 (W2 m ρ c) (Proc.devRef .tc main_v27))
      (after hostOps1 (W2 m ρ c) (Proc.devRef .tc main_v30)) = _
  rw [s1_keep_x, s1_agg, s1_w1, s1_b1, s1_w2, s1_b2, h.src, h.dst, hx, h.W1, h.b1, h.W2, h.b2]
  rfl

end Cert.KernelIdeal.KChain

end
-- ==== Proof.KStep2.lean ====
/-
  Layer 1 of the network in the kernel program: the stretch of host operations before region 2, and region 2.

  The stretch gathers the rows of x at src, scatter-adds them at dst into zeros (the neighbour sum), and cuts slice 1
  out of the four stacked weight arrays; it writes none of the buffers carried along and not x itself.  The region
  then leaves in its output array the layer applied to what the stretch left.  So if before the stretch x's buffer
  holds the features after layer 1 - 1 (after the encoder, for layer 0), after the region the output buffer holds the
  features after layer 1; and the carried buffers are as they were.
-/
import proofs.«124003_j47699906789506_1_alg».proof.Proof.KCarry

set_option maxRecDepth 16384

noncomputable section

namespace Cert.KernelIdeal.KChain

open Cert.KernelIdeal Cert.KernelIdeal.Gen Idealize.ShloMosaic Idealize.ShloMosaic.StableHlo Idealize.ShloMosaic.TcCoe Idealize.SL.Sem Cert.Net

section Stretch
variable (U : Valuation τ sig (Elt Ideal))

set_option maxHeartbeats 1000000 in
/-- The neighbour sum the stretch leaves: gathered at src, scatter-added at dst. -/
theorem s2_agg : after hostOps2 U (Proc.devRef .tc main_v41)
    = aggOf (U (Proc.devRef .tc main_v1)) (U (Proc.devRef .tc main_v3)) (U (Proc.devRef .tc main_v31)) := by
  simp only [hostOps2, List.flatten_cons, List.flatten_nil, List.append_nil, List.cons_append, List.nil_append]
  after_results
  rfl
set_option maxHeartbeats 1000000 in
/-- Slice 1 of the first stage's weights. -/
theorem s2_w1 : after hostOps2 U (Proc.devRef .tc main_v43) = mat1 (U (Proc.devRef .tc main_arg4)) := by
  simp only [hostOps2, List.flatten_cons, List.flatten_nil, List.append_nil, List.cons_append, List.nil_append]
  after_results
  rfl
set_option maxHeartbeats 1000000 in
/-- Slice 1 of the first stage's biases, as a one-row matrix. -/
theorem s2_b1 : after hostOps2 U (Proc.devRef .tc main_v46) = row64 (vec1 (U (Proc.devRef .tc main_arg5))) := by
  simp only [hostOps2, List.flatten_cons, List.flatten_nil, List.append_nil, List.cons_append, List.nil_append]
  after_results
  rfl
set_option maxHeartbeats 1000000 in
/-- Slice 1 of the second stage's weights. -/
theorem s2_w2 : after hostOps2 U (Proc.devRef .tc main_v48) = mat1 (U (Proc.devRef .tc main_arg6)) := by
  simp only [hostOps2, List.flatten_cons, List.flatten_nil, List.append_nil, List.cons_append, List.nil_append]
  after_results
  rfl
set_option maxHeartbeats 1000000 in
/-- Slice 1 of the second stage's biases, as a one-row matrix. -/
theorem s2_b2 : after hostOps2 U (Proc.devRef .tc main_v51) = row64 (vec1 (U (Proc.devRef .tc main_arg7))) := by
  simp only [hostOps2, List.flatten_cons, List.flatten_nil, List.append_nil, List.cons_append, List.nil_append]
  after_results
  rfl

set_option maxHeartbeats 1000000 in
/-- The stretch does not write main_v31. -/
theorem s2_keep_x : after hostOps2 U (Proc.devRef .tc main_v31) = U (Proc.devRef .tc main_v31) :=
  StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_v1. -/
theorem s2_keep_src : after hostOps2 U (Proc.devRef .tc main_v1) = U (Proc.devRef .tc main_v1) :=
  StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_v3. -/
theorem s2_keep_dst : after hostOps2 U (Proc.devRef .tc main_v3) = U (Proc.devRef .tc main_v3) :=
  StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg1. -/
theorem s2_keep_batch : after hostOps2 U (Proc.devRef .tc main_arg1) = U (Proc.devRef .tc main_arg1) :=
  StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg4. -/
theorem s2_keep_W1 : after hostOps2 U (Proc.devRef .tc main_arg4) = U (Proc.devRef .tc main_arg4) :=
  StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg5. -/
theorem s2_keep_b1 : after hostOps2 U (Proc.devRef .tc main_arg5) = U (Proc.devRef .tc main_arg5) :=
  StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg6. -/
theorem s2_keep_W2 : after hostOps2 U (Proc.devRef .tc main_arg6) = U (Proc.devRef .tc main_arg6) :=
  StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg7. -/
theorem s2_keep_b2 : after hostOps2 U (Proc.devRef .tc main_arg7) = U (Proc.devRef .tc main_arg7) :=
  StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg8. -/
theorem s2_keep_Wd1 : after hostOps2 U (Proc.devRef .tc main_arg8) = U (Proc.devRef .tc main_arg8) :=
  StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg9. -/
theorem s2_keep_bd1 : after hostOps2 U (Proc.devRef .tc main_arg9) = U (Proc.devRef .tc main_arg9) :=
  StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg10. -/
theorem s2_keep_Wd2 : after hostOps2 U (Proc.devRef .tc main_arg10) = U (Proc.devRef .tc main_arg10) :=
  StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg11. -/
theorem s2_keep_bd2 : after hostOps2 U (Proc.devRef .tc main_arg11) = U (Proc.devRef .tc main_arg11) :=
  StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Stretch

variable (m : (ℓ : Loc nD τ sig) → Buf (Elt Ideal) ℓ) (ρ : Dev nD → PrngReg)

/-- The carried buffers pass the stretch and the region untouched. -/
theorem carried2 (a : Args) (c : Dev nD) (h : Carried a (W4 m ρ c)) : Carried a (W6 m ρ c) where
  src := (W6_of_ne m ρ c main_v1 (by decide)).trans ((s2_keep_src _).trans h.src)
  dst := (W6_of_ne m ρ c main_v3 (by decide)).trans ((s2_keep_dst _).trans h.dst)
  batch := (W6_of_ne m ρ c main_arg1 (by decide)).trans ((s2_keep_batch _).trans h.batch)
  W1 := (W6_of_ne m ρ c main_arg4 (by decide)).trans ((s2_keep_W1 _).trans h.W1)
  b1 := (W6_of_ne m ρ c main_arg5 (by decide)).trans ((s2_keep_b1 _).trans h.b1)
  W2 := (W6_of_ne m ρ c main_arg6 (by decide)).trans ((s2_keep_W2 _).trans h.W2)
  b2 := (W6_of_ne m ρ c main_arg7 (by decide)).trans ((s2_keep_b2 _).trans h.b2)
  Wd1 := (W6_of_ne m ρ c main_arg8 (by decide)).trans ((s2_keep_Wd1 _).trans h.Wd1)
  bd1 := (W6_of_ne m ρ c main_arg9 (by decide)).trans ((s2_keep_bd1 _).trans h.bd1)
  Wd2 := (W6_of_ne m ρ c main_arg10 (by decide)).trans ((s2_keep_Wd2 _).trans h.Wd2)
  bd2 := (W6_of_ne m ρ c main_arg11 (by decide)).trans ((s2_keep_bd2 _).trans h.bd2)

/-- The features after layer 1, from the features before it and the region's output as one whole-array layer. -/
theorem feat_step2 (a : Args) (c : Dev nD) (h : Carried a (W4 m ρ c))
    (hx : W4 m ρ c (Proc.devRef .tc main_v31) = feat1 a)
    (hreg : (dat2 (V5 m ρ) c).arrAt 6 cfg2.N
      = layer (n := 100000) (V5 m ρ c (Pipeline.arrRef spec2 0)) (V5 m ρ c (Pipeline.arrRef spec2 1))
          (V5 m ρ c (Pipeline.arrRef spec2 2)) (V5 m ρ c (Pipeline.arrRef spec2 3))
          (V5 m ρ c (Pipeline.arrRef spec2 4)) (V5 m ρ c (Pipeline.arrRef spec2 5))) :
    W6 m ρ c (Proc.devRef .tc main_v52) = feat2 a := by
  have e : W6 m ρ c (Proc.devRef .tc main_v52) = (dat2 (V5 m ρ) c).arrAt 6 cfg2.N := W6_arr m ρ c 6
  rw [e, hreg]
  show layer (n := 100000) (after hostOps2 (W4 m ρ c) (Proc.devRef .tc main_v31))
      (after hostOps2 (W4 m ρ c) (Proc.devRef .tc main_v41))
      (after hostOps2 (W4 m ρ c) (Proc.devRef .tc main_v43))
      (after hostOps2 (W4 m ρ c) (Proc.devRef .tc main_v46))
      (after hostOps2 (W4 m ρ c) (Proc.devRef .tc main_v48))
      (after hostOps2 (W4 m ρ c) (Proc.devRef .tc main_v51)) = _
  rw [s2_keep_x, s2_agg, s2_w1, s2_b1, s2_w2, s2_b2, h.src, h.dst, hx, h.W1, h.b1, h.W2, h.b2]
  rfl

end Cert.KernelIdeal.KChain

end
-- ==== Proof.KStep3.lean ====
/-
  Layer 2 of the network in the kernel program: the stretch of host operations before region 3, and region 3.

  The stretch gathers the rows of x at src, scatter-adds them at dst into zeros (the neighbour sum), and cuts slice 2
  out of the four stacked weight arrays; it writes none of the buffers carried along and not x itself.  The region
  then leaves in its output array the layer applied to what the stretch left.  So if before the stretch x's buffer
  holds the features after layer 2 - 1 (after the encoder, for layer 0), after the region the output buffer holds the
  features after layer 2; and the carried buffers are as they were.
-/
import proofs.«124003_j47699906789506_1_alg».proof.Proof.KCarry

set_option maxRecDepth 16384

noncomputable section

namespace Cert.KernelIdeal.KChain

open Cert.KernelIdeal Cert.KernelIdeal.Gen Idealize.ShloMosaic Idealize.ShloMosaic.StableHlo Idealize.ShloMosaic.TcCoe Idealize.SL.Sem Cert.Net

section Stretch
variable (U : Valuation τ sig (Elt Ideal))

set_option maxHeartbeats 1000000 in
/-- The neighbour sum the stretch leaves: gathered at src, scatter-added at dst. -/
theorem s3_agg : after hostOps3 U (Proc.devRef .tc main_v62)
    = aggOf (U (Proc.devRef .tc main_v1)) (U (Proc.devRef .tc main_v3)) (U (Proc.devRef .tc main_v52)) := by
  simp only [hostOps3, List.flatten_cons, List.flatten_nil, List.append_nil, List.cons_append, List.nil_append]
  after_results
  rfl
set_option maxHeartbeats 1000000 in
/-- Slice 2 of the first stage's weights. -/
theorem s3_w1 : after hostOps3 U (Proc.devRef .tc main_v64) = mat2 (U (Proc.devRef .tc main_arg4)) := by
  simp only [hostOps3, List.flatten_cons, List.flatten_nil, List.append_nil, List.cons_append, List.nil_append]
  after_results
  rfl
set_option maxHeartbeats 1000000 in
/-- Slice 2 of the first stage's biases, as a one-row matrix. -/
theorem s3_b1 : after hostOps3 U (Proc.devRef .tc main_v67) = row64 (vec2 (U (Proc.devRef .tc main_arg5))) := by
  simp only [hostOps3, List.flatten_cons, List.flatten_nil, List.append_nil, List.cons_append, List.nil_append]
  after_results
  rfl
set_option maxHeartbeats 1000000 in
/-- Slice 2 of the second stage's weights. -/
theorem s3_w2 : after hostOps3 U (Proc.devRef .tc main_v69) = mat2 (U (Proc.devRef .tc main_arg6)) := by
  simp only [hostOps3, List.flatten_cons, List.flatten_nil, List.append_nil, List.cons_append, List.nil_append]
  after_results
  rfl
set_option maxHeartbeats 1000000 in
/-- Slice 2 of the second stage's biases, as a one-row matrix. -/
theorem s3_b2 : after hostOps3 U (Proc.devRef .tc main_v72) = row64 (vec2 (U (Proc.devRef .tc main_arg7))) := by
  simp only [hostOps3, List.flatten_cons, List.flatten_nil, List.append_nil, List.cons_append, List.nil_append]
  after_results
  rfl

set_option maxHeartbeats 1000000 in
/-- The stretch does not write main_v52. -/
theorem s3_keep_x : after hostOps3 U (Proc.devRef .tc main_v52) = U (Proc.devRef .tc main_v52) :=
  StableHlo.after_of_forall_not_mem _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_v1. -/
theorem s3_keep_src : after hostOps3 U (Proc.devRef .tc main_v1) = U (Proc.devRef .tc main_v1) :=
  StableHlo.after_of_forall_not_mem _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_v3. -/
theorem s3_keep_dst : after hostOps3 U (Proc.devRef .tc main_v3) = U (Proc.devRef .tc main_v3) :=
  StableHlo.after_of_forall_not_mem _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg1. -/
theorem s3_keep_batch : after hostOps3 U (Proc.devRef .tc main_arg1) = U (Proc.devRef .tc main_arg1) :=
  StableHlo.after_of_forall_not_mem _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg4. -/
theorem s3_keep_W1 : after hostOps3 U (Proc.devRef .tc main_arg4) = U (Proc.devRef .tc main_arg4) :=
  StableHlo.after_of_forall_not_mem _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg5. -/
theorem s3_keep_b1 : after hostOps3 U (Proc.devRef .tc main_arg5) = U (Proc.devRef .tc main_arg5) :=
  StableHlo.after_of_forall_not_mem _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg6. -/
theorem s3_keep_W2 : after hostOps3 U (Proc.devRef .tc main_arg6) = U (Proc.devRef .tc main_arg6) :=
  StableHlo.after_of_forall_not_mem _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg7. -/
theorem s3_keep_b2 : after hostOps3 U (Proc.devRef .tc main_arg7) = U (Proc.devRef .tc main_arg7) :=
  StableHlo.after_of_forall_not_mem _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg8. -/
theorem s3_keep_Wd1 : after hostOps3 U (Proc.devRef .tc main_arg8) = U (Proc.devRef .tc main_arg8) :=
  StableHlo.after_of_forall_not_mem _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg9. -/
theorem s3_keep_bd1 : after hostOps3 U (Proc.devRef .tc main_arg9) = U (Proc.devRef .tc main_arg9) :=
  StableHlo.after_of_forall_not_mem _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg10. -/
theorem s3_keep_Wd2 : after hostOps3 U (Proc.devRef .tc main_arg10) = U (Proc.devRef .tc main_arg10) :=
  StableHlo.after_of_forall_not_mem _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg11. -/
theorem s3_keep_bd2 : after hostOps3 U (Proc.devRef .tc main_arg11) = U (Proc.devRef .tc main_arg11) :=
  StableHlo.after_of_forall_not_mem _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Stretch

variable (m : (ℓ : Loc nD τ sig) → Buf (Elt Ideal) ℓ) (ρ : Dev nD → PrngReg)

/-- The carried buffers pass the stretch and the region untouched. -/
theorem carried3 (a : Args) (c : Dev nD) (h : Carried a (W6 m ρ c)) : Carried a (W8 m ρ c) where
  src := (W8_of_ne m ρ c main_v1 (by decide)).trans ((s3_keep_src _).trans h.src)
  dst := (W8_of_ne m ρ c main_v3 (by decide)).trans ((s3_keep_dst _).trans h.dst)
  batch := (W8_of_ne m ρ c main_arg1 (by decide)).trans ((s3_keep_batch _).trans h.batch)
  W1 := (W8_of_ne m ρ c main_arg4 (by decide)).trans ((s3_keep_W1 _).trans h.W1)
  b1 := (W8_of_ne m ρ c main_arg5 (by decide)).trans ((s3_keep_b1 _).trans h.b1)
  W2 := (W8_of_ne m ρ c main_arg6 (by decide)).trans ((s3_keep_W2 _).trans h.W2)
  b2 := (W8_of_ne m ρ c main_arg7 (by decide)).trans ((s3_keep_b2 _).trans h.b2)
  Wd1 := (W8_of_ne m ρ c main_arg8 (by decide)).trans ((s3_keep_Wd1 _).trans h.Wd1)
  bd1 := (W8_of_ne m ρ c main_arg9 (by decide)).trans ((s3_keep_bd1 _).trans h.bd1)
  Wd2 := (W8_of_ne m ρ c main_arg10 (by decide)).trans ((s3_keep_Wd2 _).trans h.Wd2)
  bd2 := (W8_of_ne m ρ c main_arg11 (by decide)).trans ((s3_keep_bd2 _).trans h.bd2)

/-- The features after layer 2, from the features before it and the region's output as one whole-array layer. -/
theorem feat_step3 (a : Args) (c : Dev nD) (h : Carried a (W6 m ρ c))
    (hx : W6 m ρ c (Proc.devRef .tc main_v52) = feat2 a)
    (hreg : (dat3 (V7 m ρ) c).arrAt 6 cfg3.N
      = layer (n := 100000) (V7 m ρ c (Pipeline.arrRef spec3 0)) (V7 m ρ c (Pipeline.arrRef spec3 1))
          (V7 m ρ c (Pipeline.arrRef spec3 2)) (V7 m ρ c (Pipeline.arrRef spec3 3))
          (V7 m ρ c (Pipeline.arrRef spec3 4)) (V7 m ρ c (Pipeline.arrRef spec3 5))) :
    W8 m ρ c (Proc.devRef .tc main_v73) = feat3 a := by
  have e : W8 m ρ c (Proc.devRef .tc main_v73) = (dat3 (V7 m ρ) c).arrAt 6 cfg3.N := W8_arr m ρ c 6
  rw [e, hreg]
  show layer (n := 100000) (after hostOps3 (W6 m ρ c) (Proc.devRef .tc main_v52))
      (after hostOps3 (W6 m ρ c) (Proc.devRef .tc main_v62))
      (after hostOps3 (W6 m ρ c) (Proc.devRef .tc main_v64))
      (after hostOps3 (W6 m ρ c) (Proc.devRef .tc main_v67))
      (after hostOps3 (W6 m ρ c) (Proc.devRef .tc main_v69))
      (after hostOps3 (W6 m ρ c) (Proc.devRef .tc main_v72)) = _
  rw [s3_keep_x, s3_agg, s3_w1, s3_b1, s3_w2, s3_b2, h.src, h.dst, hx, h.W1, h.b1, h.W2, h.b2]
  rfl

end Cert.KernelIdeal.KChain

end
-- ==== Proof.KStep4.lean ====
/-
  Layer 3 of the network in the kernel program: the stretch of host operations before region 4, and region 4.

  The stretch gathers the rows of x at src, scatter-adds them at dst into zeros (the neighbour sum), and cuts slice 3
  out of the four stacked weight arrays; it writes none of the buffers carried along and not x itself.  The region
  then leaves in its output array the layer applied to what the stretch left.  So if before the stretch x's buffer
  holds the features after layer 3 - 1 (after the encoder, for layer 0), after the region the output buffer holds the
  features after layer 3; and the carried buffers are as they were.
-/
import proofs.«124003_j47699906789506_1_alg».proof.Proof.KCarry

set_option maxRecDepth 16384

noncomputable section

namespace Cert.KernelIdeal.KChain

open Cert.KernelIdeal Cert.KernelIdeal.Gen Idealize.ShloMosaic Idealize.ShloMosaic.StableHlo Idealize.ShloMosaic.TcCoe Idealize.SL.Sem Cert.Net

section Stretch
variable (U : Valuation τ sig (Elt Ideal))

set_option maxHeartbeats 1000000 in
/-- The neighbour sum the stretch leaves: gathered at src, scatter-added at dst. -/
theorem s4_agg : after hostOps4 U (Proc.devRef .tc main_v83)
    = aggOf (U (Proc.devRef .tc main_v1)) (U (Proc.devRef .tc main_v3)) (U (Proc.devRef .tc main_v73)) := by
  simp only [hostOps4, List.flatten_cons, List.flatten_nil, List.append_nil, List.cons_append, List.nil_append]
  after_results
  rfl
set_option maxHeartbeats 1000000 in
/-- Slice 3 of the first stage's weights. -/
theorem s4_w1 : after hostOps4 U (Proc.devRef .tc main_v85) = mat3 (U (Proc.devRef .tc main_arg4)) := by
  simp only [hostOps4, List.flatten_cons, List.flatten_nil, List.append_nil, List.cons_append, List.nil_append]
  after_results
  rfl
set_option maxHeartbeats 1000000 in
/-- Slice 3 of the first stage's biases, as a one-row matrix. -/
theorem s4_b1 : after hostOps4 U (Proc.devRef .tc main_v88) = row64 (vec3 (U (Proc.devRef .tc main_arg5))) := by
  simp only [hostOps4, List.flatten_cons, List.flatten_nil, List.append_nil, List.cons_append, List.nil_append]
  after_results
  rfl
set_option maxHeartbeats 1000000 in
/-- Slice 3 of the second stage's weights. -/
theorem s4_w2 : after hostOps4 U (Proc.devRef .tc main_v90) = mat3 (U (Proc.devRef .tc main_arg6)) := by
  simp only [hostOps4, List.flatten_cons, List.flatten_nil, List.append_nil, List.cons_append, List.nil_append]
  after_results
  rfl
set_option maxHeartbeats 1000000 in
/-- Slice 3 of the second stage's biases, as a one-row matrix. -/
theorem s4_b2 : after hostOps4 U (Proc.devRef .tc main_v93) = row64 (vec3 (U (Proc.devRef .tc main_arg7))) := by
  simp only [hostOps4, List.flatten_cons, List.flatten_nil, List.append_nil, List.cons_append, List.nil_append]
  after_results
  rfl

set_option maxHeartbeats 1000000 in
/-- The stretch does not write main_v73. -/
theorem s4_keep_x : after hostOps4 U (Proc.devRef .tc main_v73) = U (Proc.devRef .tc main_v73) :=
  StableHlo.after_of_forall_not_mem _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_v1. -/
theorem s4_keep_src : after hostOps4 U (Proc.devRef .tc main_v1) = U (Proc.devRef .tc main_v1) :=
  StableHlo.after_of_forall_not_mem _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_v3. -/
theorem s4_keep_dst : after hostOps4 U (Proc.devRef .tc main_v3) = U (Proc.devRef .tc main_v3) :=
  StableHlo.after_of_forall_not_mem _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg1. -/
theorem s4_keep_batch : after hostOps4 U (Proc.devRef .tc main_arg1) = U (Proc.devRef .tc main_arg1) :=
  StableHlo.after_of_forall_not_mem _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg4. -/
theorem s4_keep_W1 : after hostOps4 U (Proc.devRef .tc main_arg4) = U (Proc.devRef .tc main_arg4) :=
  StableHlo.after_of_forall_not_mem _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg5. -/
theorem s4_keep_b1 : after hostOps4 U (Proc.devRef .tc main_arg5) = U (Proc.devRef .tc main_arg5) :=
  StableHlo.after_of_forall_not_mem _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg6. -/
theorem s4_keep_W2 : after hostOps4 U (Proc.devRef .tc main_arg6) = U (Proc.devRef .tc main_arg6) :=
  StableHlo.after_of_forall_not_mem _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg7. -/
theorem s4_keep_b2 : after hostOps4 U (Proc.devRef .tc main_arg7) = U (Proc.devRef .tc main_arg7) :=
  StableHlo.after_of_forall_not_mem _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg8. -/
theorem s4_keep_Wd1 : after hostOps4 U (Proc.devRef .tc main_arg8) = U (Proc.devRef .tc main_arg8) :=
  StableHlo.after_of_forall_not_mem _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg9. -/
theorem s4_keep_bd1 : after hostOps4 U (Proc.devRef .tc main_arg9) = U (Proc.devRef .tc main_arg9) :=
  StableHlo.after_of_forall_not_mem _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg10. -/
theorem s4_keep_Wd2 : after hostOps4 U (Proc.devRef .tc main_arg10) = U (Proc.devRef .tc main_arg10) :=
  StableHlo.after_of_forall_not_mem _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg11. -/
theorem s4_keep_bd2 : after hostOps4 U (Proc.devRef .tc main_arg11) = U (Proc.devRef .tc main_arg11) :=
  StableHlo.after_of_forall_not_mem _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Stretch

variable (m : (ℓ : Loc nD τ sig) → Buf (Elt Ideal) ℓ) (ρ : Dev nD → PrngReg)

/-- The carried buffers pass the stretch and the region untouched. -/
theorem carried4 (a : Args) (c : Dev nD) (h : Carried a (W8 m ρ c)) : Carried a (W10 m ρ c) where
  src := (W10_of_ne m ρ c main_v1 (by decide)).trans ((s4_keep_src _).trans h.src)
  dst := (W10_of_ne m ρ c main_v3 (by decide)).trans ((s4_keep_dst _).trans h.dst)
  batch := (W10_of_ne m ρ c main_arg1 (by decide)).trans ((s4_keep_batch _).trans h.batch)
  W1 := (W10_of_ne m ρ c main_arg4 (by decide)).trans ((s4_keep_W1 _).trans h.W1)
  b1 := (W10_of_ne m ρ c main_arg5 (by decide)).trans ((s4_keep_b1 _).trans h.b1)
  W2 := (W10_of_ne m ρ c main_arg6 (by decide)).trans ((s4_keep_W2 _).trans h.W2)
  b2 := (W10_of_ne m ρ c main_arg7 (by decide)).trans ((s4_keep_b2 _).trans h.b2)
  Wd1 := (W10_of_ne m ρ c main_arg8 (by decide)).trans ((s4_keep_Wd1 _).trans h.Wd1)
  bd1 := (W10_of_ne m ρ c main_arg9 (by decide)).trans ((s4_keep_bd1 _).trans h.bd1)
  Wd2 := (W10_of_ne m ρ c main_arg10 (by decide)).trans ((s4_keep_Wd2 _).trans h.Wd2)
  bd2 := (W10_of_ne m ρ c main_arg11 (by decide)).trans ((s4_keep_bd2 _).trans h.bd2)

/-- The features after layer 3, from the features before it and the region's output as one whole-array layer. -/
theorem feat_step4 (a : Args) (c : Dev nD) (h : Carried a (W8 m ρ c))
    (hx : W8 m ρ c (Proc.devRef .tc main_v73) = feat3 a)
    (hreg : (dat4 (V9 m ρ) c).arrAt 6 cfg4.N
      = layer (n := 100000) (V9 m ρ c (Pipeline.arrRef spec4 0)) (V9 m ρ c (Pipeline.arrRef spec4 1))
          (V9 m ρ c (Pipeline.arrRef spec4 2)) (V9 m ρ c (Pipeline.arrRef spec4 3))
          (V9 m ρ c (Pipeline.arrRef spec4 4)) (V9 m ρ c (Pipeline.arrRef spec4 5))) :
    W10 m ρ c (Proc.devRef .tc main_v94) = feat4 a := by
  have e : W10 m ρ c (Proc.devRef .tc main_v94) = (dat4 (V9 m ρ) c).arrAt 6 cfg4.N := W10_arr m ρ c 6
  rw [e, hreg]
  show layer (n := 100000) (after hostOps4 (W8 m ρ c) (Proc.devRef .tc main_v73))
      (after hostOps4 (W8 m ρ c) (Proc.devRef .tc main_v83))
      (after hostOps4 (W8 m ρ c) (Proc.devRef .tc main_v85))
      (after hostOps4 (W8 m ρ c) (Proc.devRef .tc main_v88))
      (after hostOps4 (W8 m ρ c) (Proc.devRef .tc main_v90))
      (after hostOps4 (W8 m ρ c) (Proc.devRef .tc main_v93)) = _
  rw [s4_keep_x, s4_agg, s4_w1, s4_b1, s4_w2, s4_b2, h.src, h.dst, hx, h.W1, h.b1, h.W2, h.b2]
  rfl

end Cert.KernelIdeal.KChain

end
-- ==== Proof.KStep5.lean ====
/-
  Layer 4 of the network in the kernel program: the stretch of host operations before region 5, and region 5.

  The stretch gathers the rows of x at src, scatter-adds them at dst into zeros (the neighbour sum), and cuts slice 4
  out of the four stacked weight arrays; it writes none of the buffers carried along and not x itself.  The region
  then leaves in its output array the layer applied to what the stretch left.  So if before the stretch x's buffer
  holds the features after layer 4 - 1 (after the encoder, for layer 0), after the region the output buffer holds the
  features after layer 4; and the carried buffers are as they were.
-/
import proofs.«124003_j47699906789506_1_alg».proof.Proof.KCarry

set_option maxRecDepth 16384

noncomputable section

namespace Cert.KernelIdeal.KChain

open Cert.KernelIdeal Cert.KernelIdeal.Gen Idealize.ShloMosaic Idealize.ShloMosaic.StableHlo Idealize.ShloMosaic.TcCoe Idealize.SL.Sem Cert.Net

section Stretch
variable (U : Valuation τ sig (Elt Ideal))

set_option maxHeartbeats 1000000 in
/-- The neighbour sum the stretch leaves: gathered at src, scatter-added at dst. -/
theorem s5_agg : after hostOps5 U (Proc.devRef .tc main_v104)
    = aggOf (U (Proc.devRef .tc main_v1)) (U (Proc.devRef .tc main_v3)) (U (Proc.devRef .tc main_v94)) := by
  simp only [hostOps5, List.flatten_cons, List.flatten_nil, List.append_nil, List.cons_append, List.nil_append]
  after_results
  rfl
set_option maxHeartbeats 1000000 in
/-- Slice 4 of the first stage's weights. -/
theorem s5_w1 : after hostOps5 U (Proc.devRef .tc main_v106) = mat4 (U (Proc.devRef .tc main_arg4)) := by
  simp only [hostOps5, List.flatten_cons, List.flatten_nil, List.append_nil, List.cons_append, List.nil_append]
  after_results
  rfl
set_option maxHeartbeats 1000000 in
/-- Slice 4 of the first stage's biases, as a one-row matrix. -/
theorem s5_b1 : after hostOps5 U (Proc.devRef .tc main_v109) = row64 (vec4 (U (Proc.devRef .tc main_arg5))) := by
  simp only [hostOps5, List.flatten_cons, List.flatten_nil, List.append_nil, List.cons_append, List.nil_append]
  after_results
  rfl
set_option maxHeartbeats 1000000 in
/-- Slice 4 of the second stage's weights. -/
theorem s5_w2 : after hostOps5 U (Proc.devRef .tc main_v111) = mat4 (U (Proc.devRef .tc main_arg6)) := by
  simp only [hostOps5, List.flatten_cons, List.flatten_nil, List.append_nil, List.cons_append, List.nil_append]
  after_results
  rfl
set_option maxHeartbeats 1000000 in
/-- Slice 4 of the second stage's biases, as a one-row matrix. -/
theorem s5_b2 : after hostOps5 U (Proc.devRef .tc main_v114) = row64 (vec4 (U (Proc.devRef .tc main_arg7))) := by
  simp only [hostOps5, List.flatten_cons, List.flatten_nil, List.append_nil, List.cons_append, List.nil_append]
  after_results
  rfl

set_option maxHeartbeats 1000000 in
/-- The stretch does not write main_v94. -/
theorem s5_keep_x : after hostOps5 U (Proc.devRef .tc main_v94) = U (Proc.devRef .tc main_v94) :=
  StableHlo.after_of_forall_not_mem _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_v1. -/
theorem s5_keep_src : after hostOps5 U (Proc.devRef .tc main_v1) = U (Proc.devRef .tc main_v1) :=
  StableHlo.after_of_forall_not_mem _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_v3. -/
theorem s5_keep_dst : after hostOps5 U (Proc.devRef .tc main_v3) = U (Proc.devRef .tc main_v3) :=
  StableHlo.after_of_forall_not_mem _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg1. -/
theorem s5_keep_batch : after hostOps5 U (Proc.devRef .tc main_arg1) = U (Proc.devRef .tc main_arg1) :=
  StableHlo.after_of_forall_not_mem _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg4. -/
theorem s5_keep_W1 : after hostOps5 U (Proc.devRef .tc main_arg4) = U (Proc.devRef .tc main_arg4) :=
  StableHlo.after_of_forall_not_mem _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg5. -/
theorem s5_keep_b1 : after hostOps5 U (Proc.devRef .tc main_arg5) = U (Proc.devRef .tc main_arg5) :=
  StableHlo.after_of_forall_not_mem _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg6. -/
theorem s5_keep_W2 : after hostOps5 U (Proc.devRef .tc main_arg6) = U (Proc.devRef .tc main_arg6) :=
  StableHlo.after_of_forall_not_mem _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg7. -/
theorem s5_keep_b2 : after hostOps5 U (Proc.devRef .tc main_arg7) = U (Proc.devRef .tc main_arg7) :=
  StableHlo.after_of_forall_not_mem _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg8. -/
theorem s5_keep_Wd1 : after hostOps5 U (Proc.devRef .tc main_arg8) = U (Proc.devRef .tc main_arg8) :=
  StableHlo.after_of_forall_not_mem _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg9. -/
theorem s5_keep_bd1 : after hostOps5 U (Proc.devRef .tc main_arg9) = U (Proc.devRef .tc main_arg9) :=
  StableHlo.after_of_forall_not_mem _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg10. -/
theorem s5_keep_Wd2 : after hostOps5 U (Proc.devRef .tc main_arg10) = U (Proc.devRef .tc main_arg10) :=
  StableHlo.after_of_forall_not_mem _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg11. -/
theorem s5_keep_bd2 : after hostOps5 U (Proc.devRef .tc main_arg11) = U (Proc.devRef .tc main_arg11) :=
  StableHlo.after_of_forall_not_mem _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Stretch

variable (m : (ℓ : Loc nD τ sig) → Buf (Elt Ideal) ℓ) (ρ : Dev nD → PrngReg)

/-- The carried buffers pass the stretch and the region untouched. -/
theorem carried5 (a : Args) (c : Dev nD) (h : Carried a (W10 m ρ c)) : Carried a (W12 m ρ c) where
  src := (W12_of_ne m ρ c main_v1 (by decide)).trans ((s5_keep_src _).trans h.src)
  dst := (W12_of_ne m ρ c main_v3 (by decide)).trans ((s5_keep_dst _).trans h.dst)
  batch := (W12_of_ne m ρ c main_arg1 (by decide)).trans ((s5_keep_batch _).trans h.batch)
  W1 := (W12_of_ne m ρ c main_arg4 (by decide)).trans ((s5_keep_W1 _).trans h.W1)
  b1 := (W12_of_ne m ρ c main_arg5 (by decide)).trans ((s5_keep_b1 _).trans h.b1)
  W2 := (W12_of_ne m ρ c main_arg6 (by decide)).trans ((s5_keep_W2 _).trans h.W2)
  b2 := (W12_of_ne m ρ c main_arg7 (by decide)).trans ((s5_keep_b2 _).trans h.b2)
  Wd1 := (W12_of_ne m ρ c main_arg8 (by decide)).trans ((s5_keep_Wd1 _).trans h.Wd1)
  bd1 := (W12_of_ne m ρ c main_arg9 (by decide)).trans ((s5_keep_bd1 _).trans h.bd1)
  Wd2 := (W12_of_ne m ρ c main_arg10 (by decide)).trans ((s5_keep_Wd2 _).trans h.Wd2)
  bd2 := (W12_of_ne m ρ c main_arg11 (by decide)).trans ((s5_keep_bd2 _).trans h.bd2)

/-- The features after layer 4, from the features before it and the region's output as one whole-array layer. -/
theorem feat_step5 (a : Args) (c : Dev nD) (h : Carried a (W10 m ρ c))
    (hx : W10 m ρ c (Proc.devRef .tc main_v94) = feat4 a)
    (hreg : (dat5 (V11 m ρ) c).arrAt 6 cfg5.N
      = layer (n := 100000) (V11 m ρ c (Pipeline.arrRef spec5 0)) (V11 m ρ c (Pipeline.arrRef spec5 1))
          (V11 m ρ c (Pipeline.arrRef spec5 2)) (V11 m ρ c (Pipeline.arrRef spec5 3))
          (V11 m ρ c (Pipeline.arrRef spec5 4)) (V11 m ρ c (Pipeline.arrRef spec5 5))) :
    W12 m ρ c (Proc.devRef .tc main_v115) = feat5 a := by
  have e : W12 m ρ c (Proc.devRef .tc main_v115) = (dat5 (V11 m ρ) c).arrAt 6 cfg5.N := W12_arr m ρ c 6
  rw [e, hreg]
  show layer (n := 100000) (after hostOps5 (W10 m ρ c) (Proc.devRef .tc main_v94))
      (after hostOps5 (W10 m ρ c) (Proc.devRef .tc main_v104))
      (after hostOps5 (W10 m ρ c) (Proc.devRef .tc main_v106))
      (after hostOps5 (W10 m ρ c) (Proc.devRef .tc main_v109))
      (after hostOps5 (W10 m ρ c) (Proc.devRef .tc main_v111))
      (after hostOps5 (W10 m ρ c) (Proc.devRef .tc main_v114)) = _
  rw [s5_keep_x, s5_agg, s5_w1, s5_b1, s5_w2, s5_b2, h.src, h.dst, hx, h.W1, h.b1, h.W2, h.b2]
  rfl

end Cert.KernelIdeal.KChain

end
-- ==== Proof.KStep6.lean ====
/-
  Layer 5 of the network in the kernel program: the stretch of host operations before region 6, and region 6.

  The stretch gathers the rows of x at src, scatter-adds them at dst into zeros (the neighbour sum), and cuts slice 5
  out of the four stacked weight arrays; it writes none of the buffers carried along and not x itself.  The region
  then leaves in its output array the layer applied to what the stretch left.  So if before the stretch x's buffer
  holds the features after layer 5 - 1 (after the encoder, for layer 0), after the region the output buffer holds the
  features after layer 5; and the carried buffers are as they were.
-/
import proofs.«124003_j47699906789506_1_alg».proof.Proof.KCarry

set_option maxRecDepth 16384

noncomputable section

namespace Cert.KernelIdeal.KChain

open Cert.KernelIdeal Cert.KernelIdeal.Gen Idealize.ShloMosaic Idealize.ShloMosaic.StableHlo Idealize.ShloMosaic.TcCoe Idealize.SL.Sem Cert.Net

section Stretch
variable (U : Valuation τ sig (Elt Ideal))

set_option maxHeartbeats 1000000 in
/-- The neighbour sum the stretch leaves: gathered at src, scatter-added at dst. -/
theorem s6_agg : after hostOps6 U (Proc.devRef .tc main_v125)
    = aggOf (U (Proc.devRef .tc main_v1)) (U (Proc.devRef .tc main_v3)) (U (Proc.devRef .tc main_v115)) := by
  simp only [hostOps6, List.flatten_cons, List.flatten_nil, List.append_nil, List.cons_append, List.nil_append]
  after_results
  rfl
set_option maxHeartbeats 1000000 in
/-- Slice 5 of the first stage's weights. -/
theorem s6_w1 : after hostOps6 U (Proc.devRef .tc main_v127) = mat5 (U (Proc.devRef .tc main_arg4)) := by
  simp only [hostOps6, List.flatten_cons, List.flatten_nil, List.append_nil, List.cons_append, List.nil_append]
  after_results
  rfl
set_option maxHeartbeats 1000000 in
/-- Slice 5 of the first stage's biases, as a one-row matrix. -/
theorem s6_b1 : after hostOps6 U (Proc.devRef .tc main_v130) = row64 (vec5 (U (Proc.devRef .tc main_arg5))) := by
  simp only [hostOps6, List.flatten_cons, List.flatten_nil, List.append_nil, List.cons_append, List.nil_append]
  after_results
  rfl
set_option maxHeartbeats 1000000 in
/-- Slice 5 of the second stage's weights. -/
theorem s6_w2 : after hostOps6 U (Proc.devRef .tc main_v132) = mat5 (U (Proc.devRef .tc main_arg6)) := by
  simp only [hostOps6, List.flatten_cons, List.flatten_nil, List.append_nil, List.cons_append, List.nil_append]
  after_results
  rfl
set_option maxHeartbeats 1000000 in
/-- Slice 5 of the second stage's biases, as a one-row matrix. -/
theorem s6_b2 : after hostOps6 U (Proc.devRef .tc main_v135) = row64 (vec5 (U (Proc.devRef .tc main_arg7))) := by
  simp only [hostOps6, List.flatten_cons, List.flatten_nil, List.append_nil, List.cons_append, List.nil_append]
  after_results
  rfl

set_option maxHeartbeats 1000000 in
/-- The stretch does not write main_v115. -/
theorem s6_keep_x : after hostOps6 U (Proc.devRef .tc main_v115) = U (Proc.devRef .tc main_v115) :=
  StableHlo.after_of_forall_not_mem _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_v1. -/
theorem s6_keep_src : after hostOps6 U (Proc.devRef .tc main_v1) = U (Proc.devRef .tc main_v1) :=
  StableHlo.after_of_forall_not_mem _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_v3. -/
theorem s6_keep_dst : after hostOps6 U (Proc.devRef .tc main_v3) = U (Proc.devRef .tc main_v3) :=
  StableHlo.after_of_forall_not_mem _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg1. -/
theorem s6_keep_batch : after hostOps6 U (Proc.devRef .tc main_arg1) = U (Proc.devRef .tc main_arg1) :=
  StableHlo.after_of_forall_not_mem _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg4. -/
theorem s6_keep_W1 : after hostOps6 U (Proc.devRef .tc main_arg4) = U (Proc.devRef .tc main_arg4) :=
  StableHlo.after_of_forall_not_mem _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg5. -/
theorem s6_keep_b1 : after hostOps6 U (Proc.devRef .tc main_arg5) = U (Proc.devRef .tc main_arg5) :=
  StableHlo.after_of_forall_not_mem _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg6. -/
theorem s6_keep_W2 : after hostOps6 U (Proc.devRef .tc main_arg6) = U (Proc.devRef .tc main_arg6) :=
  StableHlo.after_of_forall_not_mem _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg7. -/
theorem s6_keep_b2 : after hostOps6 U (Proc.devRef .tc main_arg7) = U (Proc.devRef .tc main_arg7) :=
  StableHlo.after_of_forall_not_mem _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg8. -/
theorem s6_keep_Wd1 : after hostOps6 U (Proc.devRef .tc main_arg8) = U (Proc.devRef .tc main_arg8) :=
  StableHlo.after_of_forall_not_mem _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg9. -/
theorem s6_keep_bd1 : after hostOps6 U (Proc.devRef .tc main_arg9) = U (Proc.devRef .tc main_arg9) :=
  StableHlo.after_of_forall_not_mem _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg10. -/
theorem s6_keep_Wd2 : after hostOps6 U (Proc.devRef .tc main_arg10) = U (Proc.devRef .tc main_arg10) :=
  StableHlo.after_of_forall_not_mem _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg11. -/
theorem s6_keep_bd2 : after hostOps6 U (Proc.devRef .tc main_arg11) = U (Proc.devRef .tc main_arg11) :=
  StableHlo.after_of_forall_not_mem _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Stretch

variable (m : (ℓ : Loc nD τ sig) → Buf (Elt Ideal) ℓ) (ρ : Dev nD → PrngReg)

/-- The carried buffers pass the stretch and the region untouched. -/
theorem carried6 (a : Args) (c : Dev nD) (h : Carried a (W12 m ρ c)) : Carried a (W14 m ρ c) where
  src := (W14_of_ne m ρ c main_v1 (by decide)).trans ((s6_keep_src _).trans h.src)
  dst := (W14_of_ne m ρ c main_v3 (by decide)).trans ((s6_keep_dst _).trans h.dst)
  batch := (W14_of_ne m ρ c main_arg1 (by decide)).trans ((s6_keep_batch _).trans h.batch)
  W1 := (W14_of_ne m ρ c main_arg4 (by decide)).trans ((s6_keep_W1 _).trans h.W1)
  b1 := (W14_of_ne m ρ c main_arg5 (by decide)).trans ((s6_keep_b1 _).trans h.b1)
  W2 := (W14_of_ne m ρ c main_arg6 (by decide)).trans ((s6_keep_W2 _).trans h.W2)
  b2 := (W14_of_ne m ρ c main_arg7 (by decide)).trans ((s6_keep_b2 _).trans h.b2)
  Wd1 := (W14_of_ne m ρ c main_arg8 (by decide)).trans ((s6_keep_Wd1 _).trans h.Wd1)
  bd1 := (W14_of_ne m ρ c main_arg9 (by decide)).trans ((s6_keep_bd1 _).trans h.bd1)
  Wd2 := (W14_of_ne m ρ c main_arg10 (by decide)).trans ((s6_keep_Wd2 _).trans h.Wd2)
  bd2 := (W14_of_ne m ρ c main_arg11 (by decide)).trans ((s6_keep_bd2 _).trans h.bd2)

/-- The features after layer 5, from the features before it and the region's output as one whole-array layer. -/
theorem feat_step6 (a : Args) (c : Dev nD) (h : Carried a (W12 m ρ c))
    (hx : W12 m ρ c (Proc.devRef .tc main_v115) = feat5 a)
    (hreg : (dat6 (V13 m ρ) c).arrAt 6 cfg6.N
      = layer (n := 100000) (V13 m ρ c (Pipeline.arrRef spec6 0)) (V13 m ρ c (Pipeline.arrRef spec6 1))
          (V13 m ρ c (Pipeline.arrRef spec6 2)) (V13 m ρ c (Pipeline.arrRef spec6 3))
          (V13 m ρ c (Pipeline.arrRef spec6 4)) (V13 m ρ c (Pipeline.arrRef spec6 5))) :
    W14 m ρ c (Proc.devRef .tc main_v136) = feat6 a := by
  have e : W14 m ρ c (Proc.devRef .tc main_v136) = (dat6 (V13 m ρ) c).arrAt 6 cfg6.N := W14_arr m ρ c 6
  rw [e, hreg]
  show layer (n := 100000) (after hostOps6 (W12 m ρ c) (Proc.devRef .tc main_v115))
      (after hostOps6 (W12 m ρ c) (Proc.devRef .tc main_v125))
      (after hostOps6 (W12 m ρ c) (Proc.devRef .tc main_v127))
      (after hostOps6 (W12 m ρ c) (Proc.devRef .tc main_v130))
      (after hostOps6 (W12 m ρ c) (Proc.devRef .tc main_v132))
      (after hostOps6 (W12 m ρ c) (Proc.devRef .tc main_v135)) = _
  rw [s6_keep_x, s6_agg, s6_w1, s6_b1, s6_w2, s6_b2, h.src, h.dst, hx, h.W1, h.b1, h.W2, h.b2]
  rfl

end Cert.KernelIdeal.KChain

end
-- ==== Proof.KStep7.lean ====
/-
  Layer 6 of the network in the kernel program: the stretch of host operations before region 7, and region 7.

  The stretch gathers the rows of x at src, scatter-adds them at dst into zeros (the neighbour sum), and cuts slice 6
  out of the four stacked weight arrays; it writes none of the buffers carried along and not x itself.  The region
  then leaves in its output array the layer applied to what the stretch left.  So if before the stretch x's buffer
  holds the features after layer 6 - 1 (after the encoder, for layer 0), after the region the output buffer holds the
  features after layer 6; and the carried buffers are as they were.
-/
import proofs.«124003_j47699906789506_1_alg».proof.Proof.KCarry

set_option maxRecDepth 16384

noncomputable section

namespace Cert.KernelIdeal.KChain

open Cert.KernelIdeal Cert.KernelIdeal.Gen Idealize.ShloMosaic Idealize.ShloMosaic.StableHlo Idealize.ShloMosaic.TcCoe Idealize.SL.Sem Cert.Net

section Stretch
variable (U : Valuation τ sig (Elt Ideal))

set_option maxHeartbeats 1000000 in
/-- The neighbour sum the stretch leaves: gathered at src, scatter-added at dst. -/
theorem s7_agg : after hostOps7 U (Proc.devRef .tc main_v146)
    = aggOf (U (Proc.devRef .tc main_v1)) (U (Proc.devRef .tc main_v3)) (U (Proc.devRef .tc main_v136)) := by
  simp only [hostOps7, List.flatten_cons, List.flatten_nil, List.append_nil, List.cons_append, List.nil_append]
  after_results
  rfl
set_option maxHeartbeats 1000000 in
/-- Slice 6 of the first stage's weights. -/
theorem s7_w1 : after hostOps7 U (Proc.devRef .tc main_v148) = mat6 (U (Proc.devRef .tc main_arg4)) := by
  simp only [hostOps7, List.flatten_cons, List.flatten_nil, List.append_nil, List.cons_append, List.nil_append]
  after_results
  rfl
set_option maxHeartbeats 1000000 in
/-- Slice 6 of the first stage's biases, as a one-row matrix. -/
theorem s7_b1 : after hostOps7 U (Proc.devRef .tc main_v151) = row64 (vec6 (U (Proc.devRef .tc main_arg5))) := by
  simp only [hostOps7, List.flatten_cons, List.flatten_nil, List.append_nil, List.cons_append, List.nil_append]
  after_results
  rfl
set_option maxHeartbeats 1000000 in
/-- Slice 6 of the second stage's weights. -/
theorem s7_w2 : after hostOps7 U (Proc.devRef .tc main_v153) = mat6 (U (Proc.devRef .tc main_arg6)) := by
  simp only [hostOps7, List.flatten_cons, List.flatten_nil, List.append_nil, List.cons_append, List.nil_append]
  after_results
  rfl
set_option maxHeartbeats 1000000 in
/-- Slice 6 of the second stage's biases, as a one-row matrix. -/
theorem s7_b2 : after hostOps7 U (Proc.devRef .tc main_v156) = row64 (vec6 (U (Proc.devRef .tc main_arg7))) := by
  simp only [hostOps7, List.flatten_cons, List.flatten_nil, List.append_nil, List.cons_append, List.nil_append]
  after_results
  rfl

set_option maxHeartbeats 1000000 in
/-- The stretch does not write main_v136. -/
theorem s7_keep_x : after hostOps7 U (Proc.devRef .tc main_v136) = U (Proc.devRef .tc main_v136) :=
  StableHlo.after_of_forall_not_mem _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_v1. -/
theorem s7_keep_src : after hostOps7 U (Proc.devRef .tc main_v1) = U (Proc.devRef .tc main_v1) :=
  StableHlo.after_of_forall_not_mem _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_v3. -/
theorem s7_keep_dst : after hostOps7 U (Proc.devRef .tc main_v3) = U (Proc.devRef .tc main_v3) :=
  StableHlo.after_of_forall_not_mem _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg1. -/
theorem s7_keep_batch : after hostOps7 U (Proc.devRef .tc main_arg1) = U (Proc.devRef .tc main_arg1) :=
  StableHlo.after_of_forall_not_mem _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg4. -/
theorem s7_keep_W1 : after hostOps7 U (Proc.devRef .tc main_arg4) = U (Proc.devRef .tc main_arg4) :=
  StableHlo.after_of_forall_not_mem _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg5. -/
theorem s7_keep_b1 : after hostOps7 U (Proc.devRef .tc main_arg5) = U (Proc.devRef .tc main_arg5) :=
  StableHlo.after_of_forall_not_mem _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg6. -/
theorem s7_keep_W2 : after hostOps7 U (Proc.devRef .tc main_arg6) = U (Proc.devRef .tc main_arg6) :=
  StableHlo.after_of_forall_not_mem _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg7. -/
theorem s7_keep_b2 : after hostOps7 U (Proc.devRef .tc main_arg7) = U (Proc.devRef .tc main_arg7) :=
  StableHlo.after_of_forall_not_mem _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg8. -/
theorem s7_keep_Wd1 : after hostOps7 U (Proc.devRef .tc main_arg8) = U (Proc.devRef .tc main_arg8) :=
  StableHlo.after_of_forall_not_mem _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg9. -/
theorem s7_keep_bd1 : after hostOps7 U (Proc.devRef .tc main_arg9) = U (Proc.devRef .tc main_arg9) :=
  StableHlo.after_of_forall_not_mem _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg10. -/
theorem s7_keep_Wd2 : after hostOps7 U (Proc.devRef .tc main_arg10) = U (Proc.devRef .tc main_arg10) :=
  StableHlo.after_of_forall_not_mem _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg11. -/
theorem s7_keep_bd2 : after hostOps7 U (Proc.devRef .tc main_arg11) = U (Proc.devRef .tc main_arg11) :=
  StableHlo.after_of_forall_not_mem _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Stretch

variable (m : (ℓ : Loc nD τ sig) → Buf (Elt Ideal) ℓ) (ρ : Dev nD → PrngReg)

/-- The carried buffers pass the stretch and the region untouched. -/
theorem carried7 (a : Args) (c : Dev nD) (h : Carried a (W14 m ρ c)) : Carried a (W16 m ρ c) where
  src := (W16_of_ne m ρ c main_v1 (by decide)).trans ((s7_keep_src _).trans h.src)
  dst := (W16_of_ne m ρ c main_v3 (by decide)).trans ((s7_keep_dst _).trans h.dst)
  batch := (W16_of_ne m ρ c main_arg1 (by decide)).trans ((s7_keep_batch _).trans h.batch)
  W1 := (W16_of_ne m ρ c main_arg4 (by decide)).trans ((s7_keep_W1 _).trans h.W1)
  b1 := (W16_of_ne m ρ c main_arg5 (by decide)).trans ((s7_keep_b1 _).trans h.b1)
  W2 := (W16_of_ne m ρ c main_arg6 (by decide)).trans ((s7_keep_W2 _).trans h.W2)
  b2 := (W16_of_ne m ρ c main_arg7 (by decide)).trans ((s7_keep_b2 _).trans h.b2)
  Wd1 := (W16_of_ne m ρ c main_arg8 (by decide)).trans ((s7_keep_Wd1 _).trans h.Wd1)
  bd1 := (W16_of_ne m ρ c main_arg9 (by decide)).trans ((s7_keep_bd1 _).trans h.bd1)
  Wd2 := (W16_of_ne m ρ c main_arg10 (by decide)).trans ((s7_keep_Wd2 _).trans h.Wd2)
  bd2 := (W16_of_ne m ρ c main_arg11 (by decide)).trans ((s7_keep_bd2 _).trans h.bd2)

/-- The features after layer 6, from the features before it and the region's output as one whole-array layer. -/
theorem feat_step7 (a : Args) (c : Dev nD) (h : Carried a (W14 m ρ c))
    (hx : W14 m ρ c (Proc.devRef .tc main_v136) = feat6 a)
    (hreg : (dat7 (V15 m ρ) c).arrAt 6 cfg7.N
      = layer (n := 100000) (V15 m ρ c (Pipeline.arrRef spec7 0)) (V15 m ρ c (Pipeline.arrRef spec7 1))
          (V15 m ρ c (Pipeline.arrRef spec7 2)) (V15 m ρ c (Pipeline.arrRef spec7 3))
          (V15 m ρ c (Pipeline.arrRef spec7 4)) (V15 m ρ c (Pipeline.arrRef spec7 5))) :
    W16 m ρ c (Proc.devRef .tc main_v157) = feat7 a := by
  have e : W16 m ρ c (Proc.devRef .tc main_v157) = (dat7 (V15 m ρ) c).arrAt 6 cfg7.N := W16_arr m ρ c 6
  rw [e, hreg]
  show layer (n := 100000) (after hostOps7 (W14 m ρ c) (Proc.devRef .tc main_v136))
      (after hostOps7 (W14 m ρ c) (Proc.devRef .tc main_v146))
      (after hostOps7 (W14 m ρ c) (Proc.devRef .tc main_v148))
      (after hostOps7 (W14 m ρ c) (Proc.devRef .tc main_v151))
      (after hostOps7 (W14 m ρ c) (Proc.devRef .tc main_v153))
      (after hostOps7 (W14 m ρ c) (Proc.devRef .tc main_v156)) = _
  rw [s7_keep_x, s7_agg, s7_w1, s7_b1, s7_w2, s7_b2, h.src, h.dst, hx, h.W1, h.b1, h.W2, h.b2]
  rfl

end Cert.KernelIdeal.KChain

end
-- ==== Proof.KStep8.lean ====
/-
  Layer 7 of the network in the kernel program: the stretch of host operations before region 8, and region 8.

  The stretch gathers the rows of x at src, scatter-adds them at dst into zeros (the neighbour sum), and cuts slice 7
  out of the four stacked weight arrays; it writes none of the buffers carried along and not x itself.  The region
  then leaves in its output array the layer applied to what the stretch left.  So if before the stretch x's buffer
  holds the features after layer 7 - 1 (after the encoder, for layer 0), after the region the output buffer holds the
  features after layer 7; and the carried buffers are as they were.
-/
import proofs.«124003_j47699906789506_1_alg».proof.Proof.KCarry

set_option maxRecDepth 16384

noncomputable section

namespace Cert.KernelIdeal.KChain

open Cert.KernelIdeal Cert.KernelIdeal.Gen Idealize.ShloMosaic Idealize.ShloMosaic.StableHlo Idealize.ShloMosaic.TcCoe Idealize.SL.Sem Cert.Net

section Stretch
variable (U : Valuation τ sig (Elt Ideal))

set_option maxHeartbeats 1000000 in
/-- The neighbour sum the stretch leaves: gathered at src, scatter-added at dst. -/
theorem s8_agg : after hostOps8 U (Proc.devRef .tc main_v167)
    = aggOf (U (Proc.devRef .tc main_v1)) (U (Proc.devRef .tc main_v3)) (U (Proc.devRef .tc main_v157)) := by
  simp only [hostOps8, List.flatten_cons, List.flatten_nil, List.append_nil, List.cons_append, List.nil_append]
  after_results
  rfl
set_option maxHeartbeats 1000000 in
/-- Slice 7 of the first stage's weights. -/
theorem s8_w1 : after hostOps8 U (Proc.devRef .tc main_v169) = mat7 (U (Proc.devRef .tc main_arg4)) := by
  simp only [hostOps8, List.flatten_cons, List.flatten_nil, List.append_nil, List.cons_append, List.nil_append]
  after_results
  rfl
set_option maxHeartbeats 1000000 in
/-- Slice 7 of the first stage's biases, as a one-row matrix. -/
theorem s8_b1 : after hostOps8 U (Proc.devRef .tc main_v172) = row64 (vec7 (U (Proc.devRef .tc main_arg5))) := by
  simp only [hostOps8, List.flatten_cons, List.flatten_nil, List.append_nil, List.cons_append, List.nil_append]
  after_results
  rfl
set_option maxHeartbeats 1000000 in
/-- Slice 7 of the second stage's weights. -/
theorem s8_w2 : after hostOps8 U (Proc.devRef .tc main_v174) = mat7 (U (Proc.devRef .tc main_arg6)) := by
  simp only [hostOps8, List.flatten_cons, List.flatten_nil, List.append_nil, List.cons_append, List.nil_append]
  after_results
  rfl
set_option maxHeartbeats 1000000 in
/-- Slice 7 of the second stage's biases, as a one-row matrix. -/
theorem s8_b2 : after hostOps8 U (Proc.devRef .tc main_v177) = row64 (vec7 (U (Proc.devRef .tc main_arg7))) := by
  simp only [hostOps8, List.flatten_cons, List.flatten_nil, List.append_nil, List.cons_append, List.nil_append]
  after_results
  rfl

set_option maxHeartbeats 1000000 in
/-- The stretch does not write main_v157. -/
theorem s8_keep_x : after hostOps8 U (Proc.devRef .tc main_v157) = U (Proc.devRef .tc main_v157) :=
  StableHlo.after_of_forall_not_mem _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_v1. -/
theorem s8_keep_src : after hostOps8 U (Proc.devRef .tc main_v1) = U (Proc.devRef .tc main_v1) :=
  StableHlo.after_of_forall_not_mem _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_v3. -/
theorem s8_keep_dst : after hostOps8 U (Proc.devRef .tc main_v3) = U (Proc.devRef .tc main_v3) :=
  StableHlo.after_of_forall_not_mem _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg1. -/
theorem s8_keep_batch : after hostOps8 U (Proc.devRef .tc main_arg1) = U (Proc.devRef .tc main_arg1) :=
  StableHlo.after_of_forall_not_mem _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg4. -/
theorem s8_keep_W1 : after hostOps8 U (Proc.devRef .tc main_arg4) = U (Proc.devRef .tc main_arg4) :=
  StableHlo.after_of_forall_not_mem _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg5. -/
theorem s8_keep_b1 : after hostOps8 U (Proc.devRef .tc main_arg5) = U (Proc.devRef .tc main_arg5) :=
  StableHlo.after_of_forall_not_mem _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg6. -/
theorem s8_keep_W2 : after hostOps8 U (Proc.devRef .tc main_arg6) = U (Proc.devRef .tc main_arg6) :=
  StableHlo.after_of_forall_not_mem _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg7. -/
theorem s8_keep_b2 : after hostOps8 U (Proc.devRef .tc main_arg7) = U (Proc.devRef .tc main_arg7) :=
  StableHlo.after_of_forall_not_mem _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg8. -/
theorem s8_keep_Wd1 : after hostOps8 U (Proc.devRef .tc main_arg8) = U (Proc.devRef .tc main_arg8) :=
  StableHlo.after_of_forall_not_mem _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg9. -/
theorem s8_keep_bd1 : after hostOps8 U (Proc.devRef .tc main_arg9) = U (Proc.devRef .tc main_arg9) :=
  StableHlo.after_of_forall_not_mem _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg10. -/
theorem s8_keep_Wd2 : after hostOps8 U (Proc.devRef .tc main_arg10) = U (Proc.devRef .tc main_arg10) :=
  StableHlo.after_of_forall_not_mem _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg11. -/
theorem s8_keep_bd2 : after hostOps8 U (Proc.devRef .tc main_arg11) = U (Proc.devRef .tc main_arg11) :=
  StableHlo.after_of_forall_not_mem _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Stretch

variable (m : (ℓ : Loc nD τ sig) → Buf (Elt Ideal) ℓ) (ρ : Dev nD → PrngReg)

/-- The carried buffers pass the stretch and the region untouched. -/
theorem carried8 (a : Args) (c : Dev nD) (h : Carried a (W16 m ρ c)) : Carried a (W18 m ρ c) where
  src := (W18_of_ne m ρ c main_v1 (by decide)).trans ((s8_keep_src _).trans h.src)
  dst := (W18_of_ne m ρ c main_v3 (by decide)).trans ((s8_keep_dst _).trans h.dst)
  batch := (W18_of_ne m ρ c main_arg1 (by decide)).trans ((s8_keep_batch _).trans h.batch)
  W1 := (W18_of_ne m ρ c main_arg4 (by decide)).trans ((s8_keep_W1 _).trans h.W1)
  b1 := (W18_of_ne m ρ c main_arg5 (by decide)).trans ((s8_keep_b1 _).trans h.b1)
  W2 := (W18_of_ne m ρ c main_arg6 (by decide)).trans ((s8_keep_W2 _).trans h.W2)
  b2 := (W18_of_ne m ρ c main_arg7 (by decide)).trans ((s8_keep_b2 _).trans h.b2)
  Wd1 := (W18_of_ne m ρ c main_arg8 (by decide)).trans ((s8_keep_Wd1 _).trans h.Wd1)
  bd1 := (W18_of_ne m ρ c main_arg9 (by decide)).trans ((s8_keep_bd1 _).trans h.bd1)
  Wd2 := (W18_of_ne m ρ c main_arg10 (by decide)).trans ((s8_keep_Wd2 _).trans h.Wd2)
  bd2 := (W18_of_ne m ρ c main_arg11 (by decide)).trans ((s8_keep_bd2 _).trans h.bd2)

/-- The features after layer 7, from the features before it and the region's output as one whole-array layer. -/
theorem feat_step8 (a : Args) (c : Dev nD) (h : Carried a (W16 m ρ c))
    (hx : W16 m ρ c (Proc.devRef .tc main_v157) = feat7 a)
    (hreg : (dat8 (V17 m ρ) c).arrAt 6 cfg8.N
      = layer (n := 100000) (V17 m ρ c (Pipeline.arrRef spec8 0)) (V17 m ρ c (Pipeline.arrRef spec8 1))
          (V17 m ρ c (Pipeline.arrRef spec8 2)) (V17 m ρ c (Pipeline.arrRef spec8 3))
          (V17 m ρ c (Pipeline.arrRef spec8 4)) (V17 m ρ c (Pipeline.arrRef spec8 5))) :
    W18 m ρ c (Proc.devRef .tc main_v178) = feat8 a := by
  have e : W18 m ρ c (Proc.devRef .tc main_v178) = (dat8 (V17 m ρ) c).arrAt 6 cfg8.N := W18_arr m ρ c 6
  rw [e, hreg]
  show layer (n := 100000) (after hostOps8 (W16 m ρ c) (Proc.devRef .tc main_v157))
      (after hostOps8 (W16 m ρ c) (Proc.devRef .tc main_v167))
      (after hostOps8 (W16 m ρ c) (Proc.devRef .tc main_v169))
      (after hostOps8 (W16 m ρ c) (Proc.devRef .tc main_v172))
      (after hostOps8 (W16 m ρ c) (Proc.devRef .tc main_v174))
      (after hostOps8 (W16 m ρ c) (Proc.devRef .tc main_v177)) = _
  rw [s8_keep_x, s8_agg, s8_w1, s8_b1, s8_w2, s8_b2, h.src, h.dst, hx, h.W1, h.b1, h.W2, h.b2]
  rfl

end Cert.KernelIdeal.KChain

end
-- ==== Proof.KStep9.lean ====
/-
  Layer 8 of the network in the kernel program: the stretch of host operations before region 9, and region 9.

  The stretch gathers the rows of x at src, scatter-adds them at dst into zeros (the neighbour sum), and cuts slice 8
  out of the four stacked weight arrays; it writes none of the buffers carried along and not x itself.  The region
  then leaves in its output array the layer applied to what the stretch left.  So if before the stretch x's buffer
  holds the features after layer 8 - 1 (after the encoder, for layer 0), after the region the output buffer holds the
  features after layer 8; and the carried buffers are as they were.
-/
import proofs.«124003_j47699906789506_1_alg».proof.Proof.KCarry

set_option maxRecDepth 16384

noncomputable section

namespace Cert.KernelIdeal.KChain

open Cert.KernelIdeal Cert.KernelIdeal.Gen Idealize.ShloMosaic Idealize.ShloMosaic.StableHlo Idealize.ShloMosaic.TcCoe Idealize.SL.Sem Cert.Net

section Stretch
variable (U : Valuation τ sig (Elt Ideal))

set_option maxHeartbeats 1000000 in
/-- The neighbour sum the stretch leaves: gathered at src, scatter-added at dst. -/
theorem s9_agg : after hostOps9 U (Proc.devRef .tc main_v188)
    = aggOf (U (Proc.devRef .tc main_v1)) (U (Proc.devRef .tc main_v3)) (U (Proc.devRef .tc main_v178)) := by
  simp only [hostOps9, List.flatten_cons, List.flatten_nil, List.append_nil, List.cons_append, List.nil_append]
  after_results
  rfl
set_option maxHeartbeats 1000000 in
/-- Slice 8 of the first stage's weights. -/
theorem s9_w1 : after hostOps9 U (Proc.devRef .tc main_v190) = mat8 (U (Proc.devRef .tc main_arg4)) := by
  simp only [hostOps9, List.flatten_cons, List.flatten_nil, List.append_nil, List.cons_append, List.nil_append]
  after_results
  rfl
set_option maxHeartbeats 1000000 in
/-- Slice 8 of the first stage's biases, as a one-row matrix. -/
theorem s9_b1 : after hostOps9 U (Proc.devRef .tc main_v193) = row64 (vec8 (U (Proc.devRef .tc main_arg5))) := by
  simp only [hostOps9, List.flatten_cons, List.flatten_nil, List.append_nil, List.cons_append, List.nil_append]
  after_results
  rfl
set_option maxHeartbeats 1000000 in
/-- Slice 8 of the second stage's weights. -/
theorem s9_w2 : after hostOps9 U (Proc.devRef .tc main_v195) = mat8 (U (Proc.devRef .tc main_arg6)) := by
  simp only [hostOps9, List.flatten_cons, List.flatten_nil, List.append_nil, List.cons_append, List.nil_append]
  after_results
  rfl
set_option maxHeartbeats 1000000 in
/-- Slice 8 of the second stage's biases, as a one-row matrix. -/
theorem s9_b2 : after hostOps9 U (Proc.devRef .tc main_v198) = row64 (vec8 (U (Proc.devRef .tc main_arg7))) := by
  simp only [hostOps9, List.flatten_cons, List.flatten_nil, List.append_nil, List.cons_append, List.nil_append]
  after_results
  rfl

set_option maxHeartbeats 1000000 in
/-- The stretch does not write main_v178. -/
theorem s9_keep_x : after hostOps9 U (Proc.devRef .tc main_v178) = U (Proc.devRef .tc main_v178) :=
  StableHlo.after_of_forall_not_mem _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_v1. -/
theorem s9_keep_src : after hostOps9 U (Proc.devRef .tc main_v1) = U (Proc.devRef .tc main_v1) :=
  StableHlo.after_of_forall_not_mem _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_v3. -/
theorem s9_keep_dst : after hostOps9 U (Proc.devRef .tc main_v3) = U (Proc.devRef .tc main_v3) :=
  StableHlo.after_of_forall_not_mem _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg1. -/
theorem s9_keep_batch : after hostOps9 U (Proc.devRef .tc main_arg1) = U (Proc.devRef .tc main_arg1) :=
  StableHlo.after_of_forall_not_mem _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg4. -/
theorem s9_keep_W1 : after hostOps9 U (Proc.devRef .tc main_arg4) = U (Proc.devRef .tc main_arg4) :=
  StableHlo.after_of_forall_not_mem _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg5. -/
theorem s9_keep_b1 : after hostOps9 U (Proc.devRef .tc main_arg5) = U (Proc.devRef .tc main_arg5) :=
  StableHlo.after_of_forall_not_mem _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg6. -/
theorem s9_keep_W2 : after hostOps9 U (Proc.devRef .tc main_arg6) = U (Proc.devRef .tc main_arg6) :=
  StableHlo.after_of_forall_not_mem _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg7. -/
theorem s9_keep_b2 : after hostOps9 U (Proc.devRef .tc main_arg7) = U (Proc.devRef .tc main_arg7) :=
  StableHlo.after_of_forall_not_mem _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg8. -/
theorem s9_keep_Wd1 : after hostOps9 U (Proc.devRef .tc main_arg8) = U (Proc.devRef .tc main_arg8) :=
  StableHlo.after_of_forall_not_mem _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg9. -/
theorem s9_keep_bd1 : after hostOps9 U (Proc.devRef .tc main_arg9) = U (Proc.devRef .tc main_arg9) :=
  StableHlo.after_of_forall_not_mem _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg10. -/
theorem s9_keep_Wd2 : after hostOps9 U (Proc.devRef .tc main_arg10) = U (Proc.devRef .tc main_arg10) :=
  StableHlo.after_of_forall_not_mem _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg11. -/
theorem s9_keep_bd2 : after hostOps9 U (Proc.devRef .tc main_arg11) = U (Proc.devRef .tc main_arg11) :=
  StableHlo.after_of_forall_not_mem _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Stretch

variable (m : (ℓ : Loc nD τ sig) → Buf (Elt Ideal) ℓ) (ρ : Dev nD → PrngReg)

/-- The carried buffers pass the stretch and the region untouched. -/
theorem carried9 (a : Args) (c : Dev nD) (h : Carried a (W18 m ρ c)) : Carried a (W20 m ρ c) where
  src := (W20_of_ne m ρ c main_v1 (by decide)).trans ((s9_keep_src _).trans h.src)
  dst := (W20_of_ne m ρ c main_v3 (by decide)).trans ((s9_keep_dst _).trans h.dst)
  batch := (W20_of_ne m ρ c main_arg1 (by decide)).trans ((s9_keep_batch _).trans h.batch)
  W1 := (W20_of_ne m ρ c main_arg4 (by decide)).trans ((s9_keep_W1 _).trans h.W1)
  b1 := (W20_of_ne m ρ c main_arg5 (by decide)).trans ((s9_keep_b1 _).trans h.b1)
  W2 := (W20_of_ne m ρ c main_arg6 (by decide)).trans ((s9_keep_W2 _).trans h.W2)
  b2 := (W20_of_ne m ρ c main_arg7 (by decide)).trans ((s9_keep_b2 _).trans h.b2)
  Wd1 := (W20_of_ne m ρ c main_arg8 (by decide)).trans ((s9_keep_Wd1 _).trans h.Wd1)
  bd1 := (W20_of_ne m ρ c main_arg9 (by decide)).trans ((s9_keep_bd1 _).trans h.bd1)
  Wd2 := (W20_of_ne m ρ c main_arg10 (by decide)).trans ((s9_keep_Wd2 _).trans h.Wd2)
  bd2 := (W20_of_ne m ρ c main_arg11 (by decide)).trans ((s9_keep_bd2 _).trans h.bd2)

/-- The features after layer 8, from the features before it and the region's output as one whole-array layer. -/
theorem feat_step9 (a : Args) (c : Dev nD) (h : Carried a (W18 m ρ c))
    (hx : W18 m ρ c (Proc.devRef .tc main_v178) = feat8 a)
    (hreg : (dat9 (V19 m ρ) c).arrAt 6 cfg9.N
      = layer (n := 100000) (V19 m ρ c (Pipeline.arrRef spec9 0)) (V19 m ρ c (Pipeline.arrRef spec9 1))
          (V19 m ρ c (Pipeline.arrRef spec9 2)) (V19 m ρ c (Pipeline.arrRef spec9 3))
          (V19 m ρ c (Pipeline.arrRef spec9 4)) (V19 m ρ c (Pipeline.arrRef spec9 5))) :
    W20 m ρ c (Proc.devRef .tc main_v199) = feat9 a := by
  have e : W20 m ρ c (Proc.devRef .tc main_v199) = (dat9 (V19 m ρ) c).arrAt 6 cfg9.N := W20_arr m ρ c 6
  rw [e, hreg]
  show layer (n := 100000) (after hostOps9 (W18 m ρ c) (Proc.devRef .tc main_v178))
      (after hostOps9 (W18 m ρ c) (Proc.devRef .tc main_v188))
      (after hostOps9 (W18 m ρ c) (Proc.devRef .tc main_v190))
      (after hostOps9 (W18 m ρ c) (Proc.devRef .tc main_v193))
      (after hostOps9 (W18 m ρ c) (Proc.devRef .tc main_v195))
      (after hostOps9 (W18 m ρ c) (Proc.devRef .tc main_v198)) = _
  rw [s9_keep_x, s9_agg, s9_w1, s9_b1, s9_w2, s9_b2, h.src, h.dst, hx, h.W1, h.b1, h.W2, h.b2]
  rfl

end Cert.KernelIdeal.KChain

end
-- ==== Proof.KStep10.lean ====
/-
  Layer 9 of the network in the kernel program: the stretch of host operations before region 10, and region 10.

  The stretch gathers the rows of x at src, scatter-adds them at dst into zeros (the neighbour sum), and cuts slice 9
  out of the four stacked weight arrays; it writes none of the buffers carried along and not x itself.  The region
  then leaves in its output array the layer applied to what the stretch left.  So if before the stretch x's buffer
  holds the features after layer 9 - 1 (after the encoder, for layer 0), after the region the output buffer holds the
  features after layer 9; and the carried buffers are as they were.
-/
import proofs.«124003_j47699906789506_1_alg».proof.Proof.KCarry

set_option maxRecDepth 16384

noncomputable section

namespace Cert.KernelIdeal.KChain

open Cert.KernelIdeal Cert.KernelIdeal.Gen Idealize.ShloMosaic Idealize.ShloMosaic.StableHlo Idealize.ShloMosaic.TcCoe Idealize.SL.Sem Cert.Net

section Stretch
variable (U : Valuation τ sig (Elt Ideal))

set_option maxHeartbeats 1000000 in
/-- The neighbour sum the stretch leaves: gathered at src, scatter-added at dst. -/
theorem s10_agg : after hostOps10 U (Proc.devRef .tc main_v209)
    = aggOf (U (Proc.devRef .tc main_v1)) (U (Proc.devRef .tc main_v3)) (U (Proc.devRef .tc main_v199)) := by
  simp only [hostOps10, List.flatten_cons, List.flatten_nil, List.append_nil, List.cons_append, List.nil_append]
  after_results
  rfl
set_option maxHeartbeats 1000000 in
/-- Slice 9 of the first stage's weights. -/
theorem s10_w1 : after hostOps10 U (Proc.devRef .tc main_v211) = mat9 (U (Proc.devRef .tc main_arg4)) := by
  simp only [hostOps10, List.flatten_cons, List.flatten_nil, List.append_nil, List.cons_append, List.nil_append]
  after_results
  rfl
set_option maxHeartbeats 1000000 in
/-- Slice 9 of the first stage's biases, as a one-row matrix. -/
theorem s10_b1 : after hostOps10 U (Proc.devRef .tc main_v214) = row64 (vec9 (U (Proc.devRef .tc main_arg5))) := by
  simp only [hostOps10, List.flatten_cons, List.flatten_nil, List.append_nil, List.cons_append, List.nil_append]
  after_results
  rfl
set_option maxHeartbeats 1000000 in
/-- Slice 9 of the second stage's weights. -/
theorem s10_w2 : after hostOps10 U (Proc.devRef .tc main_v216) = mat9 (U (Proc.devRef .tc main_arg6)) := by
  simp only [hostOps10, List.flatten_cons, List.flatten_nil, List.append_nil, List.cons_append, List.nil_append]
  after_results
  rfl
set_option maxHeartbeats 1000000 in
/-- Slice 9 of the second stage's biases, as a one-row matrix. -/
theorem s10_b2 : after hostOps10 U (Proc.devRef .tc main_v219) = row64 (vec9 (U (Proc.devRef .tc main_arg7))) := by
  simp only [hostOps10, List.flatten_cons, List.flatten_nil, List.append_nil, List.cons_append, List.nil_append]
  after_results
  rfl

set_option maxHeartbeats 1000000 in
/-- The stretch does not write main_v199. -/
theorem s10_keep_x : after hostOps10 U (Proc.devRef .tc main_v199) = U (Proc.devRef .tc main_v199) :=
  StableHlo.after_of_forall_not_mem _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_v1. -/
theorem s10_keep_src : after hostOps10 U (Proc.devRef .tc main_v1) = U (Proc.devRef .tc main_v1) :=
  StableHlo.after_of_forall_not_mem _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_v3. -/
theorem s10_keep_dst : after hostOps10 U (Proc.devRef .tc main_v3) = U (Proc.devRef .tc main_v3) :=
  StableHlo.after_of_forall_not_mem _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg1. -/
theorem s10_keep_batch : after hostOps10 U (Proc.devRef .tc main_arg1) = U (Proc.devRef .tc main_arg1) :=
  StableHlo.after_of_forall_not_mem _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg4. -/
theorem s10_keep_W1 : after hostOps10 U (Proc.devRef .tc main_arg4) = U (Proc.devRef .tc main_arg4) :=
  StableHlo.after_of_forall_not_mem _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg5. -/
theorem s10_keep_b1 : after hostOps10 U (Proc.devRef .tc main_arg5) = U (Proc.devRef .tc main_arg5) :=
  StableHlo.after_of_forall_not_mem _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg6. -/
theorem s10_keep_W2 : after hostOps10 U (Proc.devRef .tc main_arg6) = U (Proc.devRef .tc main_arg6) :=
  StableHlo.after_of_forall_not_mem _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg7. -/
theorem s10_keep_b2 : after hostOps10 U (Proc.devRef .tc main_arg7) = U (Proc.devRef .tc main_arg7) :=
  StableHlo.after_of_forall_not_mem _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg8. -/
theorem s10_keep_Wd1 : after hostOps10 U (Proc.devRef .tc main_arg8) = U (Proc.devRef .tc main_arg8) :=
  StableHlo.after_of_forall_not_mem _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg9. -/
theorem s10_keep_bd1 : after hostOps10 U (Proc.devRef .tc main_arg9) = U (Proc.devRef .tc main_arg9) :=
  StableHlo.after_of_forall_not_mem _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg10. -/
theorem s10_keep_Wd2 : after hostOps10 U (Proc.devRef .tc main_arg10) = U (Proc.devRef .tc main_arg10) :=
  StableHlo.after_of_forall_not_mem _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg11. -/
theorem s10_keep_bd2 : after hostOps10 U (Proc.devRef .tc main_arg11) = U (Proc.devRef .tc main_arg11) :=
  StableHlo.after_of_forall_not_mem _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Stretch

variable (m : (ℓ : Loc nD τ sig) → Buf (Elt Ideal) ℓ) (ρ : Dev nD → PrngReg)

/-- The carried buffers pass the stretch and the region untouched. -/
theorem carried10 (a : Args) (c : Dev nD) (h : Carried a (W20 m ρ c)) : Carried a (W22 m ρ c) where
  src := (W22_of_ne m ρ c main_v1 (by decide)).trans ((s10_keep_src _).trans h.src)
  dst := (W22_of_ne m ρ c main_v3 (by decide)).trans ((s10_keep_dst _).trans h.dst)
  batch := (W22_of_ne m ρ c main_arg1 (by decide)).trans ((s10_keep_batch _).trans h.batch)
  W1 := (W22_of_ne m ρ c main_arg4 (by decide)).trans ((s10_keep_W1 _).trans h.W1)
  b1 := (W22_of_ne m ρ c main_arg5 (by decide)).trans ((s10_keep_b1 _).trans h.b1)
  W2 := (W22_of_ne m ρ c main_arg6 (by decide)).trans ((s10_keep_W2 _).trans h.W2)
  b2 := (W22_of_ne m ρ c main_arg7 (by decide)).trans ((s10_keep_b2 _).trans h.b2)
  Wd1 := (W22_of_ne m ρ c main_arg8 (by decide)).trans ((s10_keep_Wd1 _).trans h.Wd1)
  bd1 := (W22_of_ne m ρ c main_arg9 (by decide)).trans ((s10_keep_bd1 _).trans h.bd1)
  Wd2 := (W22_of_ne m ρ c main_arg10 (by decide)).trans ((s10_keep_Wd2 _).trans h.Wd2)
  bd2 := (W22_of_ne m ρ c main_arg11 (by decide)).trans ((s10_keep_bd2 _).trans h.bd2)

/-- The features after layer 9, from the features before it and the region's output as one whole-array layer. -/
theorem feat_step10 (a : Args) (c : Dev nD) (h : Carried a (W20 m ρ c))
    (hx : W20 m ρ c (Proc.devRef .tc main_v199) = feat9 a)
    (hreg : (dat10 (V21 m ρ) c).arrAt 6 cfg10.N
      = layer (n := 100000) (V21 m ρ c (Pipeline.arrRef spec10 0)) (V21 m ρ c (Pipeline.arrRef spec10 1))
          (V21 m ρ c (Pipeline.arrRef spec10 2)) (V21 m ρ c (Pipeline.arrRef spec10 3))
          (V21 m ρ c (Pipeline.arrRef spec10 4)) (V21 m ρ c (Pipeline.arrRef spec10 5))) :
    W22 m ρ c (Proc.devRef .tc main_v220) = feat10 a := by
  have e : W22 m ρ c (Proc.devRef .tc main_v220) = (dat10 (V21 m ρ) c).arrAt 6 cfg10.N := W22_arr m ρ c 6
  rw [e, hreg]
  show layer (n := 100000) (after hostOps10 (W20 m ρ c) (Proc.devRef .tc main_v199))
      (after hostOps10 (W20 m ρ c) (Proc.devRef .tc main_v209))
      (after hostOps10 (W20 m ρ c) (Proc.devRef .tc main_v211))
      (after hostOps10 (W20 m ρ c) (Proc.devRef .tc main_v214))
      (after hostOps10 (W20 m ρ c) (Proc.devRef .tc main_v216))
      (after hostOps10 (W20 m ρ c) (Proc.devRef .tc main_v219)) = _
  rw [s10_keep_x, s10_agg, s10_w1, s10_b1, s10_w2, s10_b2, h.src, h.dst, hx, h.W1, h.b1, h.W2, h.b2]
  rfl

end Cert.KernelIdeal.KChain

end
-- ==== Proof.KStep11.lean ====
/-
  Layer 10 of the network in the kernel program: the stretch of host operations before region 11, and region 11.

  The stretch gathers the rows of x at src, scatter-adds them at dst into zeros (the neighbour sum), and cuts slice 10
  out of the four stacked weight arrays; it writes none of the buffers carried along and not x itself.  The region
  then leaves in its output array the layer applied to what the stretch left.  So if before the stretch x's buffer
  holds the features after layer 10 - 1 (after the encoder, for layer 0), after the region the output buffer holds the
  features after layer 10; and the carried buffers are as they were.
-/
import proofs.«124003_j47699906789506_1_alg».proof.Proof.KCarry

set_option maxRecDepth 16384

noncomputable section

namespace Cert.KernelIdeal.KChain

open Cert.KernelIdeal Cert.KernelIdeal.Gen Idealize.ShloMosaic Idealize.ShloMosaic.StableHlo Idealize.ShloMosaic.TcCoe Idealize.SL.Sem Cert.Net

section Stretch
variable (U : Valuation τ sig (Elt Ideal))

set_option maxHeartbeats 1000000 in
/-- The neighbour sum the stretch leaves: gathered at src, scatter-added at dst. -/
theorem s11_agg : after hostOps11 U (Proc.devRef .tc main_v230)
    = aggOf (U (Proc.devRef .tc main_v1)) (U (Proc.devRef .tc main_v3)) (U (Proc.devRef .tc main_v220)) := by
  simp only [hostOps11, List.flatten_cons, List.flatten_nil, List.append_nil, List.cons_append, List.nil_append]
  after_results
  rfl
set_option maxHeartbeats 1000000 in
/-- Slice 10 of the first stage's weights. -/
theorem s11_w1 : after hostOps11 U (Proc.devRef .tc main_v232) = mat10 (U (Proc.devRef .tc main_arg4)) := by
  simp only [hostOps11, List.flatten_cons, List.flatten_nil, List.append_nil, List.cons_append, List.nil_append]
  after_results
  rfl
set_option maxHeartbeats 1000000 in
/-- Slice 10 of the first stage's biases, as a one-row matrix. -/
theorem s11_b1 : after hostOps11 U (Proc.devRef .tc main_v235) = row64 (vec10 (U (Proc.devRef .tc main_arg5))) := by
  simp only [hostOps11, List.flatten_cons, List.flatten_nil, List.append_nil, List.cons_append, List.nil_append]
  after_results
  rfl
set_option maxHeartbeats 1000000 in
/-- Slice 10 of the second stage's weights. -/
theorem s11_w2 : after hostOps11 U (Proc.devRef .tc main_v237) = mat10 (U (Proc.devRef .tc main_arg6)) := by
  simp only [hostOps11, List.flatten_cons, List.flatten_nil, List.append_nil, List.cons_append, List.nil_append]
  after_results
  rfl
set_option maxHeartbeats 1000000 in
/-- Slice 10 of the second stage's biases, as a one-row matrix. -/
theorem s11_b2 : after hostOps11 U (Proc.devRef .tc main_v240) = row64 (vec10 (U (Proc.devRef .tc main_arg7))) := by
  simp only [hostOps11, List.flatten_cons, List.flatten_nil, List.append_nil, List.cons_append, List.nil_append]
  after_results
  rfl

set_option maxHeartbeats 1000000 in
/-- The stretch does not write main_v220. -/
theorem s11_keep_x : after hostOps11 U (Proc.devRef .tc main_v220) = U (Proc.devRef .tc main_v220) :=
  StableHlo.after_of_forall_not_mem _ _ (List.forall_iff_forall_mem.mp (by
    simp only [hostOps11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_v1. -/
theorem s11_keep_src : after hostOps11 U (Proc.devRef .tc main_v1) = U (Proc.devRef .tc main_v1) :=
  StableHlo.after_of_forall_not_mem _ _ (List.forall_iff_forall_mem.mp (by
    simp only [hostOps11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_v3. -/
theorem s11_keep_dst : after hostOps11 U (Proc.devRef .tc main_v3) = U (Proc.devRef .tc main_v3) :=
  StableHlo.after_of_forall_not_mem _ _ (List.forall_iff_forall_mem.mp (by
    simp only [hostOps11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg1. -/
theorem s11_keep_batch : after hostOps11 U (Proc.devRef .tc main_arg1) = U (Proc.devRef .tc main_arg1) :=
  StableHlo.after_of_forall_not_mem _ _ (List.forall_iff_forall_mem.mp (by
    simp only [hostOps11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg4. -/
theorem s11_keep_W1 : after hostOps11 U (Proc.devRef .tc main_arg4) = U (Proc.devRef .tc main_arg4) :=
  StableHlo.after_of_forall_not_mem _ _ (List.forall_iff_forall_mem.mp (by
    simp only [hostOps11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg5. -/
theorem s11_keep_b1 : after hostOps11 U (Proc.devRef .tc main_arg5) = U (Proc.devRef .tc main_arg5) :=
  StableHlo.after_of_forall_not_mem _ _ (List.forall_iff_forall_mem.mp (by
    simp only [hostOps11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg6. -/
theorem s11_keep_W2 : after hostOps11 U (Proc.devRef .tc main_arg6) = U (Proc.devRef .tc main_arg6) :=
  StableHlo.after_of_forall_not_mem _ _ (List.forall_iff_forall_mem.mp (by
    simp only [hostOps11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg7. -/
theorem s11_keep_b2 : after hostOps11 U (Proc.devRef .tc main_arg7) = U (Proc.devRef .tc main_arg7) :=
  StableHlo.after_of_forall_not_mem _ _ (List.forall_iff_forall_mem.mp (by
    simp only [hostOps11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg8. -/
theorem s11_keep_Wd1 : after hostOps11 U (Proc.devRef .tc main_arg8) = U (Proc.devRef .tc main_arg8) :=
  StableHlo.after_of_forall_not_mem _ _ (List.forall_iff_forall_mem.mp (by
    simp only [hostOps11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg9. -/
theorem s11_keep_bd1 : after hostOps11 U (Proc.devRef .tc main_arg9) = U (Proc.devRef .tc main_arg9) :=
  StableHlo.after_of_forall_not_mem _ _ (List.forall_iff_forall_mem.mp (by
    simp only [hostOps11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg10. -/
theorem s11_keep_Wd2 : after hostOps11 U (Proc.devRef .tc main_arg10) = U (Proc.devRef .tc main_arg10) :=
  StableHlo.after_of_forall_not_mem _ _ (List.forall_iff_forall_mem.mp (by
    simp only [hostOps11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg11. -/
theorem s11_keep_bd2 : after hostOps11 U (Proc.devRef .tc main_arg11) = U (Proc.devRef .tc main_arg11) :=
  StableHlo.after_of_forall_not_mem _ _ (List.forall_iff_forall_mem.mp (by
    simp only [hostOps11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Stretch

variable (m : (ℓ : Loc nD τ sig) → Buf (Elt Ideal) ℓ) (ρ : Dev nD → PrngReg)

/-- The carried buffers pass the stretch and the region untouched. -/
theorem carried11 (a : Args) (c : Dev nD) (h : Carried a (W22 m ρ c)) : Carried a (W24 m ρ c) where
  src := (W24_of_ne m ρ c main_v1 (by decide)).trans ((s11_keep_src _).trans h.src)
  dst := (W24_of_ne m ρ c main_v3 (by decide)).trans ((s11_keep_dst _).trans h.dst)
  batch := (W24_of_ne m ρ c main_arg1 (by decide)).trans ((s11_keep_batch _).trans h.batch)
  W1 := (W24_of_ne m ρ c main_arg4 (by decide)).trans ((s11_keep_W1 _).trans h.W1)
  b1 := (W24_of_ne m ρ c main_arg5 (by decide)).trans ((s11_keep_b1 _).trans h.b1)
  W2 := (W24_of_ne m ρ c main_arg6 (by decide)).trans ((s11_keep_W2 _).trans h.W2)
  b2 := (W24_of_ne m ρ c main_arg7 (by decide)).trans ((s11_keep_b2 _).trans h.b2)
  Wd1 := (W24_of_ne m ρ c main_arg8 (by decide)).trans ((s11_keep_Wd1 _).trans h.Wd1)
  bd1 := (W24_of_ne m ρ c main_arg9 (by decide)).trans ((s11_keep_bd1 _).trans h.bd1)
  Wd2 := (W24_of_ne m ρ c main_arg10 (by decide)).trans ((s11_keep_Wd2 _).trans h.Wd2)
  bd2 := (W24_of_ne m ρ c main_arg11 (by decide)).trans ((s11_keep_bd2 _).trans h.bd2)

/-- The features after layer 10, from the features before it and the region's output as one whole-array layer. -/
theorem feat_step11 (a : Args) (c : Dev nD) (h : Carried a (W22 m ρ c))
    (hx : W22 m ρ c (Proc.devRef .tc main_v220) = feat10 a)
    (hreg : (dat11 (V23 m ρ) c).arrAt 6 cfg11.N
      = layer (n := 100000) (V23 m ρ c (Pipeline.arrRef spec11 0)) (V23 m ρ c (Pipeline.arrRef spec11 1))
          (V23 m ρ c (Pipeline.arrRef spec11 2)) (V23 m ρ c (Pipeline.arrRef spec11 3))
          (V23 m ρ c (Pipeline.arrRef spec11 4)) (V23 m ρ c (Pipeline.arrRef spec11 5))) :
    W24 m ρ c (Proc.devRef .tc main_v241) = feat11 a := by
  have e : W24 m ρ c (Proc.devRef .tc main_v241) = (dat11 (V23 m ρ) c).arrAt 6 cfg11.N := W24_arr m ρ c 6
  rw [e, hreg]
  show layer (n := 100000) (after hostOps11 (W22 m ρ c) (Proc.devRef .tc main_v220))
      (after hostOps11 (W22 m ρ c) (Proc.devRef .tc main_v230))
      (after hostOps11 (W22 m ρ c) (Proc.devRef .tc main_v232))
      (after hostOps11 (W22 m ρ c) (Proc.devRef .tc main_v235))
      (after hostOps11 (W22 m ρ c) (Proc.devRef .tc main_v237))
      (after hostOps11 (W22 m ρ c) (Proc.devRef .tc main_v240)) = _
  rw [s11_keep_x, s11_agg, s11_w1, s11_b1, s11_w2, s11_b2, h.src, h.dst, hx, h.W1, h.b1, h.W2, h.b2]
  rfl

end Cert.KernelIdeal.KChain

end
-- ==== Proof.KStep12.lean ====
/-
  Layer 11 of the network in the kernel program: the stretch of host operations before region 12, and region 12.

  The stretch gathers the rows of x at src, scatter-adds them at dst into zeros (the neighbour sum), and cuts slice 11
  out of the four stacked weight arrays; it writes none of the buffers carried along and not x itself.  The region
  then leaves in its output array the layer applied to what the stretch left.  So if before the stretch x's buffer
  holds the features after layer 11 - 1 (after the encoder, for layer 0), after the region the output buffer holds the
  features after layer 11; and the carried buffers are as they were.
-/
import proofs.«124003_j47699906789506_1_alg».proof.Proof.KCarry

set_option maxRecDepth 16384

noncomputable section

namespace Cert.KernelIdeal.KChain

open Cert.KernelIdeal Cert.KernelIdeal.Gen Idealize.ShloMosaic Idealize.ShloMosaic.StableHlo Idealize.ShloMosaic.TcCoe Idealize.SL.Sem Cert.Net

section Stretch
variable (U : Valuation τ sig (Elt Ideal))

set_option maxHeartbeats 1000000 in
/-- The neighbour sum the stretch leaves: gathered at src, scatter-added at dst. -/
theorem s12_agg : after hostOps12 U (Proc.devRef .tc main_v251)
    = aggOf (U (Proc.devRef .tc main_v1)) (U (Proc.devRef .tc main_v3)) (U (Proc.devRef .tc main_v241)) := by
  simp only [hostOps12, List.flatten_cons, List.flatten_nil, List.append_nil, List.cons_append, List.nil_append]
  after_results
  rfl
set_option maxHeartbeats 1000000 in
/-- Slice 11 of the first stage's weights. -/
theorem s12_w1 : after hostOps12 U (Proc.devRef .tc main_v253) = mat11 (U (Proc.devRef .tc main_arg4)) := by
  simp only [hostOps12, List.flatten_cons, List.flatten_nil, List.append_nil, List.cons_append, List.nil_append]
  after_results
  rfl
set_option maxHeartbeats 1000000 in
/-- Slice 11 of the first stage's biases, as a one-row matrix. -/
theorem s12_b1 : after hostOps12 U (Proc.devRef .tc main_v256) = row64 (vec11 (U (Proc.devRef .tc main_arg5))) := by
  simp only [hostOps12, List.flatten_cons, List.flatten_nil, List.append_nil, List.cons_append, List.nil_append]
  after_results
  rfl
set_option maxHeartbeats 1000000 in
/-- Slice 11 of the second stage's weights. -/
theorem s12_w2 : after hostOps12 U (Proc.devRef .tc main_v258) = mat11 (U (Proc.devRef .tc main_arg6)) := by
  simp only [hostOps12, List.flatten_cons, List.flatten_nil, List.append_nil, List.cons_append, List.nil_append]
  after_results
  rfl
set_option maxHeartbeats 1000000 in
/-- Slice 11 of the second stage's biases, as a one-row matrix. -/
theorem s12_b2 : after hostOps12 U (Proc.devRef .tc main_v261) = row64 (vec11 (U (Proc.devRef .tc main_arg7))) := by
  simp only [hostOps12, List.flatten_cons, List.flatten_nil, List.append_nil, List.cons_append, List.nil_append]
  after_results
  rfl

set_option maxHeartbeats 1000000 in
/-- The stretch does not write main_v241. -/
theorem s12_keep_x : after hostOps12 U (Proc.devRef .tc main_v241) = U (Proc.devRef .tc main_v241) :=
  StableHlo.after_of_forall_not_mem _ _ (List.forall_iff_forall_mem.mp (by
    simp only [hostOps12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_v1. -/
theorem s12_keep_src : after hostOps12 U (Proc.devRef .tc main_v1) = U (Proc.devRef .tc main_v1) :=
  StableHlo.after_of_forall_not_mem _ _ (List.forall_iff_forall_mem.mp (by
    simp only [hostOps12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_v3. -/
theorem s12_keep_dst : after hostOps12 U (Proc.devRef .tc main_v3) = U (Proc.devRef .tc main_v3) :=
  StableHlo.after_of_forall_not_mem _ _ (List.forall_iff_forall_mem.mp (by
    simp only [hostOps12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg1. -/
theorem s12_keep_batch : after hostOps12 U (Proc.devRef .tc main_arg1) = U (Proc.devRef .tc main_arg1) :=
  StableHlo.after_of_forall_not_mem _ _ (List.forall_iff_forall_mem.mp (by
    simp only [hostOps12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg4. -/
theorem s12_keep_W1 : after hostOps12 U (Proc.devRef .tc main_arg4) = U (Proc.devRef .tc main_arg4) :=
  StableHlo.after_of_forall_not_mem _ _ (List.forall_iff_forall_mem.mp (by
    simp only [hostOps12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg5. -/
theorem s12_keep_b1 : after hostOps12 U (Proc.devRef .tc main_arg5) = U (Proc.devRef .tc main_arg5) :=
  StableHlo.after_of_forall_not_mem _ _ (List.forall_iff_forall_mem.mp (by
    simp only [hostOps12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg6. -/
theorem s12_keep_W2 : after hostOps12 U (Proc.devRef .tc main_arg6) = U (Proc.devRef .tc main_arg6) :=
  StableHlo.after_of_forall_not_mem _ _ (List.forall_iff_forall_mem.mp (by
    simp only [hostOps12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg7. -/
theorem s12_keep_b2 : after hostOps12 U (Proc.devRef .tc main_arg7) = U (Proc.devRef .tc main_arg7) :=
  StableHlo.after_of_forall_not_mem _ _ (List.forall_iff_forall_mem.mp (by
    simp only [hostOps12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg8. -/
theorem s12_keep_Wd1 : after hostOps12 U (Proc.devRef .tc main_arg8) = U (Proc.devRef .tc main_arg8) :=
  StableHlo.after_of_forall_not_mem _ _ (List.forall_iff_forall_mem.mp (by
    simp only [hostOps12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg9. -/
theorem s12_keep_bd1 : after hostOps12 U (Proc.devRef .tc main_arg9) = U (Proc.devRef .tc main_arg9) :=
  StableHlo.after_of_forall_not_mem _ _ (List.forall_iff_forall_mem.mp (by
    simp only [hostOps12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg10. -/
theorem s12_keep_Wd2 : after hostOps12 U (Proc.devRef .tc main_arg10) = U (Proc.devRef .tc main_arg10) :=
  StableHlo.after_of_forall_not_mem _ _ (List.forall_iff_forall_mem.mp (by
    simp only [hostOps12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 1000000 in
/-- The stretch does not write main_arg11. -/
theorem s12_keep_bd2 : after hostOps12 U (Proc.devRef .tc main_arg11) = U (Proc.devRef .tc main_arg11) :=
  StableHlo.after_of_forall_not_mem _ _ (List.forall_iff_forall_mem.mp (by
    simp only [hostOps12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Stretch

variable (m : (ℓ : Loc nD τ sig) → Buf (Elt Ideal) ℓ) (ρ : Dev nD → PrngReg)

/-- The carried buffers pass the stretch and the region untouched. -/
theorem carried12 (a : Args) (c : Dev nD) (h : Carried a (W24 m ρ c)) : Carried a (W26 m ρ c) where
  src := (W26_of_ne m ρ c main_v1 (by decide)).trans ((s12_keep_src _).trans h.src)
  dst := (W26_of_ne m ρ c main_v3 (by decide)).trans ((s12_keep_dst _).trans h.dst)
  batch := (W26_of_ne m ρ c main_arg1 (by decide)).trans ((s12_keep_batch _).trans h.batch)
  W1 := (W26_of_ne m ρ c main_arg4 (by decide)).trans ((s12_keep_W1 _).trans h.W1)
  b1 := (W26_of_ne m ρ c main_arg5 (by decide)).trans ((s12_keep_b1 _).trans h.b1)
  W2 := (W26_of_ne m ρ c main_arg6 (by decide)).trans ((s12_keep_W2 _).trans h.W2)
  b2 := (W26_of_ne m ρ c main_arg7 (by decide)).trans ((s12_keep_b2 _).trans h.b2)
  Wd1 := (W26_of_ne m ρ c main_arg8 (by decide)).trans ((s12_keep_Wd1 _).trans h.Wd1)
  bd1 := (W26_of_ne m ρ c main_arg9 (by decide)).trans ((s12_keep_bd1 _).trans h.bd1)
  Wd2 := (W26_of_ne m ρ c main_arg10 (by decide)).trans ((s12_keep_Wd2 _).trans h.Wd2)
  bd2 := (W26_of_ne m ρ c main_arg11 (by decide)).trans ((s12_keep_bd2 _).trans h.bd2)

/-- The features after layer 11, from the features before it and the region's output as one whole-array layer. -/
theorem feat_step12 (a : Args) (c : Dev nD) (h : Carried a (W24 m ρ c))
    (hx : W24 m ρ c (Proc.devRef .tc main_v241) = feat11 a)
    (hreg : (dat12 (V25 m ρ) c).arrAt 6 cfg12.N
      = layer (n := 100000) (V25 m ρ c (Pipeline.arrRef spec12 0)) (V25 m ρ c (Pipeline.arrRef spec12 1))
          (V25 m ρ c (Pipeline.arrRef spec12 2)) (V25 m ρ c (Pipeline.arrRef spec12 3))
          (V25 m ρ c (Pipeline.arrRef spec12 4)) (V25 m ρ c (Pipeline.arrRef spec12 5))) :
    W26 m ρ c (Proc.devRef .tc main_v262) = feat12 a := by
  have e : W26 m ρ c (Proc.devRef .tc main_v262) = (dat12 (V25 m ρ) c).arrAt 6 cfg12.N := W26_arr m ρ c 6
  rw [e, hreg]
  show layer (n := 100000) (after hostOps12 (W24 m ρ c) (Proc.devRef .tc main_v241))
      (after hostOps12 (W24 m ρ c) (Proc.devRef .tc main_v251))
      (after hostOps12 (W24 m ρ c) (Proc.devRef .tc main_v253))
      (after hostOps12 (W24 m ρ c) (Proc.devRef .tc main_v256))
      (after hostOps12 (W24 m ρ c) (Proc.devRef .tc main_v258))
      (after hostOps12 (W24 m ρ c) (Proc.devRef .tc main_v261)) = _
  rw [s12_keep_x, s12_agg, s12_w1, s12_b1, s12_w2, s12_b2, h.src, h.dst, hx, h.W1, h.b1, h.W2, h.b2]
  rfl

end Cert.KernelIdeal.KChain

end
-- ==== Proof.KFinal.lean ====
/-
  The end of the network in the kernel program: the last stretch of host operations, and region 13, the decoder.

  The stretch sums the rows of the last layer's features per graph (a scatter-add at the batch index into 256 rows of
  zeros) and recasts the decoder's two biases to one-row matrices; region 13 leaves in the result buffer the decoder
  applied to those and to the decoder's weights.  So if the features after the twelfth layer sit in region 12's
  output buffer, the result buffer ends holding the network's result.
-/
import proofs.«124003_j47699906789506_1_alg».proof.Proof.KCarry

set_option maxRecDepth 16384

noncomputable section

namespace Cert.KernelIdeal.KChain

open Cert.KernelIdeal Cert.KernelIdeal.Gen Idealize.ShloMosaic Idealize.ShloMosaic.StableHlo Idealize.ShloMosaic.TcCoe Idealize.SL.Sem Cert.Net

section Stretch
variable (U : Valuation τ sig (Elt Ideal))

/-- The per-graph sums. -/
theorem s13_pool : after hostOps13 U (Proc.devRef .tc main_v265)
    = poolOf (U (Proc.devRef .tc main_arg1)) (U (Proc.devRef .tc main_v262)) := by
  simp only [hostOps13, List.flatten_cons, List.flatten_nil, List.append_nil, List.cons_append, List.nil_append]
  after_results
  rfl
/-- The decoder's first bias as a one-row matrix. -/
theorem s13_bd1 : after hostOps13 U (Proc.devRef .tc main_v266) = row64 (U (Proc.devRef .tc main_arg9)) := by
  simp only [hostOps13, List.flatten_cons, List.flatten_nil, List.append_nil, List.cons_append, List.nil_append]
  after_results
  rfl
/-- The decoder's second bias as a one-row matrix. -/
theorem s13_bd2 : after hostOps13 U (Proc.devRef .tc main_v267) = row16 (U (Proc.devRef .tc main_arg11)) := by
  simp only [hostOps13, List.flatten_cons, List.flatten_nil, List.append_nil, List.cons_append, List.nil_append]
  after_results
  rfl
/-- The stretch does not write main_arg8. -/
theorem s13_keep_Wd1 : after hostOps13 U (Proc.devRef .tc main_arg8) = U (Proc.devRef .tc main_arg8) :=
  StableHlo.after_of_forall_not_mem _ _ (List.forall_iff_forall_mem.mp (by
    simp only [hostOps13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The stretch does not write main_arg10. -/
theorem s13_keep_Wd2 : after hostOps13 U (Proc.devRef .tc main_arg10) = U (Proc.devRef .tc main_arg10) :=
  StableHlo.after_of_forall_not_mem _ _ (List.forall_iff_forall_mem.mp (by
    simp only [hostOps13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Stretch

variable (m : (ℓ : Loc nD τ sig) → Buf (Elt Ideal) ℓ) (ρ : Dev nD → PrngReg)

/-- The result buffer ends at the network's result, from region 13's output as one whole-array decoder. -/
theorem result_step (a : Args) (c : Dev nD) (h : Carried a (W26 m ρ c))
    (hx : W26 m ρ c (Proc.devRef .tc main_v262) = feat12 a)
    (hreg : (dat13 (V27 m ρ) c).arrAt 5 cfg13.N
      = decode (n := 256) (V27 m ρ c (Pipeline.arrRef spec13 0)) (V27 m ρ c (Pipeline.arrRef spec13 1))
          (V27 m ρ c (Pipeline.arrRef spec13 2)) (V27 m ρ c (Pipeline.arrRef spec13 3))
          (V27 m ρ c (Pipeline.arrRef spec13 4))) :
    W28 m ρ c (Proc.devRef .tc main_v268) = network a := by
  have e : W28 m ρ c (Proc.devRef .tc main_v268) = (dat13 (V27 m ρ) c).arrAt 5 cfg13.N := W28_arr m ρ c 5
  rw [e, hreg]
  show decode (n := 256) (after hostOps13 (W26 m ρ c) (Proc.devRef .tc main_v265))
      (after hostOps13 (W26 m ρ c) (Proc.devRef .tc main_arg8))
      (after hostOps13 (W26 m ρ c) (Proc.devRef .tc main_v266))
      (after hostOps13 (W26 m ρ c) (Proc.devRef .tc main_arg10))
      (after hostOps13 (W26 m ρ c) (Proc.devRef .tc main_v267)) = _
  rw [s13_pool, s13_keep_Wd1, s13_bd1, s13_keep_Wd2, s13_bd2, h.batch, hx, h.Wd1, h.bd1, h.Wd2, h.bd2]
  rfl

end Cert.KernelIdeal.KChain

end
-- ==== Proof.LibDense.lean ====
/-
  The operations of a dense layer read at one entry, at the ideal values, each stated at an index written by its
  coordinates and generic in the extents:
  a plain matrix product (the kernel's product into the zero splat, whatever the operands' storage formats, and the
  host's dot product) as the sum over the contracted coordinate; a block of rows sliced out of a matrix; two or
  three matrices joined side by side along the columns; a vector laid out as a one-row matrix and that row repeated
  down the rows; a scalar repeated over a whole array; and a finite sum over `Fin r` cut into consecutive blocks.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx

/-! ## Plain matrix products -/

section Products
variable {m k n : ℕ} (w : DotDims.WF ⟨2, ![m, k]⟩ ⟨2, ![k, n]⟩ ⟨2, ![m, n]⟩ [1] [0] [0] [1] [] [])

/-- The left operand's index of a plain product at output entry (a, b) and contracted coordinate c is (a, c). -/
theorem plain_lhsIdx (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's index of a plain product at output entry (a, b) and contracted coordinate c is (c, b). -/
theorem plain_rhsIdx (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- A product of an m×k by a k×n matrix accumulated into the zero splat, whatever formats the operands are stored
    in, read at entry (a, b): the sum over the contracted coordinate. -/
theorem matmul_plain_apply {φ₁ φ₂ : FTy} (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) none A B
        (constant ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

/-- The host's dot product of an m×k by a k×n matrix read at entry (a, b): the same sum. -/
theorem hostDot_plain_apply {φ₁ φ₂ : FTy} (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) none A B (ix2 a b)
      = ∑ c : Fin k, A (ix2 a c) * B (ix2 c b) := by
  show FloatOps.dotGeneral _ none .single A B (ix2 a b) = _
  rw [Ideal.dotGeneral_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

end Products

/-! ## Layout -/

section Layout
variable {α : Type}

/-- Rows o … o + c - 1 of an a×b matrix, read at (i, j): the matrix at (o + i, j). -/
theorem sliceRows_apply {a b c : ℕ} (o : ℕ) (x : (⟨2, ![a, b]⟩ : Shape).Idx → α)
    (h : (⟨2, ![a, b]⟩ : Shape).Slices ![o, 0] ⟨2, ![c, b]⟩) (i : Fin c) (j : Fin b) (ho : o + i.val < a) :
    extractStridedSlice ⟨2, ![c, b]⟩ ![o, 0] x h (ix2 i j) = x (ix2 ⟨o + i.val, ho⟩ j) :=
  extractStridedSlice_apply _ x h _ _ fun ax => match ax with
    | ⟨0, _⟩ => rfl
    | ⟨1, _⟩ => (Nat.zero_add _).symm

/-- Two matrices side by side: a column of the first. -/
theorem concatCols2_left {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin p) (hc : c.val < r) :
    concatenate ⟨2, ![n, r]⟩ 1 [⟨⟨2, ![n, p]⟩, x₁⟩, ⟨⟨2, ![n, q]⟩, x₂⟩] h (ix2 e ⟨c.val, hc⟩) = x₁ (ix2 e c) :=
  concatenate_pair_apply_left 1 x₁ x₂ h _ rfl _ fun b => match b with
    | ⟨0, _⟩ => rfl
    | ⟨1, _⟩ => rfl

/-- Two matrices side by side: a column of the second sits p columns to the right. -/
theorem concatCols2_right {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin q) (hc : p + c.val < r) :
    concatenate ⟨2, ![n, r]⟩ 1 [⟨⟨2, ![n, p]⟩, x₁⟩, ⟨⟨2, ![n, q]⟩, x₂⟩] h (ix2 e ⟨p + c.val, hc⟩) = x₂ (ix2 e c) :=
  concatenate_pair_apply_right 1 x₁ x₂ h _ rfl rfl _
    (fun b hb => match b with
      | ⟨0, _⟩ => rfl
      | ⟨1, _⟩ => absurd rfl hb)
    (Nat.add_comm _ _)

/-- A vector laid out as a one-row matrix. -/
theorem bcastRow_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) :=
  broadcastInDim_apply _ h v _ _ fun ax => match ax with
    | ⟨0, _⟩ => by
      show j.val = if b = 1 then 0 else j.val
      split
      · have := j.isLt; omega
      · rfl

/-- A one-row matrix repeated down the rows. -/
theorem bcastRows_apply {a b : ℕ} (v : (⟨2, ![1, b]⟩ : Shape).Idx → α)
    (h : (⟨2, ![1, b]⟩ : Shape).BroadcastsInDim ⟨2, ![a, b]⟩ ![0, 1]) (p : Fin a) (j : Fin b) :
    broadcastInDim ⟨2, ![a, b]⟩ ![0, 1] h v (ix2 p j) = v (ix2 (0 : Fin 1) j) :=
  broadcastInDim_apply _ h v _ _ fun ax => match ax with
    | ⟨0, _⟩ => rfl
    | ⟨1, _⟩ => by
      show j.val = if b = 1 then 0 else j.val
      split
      · have := j.isLt; omega
      · rfl

/-- A scalar repeated over a whole array. -/
theorem bcastScalar_apply {s : Shape} (v : (⟨0, ![]⟩ : Shape).Idx → α)
    (h : (⟨0, ![]⟩ : Shape).BroadcastsInDim s ![]) (i : s.Idx) :
    broadcastInDim s ![] h v i = v ix0 :=
  broadcastInDim_apply _ h v i ix0 fun ax => ax.elim0

end Layout

/-! ## A finite sum cut into consecutive blocks -/

section Sums
variable {M : Type} [AddCommMonoid M]

/-- A sum over r = p + q indices is the sum over the first p plus the sum over the last q. -/
theorem sum_split2 {p q r : ℕ} (hr : p + q = r) (f : Fin r → M) :
    ∑ c : Fin r, f c
      = ∑ c : Fin p, f ⟨c.val, by have := c.isLt; omega⟩ + ∑ c : Fin q, f ⟨p + c.val, by have := c.isLt; omega⟩ := by
  subst hr
  rw [Fin.sum_univ_add]
  rfl

/-- A sum over r = p + q + s indices in three consecutive blocks. -/
theorem sum_split3 {p q s r : ℕ} (hr : p + q + s = r) (f : Fin r → M) :
    ∑ c : Fin r, f c
      = (∑ c : Fin p, f ⟨c.val, by have := c.isLt; omega⟩ + ∑ c : Fin q, f ⟨p + c.val, by have := c.isLt; omega⟩)
        + ∑ c : Fin s, f ⟨p + q + c.val, by have := c.isLt; omega⟩ := by
  subst hr
  rw [Fin.sum_univ_add, Fin.sum_univ_add]
  rfl

end Sums

end Cert.Dense

end
-- ==== Proof.Stages.lean ====
/-
  The bodies of the network's fourteen kernels as functions of the blocks they load, on the extended reals.

  The encoder's body is the node encoder of Spec.lean on a block of rows, each layer's body is one layer, and the
  decoder's body is the decoder.  A body is a chain of whole-block operations; read at entry (p, q) each pointwise
  operation acts on the entries, a cast to the same shape is the identity, a one-row block repeated down the rows
  reads its entry (0, q), a one-column block repeated along the columns reads its entry (p, 0), rounding the
  operands of a product to another format is the identity on the extended reals, and a product accumulated into
  the zero block is the sum over the contracted coordinate.
-/
import proofs.«124003_j47699906789506_1_alg».proof.Proof.Gen.KernelIdeal.Skeleton
import proofs.«124003_j47699906789506_1_alg».proof.Proof.Spec
import proofs.«124003_j47699906789506_1_alg».proof.Proof.LibDense

noncomputable section

namespace Cert.KernelIdeal.Stages

open Idealize.ShloMosaic Idealize.ShloMosaic.ValueIdx
open Cert.KernelIdeal Cert.KernelIdeal.Gen

/-! ## Layout and pointwise pieces, generic in the extents -/

section Pieces
variable {α : Type} {n k : ℕ}

/-- A one-row block repeated down n rows, read at (p, q): the row's entry (0, q). -/
theorem rowDown_apply (b : (⟨2, ![1, k]⟩ : Shape).Idx → α)
    (h : (⟨2, ![1, k]⟩ : Shape).Broadcasts ⟨2, ![n, k]⟩) (p : Fin n) (q : Fin k) :
    broadcastTo ⟨2, ![n, k]⟩ b h (ix2 p q) = b (ix2 (0 : Fin 1) q) :=
  broadcastTo_apply b h _ _ fun a => match a with
    | ⟨0, _⟩ => rfl
    | ⟨1, _⟩ => by
      show q.val = if k = 1 then 0 else q.val
      split
      · have := q.isLt; omega
      · rfl

/-- A one-column block repeated along k columns, read at (p, q): the column's entry (p, 0). -/
theorem colAcross_apply (d : (⟨2, ![n, 1]⟩ : Shape).Idx → α)
    (h : (⟨2, ![n, 1]⟩ : Shape).Broadcasts ⟨2, ![n, k]⟩) (p : Fin n) (q : Fin k) :
    broadcastTo ⟨2, ![n, k]⟩ d h (ix2 p q) = d (ix2 p (0 : Fin 1)) :=
  broadcastTo_apply d h _ _ fun a => match a with
    | ⟨0, _⟩ => by
      show p.val = if n = 1 then 0 else p.val
      split
      · have := p.isLt; omega
      · rfl
    | ⟨1, _⟩ => rfl

/-- The larger of a block and the zero splat is the rectifier of the block. -/
theorem max_zero_eq_rect {s : Shape} (x : FVec Ideal s .f32) :
    maximumf x (broadcast s (Scalar.ofBits (F := Ideal) .f32 0x00000000#32)) = Cert.Net.rect x := rfl

/-- A dense stage as the kernels write it: the operands rounded on the way into a product accumulated into the
    zero splat, plus the bias row repeated down the rows. -/
theorem dense_eq (w : DotDims.WF ⟨2, ![n, 64]⟩ ⟨2, ![64, k]⟩ ⟨2, ![n, k]⟩ [1] [0] [0] [1] [] [])
    (hb : (⟨2, ![1, k]⟩ : Shape).Broadcasts ⟨2, ![n, k]⟩) (h₁ h₂ : FTy.bits .bf16 < FTy.bits .f32)
    (X : FVec Ideal ⟨2, ![n, 64]⟩ .f32) (W : FVec Ideal ⟨2, ![64, k]⟩ .f32) (b : FVec Ideal ⟨2, ![1, k]⟩ .f32) :
    addf (matmul (⟨[1], [0], [0], [1], [], [], w⟩ : DotDims ⟨2, ![n, 64]⟩ ⟨2, ![64, k]⟩ ⟨2, ![n, k]⟩) none
          (truncf .bf16 X h₁) (truncf .bf16 W h₂) (constant ⟨2, ![n, k]⟩ .f32 0x00000000#32))
        (broadcastTo ⟨2, ![n, k]⟩ b hb)
      = Cert.Net.dense X W b := by
  funext j
  obtain ⟨p, q, rfl⟩ : ∃ (p : Fin n) (q : Fin k), j = ix2 p q := ⟨j 0, j 1, eq_ix2 j⟩
  rw [addf_apply, Cert.Dense.matmul_plain_apply w, rowDown_apply, Cert.Net.dense_apply]
  rfl

end Pieces

/-! ## A stage's entry in row r reads row r of the row-wise operands alone -/

section Rows
variable {n m : ℕ}

/-- The encoder at (r, q) of one array and at (r', q) of another agree when the degree entries of the two rows
    and the weight and bias entries of column q agree. -/
theorem encode_row (d : FVec Ideal ⟨2, ![n, 1]⟩ .f32) (d' : FVec Ideal ⟨2, ![m, 1]⟩ .f32)
    (w w' b b' : FVec Ideal ⟨2, ![1, 64]⟩ .f32) (r : Fin n) (r' : Fin m) (q : Fin 64)
    (hd : d (ix2 r (0 : Fin 1)) = d' (ix2 r' (0 : Fin 1)))
    (hw : w (ix2 (0 : Fin 1) q) = w' (ix2 (0 : Fin 1) q)) (hb : b (ix2 (0 : Fin 1) q) = b' (ix2 (0 : Fin 1) q)) :
    Cert.Net.encode d w b (ix2 r q) = Cert.Net.encode d' w' b' (ix2 r' q) := by
  rw [Cert.Net.encode_apply, Cert.Net.encode_apply, hd, hw, hb]

/-- One layer at (r, q) of one pair of arrays and at (r', q) of another agree when rows r and r' of the two
    pairs agree and the weights and biases are the same. -/
theorem layer_row (x agg : FVec Ideal ⟨2, ![n, 64]⟩ .f32) (x' agg' : FVec Ideal ⟨2, ![m, 64]⟩ .f32)
    (W₁ W₁' : FVec Ideal ⟨2, ![64, 64]⟩ .f32) (b₁ b₁' : FVec Ideal ⟨2, ![1, 64]⟩ .f32)
    (W₂ W₂' : FVec Ideal ⟨2, ![64, 64]⟩ .f32) (b₂ b₂' : FVec Ideal ⟨2, ![1, 64]⟩ .f32)
    (r : Fin n) (r' : Fin m) (q : Fin 64)
    (hx : ∀ j : Fin 64, x (ix2 r j) = x' (ix2 r' j)) (ha : ∀ j : Fin 64, agg (ix2 r j) = agg' (ix2 r' j))
    (hW₁ : W₁ = W₁') (hb₁ : b₁ = b₁') (hW₂ : W₂ = W₂') (hb₂ : b₂ = b₂') :
    Cert.Net.layer x agg W₁ b₁ W₂ b₂ (ix2 r q) = Cert.Net.layer x' agg' W₁' b₁' W₂' b₂' (ix2 r' q) := by
  subst hW₁ hb₁ hW₂ hb₂
  show max ((∑ j : Fin 64, (max ((∑ i : Fin 64, (x (ix2 r i) + agg (ix2 r i)) * W₁ (ix2 i j))
        + b₁ (ix2 (0 : Fin 1) j)) Cert.Net.z32) * W₂ (ix2 j q)) + b₂ (ix2 (0 : Fin 1) q)) Cert.Net.z32
    = max ((∑ j : Fin 64, (max ((∑ i : Fin 64, (x' (ix2 r' i) + agg' (ix2 r' i)) * W₁ (ix2 i j))
        + b₁ (ix2 (0 : Fin 1) j)) Cert.Net.z32) * W₂ (ix2 j q)) + b₂ (ix2 (0 : Fin 1) q)) Cert.Net.z32
  simp only [hx, ha]

/-- The decoder of equal operands. -/
theorem decode_congr (g g' : FVec Ideal ⟨2, ![n, 64]⟩ .f32) (W₁ W₁' : FVec Ideal ⟨2, ![64, 64]⟩ .f32)
    (b₁ b₁' : FVec Ideal ⟨2, ![1, 64]⟩ .f32) (W₂ W₂' : FVec Ideal ⟨2, ![64, 16]⟩ .f32)
    (b₂ b₂' : FVec Ideal ⟨2, ![1, 16]⟩ .f32)
    (hg : g = g') (hW₁ : W₁ = W₁') (hb₁ : b₁ = b₁') (hW₂ : W₂ = W₂') (hb₂ : b₂ = b₂') :
    Cert.Net.decode g W₁ b₁ W₂ b₂ = Cert.Net.decode g' W₁' b₁' W₂' b₂' := by
  subst hg hW₁ hb₁ hW₂ hb₂; rfl

end Rows

/-! ## The three bodies -/

/-- The encoder's body on a block of 10000 rows is the node encoder of that block. -/
theorem pay_enc (x0 : Vec Ideal S10000x1 .f32) (x1 x2 : Vec Ideal S1x64 .f32) :
    k0_pay1 x0 x1 x2 = Cert.Net.encode (n := 10000) x0 x1 x2 := by
  funext j
  obtain ⟨p, q, rfl⟩ : ∃ (p : Fin 10000) (q : Fin 64), j = ix2 p q := ⟨j 0, j 1, eq_ix2 j⟩
  unfold k0_pay1
  simp only [shapeCast_self]
  rw [maximumf_apply, addf_apply, mulf_apply, colAcross_apply, rowDown_apply, rowDown_apply, Cert.Net.encode_apply]
  rfl

/-- A layer's body on a block of 10000 rows is one layer of that block. -/
theorem pay_gin (x agg : Vec Ideal S10000x64 .f32) (w1 : Vec Ideal S64x64 .f32) (b1 : Vec Ideal S1x64 .f32)
    (w2 : Vec Ideal S64x64 .f32) (b2 : Vec Ideal S1x64 .f32) :
    k1_pay1 x agg w1 b1 w2 b2 = Cert.Net.layer (n := 10000) x agg w1 b1 w2 b2 := by
  unfold k1_pay1
  simp only [shapeCast_self]
  have e₁ := dense_eq dot_S10000x64_S64x64_S10000x64_1_0_0_1_n_n_wf broadcasts_S1x64_S10000x64
    bitsLt_bf16_f32 bitsLt_bf16_f32 (addf x agg) w1 b1
  have e₂ := dense_eq dot_S10000x64_S64x64_S10000x64_1_0_0_1_n_n_wf broadcasts_S1x64_S10000x64
    bitsLt_bf16_f32 bitsLt_bf16_f32 (Cert.Net.rect (Cert.Net.dense (addf x agg) w1 b1)) w2 b2
  refine (congrArg (fun v : FVec Ideal S10000x64 .f32 => maximumf v (broadcast S10000x64 (Scalar.ofBits (F := Ideal) .f32 0x00000000#32))) ?_).trans
    (max_zero_eq_rect _)
  refine Eq.trans ?_ e₂
  refine congrArg (fun v : FVec Ideal S10000x64 .f32 =>
    addf (matmul dot_S10000x64_S64x64_S10000x64_1_0_0_1_n_n none (truncf (F := Ideal) .bf16 v bitsLt_bf16_f32)
        (truncf (F := Ideal) .bf16 (w2 : FVec Ideal S64x64 .f32) bitsLt_bf16_f32)
        (constant (F := Ideal) S10000x64 .f32 0x00000000#32))
      (broadcastTo S10000x64 (b2 : FVec Ideal S1x64 .f32) broadcasts_S1x64_S10000x64)) ?_
  refine (congrArg (fun v : FVec Ideal S10000x64 .f32 => maximumf v (broadcast S10000x64 (Scalar.ofBits (F := Ideal) .f32 0x00000000#32))) e₁).trans
    (max_zero_eq_rect _)

/-- The other eleven layers' bodies are the first layer's body, so each is one layer of its block. -/
theorem pay_gin2 (x agg : Vec Ideal S10000x64 .f32) (w1 : Vec Ideal S64x64 .f32) (b1 : Vec Ideal S1x64 .f32)
    (w2 : Vec Ideal S64x64 .f32) (b2 : Vec Ideal S1x64 .f32) :
    k2_pay1 x agg w1 b1 w2 b2 = Cert.Net.layer (n := 10000) x agg w1 b1 w2 b2 :=
  (show k2_pay1 x agg w1 b1 w2 b2 = k1_pay1 x agg w1 b1 w2 b2 from rfl).trans (pay_gin x agg w1 b1 w2 b2)
theorem pay_gin3 (x agg : Vec Ideal S10000x64 .f32) (w1 : Vec Ideal S64x64 .f32) (b1 : Vec Ideal S1x64 .f32)
    (w2 : Vec Ideal S64x64 .f32) (b2 : Vec Ideal S1x64 .f32) :
    k3_pay1 x agg w1 b1 w2 b2 = Cert.Net.layer (n := 10000) x agg w1 b1 w2 b2 :=
  (show k3_pay1 x agg w1 b1 w2 b2 = k1_pay1 x agg w1 b1 w2 b2 from rfl).trans (pay_gin x agg w1 b1 w2 b2)
theorem pay_gin4 (x agg : Vec Ideal S10000x64 .f32) (w1 : Vec Ideal S64x64 .f32) (b1 : Vec Ideal S1x64 .f32)
    (w2 : Vec Ideal S64x64 .f32) (b2 : Vec Ideal S1x64 .f32) :
    k4_pay1 x agg w1 b1 w2 b2 = Cert.Net.layer (n := 10000) x agg w1 b1 w2 b2 :=
  (show k4_pay1 x agg w1 b1 w2 b2 = k1_pay1 x agg w1 b1 w2 b2 from rfl).trans (pay_gin x agg w1 b1 w2 b2)
theorem pay_gin5 (x agg : Vec Ideal S10000x64 .f32) (w1 : Vec Ideal S64x64 .f32) (b1 : Vec Ideal S1x64 .f32)
    (w2 : Vec Ideal S64x64 .f32) (b2 : Vec Ideal S1x64 .f32) :
    k5_pay1 x agg w1 b1 w2 b2 = Cert.Net.layer (n := 10000) x agg w1 b1 w2 b2 :=
  (show k5_pay1 x agg w1 b1 w2 b2 = k1_pay1 x agg w1 b1 w2 b2 from rfl).trans (pay_gin x agg w1 b1 w2 b2)
theorem pay_gin6 (x agg : Vec Ideal S10000x64 .f32) (w1 : Vec Ideal S64x64 .f32) (b1 : Vec Ideal S1x64 .f32)
    (w2 : Vec Ideal S64x64 .f32) (b2 : Vec Ideal S1x64 .f32) :
    k6_pay1 x agg w1 b1 w2 b2 = Cert.Net.layer (n := 10000) x agg w1 b1 w2 b2 :=
  (show k6_pay1 x agg w1 b1 w2 b2 = k1_pay1 x agg w1 b1 w2 b2 from rfl).trans (pay_gin x agg w1 b1 w2 b2)
theorem pay_gin7 (x agg : Vec Ideal S10000x64 .f32) (w1 : Vec Ideal S64x64 .f32) (b1 : Vec Ideal S1x64 .f32)
    (w2 : Vec Ideal S64x64 .f32) (b2 : Vec Ideal S1x64 .f32) :
    k7_pay1 x agg w1 b1 w2 b2 = Cert.Net.layer (n := 10000) x agg w1 b1 w2 b2 :=
  (show k7_pay1 x agg w1 b1 w2 b2 = k1_pay1 x agg w1 b1 w2 b2 from rfl).trans (pay_gin x agg w1 b1 w2 b2)
theorem pay_gin8 (x agg : Vec Ideal S10000x64 .f32) (w1 : Vec Ideal S64x64 .f32) (b1 : Vec Ideal S1x64 .f32)
    (w2 : Vec Ideal S64x64 .f32) (b2 : Vec Ideal S1x64 .f32) :
    k8_pay1 x agg w1 b1 w2 b2 = Cert.Net.layer (n := 10000) x agg w1 b1 w2 b2 :=
  (show k8_pay1 x agg w1 b1 w2 b2 = k1_pay1 x agg w1 b1 w2 b2 from rfl).trans (pay_gin x agg w1 b1 w2 b2)
theorem pay_gin9 (x agg : Vec Ideal S10000x64 .f32) (w1 : Vec Ideal S64x64 .f32) (b1 : Vec Ideal S1x64 .f32)
    (w2 : Vec Ideal S64x64 .f32) (b2 : Vec Ideal S1x64 .f32) :
    k9_pay1 x agg w1 b1 w2 b2 = Cert.Net.layer (n := 10000) x agg w1 b1 w2 b2 :=
  (show k9_pay1 x agg w1 b1 w2 b2 = k1_pay1 x agg w1 b1 w2 b2 from rfl).trans (pay_gin x agg w1 b1 w2 b2)
theorem pay_gin10 (x agg : Vec Ideal S10000x64 .f32) (w1 : Vec Ideal S64x64 .f32) (b1 : Vec Ideal S1x64 .f32)
    (w2 : Vec Ideal S64x64 .f32) (b2 : Vec Ideal S1x64 .f32) :
    k10_pay1 x agg w1 b1 w2 b2 = Cert.Net.layer (n := 10000) x agg w1 b1 w2 b2 :=
  (show k10_pay1 x agg w1 b1 w2 b2 = k1_pay1 x agg w1 b1 w2 b2 from rfl).trans (pay_gin x agg w1 b1 w2 b2)
theorem pay_gin11 (x agg : Vec Ideal S10000x64 .f32) (w1 : Vec Ideal S64x64 .f32) (b1 : Vec Ideal S1x64 .f32)
    (w2 : Vec Ideal S64x64 .f32) (b2 : Vec Ideal S1x64 .f32) :
    k11_pay1 x agg w1 b1 w2 b2 = Cert.Net.layer (n := 10000) x agg w1 b1 w2 b2 :=
  (show k11_pay1 x agg w1 b1 w2 b2 = k1_pay1 x agg w1 b1 w2 b2 from rfl).trans (pay_gin x agg w1 b1 w2 b2)
theorem pay_gin12 (x agg : Vec Ideal S10000x64 .f32) (w1 : Vec Ideal S64x64 .f32) (b1 : Vec Ideal S1x64 .f32)
    (w2 : Vec Ideal S64x64 .f32) (b2 : Vec Ideal S1x64 .f32) :
    k12_pay1 x agg w1 b1 w2 b2 = Cert.Net.layer (n := 10000) x agg w1 b1 w2 b2 :=
  (show k12_pay1 x agg w1 b1 w2 b2 = k1_pay1 x agg w1 b1 w2 b2 from rfl).trans (pay_gin x agg w1 b1 w2 b2)

/-- The decoder's body on the 256 graph rows is the decoder. -/
theorem pay_dec (g : Vec Ideal S256x64 .f32) (wd1 : Vec Ideal S64x64 .f32) (bd1 : Vec Ideal S1x64 .f32)
    (wd2 : Vec Ideal S64x16 .f32) (bd2 : Vec Ideal S1x16 .f32) :
    k13_pay1 g wd1 bd1 wd2 bd2 = Cert.Net.decode (n := 256) g wd1 bd1 wd2 bd2 := by
  unfold k13_pay1
  simp only [shapeCast_self]
  have e₁ := dense_eq dot_S256x64_S64x64_S256x64_1_0_0_1_n_n_wf broadcasts_S1x64_S256x64
    bitsLt_bf16_f32 bitsLt_bf16_f32 g wd1 bd1
  have e₂ := dense_eq dot_S256x64_S64x16_S256x16_1_0_0_1_n_n_wf broadcasts_S1x16_S256x16
    bitsLt_bf16_f32 bitsLt_bf16_f32 (Cert.Net.rect (Cert.Net.dense g wd1 bd1)) wd2 bd2
  refine Eq.trans ?_ e₂
  refine congrArg (fun v : FVec Ideal S256x64 .f32 =>
    addf (matmul dot_S256x64_S64x16_S256x16_1_0_0_1_n_n none (truncf (F := Ideal) .bf16 v bitsLt_bf16_f32)
        (truncf (F := Ideal) .bf16 (wd2 : FVec Ideal S64x16 .f32) bitsLt_bf16_f32)
        (constant (F := Ideal) S256x16 .f32 0x00000000#32))
      (broadcastTo S256x16 (bd2 : FVec Ideal S1x16 .f32) broadcasts_S1x16_S256x16)) ?_
  refine (congrArg (fun v : FVec Ideal S256x64 .f32 => maximumf v (broadcast S256x64 (Scalar.ofBits (F := Ideal) .f32 0x00000000#32))) e₁).trans
    (max_zero_eq_rect _)

end Cert.KernelIdeal.Stages

end
-- ==== Proof.RegionEnc.lean ====
/-
  The encoder region on whole arrays.

  The region runs the encoder's body at ten grid points; point t stages rows 10000·t … 10000·t + 9999 of the
  degree array and the whole weight and bias rows, and writes the body's block back to the same rows of the
  output array.  Entry (r, q) of the encoder reads row r of the degrees alone, so the block written at point t
  is that block of rows of the encoder of the whole arrays; the ten blocks tile the 100000 rows, so after the
  last point the output array is the encoder of the whole arrays.
-/
import proofs.«124003_j47699906789506_1_alg».proof.Proof.Gen.KernelIdeal.Frame
import proofs.«124003_j47699906789506_1_alg».proof.Proof.Stages

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, as a constant function. -/
theorem enc_zeros : (![0, 0] : Fin 2 → Nat) = fun _ => 0 := funext fun a => by fin_cases a <;> rfl

/-- The block indices of the four windows at each of the ten grid points: the degree and output windows move
    down the rows with the point, the weight and bias windows stay. -/
theorem enc_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (p, 0) of the degree block at point t is entry (10000·t + p, 0) of the degree array. -/
theorem enc_blk0 (c : Dev nD) (t : Fin cfg0.N) (p : Fin 10000) (h : t.val * 10000 + p.val < 100000) :
    iblk0 V c 0 t (ix2 p (0 : Fin 1))
      = (V c (Pipeline.arrRef spec0 0) : S100000x1.Idx → EReal) (ix2 (⟨t.val * 10000 + p.val, h⟩ : Fin 100000) (0 : Fin 1)) := by
  obtain ⟨e0, e1, -⟩ := enc_index t
  show (V c (Pipeline.arrRef spec0 0) : S100000x1.Idx → EReal) (((cfg0.win 0).blk t).view.emb (ix2 p (0 : Fin 1))) = _
  have he : ((cfg0.win 0).blk t).view.emb (ix2 p (0 : Fin 1))
      = (ix2 (⟨t.val * 10000 + p.val, h⟩ : Fin 100000) (0 : Fin 1) : S100000x1.Idx) := by
    funext a; apply Fin.ext
    match a with
    | ⟨0, _⟩ => show win0_0.index t (0 : Fin 2) * 10000 + 1 * p.val = t.val * 10000 + p.val; omega
    | ⟨1, _⟩ => show win0_0.index t (1 : Fin 2) * 1 + 1 * 0 = 0; omega
  rw [he]

/-- Entry (0, q) of the weight block at any point is entry (0, q) of the weight row. -/
theorem enc_blk1 (c : Dev nD) (t : Fin cfg0.N) (q : Fin 64) :
    iblk0 V c 1 t (ix2 (0 : Fin 1) q) = (V c (Pipeline.arrRef spec0 1) : S1x64.Idx → EReal) (ix2 (0 : Fin 1) q) := by
  obtain ⟨-, -, e0, e1, -⟩ := enc_index t
  show (V c (Pipeline.arrRef spec0 1) : S1x64.Idx → EReal) (((cfg0.win 1).blk t).view.emb (ix2 (0 : Fin 1) q)) = _
  have he : ((cfg0.win 1).blk t).view.emb (ix2 (0 : Fin 1) q) = (ix2 (0 : Fin 1) q : S1x64.Idx) := by
    funext a; apply Fin.ext
    match a with
    | ⟨0, _⟩ => show win0_1.index t (0 : Fin 2) * 1 + 1 * 0 = 0; omega
    | ⟨1, _⟩ => show win0_1.index t (1 : Fin 2) * 64 + 1 * q.val = q.val; omega
  rw [he]

/-- Entry (0, q) of the bias block at any point is entry (0, q) of the bias row. -/
theorem enc_blk2 (c : Dev nD) (t : Fin cfg0.N) (q : Fin 64) :
    iblk0 V c 2 t (ix2 (0 : Fin 1) q) = (V c (Pipeline.arrRef spec0 2) : S1x64.Idx → EReal) (ix2 (0 : Fin 1) q) := by
  obtain ⟨-, -, -, -, e0, e1, -⟩ := enc_index t
  show (V c (Pipeline.arrRef spec0 2) : S1x64.Idx → EReal) (((cfg0.win 2).blk t).view.emb (ix2 (0 : Fin 1) q)) = _
  have he : ((cfg0.win 2).blk t).view.emb (ix2 (0 : Fin 1) q) = (ix2 (0 : Fin 1) q : S1x64.Idx) := by
    funext a; apply Fin.ext
    match a with
    | ⟨0, _⟩ => show win0_2.index t (0 : Fin 2) * 1 + 1 * 0 = 0; omega
    | ⟨1, _⟩ => show win0_2.index t (1 : Fin 2) * 64 + 1 * q.val = q.val; omega
  rw [he]

set_option maxHeartbeats 1000000 in
/-- What point t writes back is block t of the encoder of the whole arrays. -/
theorem enc_flushed (c : Dev nD) (t : Fin cfg0.N) :
    (dat0 V c).flushed 3 t = ((cfg0.win 3).blk t).view.read (Elt Ideal)
      (Cert.Net.encode (n := 100000) (V c (Pipeline.arrRef spec0 0)) (V c (Pipeline.arrRef spec0 1))
        (V c (Pipeline.arrRef spec0 2))) := by
  show (cfg0.win 3).cut (grid0.coords t) ((dat0 V c).after 3 t) = _
  rw [after0_3]
  unfold out0_3
  rw [View.canon_unit_zero enc_zeros]
  simp only [View.ld_unit_zero (S := S10000x1) enc_zeros, View.ld_unit_zero (S := S1x64) enc_zeros]
  rw [Stages.pay_enc]
  obtain ⟨-, -, -, -, -, -, e0, e1⟩ := enc_index t
  funext j
  obtain ⟨p, q, rfl⟩ : ∃ (p : Fin 10000) (q : Fin 64), j = ix2 p q := ⟨j 0, j 1, eq_ix2 j⟩
  have ht : t.val < 10 := t.isLt
  have h : t.val * 10000 + p.val < 100000 := by have := p.isLt; omega
  show Cert.Net.encode (n := 10000) (iblk0 V c 0 t) (iblk0 V c 1 t) (iblk0 V c 2 t) (ix2 p q)
    = Cert.Net.encode (n := 100000) (V c (Pipeline.arrRef spec0 0)) (V c (Pipeline.arrRef spec0 1))
        (V c (Pipeline.arrRef spec0 2)) (((cfg0.win 3).blk t).view.emb (ix2 p q))
  have he : ((cfg0.win 3).blk t).view.emb (ix2 p q)
      = (ix2 (⟨t.val * 10000 + p.val, h⟩ : Fin 100000) q : S100000x64.Idx) := by
    funext a; apply Fin.ext
    match a with
    | ⟨0, _⟩ => show win0_3.index t (0 : Fin 2) * 10000 + 1 * p.val = t.val * 10000 + p.val; omega
    | ⟨1, _⟩ => show win0_3.index t (1 : Fin 2) * 64 + 1 * q.val = q.val; omega
  rw [he]
  exact Stages.encode_row _ _ _ _ _ _ p ⟨t.val * 10000 + p.val, h⟩ q
    (enc_blk0 V c t p h) (enc_blk1 V c t q) (enc_blk2 V c t q)

/-- An entry of the output array is in point t's block iff each coordinate is in the block's range. -/
theorem enc_mem_blk (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v10).slice (win0_3.rect t)).set ↔ _
  rw [View.set_slice_whole, Rect.mem_set_unit]
  exact Iff.rfl

/-- Row r of the output array is written back by point r / 10000. -/
theorem enc_cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hlt : (i 0).val / 10000 < 10 := by omega
  refine ⟨⟨(i 0).val / 10000, hlt⟩, flush0_3 _, ?_⟩
  rw [enc_mem_blk]
  obtain ⟨-, -, -, -, -, -, e0, e1⟩ := enc_index ⟨(i 0).val / 10000, hlt⟩
  have e0' : win0_3.index ⟨(i 0).val / 10000, hlt⟩ (0 : Fin 2) = (i 0).val / 10000 := e0
  intro a
  match a with
  | ⟨0, _⟩ =>
    show win0_3.index ⟨(i 0).val / 10000, hlt⟩ (0 : Fin 2) * 10000 ≤ (i 0).val
      ∧ (i 0).val < win0_3.index ⟨(i 0).val / 10000, hlt⟩ (0 : Fin 2) * 10000 + 10000
    omega
  | ⟨1, _⟩ =>
    show win0_3.index ⟨(i 0).val / 10000, hlt⟩ (1 : Fin 2) * 64 ≤ (i 1).val
      ∧ (i 1).val < win0_3.index ⟨(i 0).val / 10000, hlt⟩ (1 : Fin 2) * 64 + 64
    omega

/-- After the last grid point the output array is the encoder of the whole arrays. -/
theorem enc_whole (c : Dev nD) :
    (dat0 V c).arrAt 3 cfg0.N
      = Cert.Net.encode (n := 100000) (V c (Pipeline.arrRef spec0 0)) (V c (Pipeline.arrRef spec0 1))
          (V c (Pipeline.arrRef spec0 2)) :=
  (dat0 V c).arrAt_eq_of_cover 3 _ (fun t _ => enc_flushed V c t) enc_cover

end Cert.KernelIdeal.Regions

end
-- ==== Proof.RegionGin1.lean ====
/-
  Layer region 1 on whole arrays.

  The region runs one layer's body at ten grid points; point t stages rows 10000·t … 10000·t + 9999 of the node
  array and of the aggregated array and the whole of the two weight matrices and bias rows, and writes the body's
  block back to the same rows of the output array.  Entry (r, q) of a layer reads row r of the two row-wise
  arrays alone, so the block written at point t is that block of rows of the layer of the whole arrays; the ten
  blocks tile the 100000 rows, so after the last point the output array is the layer of the whole arrays.
-/
import proofs.«124003_j47699906789506_1_alg».proof.Proof.Gen.KernelIdeal.Frame
import proofs.«124003_j47699906789506_1_alg».proof.Proof.Stages

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, as a constant function. -/
theorem gin1_zeros : (![0, 0] : Fin 2 → Nat) = fun _ => 0 := funext fun a => by fin_cases a <;> rfl

/-- The block indices of the seven windows at each of the ten grid points: the two row-wise input windows and the
    output window move down the rows with the point, the weight and bias windows stay. -/
theorem gin1_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Entry (p, j) of the node block at point t is entry (10000·t + p, j) of the node array. -/
theorem gin1_blk0 (c : Dev nD) (t : Fin cfg1.N) (p : Fin 10000) (h : t.val * 10000 + p.val < 100000) (j : Fin 64) :
    iblk1 V c 0 t (ix2 p j)
      = (V c (Pipeline.arrRef spec1 0) : S100000x64.Idx → EReal) (ix2 (⟨t.val * 10000 + p.val, h⟩ : Fin 100000) j) := by
  obtain ⟨e0, e1, -⟩ := gin1_index t
  show (V c (Pipeline.arrRef spec1 0) : S100000x64.Idx → EReal) (((cfg1.win 0).blk t).view.emb (ix2 p j)) = _
  have he : ((cfg1.win 0).blk t).view.emb (ix2 p j)
      = (ix2 (⟨t.val * 10000 + p.val, h⟩ : Fin 100000) j : S100000x64.Idx) := by
    funext a; apply Fin.ext
    match a with
    | ⟨0, _⟩ => show win1_0.index t (0 : Fin 2) * 10000 + 1 * p.val = t.val * 10000 + p.val; omega
    | ⟨1, _⟩ => show win1_0.index t (1 : Fin 2) * 64 + 1 * j.val = j.val; omega
  rw [he]

/-- Entry (p, j) of the aggregated block at point t is entry (10000·t + p, j) of the aggregated array. -/
theorem gin1_blk1 (c : Dev nD) (t : Fin cfg1.N) (p : Fin 10000) (h : t.val * 10000 + p.val < 100000) (j : Fin 64) :
    iblk1 V c 1 t (ix2 p j)
      = (V c (Pipeline.arrRef spec1 1) : S100000x64.Idx → EReal) (ix2 (⟨t.val * 10000 + p.val, h⟩ : Fin 100000) j) := by
  obtain ⟨-, -, e0, e1, -⟩ := gin1_index t
  show (V c (Pipeline.arrRef spec1 1) : S100000x64.Idx → EReal) (((cfg1.win 1).blk t).view.emb (ix2 p j)) = _
  have he : ((cfg1.win 1).blk t).view.emb (ix2 p j)
      = (ix2 (⟨t.val * 10000 + p.val, h⟩ : Fin 100000) j : S100000x64.Idx) := by
    funext a; apply Fin.ext
    match a with
    | ⟨0, _⟩ => show win1_1.index t (0 : Fin 2) * 10000 + 1 * p.val = t.val * 10000 + p.val; omega
    | ⟨1, _⟩ => show win1_1.index t (1 : Fin 2) * 64 + 1 * j.val = j.val; omega
  rw [he]

/-- The first weight block at any point is the whole first weight matrix. -/
theorem gin1_blk2 (c : Dev nD) (t : Fin cfg1.N) :
    (iblk1 V c 2 t : S64x64.Idx → EReal) = (V c (Pipeline.arrRef spec1 2) : S64x64.Idx → EReal) := by
  obtain ⟨-, -, -, -, e0, e1, -⟩ := gin1_index t
  funext y
  show (V c (Pipeline.arrRef spec1 2) : S64x64.Idx → EReal) (((cfg1.win 2).blk t).view.emb y) = _
  have he : ((cfg1.win 2).blk t).view.emb y = (y : S64x64.Idx) := by
    funext a; apply Fin.ext
    match a with
    | ⟨0, _⟩ => show win1_2.index t (0 : Fin 2) * 64 + 1 * (y 0).val = (y 0).val; omega
    | ⟨1, _⟩ => show win1_2.index t (1 : Fin 2) * 64 + 1 * (y 1).val = (y 1).val; omega
  rw [he]

/-- The first bias block at any point is the whole first bias row. -/
theorem gin1_blk3 (c : Dev nD) (t : Fin cfg1.N) :
    (iblk1 V c 3 t : S1x64.Idx → EReal) = (V c (Pipeline.arrRef spec1 3) : S1x64.Idx → EReal) := by
  obtain ⟨-, -, -, -, -, -, e0, e1, -⟩ := gin1_index t
  funext y
  show (V c (Pipeline.arrRef spec1 3) : S1x64.Idx → EReal) (((cfg1.win 3).blk t).view.emb y) = _
  have he : ((cfg1.win 3).blk t).view.emb y = (y : S1x64.Idx) := by
    funext a; apply Fin.ext
    match a with
    | ⟨0, _⟩ => show win1_3.index t (0 : Fin 2) * 1 + 1 * (y 0).val = (y 0).val; omega
    | ⟨1, _⟩ => show win1_3.index t (1 : Fin 2) * 64 + 1 * (y 1).val = (y 1).val; omega
  rw [he]

/-- The second weight block at any point is the whole second weight matrix. -/
theorem gin1_blk4 (c : Dev nD) (t : Fin cfg1.N) :
    (iblk1 V c 4 t : S64x64.Idx → EReal) = (V c (Pipeline.arrRef spec1 4) : S64x64.Idx → EReal) := by
  obtain ⟨-, -, -, -, -, -, -, -, e0, e1, -⟩ := gin1_index t
  funext y
  show (V c (Pipeline.arrRef spec1 4) : S64x64.Idx → EReal) (((cfg1.win 4).blk t).view.emb y) = _
  have he : ((cfg1.win 4).blk t).view.emb y = (y : S64x64.Idx) := by
    funext a; apply Fin.ext
    match a with
    | ⟨0, _⟩ => show win1_4.index t (0 : Fin 2) * 64 + 1 * (y 0).val = (y 0).val; omega
    | ⟨1, _⟩ => show win1_4.index t (1 : Fin 2) * 64 + 1 * (y 1).val = (y 1).val; omega
  rw [he]

/-- The second bias block at any point is the whole second bias row. -/
theorem gin1_blk5 (c : Dev nD) (t : Fin cfg1.N) :
    (iblk1 V c 5 t : S1x64.Idx → EReal) = (V c (Pipeline.arrRef spec1 5) : S1x64.Idx → EReal) := by
  obtain ⟨-, -, -, -, -, -, -, -, -, -, e0, e1, -⟩ := gin1_index t
  funext y
  show (V c (Pipeline.arrRef spec1 5) : S1x64.Idx → EReal) (((cfg1.win 5).blk t).view.emb y) = _
  have he : ((cfg1.win 5).blk t).view.emb y = (y : S1x64.Idx) := by
    funext a; apply Fin.ext
    match a with
    | ⟨0, _⟩ => show win1_5.index t (0 : Fin 2) * 1 + 1 * (y 0).val = (y 0).val; omega
    | ⟨1, _⟩ => show win1_5.index t (1 : Fin 2) * 64 + 1 * (y 1).val = (y 1).val; omega
  rw [he]

set_option maxHeartbeats 1000000 in
/-- What point t writes back is block t of the layer of the whole arrays. -/
theorem gin1_flushed (c : Dev nD) (t : Fin cfg1.N) :
    (dat1 V c).flushed 6 t = ((cfg1.win 6).blk t).view.read (Elt Ideal)
      (Cert.Net.layer (n := 100000) (V c (Pipeline.arrRef spec1 0)) (V c (Pipeline.arrRef spec1 1))
        (V c (Pipeline.arrRef spec1 2)) (V c (Pipeline.arrRef spec1 3)) (V c (Pipeline.arrRef spec1 4))
        (V c (Pipeline.arrRef spec1 5))) := by
  show (cfg1.win 6).cut (grid1.coords t) ((dat1 V c).after 6 t) = _
  rw [after1_6]
  unfold out1_6
  rw [View.canon_unit_zero gin1_zeros]
  simp only [View.ld_unit_zero (S := S10000x64) gin1_zeros, View.ld_unit_zero (S := S64x64) gin1_zeros,
    View.ld_unit_zero (S := S1x64) gin1_zeros]
  rw [Stages.pay_gin]
  obtain ⟨-, -, -, -, -, -, -, -, -, -, -, -, e0, e1⟩ := gin1_index t
  funext j
  obtain ⟨p, q, rfl⟩ : ∃ (p : Fin 10000) (q : Fin 64), j = ix2 p q := ⟨j 0, j 1, eq_ix2 j⟩
  have ht : t.val < 10 := t.isLt
  have h : t.val * 10000 + p.val < 100000 := by have := p.isLt; omega
  show Cert.Net.layer (n := 10000) (iblk1 V c 0 t) (iblk1 V c 1 t) (iblk1 V c 2 t) (iblk1 V c 3 t)
      (iblk1 V c 4 t) (iblk1 V c 5 t) (ix2 p q)
    = Cert.Net.layer (n := 100000) (V c (Pipeline.arrRef spec1 0)) (V c (Pipeline.arrRef spec1 1))
        (V c (Pipeline.arrRef spec1 2)) (V c (Pipeline.arrRef spec1 3)) (V c (Pipeline.arrRef spec1 4))
        (V c (Pipeline.arrRef spec1 5)) (((cfg1.win 6).blk t).view.emb (ix2 p q))
  have he : ((cfg1.win 6).blk t).view.emb (ix2 p q)
      = (ix2 (⟨t.val * 10000 + p.val, h⟩ : Fin 100000) q : S100000x64.Idx) := by
    funext a; apply Fin.ext
    match a with
    | ⟨0, _⟩ => show win1_6.index t (0 : Fin 2) * 10000 + 1 * p.val = t.val * 10000 + p.val; omega
    | ⟨1, _⟩ => show win1_6.index t (1 : Fin 2) * 64 + 1 * q.val = q.val; omega
  rw [he]
  exact Stages.layer_row _ _ _ _ _ _ _ _ _ _ _ _ p ⟨t.val * 10000 + p.val, h⟩ q
    (fun j => gin1_blk0 V c t p h j) (fun j => gin1_blk1 V c t p h j)
    (gin1_blk2 V c t) (gin1_blk3 V c t) (gin1_blk4 V c t) (gin1_blk5 V c t)

/-- An entry of the output array is in point t's block iff each coordinate is in the block's range. -/
theorem gin1_mem_blk (t : Fin cfg1.N) (i : S100000x64.Idx) :
    i ∈ ((cfg1.win 6).blk t).view.set ↔ ∀ a : Fin 2, win1_6.index t a * S10000x64.size a ≤ (i a).val
      ∧ (i a).val < win1_6.index t a * S10000x64.size a + S10000x64.size a := by
  show i ∈ ((View.whole main_v31).slice (win1_6.rect t)).set ↔ _
  rw [View.set_slice_whole, Rect.mem_set_unit]
  exact Iff.rfl

/-- Row r of the output array is written back by point r / 10000. -/
theorem gin1_cover (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hlt : (i 0).val / 10000 < 10 := by omega
  refine ⟨⟨(i 0).val / 10000, hlt⟩, flush1_6 _, ?_⟩
  rw [gin1_mem_blk]
  obtain ⟨-, -, -, -, -, -, -, -, -, -, -, -, e0, e1⟩ := gin1_index ⟨(i 0).val / 10000, hlt⟩
  have e0' : win1_6.index ⟨(i 0).val / 10000, hlt⟩ (0 : Fin 2) = (i 0).val / 10000 := e0
  intro a
  match a with
  | ⟨0, _⟩ =>
    show win1_6.index ⟨(i 0).val / 10000, hlt⟩ (0 : Fin 2) * 10000 ≤ (i 0).val
      ∧ (i 0).val < win1_6.index ⟨(i 0).val / 10000, hlt⟩ (0 : Fin 2) * 10000 + 10000
    omega
  | ⟨1, _⟩ =>
    show win1_6.index ⟨(i 0).val / 10000, hlt⟩ (1 : Fin 2) * 64 ≤ (i 1).val
      ∧ (i 1).val < win1_6.index ⟨(i 0).val / 10000, hlt⟩ (1 : Fin 2) * 64 + 64
    omega

/-- After the last grid point the output array is the layer of the whole arrays. -/
theorem gin1_whole (c : Dev nD) :
    (dat1 V c).arrAt 6 cfg1.N
      = Cert.Net.layer (n := 100000) (V c (Pipeline.arrRef spec1 0)) (V c (Pipeline.arrRef spec1 1))
          (V c (Pipeline.arrRef spec1 2)) (V c (Pipeline.arrRef spec1 3)) (V c (Pipeline.arrRef spec1 4))
          (V c (Pipeline.arrRef spec1 5)) :=
  (dat1 V c).arrAt_eq_of_cover 6 _ (fun t _ => gin1_flushed V c t) gin1_cover

end Cert.KernelIdeal.Regions

end
-- ==== Proof.RegionGin2.lean ====
/-
  Layer region 2 on whole arrays.

  The region runs one layer's body at ten grid points; point t stages rows 10000·t … 10000·t + 9999 of the node
  array and of the aggregated array and the whole of the two weight matrices and bias rows, and writes the body's
  block back to the same rows of the output array.  Entry (r, q) of a layer reads row r of the two row-wise
  arrays alone, so the block written at point t is that block of rows of the layer of the whole arrays; the ten
  blocks tile the 100000 rows, so after the last point the output array is the layer of the whole arrays.
-/
import proofs.«124003_j47699906789506_1_alg».proof.Proof.Gen.KernelIdeal.Frame
import proofs.«124003_j47699906789506_1_alg».proof.Proof.Stages

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, as a constant function. -/
theorem gin2_zeros : (![0, 0] : Fin 2 → Nat) = fun _ => 0 := funext fun a => by fin_cases a <;> rfl

/-- The block indices of the seven windows at each of the ten grid points: the two row-wise input windows and the
    output window move down the rows with the point, the weight and bias windows stay. -/
theorem gin2_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Entry (p, j) of the node block at point t is entry (10000·t + p, j) of the node array. -/
theorem gin2_blk0 (c : Dev nD) (t : Fin cfg2.N) (p : Fin 10000) (h : t.val * 10000 + p.val < 100000) (j : Fin 64) :
    iblk2 V c 0 t (ix2 p j)
      = (V c (Pipeline.arrRef spec2 0) : S100000x64.Idx → EReal) (ix2 (⟨t.val * 10000 + p.val, h⟩ : Fin 100000) j) := by
  obtain ⟨e0, e1, -⟩ := gin2_index t
  show (V c (Pipeline.arrRef spec2 0) : S100000x64.Idx → EReal) (((cfg2.win 0).blk t).view.emb (ix2 p j)) = _
  have he : ((cfg2.win 0).blk t).view.emb (ix2 p j)
      = (ix2 (⟨t.val * 10000 + p.val, h⟩ : Fin 100000) j : S100000x64.Idx) := by
    funext a; apply Fin.ext
    match a with
    | ⟨0, _⟩ => show win2_0.index t (0 : Fin 2) * 10000 + 1 * p.val = t.val * 10000 + p.val; omega
    | ⟨1, _⟩ => show win2_0.index t (1 : Fin 2) * 64 + 1 * j.val = j.val; omega
  rw [he]

/-- Entry (p, j) of the aggregated block at point t is entry (10000·t + p, j) of the aggregated array. -/
theorem gin2_blk1 (c : Dev nD) (t : Fin cfg2.N) (p : Fin 10000) (h : t.val * 10000 + p.val < 100000) (j : Fin 64) :
    iblk2 V c 1 t (ix2 p j)
      = (V c (Pipeline.arrRef spec2 1) : S100000x64.Idx → EReal) (ix2 (⟨t.val * 10000 + p.val, h⟩ : Fin 100000) j) := by
  obtain ⟨-, -, e0, e1, -⟩ := gin2_index t
  show (V c (Pipeline.arrRef spec2 1) : S100000x64.Idx → EReal) (((cfg2.win 1).blk t).view.emb (ix2 p j)) = _
  have he : ((cfg2.win 1).blk t).view.emb (ix2 p j)
      = (ix2 (⟨t.val * 10000 + p.val, h⟩ : Fin 100000) j : S100000x64.Idx) := by
    funext a; apply Fin.ext
    match a with
    | ⟨0, _⟩ => show win2_1.index t (0 : Fin 2) * 10000 + 1 * p.val = t.val * 10000 + p.val; omega
    | ⟨1, _⟩ => show win2_1.index t (1 : Fin 2) * 64 + 1 * j.val = j.val; omega
  rw [he]

/-- The first weight block at any point is the whole first weight matrix. -/
theorem gin2_blk2 (c : Dev nD) (t : Fin cfg2.N) :
    (iblk2 V c 2 t : S64x64.Idx → EReal) = (V c (Pipeline.arrRef spec2 2) : S64x64.Idx → EReal) := by
  obtain ⟨-, -, -, -, e0, e1, -⟩ := gin2_index t
  funext y
  show (V c (Pipeline.arrRef spec2 2) : S64x64.Idx → EReal) (((cfg2.win 2).blk t).view.emb y) = _
  have he : ((cfg2.win 2).blk t).view.emb y = (y : S64x64.Idx) := by
    funext a; apply Fin.ext
    match a with
    | ⟨0, _⟩ => show win2_2.index t (0 : Fin 2) * 64 + 1 * (y 0).val = (y 0).val; omega
    | ⟨1, _⟩ => show win2_2.index t (1 : Fin 2) * 64 + 1 * (y 1).val = (y 1).val; omega
  rw [he]

/-- The first bias block at any point is the whole first bias row. -/
theorem gin2_blk3 (c : Dev nD) (t : Fin cfg2.N) :
    (iblk2 V c 3 t : S1x64.Idx → EReal) = (V c (Pipeline.arrRef spec2 3) : S1x64.Idx → EReal) := by
  obtain ⟨-, -, -, -, -, -, e0, e1, -⟩ := gin2_index t
  funext y
  show (V c (Pipeline.arrRef spec2 3) : S1x64.Idx → EReal) (((cfg2.win 3).blk t).view.emb y) = _
  have he : ((cfg2.win 3).blk t).view.emb y = (y : S1x64.Idx) := by
    funext a; apply Fin.ext
    match a with
    | ⟨0, _⟩ => show win2_3.index t (0 : Fin 2) * 1 + 1 * (y 0).val = (y 0).val; omega
    | ⟨1, _⟩ => show win2_3.index t (1 : Fin 2) * 64 + 1 * (y 1).val = (y 1).val; omega
  rw [he]

/-- The second weight block at any point is the whole second weight matrix. -/
theorem gin2_blk4 (c : Dev nD) (t : Fin cfg2.N) :
    (iblk2 V c 4 t : S64x64.Idx → EReal) = (V c (Pipeline.arrRef spec2 4) : S64x64.Idx → EReal) := by
  obtain ⟨-, -, -, -, -, -, -, -, e0, e1, -⟩ := gin2_index t
  funext y
  show (V c (Pipeline.arrRef spec2 4) : S64x64.Idx → EReal) (((cfg2.win 4).blk t).view.emb y) = _
  have he : ((cfg2.win 4).blk t).view.emb y = (y : S64x64.Idx) := by
    funext a; apply Fin.ext
    match a with
    | ⟨0, _⟩ => show win2_4.index t (0 : Fin 2) * 64 + 1 * (y 0).val = (y 0).val; omega
    | ⟨1, _⟩ => show win2_4.index t (1 : Fin 2) * 64 + 1 * (y 1).val = (y 1).val; omega
  rw [he]

/-- The second bias block at any point is the whole second bias row. -/
theorem gin2_blk5 (c : Dev nD) (t : Fin cfg2.N) :
    (iblk2 V c 5 t : S1x64.Idx → EReal) = (V c (Pipeline.arrRef spec2 5) : S1x64.Idx → EReal) := by
  obtain ⟨-, -, -, -, -, -, -, -, -, -, e0, e1, -⟩ := gin2_index t
  funext y
  show (V c (Pipeline.arrRef spec2 5) : S1x64.Idx → EReal) (((cfg2.win 5).blk t).view.emb y) = _
  have he : ((cfg2.win 5).blk t).view.emb y = (y : S1x64.Idx) := by
    funext a; apply Fin.ext
    match a with
    | ⟨0, _⟩ => show win2_5.index t (0 : Fin 2) * 1 + 1 * (y 0).val = (y 0).val; omega
    | ⟨1, _⟩ => show win2_5.index t (1 : Fin 2) * 64 + 1 * (y 1).val = (y 1).val; omega
  rw [he]

set_option maxHeartbeats 1000000 in
/-- What point t writes back is block t of the layer of the whole arrays. -/
theorem gin2_flushed (c : Dev nD) (t : Fin cfg2.N) :
    (dat2 V c).flushed 6 t = ((cfg2.win 6).blk t).view.read (Elt Ideal)
      (Cert.Net.layer (n := 100000) (V c (Pipeline.arrRef spec2 0)) (V c (Pipeline.arrRef spec2 1))
        (V c (Pipeline.arrRef spec2 2)) (V c (Pipeline.arrRef spec2 3)) (V c (Pipeline.arrRef spec2 4))
        (V c (Pipeline.arrRef spec2 5))) := by
  show (cfg2.win 6).cut (grid2.coords t) ((dat2 V c).after 6 t) = _
  rw [after2_6]
  unfold out2_6
  rw [View.canon_unit_zero gin2_zeros]
  simp only [View.ld_unit_zero (S := S10000x64) gin2_zeros, View.ld_unit_zero (S := S64x64) gin2_zeros,
    View.ld_unit_zero (S := S1x64) gin2_zeros]
  rw [Stages.pay_gin2]
  obtain ⟨-, -, -, -, -, -, -, -, -, -, -, -, e0, e1⟩ := gin2_index t
  funext j
  obtain ⟨p, q, rfl⟩ : ∃ (p : Fin 10000) (q : Fin 64), j = ix2 p q := ⟨j 0, j 1, eq_ix2 j⟩
  have ht : t.val < 10 := t.isLt
  have h : t.val * 10000 + p.val < 100000 := by have := p.isLt; omega
  show Cert.Net.layer (n := 10000) (iblk2 V c 0 t) (iblk2 V c 1 t) (iblk2 V c 2 t) (iblk2 V c 3 t)
      (iblk2 V c 4 t) (iblk2 V c 5 t) (ix2 p q)
    = Cert.Net.layer (n := 100000) (V c (Pipeline.arrRef spec2 0)) (V c (Pipeline.arrRef spec2 1))
        (V c (Pipeline.arrRef spec2 2)) (V c (Pipeline.arrRef spec2 3)) (V c (Pipeline.arrRef spec2 4))
        (V c (Pipeline.arrRef spec2 5)) (((cfg2.win 6).blk t).view.emb (ix2 p q))
  have he : ((cfg2.win 6).blk t).view.emb (ix2 p q)
      = (ix2 (⟨t.val * 10000 + p.val, h⟩ : Fin 100000) q : S100000x64.Idx) := by
    funext a; apply Fin.ext
    match a with
    | ⟨0, _⟩ => show win2_6.index t (0 : Fin 2) * 10000 + 1 * p.val = t.val * 10000 + p.val; omega
    | ⟨1, _⟩ => show win2_6.index t (1 : Fin 2) * 64 + 1 * q.val = q.val; omega
  rw [he]
  exact Stages.layer_row _ _ _ _ _ _ _ _ _ _ _ _ p ⟨t.val * 10000 + p.val, h⟩ q
    (fun j => gin2_blk0 V c t p h j) (fun j => gin2_blk1 V c t p h j)
    (gin2_blk2 V c t) (gin2_blk3 V c t) (gin2_blk4 V c t) (gin2_blk5 V c t)

/-- An entry of the output array is in point t's block iff each coordinate is in the block's range. -/
theorem gin2_mem_blk (t : Fin cfg2.N) (i : S100000x64.Idx) :
    i ∈ ((cfg2.win 6).blk t).view.set ↔ ∀ a : Fin 2, win2_6.index t a * S10000x64.size a ≤ (i a).val
      ∧ (i a).val < win2_6.index t a * S10000x64.size a + S10000x64.size a := by
  show i ∈ ((View.whole main_v52).slice (win2_6.rect t)).set ↔ _
  rw [View.set_slice_whole, Rect.mem_set_unit]
  exact Iff.rfl

/-- Row r of the output array is written back by point r / 10000. -/
theorem gin2_cover (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  have hlt : (i 0).val / 10000 < 10 := by omega
  refine ⟨⟨(i 0).val / 10000, hlt⟩, flush2_6 _, ?_⟩
  rw [gin2_mem_blk]
  obtain ⟨-, -, -, -, -, -, -, -, -, -, -, -, e0, e1⟩ := gin2_index ⟨(i 0).val / 10000, hlt⟩
  have e0' : win2_6.index ⟨(i 0).val / 10000, hlt⟩ (0 : Fin 2) = (i 0).val / 10000 := e0
  intro a
  match a with
  | ⟨0, _⟩ =>
    show win2_6.index ⟨(i 0).val / 10000, hlt⟩ (0 : Fin 2) * 10000 ≤ (i 0).val
      ∧ (i 0).val < win2_6.index ⟨(i 0).val / 10000, hlt⟩ (0 : Fin 2) * 10000 + 10000
    omega
  | ⟨1, _⟩ =>
    show win2_6.index ⟨(i 0).val / 10000, hlt⟩ (1 : Fin 2) * 64 ≤ (i 1).val
      ∧ (i 1).val < win2_6.index ⟨(i 0).val / 10000, hlt⟩ (1 : Fin 2) * 64 + 64
    omega

/-- After the last grid point the output array is the layer of the whole arrays. -/
theorem gin2_whole (c : Dev nD) :
    (dat2 V c).arrAt 6 cfg2.N
      = Cert.Net.layer (n := 100000) (V c (Pipeline.arrRef spec2 0)) (V c (Pipeline.arrRef spec2 1))
          (V c (Pipeline.arrRef spec2 2)) (V c (Pipeline.arrRef spec2 3)) (V c (Pipeline.arrRef spec2 4))
          (V c (Pipeline.arrRef spec2 5)) :=
  (dat2 V c).arrAt_eq_of_cover 6 _ (fun t _ => gin2_flushed V c t) gin2_cover

end Cert.KernelIdeal.Regions

end
-- ==== Proof.RegionGin3.lean ====
/-
  Layer region 3 on whole arrays.

  The region runs one layer's body at ten grid points; point t stages rows 10000·t … 10000·t + 9999 of the node
  array and of the aggregated array and the whole of the two weight matrices and bias rows, and writes the body's
  block back to the same rows of the output array.  Entry (r, q) of a layer reads row r of the two row-wise
  arrays alone, so the block written at point t is that block of rows of the layer of the whole arrays; the ten
  blocks tile the 100000 rows, so after the last point the output array is the layer of the whole arrays.
-/
import proofs.«124003_j47699906789506_1_alg».proof.Proof.Gen.KernelIdeal.Frame
import proofs.«124003_j47699906789506_1_alg».proof.Proof.Stages

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, as a constant function. -/
theorem gin3_zeros : (![0, 0] : Fin 2 → Nat) = fun _ => 0 := funext fun a => by fin_cases a <;> rfl

/-- The block indices of the seven windows at each of the ten grid points: the two row-wise input windows and the
    output window move down the rows with the point, the weight and bias windows stay. -/
theorem gin3_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Entry (p, j) of the node block at point t is entry (10000·t + p, j) of the node array. -/
theorem gin3_blk0 (c : Dev nD) (t : Fin cfg3.N) (p : Fin 10000) (h : t.val * 10000 + p.val < 100000) (j : Fin 64) :
    iblk3 V c 0 t (ix2 p j)
      = (V c (Pipeline.arrRef spec3 0) : S100000x64.Idx → EReal) (ix2 (⟨t.val * 10000 + p.val, h⟩ : Fin 100000) j) := by
  obtain ⟨e0, e1, -⟩ := gin3_index t
  show (V c (Pipeline.arrRef spec3 0) : S100000x64.Idx → EReal) (((cfg3.win 0).blk t).view.emb (ix2 p j)) = _
  have he : ((cfg3.win 0).blk t).view.emb (ix2 p j)
      = (ix2 (⟨t.val * 10000 + p.val, h⟩ : Fin 100000) j : S100000x64.Idx) := by
    funext a; apply Fin.ext
    match a with
    | ⟨0, _⟩ => show win3_0.index t (0 : Fin 2) * 10000 + 1 * p.val = t.val * 10000 + p.val; omega
    | ⟨1, _⟩ => show win3_0.index t (1 : Fin 2) * 64 + 1 * j.val = j.val; omega
  rw [he]

/-- Entry (p, j) of the aggregated block at point t is entry (10000·t + p, j) of the aggregated array. -/
theorem gin3_blk1 (c : Dev nD) (t : Fin cfg3.N) (p : Fin 10000) (h : t.val * 10000 + p.val < 100000) (j : Fin 64) :
    iblk3 V c 1 t (ix2 p j)
      = (V c (Pipeline.arrRef spec3 1) : S100000x64.Idx → EReal) (ix2 (⟨t.val * 10000 + p.val, h⟩ : Fin 100000) j) := by
  obtain ⟨-, -, e0, e1, -⟩ := gin3_index t
  show (V c (Pipeline.arrRef spec3 1) : S100000x64.Idx → EReal) (((cfg3.win 1).blk t).view.emb (ix2 p j)) = _
  have he : ((cfg3.win 1).blk t).view.emb (ix2 p j)
      = (ix2 (⟨t.val * 10000 + p.val, h⟩ : Fin 100000) j : S100000x64.Idx) := by
    funext a; apply Fin.ext
    match a with
    | ⟨0, _⟩ => show win3_1.index t (0 : Fin 2) * 10000 + 1 * p.val = t.val * 10000 + p.val; omega
    | ⟨1, _⟩ => show win3_1.index t (1 : Fin 2) * 64 + 1 * j.val = j.val; omega
  rw [he]

/-- The first weight block at any point is the whole first weight matrix. -/
theorem gin3_blk2 (c : Dev nD) (t : Fin cfg3.N) :
    (iblk3 V c 2 t : S64x64.Idx → EReal) = (V c (Pipeline.arrRef spec3 2) : S64x64.Idx → EReal) := by
  obtain ⟨-, -, -, -, e0, e1, -⟩ := gin3_index t
  funext y
  show (V c (Pipeline.arrRef spec3 2) : S64x64.Idx → EReal) (((cfg3.win 2).blk t).view.emb y) = _
  have he : ((cfg3.win 2).blk t).view.emb y = (y : S64x64.Idx) := by
    funext a; apply Fin.ext
    match a with
    | ⟨0, _⟩ => show win3_2.index t (0 : Fin 2) * 64 + 1 * (y 0).val = (y 0).val; omega
    | ⟨1, _⟩ => show win3_2.index t (1 : Fin 2) * 64 + 1 * (y 1).val = (y 1).val; omega
  rw [he]

/-- The first bias block at any point is the whole first bias row. -/
theorem gin3_blk3 (c : Dev nD) (t : Fin cfg3.N) :
    (iblk3 V c 3 t : S1x64.Idx → EReal) = (V c (Pipeline.arrRef spec3 3) : S1x64.Idx → EReal) := by
  obtain ⟨-, -, -, -, -, -, e0, e1, -⟩ := gin3_index t
  funext y
  show (V c (Pipeline.arrRef spec3 3) : S1x64.Idx → EReal) (((cfg3.win 3).blk t).view.emb y) = _
  have he : ((cfg3.win 3).blk t).view.emb y = (y : S1x64.Idx) := by
    funext a; apply Fin.ext
    match a with
    | ⟨0, _⟩ => show win3_3.index t (0 : Fin 2) * 1 + 1 * (y 0).val = (y 0).val; omega
    | ⟨1, _⟩ => show win3_3.index t (1 : Fin 2) * 64 + 1 * (y 1).val = (y 1).val; omega
  rw [he]

/-- The second weight block at any point is the whole second weight matrix. -/
theorem gin3_blk4 (c : Dev nD) (t : Fin cfg3.N) :
    (iblk3 V c 4 t : S64x64.Idx → EReal) = (V c (Pipeline.arrRef spec3 4) : S64x64.Idx → EReal) := by
  obtain ⟨-, -, -, -, -, -, -, -, e0, e1, -⟩ := gin3_index t
  funext y
  show (V c (Pipeline.arrRef spec3 4) : S64x64.Idx → EReal) (((cfg3.win 4).blk t).view.emb y) = _
  have he : ((cfg3.win 4).blk t).view.emb y = (y : S64x64.Idx) := by
    funext a; apply Fin.ext
    match a with
    | ⟨0, _⟩ => show win3_4.index t (0 : Fin 2) * 64 + 1 * (y 0).val = (y 0).val; omega
    | ⟨1, _⟩ => show win3_4.index t (1 : Fin 2) * 64 + 1 * (y 1).val = (y 1).val; omega
  rw [he]

/-- The second bias block at any point is the whole second bias row. -/
theorem gin3_blk5 (c : Dev nD) (t : Fin cfg3.N) :
    (iblk3 V c 5 t : S1x64.Idx → EReal) = (V c (Pipeline.arrRef spec3 5) : S1x64.Idx → EReal) := by
  obtain ⟨-, -, -, -, -, -, -, -, -, -, e0, e1, -⟩ := gin3_index t
  funext y
  show (V c (Pipeline.arrRef spec3 5) : S1x64.Idx → EReal) (((cfg3.win 5).blk t).view.emb y) = _
  have he : ((cfg3.win 5).blk t).view.emb y = (y : S1x64.Idx) := by
    funext a; apply Fin.ext
    match a with
    | ⟨0, _⟩ => show win3_5.index t (0 : Fin 2) * 1 + 1 * (y 0).val = (y 0).val; omega
    | ⟨1, _⟩ => show win3_5.index t (1 : Fin 2) * 64 + 1 * (y 1).val = (y 1).val; omega
  rw [he]

set_option maxHeartbeats 1000000 in
/-- What point t writes back is block t of the layer of the whole arrays. -/
theorem gin3_flushed (c : Dev nD) (t : Fin cfg3.N) :
    (dat3 V c).flushed 6 t = ((cfg3.win 6).blk t).view.read (Elt Ideal)
      (Cert.Net.layer (n := 100000) (V c (Pipeline.arrRef spec3 0)) (V c (Pipeline.arrRef spec3 1))
        (V c (Pipeline.arrRef spec3 2)) (V c (Pipeline.arrRef spec3 3)) (V c (Pipeline.arrRef spec3 4))
        (V c (Pipeline.arrRef spec3 5))) := by
  show (cfg3.win 6).cut (grid3.coords t) ((dat3 V c).after 6 t) = _
  rw [after3_6]
  unfold out3_6
  rw [View.canon_unit_zero gin3_zeros]
  simp only [View.ld_unit_zero (S := S10000x64) gin3_zeros, View.ld_unit_zero (S := S64x64) gin3_zeros,
    View.ld_unit_zero (S := S1x64) gin3_zeros]
  rw [Stages.pay_gin3]
  obtain ⟨-, -, -, -, -, -, -, -, -, -, -, -, e0, e1⟩ := gin3_index t
  funext j
  obtain ⟨p, q, rfl⟩ : ∃ (p : Fin 10000) (q : Fin 64), j = ix2 p q := ⟨j 0, j 1, eq_ix2 j⟩
  have ht : t.val < 10 := t.isLt
  have h : t.val * 10000 + p.val < 100000 := by have := p.isLt; omega
  show Cert.Net.layer (n := 10000) (iblk3 V c 0 t) (iblk3 V c 1 t) (iblk3 V c 2 t) (iblk3 V c 3 t)
      (iblk3 V c 4 t) (iblk3 V c 5 t) (ix2 p q)
    = Cert.Net.layer (n := 100000) (V c (Pipeline.arrRef spec3 0)) (V c (Pipeline.arrRef spec3 1))
        (V c (Pipeline.arrRef spec3 2)) (V c (Pipeline.arrRef spec3 3)) (V c (Pipeline.arrRef spec3 4))
        (V c (Pipeline.arrRef spec3 5)) (((cfg3.win 6).blk t).view.emb (ix2 p q))
  have he : ((cfg3.win 6).blk t).view.emb (ix2 p q)
      = (ix2 (⟨t.val * 10000 + p.val, h⟩ : Fin 100000) q : S100000x64.Idx) := by
    funext a; apply Fin.ext
    match a with
    | ⟨0, _⟩ => show win3_6.index t (0 : Fin 2) * 10000 + 1 * p.val = t.val * 10000 + p.val; omega
    | ⟨1, _⟩ => show win3_6.index t (1 : Fin 2) * 64 + 1 * q.val = q.val; omega
  rw [he]
  exact Stages.layer_row _ _ _ _ _ _ _ _ _ _ _ _ p ⟨t.val * 10000 + p.val, h⟩ q
    (fun j => gin3_blk0 V c t p h j) (fun j => gin3_blk1 V c t p h j)
    (gin3_blk2 V c t) (gin3_blk3 V c t) (gin3_blk4 V c t) (gin3_blk5 V c t)

/-- An entry of the output array is in point t's block iff each coordinate is in the block's range. -/
theorem gin3_mem_blk (t : Fin cfg3.N) (i : S100000x64.Idx) :
    i ∈ ((cfg3.win 6).blk t).view.set ↔ ∀ a : Fin 2, win3_6.index t a * S10000x64.size a ≤ (i a).val
      ∧ (i a).val < win3_6.index t a * S10000x64.size a + S10000x64.size a := by
  show i ∈ ((View.whole main_v73).slice (win3_6.rect t)).set ↔ _
  rw [View.set_slice_whole, Rect.mem_set_unit]
  exact Iff.rfl

/-- Row r of the output array is written back by point r / 10000. -/
theorem gin3_cover (i : S100000x64.Idx) :
    ∃ t : Fin cfg3.N, (cfg3.win 6).flush t = true ∧ i ∈ ((cfg3.win 6).blk t).view.set := by
  have hi0 : (i 0).val < 100000 := (i 0).isLt
  have hi1 : (i 1).val < 64 := (i 1).isLt
  have hlt : (i 0).val / 10000 < 10 := by omega
  refine ⟨⟨(i 0).val / 10000, hlt⟩, flush3_6 _, ?_⟩
  rw [gin3_mem_blk]
  obtain ⟨-, -, -, -, -, -, -, -, -, -, -, -, e0, e1⟩ := gin3_index ⟨(i 0).val / 10000, hlt⟩
  have e0' : win3_6.index ⟨(i 0).val / 10000, hlt⟩ (0 : Fin 2) = (i 0).val / 10000 := e0
  intro a
  match a with
  | ⟨0, _⟩ =>
    show win3_6.index ⟨(i 0).val / 10000, hlt⟩ (0 : Fin 2) * 10000 ≤ (i 0).val
      ∧ (i 0).val < win3_6.index ⟨(i 0).val / 10000, hlt⟩ (0 : Fin 2) * 10000 + 10000
    omega
  | ⟨1, _⟩ =>
    show win3_6.index ⟨(i 0).val / 10000, hlt⟩ (1 : Fin 2) * 64 ≤ (i 1).val
      ∧ (i 1).val < win3_6.index ⟨(i 0).val / 10000, hlt⟩ (1 : Fin 2) * 64 + 64
    omega

/-- After the last grid point the output array is the layer of the whole arrays. -/
theorem gin3_whole (c : Dev nD) :
    (dat3 V c).arrAt 6 cfg3.N
      = Cert.Net.layer (n := 100000) (V c (Pipeline.arrRef spec3 0)) (V c (Pipeline.arrRef spec3 1))
          (V c (Pipeline.arrRef spec3 2)) (V c (Pipeline.arrRef spec3 3)) (V c (Pipeline.arrRef spec3 4))
          (V c (Pipeline.arrRef spec3 5)) :=
  (dat3 V c).arrAt_eq_of_cover 6 _ (fun t _ => gin3_flushed V c t) gin3_cover

end Cert.KernelIdeal.Regions

end
-- ==== Proof.RegionGin4.lean ====
/-
  Layer region 4 on whole arrays.

  The region runs one layer's body at ten grid points; point t stages rows 10000·t … 10000·t + 9999 of the node
  array and of the aggregated array and the whole of the two weight matrices and bias rows, and writes the body's
  block back to the same rows of the output array.  Entry (r, q) of a layer reads row r of the two row-wise
  arrays alone, so the block written at point t is that block of rows of the layer of the whole arrays; the ten
  blocks tile the 100000 rows, so after the last point the output array is the layer of the whole arrays.
-/
import proofs.«124003_j47699906789506_1_alg».proof.Proof.Gen.KernelIdeal.Frame
import proofs.«124003_j47699906789506_1_alg».proof.Proof.Stages

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, as a constant function. -/
theorem gin4_zeros : (![0, 0] : Fin 2 → Nat) = fun _ => 0 := funext fun a => by fin_cases a <;> rfl

/-- The block indices of the seven windows at each of the ten grid points: the two row-wise input windows and the
    output window move down the rows with the point, the weight and bias windows stay. -/
theorem gin4_index : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Entry (p, j) of the node block at point t is entry (10000·t + p, j) of the node array. -/
theorem gin4_blk0 (c : Dev nD) (t : Fin cfg4.N) (p : Fin 10000) (h : t.val * 10000 + p.val < 100000) (j : Fin 64) :
    iblk4 V c 0 t (ix2 p j)
      = (V c (Pipeline.arrRef spec4 0) : S100000x64.Idx → EReal) (ix2 (⟨t.val * 10000 + p.val, h⟩ : Fin 100000) j) := by
  obtain ⟨e0, e1, -⟩ := gin4_index t
  show (V c (Pipeline.arrRef spec4 0) : S100000x64.Idx → EReal) (((cfg4.win 0).blk t).view.emb (ix2 p j)) = _
  have he : ((cfg4.win 0).blk t).view.emb (ix2 p j)
      = (ix2 (⟨t.val * 10000 + p.val, h⟩ : Fin 100000) j : S100000x64.Idx) := by
    funext a; apply Fin.ext
    match a with
    | ⟨0, _⟩ => show win4_0.index t (0 : Fin 2) * 10000 + 1 * p.val = t.val * 10000 + p.val; omega
    | ⟨1, _⟩ => show win4_0.index t (1 : Fin 2) * 64 + 1 * j.val = j.val; omega
  rw [he]

/-- Entry (p, j) of the aggregated block at point t is entry (10000·t + p, j) of the aggregated array. -/
theorem gin4_blk1 (c : Dev nD) (t : Fin cfg4.N) (p : Fin 10000) (h : t.val * 10000 + p.val < 100000) (j : Fin 64) :
    iblk4 V c 1 t (ix2 p j)
      = (V c (Pipeline.arrRef spec4 1) : S100000x64.Idx → EReal) (ix2 (⟨t.val * 10000 + p.val, h⟩ : Fin 100000) j) := by
  obtain ⟨-, -, e0, e1, -⟩ := gin4_index t
  show (V c (Pipeline.arrRef spec4 1) : S100000x64.Idx → EReal) (((cfg4.win 1).blk t).view.emb (ix2 p j)) = _
  have he : ((cfg4.win 1).blk t).view.emb (ix2 p j)
      = (ix2 (⟨t.val * 10000 + p.val, h⟩ : Fin 100000) j : S100000x64.Idx) := by
    funext a; apply Fin.ext
    match a with
    | ⟨0, _⟩ => show win4_1.index t (0 : Fin 2) * 10000 + 1 * p.val = t.val * 10000 + p.val; omega
    | ⟨1, _⟩ => show win4_1.index t (1 : Fin 2) * 64 + 1 * j.val = j.val; omega
  rw [he]

/-- The first weight block at any point is the whole first weight matrix. -/
theorem gin4_blk2 (c : Dev nD) (t : Fin cfg4.N) :
    (iblk4 V c 2 t : S64x64.Idx → EReal) = (V c (Pipeline.arrRef spec4 2) : S64x64.Idx → EReal) := by
  obtain ⟨-, -, -, -, e0, e1, -⟩ := gin4_index t
  funext y
  show (V c (Pipeline.arrRef spec4 2) : S64x64.Idx → EReal) (((cfg4.win 2).blk t).view.emb y) = _
  have he : ((cfg4.win 2).blk t).view.emb y = (y : S64x64.Idx) := by
    funext a; apply Fin.ext
    match a with
    | ⟨0, _⟩ => show win4_2.index t (0 : Fin 2) * 64 + 1 * (y 0).val = (y 0).val; omega
    | ⟨1, _⟩ => show win4_2.index t (1 : Fin 2) * 64 + 1 * (y 1).val = (y 1).val; omega
  rw [he]

/-- The first bias block at any point is the whole first bias row. -/
theorem gin4_blk3 (c : Dev nD) (t : Fin cfg4.N) :
    (iblk4 V c 3 t : S1x64.Idx → EReal) = (V c (Pipeline.arrRef spec4 3) : S1x64.Idx → EReal) := by
  obtain ⟨-, -, -, -, -, -, e0, e1, -⟩ := gin4_index t
  funext y
  show (V c (Pipeline.arrRef spec4 3) : S1x64.Idx → EReal) (((cfg4.win 3).blk t).view.emb y) = _
  have he : ((cfg4.win 3).blk t).view.emb y = (y : S1x64.Idx) := by
    funext a; apply Fin.ext
    match a with
    | ⟨0, _⟩ => show win4_3.index t (0 : Fin 2) * 1 + 1 * (y 0).val = (y 0).val; omega
    | ⟨1, _⟩ => show win4_3.index t (1 : Fin 2) * 64 + 1 * (y 1).val = (y 1).val; omega
  rw [he]

/-- The second weight block at any point is the whole second weight matrix. -/
theorem gin4_blk4 (c : Dev nD) (t : Fin cfg4.N) :
    (iblk4 V c 4 t : S64x64.Idx → EReal) = (V c (Pipeline.arrRef spec4 4) : S64x64.Idx → EReal) := by
  obtain ⟨-, -, -, -, -, -, -, -, e0, e1, -⟩ := gin4_index t
  funext y
  show (V c (Pipeline.arrRef spec4 4) : S64x64.Idx → EReal) (((cfg4.win 4).blk t).view.emb y) = _
  have he : ((cfg4.win 4).blk t).view.emb y = (y : S64x64.Idx) := by
    funext a; apply Fin.ext
    match a with
    | ⟨0, _⟩ => show win4_4.index t (0 : Fin 2) * 64 + 1 * (y 0).val = (y 0).val; omega
    | ⟨1, _⟩ => show win4_4.index t (1 : Fin 2) * 64 + 1 * (y 1).val = (y 1).val; omega
  rw [he]

/-- The second bias block at any point is the whole second bias row. -/
theorem gin4_blk5 (c : Dev nD) (t : Fin cfg4.N) :
    (iblk4 V c 5 t : S1x64.Idx → EReal) = (V c (Pipeline.arrRef spec4 5) : S1x64.Idx → EReal) := by
  obtain ⟨-, -, -, -, -, -, -, -, -, -, e0, e1, -⟩ := gin4_index t
  funext y
  show (V c (Pipeline.arrRef spec4 5) : S1x64.Idx → EReal) (((cfg4.win 5).blk t).view.emb y) = _
  have he : ((cfg4.win 5).blk t).view.emb y = (y : S1x64.Idx) := by
    funext a; apply Fin.ext
    match a with
    | ⟨0, _⟩ => show win4_5.index t (0 : Fin 2) * 1 + 1 * (y 0).val = (y 0).val; omega
    | ⟨1, _⟩ => show win4_5.index t (1 : Fin 2) * 64 + 1 * (y 1).val = (y 1).val; omega
  rw [he]

set_option maxHeartbeats 1000000 in
/-- What point t writes back is block t of the layer of the whole arrays. -/
theorem gin4_flushed (c : Dev nD) (t : Fin cfg4.N) :
    (dat4 V c).flushed 6 t = ((cfg4.win 6).blk t).view.read (Elt Ideal)
      (Cert.Net.layer (n := 100000) (V c (Pipeline.arrRef spec4 0)) (V c (Pipeline.arrRef spec4 1))
        (V c (Pipeline.arrRef spec4 2)) (V c (Pipeline.arrRef spec4 3)) (V c (Pipeline.arrRef spec4 4))
        (V c (Pipeline.arrRef spec4 5))) := by
  show (cfg4.win 6).cut (grid4.coords t) ((dat4 V c).after 6 t) = _
  rw [after4_6]
  unfold out4_6
  rw [View.canon_unit_zero gin4_zeros]
  simp only [View.ld_unit_zero (S := S10000x64) gin4_zeros, View.ld_unit_zero (S := S64x64) gin4_zeros,
    View.ld_unit_zero (S := S1x64) gin4_zeros]
  rw [Stages.pay_gin4]
  obtain ⟨-, -, -, -, -, -, -, -, -, -, -, -, e0, e1⟩ := gin4_index t
  funext j
  obtain ⟨p, q, rfl⟩ : ∃ (p : Fin 10000) (q : Fin 64), j = ix2 p q := ⟨j 0, j 1, eq_ix2 j⟩
  have ht : t.val < 10 := t.isLt
  have h : t.val * 10000 + p.val < 100000 := by have := p.isLt; omega
  show Cert.Net.layer (n := 10000) (iblk4 V c 0 t) (iblk4 V c 1 t) (iblk4 V c 2 t) (iblk4 V c 3 t)
      (iblk4 V c 4 t) (iblk4 V c 5 t) (ix2 p q)
    = Cert.Net.layer (n := 100000) (V c (Pipeline.arrRef spec4 0)) (V c (Pipeline.arrRef spec4 1))
        (V c (Pipeline.arrRef spec4 2)) (V c (Pipeline.arrRef spec4 3)) (V c (Pipeline.arrRef spec4 4))
        (V c (Pipeline.arrRef spec4 5)) (((cfg4.win 6).blk t).view.emb (ix2 p q))
  have he : ((cfg4.win 6).blk t).view.emb (ix2 p q)
      = (ix2 (⟨t.val * 10000 + p.val, h⟩ : Fin 100000) q : S100000x64.Idx) := by
    funext a; apply Fin.ext
    match a with
    | ⟨0, _⟩ => show win4_6.index t (0 : Fin 2) * 10000 + 1 * p.val = t.val * 10000 + p.val; omega
    | ⟨1, _⟩ => show win4_6.index t (1 : Fin 2) * 64 + 1 * q.val = q.val; omega
  rw [he]
  exact Stages.layer_row _ _ _ _ _ _ _ _ _ _ _ _ p ⟨t.val * 10000 + p.val, h⟩ q
    (fun j => gin4_blk0 V c t p h j) (fun j => gin4_blk1 V c t p h j)
    (gin4_blk2 V c t) (gin4_blk3 V c t) (gin4_blk4 V c t) (gin4_blk5 V c t)

/-- An entry of the output array is in point t's block iff each coordinate is in the block's range. -/
theorem gin4_mem_blk (t : Fin cfg4.N) (i : S100000x64.Idx) :
    i ∈ ((cfg4.win 6).blk t).view.set ↔ ∀ a : Fin 2, win4_6.index t a * S10000x64.size a ≤ (i a).val
      ∧ (i a).val < win4_6.index t a * S10000x64.size a + S10000x64.size a := by
  show i ∈ ((View.whole main_v94).slice (win4_6.rect t)).set ↔ _
  rw [View.set_slice_whole, Rect.mem_set_unit]
  exact Iff.rfl

/-- Row r of the output array is written back by point r / 10000. -/
theorem gin4_cover (i : S100000x64.Idx) :
    ∃ t : Fin cfg4.N, (cfg4.win 6).flush t = true ∧ i ∈ ((cfg4.win 6).blk t).view.set := by
  have hi0 : (i 0).val < 100000 := (i 0).isLt
  have hi1 : (i 1).val < 64 := (i 1).isLt
  have hlt : (i 0).val / 10000 < 10 := by omega
  refine ⟨⟨(i 0).val / 10000, hlt⟩, flush4_6 _, ?_⟩
  rw [gin4_mem_blk]
  obtain ⟨-, -, -, -, -, -, -, -, -, -, -, -, e0, e1⟩ := gin4_index ⟨(i 0).val / 10000, hlt⟩
  have e0' : win4_6.index ⟨(i 0).val / 10000, hlt⟩ (0 : Fin 2) = (i 0).val / 10000 := e0
  intro a
  match a with
  | ⟨0, _⟩ =>
    show win4_6.index ⟨(i 0).val / 10000, hlt⟩ (0 : Fin 2) * 10000 ≤ (i 0).val
      ∧ (i 0).val < win4_6.index ⟨(i 0).val / 10000, hlt⟩ (0 : Fin 2) * 10000 + 10000
    omega
  | ⟨1, _⟩ =>
    show win4_6.index ⟨(i 0).val / 10000, hlt⟩ (1 : Fin 2) * 64 ≤ (i 1).val
      ∧ (i 1).val < win4_6.index ⟨(i 0).val / 10000, hlt⟩ (1 : Fin 2) * 64 + 64
    omega

/-- After the last grid point the output array is the layer of the whole arrays. -/
theorem gin4_whole (c : Dev nD) :
    (dat4 V c).arrAt 6 cfg4.N
      = Cert.Net.layer (n := 100000) (V c (Pipeline.arrRef spec4 0)) (V c (Pipeline.arrRef spec4 1))
          (V c (Pipeline.arrRef spec4 2)) (V c (Pipeline.arrRef spec4 3)) (V c (Pipeline.arrRef spec4 4))
          (V c (Pipeline.arrRef spec4 5)) :=
  (dat4 V c).arrAt_eq_of_cover 6 _ (fun t _ => gin4_flushed V c t) gin4_cover

end Cert.KernelIdeal.Regions

end
-- ==== Proof.RegionGin5.lean ====
/-
  Layer region 5 on whole arrays.

  The region runs one layer's body at ten grid points; point t stages rows 10000·t … 10000·t + 9999 of the node
  array and of the aggregated array and the whole of the two weight matrices and bias rows, and writes the body's
  block back to the same rows of the output array.  Entry (r, q) of a layer reads row r of the two row-wise
  arrays alone, so the block written at point t is that block of rows of the layer of the whole arrays; the ten
  blocks tile the 100000 rows, so after the last point the output array is the layer of the whole arrays.
-/
import proofs.«124003_j47699906789506_1_alg».proof.Proof.Gen.KernelIdeal.Frame
import proofs.«124003_j47699906789506_1_alg».proof.Proof.Stages

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, as a constant function. -/
theorem gin5_zeros : (![0, 0] : Fin 2 → Nat) = fun _ => 0 := funext fun a => by fin_cases a <;> rfl

/-- The block indices of the seven windows at each of the ten grid points: the two row-wise input windows and the
    output window move down the rows with the point, the weight and bias windows stay. -/
theorem gin5_index : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- Entry (p, j) of the node block at point t is entry (10000·t + p, j) of the node array. -/
theorem gin5_blk0 (c : Dev nD) (t : Fin cfg5.N) (p : Fin 10000) (h : t.val * 10000 + p.val < 100000) (j : Fin 64) :
    iblk5 V c 0 t (ix2 p j)
      = (V c (Pipeline.arrRef spec5 0) : S100000x64.Idx → EReal) (ix2 (⟨t.val * 10000 + p.val, h⟩ : Fin 100000) j) := by
  obtain ⟨e0, e1, -⟩ := gin5_index t
  show (V c (Pipeline.arrRef spec5 0) : S100000x64.Idx → EReal) (((cfg5.win 0).blk t).view.emb (ix2 p j)) = _
  have he : ((cfg5.win 0).blk t).view.emb (ix2 p j)
      = (ix2 (⟨t.val * 10000 + p.val, h⟩ : Fin 100000) j : S100000x64.Idx) := by
    funext a; apply Fin.ext
    match a with
    | ⟨0, _⟩ => show win5_0.index t (0 : Fin 2) * 10000 + 1 * p.val = t.val * 10000 + p.val; omega
    | ⟨1, _⟩ => show win5_0.index t (1 : Fin 2) * 64 + 1 * j.val = j.val; omega
  rw [he]

/-- Entry (p, j) of the aggregated block at point t is entry (10000·t + p, j) of the aggregated array. -/
theorem gin5_blk1 (c : Dev nD) (t : Fin cfg5.N) (p : Fin 10000) (h : t.val * 10000 + p.val < 100000) (j : Fin 64) :
    iblk5 V c 1 t (ix2 p j)
      = (V c (Pipeline.arrRef spec5 1) : S100000x64.Idx → EReal) (ix2 (⟨t.val * 10000 + p.val, h⟩ : Fin 100000) j) := by
  obtain ⟨-, -, e0, e1, -⟩ := gin5_index t
  show (V c (Pipeline.arrRef spec5 1) : S100000x64.Idx → EReal) (((cfg5.win 1).blk t).view.emb (ix2 p j)) = _
  have he : ((cfg5.win 1).blk t).view.emb (ix2 p j)
      = (ix2 (⟨t.val * 10000 + p.val, h⟩ : Fin 100000) j : S100000x64.Idx) := by
    funext a; apply Fin.ext
    match a with
    | ⟨0, _⟩ => show win5_1.index t (0 : Fin 2) * 10000 + 1 * p.val = t.val * 10000 + p.val; omega
    | ⟨1, _⟩ => show win5_1.index t (1 : Fin 2) * 64 + 1 * j.val = j.val; omega
  rw [he]

/-- The first weight block at any point is the whole first weight matrix. -/
theorem gin5_blk2 (c : Dev nD) (t : Fin cfg5.N) :
    (iblk5 V c 2 t : S64x64.Idx → EReal) = (V c (Pipeline.arrRef spec5 2) : S64x64.Idx → EReal) := by
  obtain ⟨-, -, -, -, e0, e1, -⟩ := gin5_index t
  funext y
  show (V c (Pipeline.arrRef spec5 2) : S64x64.Idx → EReal) (((cfg5.win 2).blk t).view.emb y) = _
  have he : ((cfg5.win 2).blk t).view.emb y = (y : S64x64.Idx) := by
    funext a; apply Fin.ext
    match a with
    | ⟨0, _⟩ => show win5_2.index t (0 : Fin 2) * 64 + 1 * (y 0).val = (y 0).val; omega
    | ⟨1, _⟩ => show win5_2.index t (1 : Fin 2) * 64 + 1 * (y 1).val = (y 1).val; omega
  rw [he]

/-- The first bias block at any point is the whole first bias row. -/
theorem gin5_blk3 (c : Dev nD) (t : Fin cfg5.N) :
    (iblk5 V c 3 t : S1x64.Idx → EReal) = (V c (Pipeline.arrRef spec5 3) : S1x64.Idx → EReal) := by
  obtain ⟨-, -, -, -, -, -, e0, e1, -⟩ := gin5_index t
  funext y
  show (V c (Pipeline.arrRef spec5 3) : S1x64.Idx → EReal) (((cfg5.win 3).blk t).view.emb y) = _
  have he : ((cfg5.win 3).blk t).view.emb y = (y : S1x64.Idx) := by
    funext a; apply Fin.ext
    match a with
    | ⟨0, _⟩ => show win5_3.index t (0 : Fin 2) * 1 + 1 * (y 0).val = (y 0).val; omega
    | ⟨1, _⟩ => show win5_3.index t (1 : Fin 2) * 64 + 1 * (y 1).val = (y 1).val; omega
  rw [he]

/-- The second weight block at any point is the whole second weight matrix. -/
theorem gin5_blk4 (c : Dev nD) (t : Fin cfg5.N) :
    (iblk5 V c 4 t : S64x64.Idx → EReal) = (V c (Pipeline.arrRef spec5 4) : S64x64.Idx → EReal) := by
  obtain ⟨-, -, -, -, -, -, -, -, e0, e1, -⟩ := gin5_index t
  funext y
  show (V c (Pipeline.arrRef spec5 4) : S64x64.Idx → EReal) (((cfg5.win 4).blk t).view.emb y) = _
  have he : ((cfg5.win 4).blk t).view.emb y = (y : S64x64.Idx) := by
    funext a; apply Fin.ext
    match a with
    | ⟨0, _⟩ => show win5_4.index t (0 : Fin 2) * 64 + 1 * (y 0).val = (y 0).val; omega
    | ⟨1, _⟩ => show win5_4.index t (1 : Fin 2) * 64 + 1 * (y 1).val = (y 1).val; omega
  rw [he]

/-- The second bias block at any point is the whole second bias row. -/
theorem gin5_blk5 (c : Dev nD) (t : Fin cfg5.N) :
    (iblk5 V c 5 t : S1x64.Idx → EReal) = (V c (Pipeline.arrRef spec5 5) : S1x64.Idx → EReal) := by
  obtain ⟨-, -, -, -, -, -, -, -, -, -, e0, e1, -⟩ := gin5_index t
  funext y
  show (V c (Pipeline.arrRef spec5 5) : S1x64.Idx → EReal) (((cfg5.win 5).blk t).view.emb y) = _
  have he : ((cfg5.win 5).blk t).view.emb y = (y : S1x64.Idx) := by
    funext a; apply Fin.ext
    match a with
    | ⟨0, _⟩ => show win5_5.index t (0 : Fin 2) * 1 + 1 * (y 0).val = (y 0).val; omega
    | ⟨1, _⟩ => show win5_5.index t (1 : Fin 2) * 64 + 1 * (y 1).val = (y 1).val; omega
  rw [he]

set_option maxHeartbeats 1000000 in
/-- What point t writes back is block t of the layer of the whole arrays. -/
theorem gin5_flushed (c : Dev nD) (t : Fin cfg5.N) :
    (dat5 V c).flushed 6 t = ((cfg5.win 6).blk t).view.read (Elt Ideal)
      (Cert.Net.layer (n := 100000) (V c (Pipeline.arrRef spec5 0)) (V c (Pipeline.arrRef spec5 1))
        (V c (Pipeline.arrRef spec5 2)) (V c (Pipeline.arrRef spec5 3)) (V c (Pipeline.arrRef spec5 4))
        (V c (Pipeline.arrRef spec5 5))) := by
  show (cfg5.win 6).cut (grid5.coords t) ((dat5 V c).after 6 t) = _
  rw [after5_6]
  unfold out5_6
  rw [View.canon_unit_zero gin5_zeros]
  simp only [View.ld_unit_zero (S := S10000x64) gin5_zeros, View.ld_unit_zero (S := S64x64) gin5_zeros,
    View.ld_unit_zero (S := S1x64) gin5_zeros]
  rw [Stages.pay_gin5]
  obtain ⟨-, -, -, -, -, -, -, -, -, -, -, -, e0, e1⟩ := gin5_index t
  funext j
  obtain ⟨p, q, rfl⟩ : ∃ (p : Fin 10000) (q : Fin 64), j = ix2 p q := ⟨j 0, j 1, eq_ix2 j⟩
  have ht : t.val < 10 := t.isLt
  have h : t.val * 10000 + p.val < 100000 := by have := p.isLt; omega
  show Cert.Net.layer (n := 10000) (iblk5 V c 0 t) (iblk5 V c 1 t) (iblk5 V c 2 t) (iblk5 V c 3 t)
      (iblk5 V c 4 t) (iblk5 V c 5 t) (ix2 p q)
    = Cert.Net.layer (n := 100000) (V c (Pipeline.arrRef spec5 0)) (V c (Pipeline.arrRef spec5 1))
        (V c (Pipeline.arrRef spec5 2)) (V c (Pipeline.arrRef spec5 3)) (V c (Pipeline.arrRef spec5 4))
        (V c (Pipeline.arrRef spec5 5)) (((cfg5.win 6).blk t).view.emb (ix2 p q))
  have he : ((cfg5.win 6).blk t).view.emb (ix2 p q)
      = (ix2 (⟨t.val * 10000 + p.val, h⟩ : Fin 100000) q : S100000x64.Idx) := by
    funext a; apply Fin.ext
    match a with
    | ⟨0, _⟩ => show win5_6.index t (0 : Fin 2) * 10000 + 1 * p.val = t.val * 10000 + p.val; omega
    | ⟨1, _⟩ => show win5_6.index t (1 : Fin 2) * 64 + 1 * q.val = q.val; omega
  rw [he]
  exact Stages.layer_row _ _ _ _ _ _ _ _ _ _ _ _ p ⟨t.val * 10000 + p.val, h⟩ q
    (fun j => gin5_blk0 V c t p h j) (fun j => gin5_blk1 V c t p h j)
    (gin5_blk2 V c t) (gin5_blk3 V c t) (gin5_blk4 V c t) (gin5_blk5 V c t)

/-- An entry of the output array is in point t's block iff each coordinate is in the block's range. -/
theorem gin5_mem_blk (t : Fin cfg5.N) (i : S100000x64.Idx) :
    i ∈ ((cfg5.win 6).blk t).view.set ↔ ∀ a : Fin 2, win5_6.index t a * S10000x64.size a ≤ (i a).val
      ∧ (i a).val < win5_6.index t a * S10000x64.size a + S10000x64.size a := by
  show i ∈ ((View.whole main_v115).slice (win5_6.rect t)).set ↔ _
  rw [View.set_slice_whole, Rect.mem_set_unit]
  exact Iff.rfl

/-- Row r of the output array is written back by point r / 10000. -/
theorem gin5_cover (i : S100000x64.Idx) :
    ∃ t : Fin cfg5.N, (cfg5.win 6).flush t = true ∧ i ∈ ((cfg5.win 6).blk t).view.set := by
  have hi0 : (i 0).val < 100000 := (i 0).isLt
  have hi1 : (i 1).val < 64 := (i 1).isLt
  have hlt : (i 0).val / 10000 < 10 := by omega
  refine ⟨⟨(i 0).val / 10000, hlt⟩, flush5_6 _, ?_⟩
  rw [gin5_mem_blk]
  obtain ⟨-, -, -, -, -, -, -, -, -, -, -, -, e0, e1⟩ := gin5_index ⟨(i 0).val / 10000, hlt⟩
  have e0' : win5_6.index ⟨(i 0).val / 10000, hlt⟩ (0 : Fin 2) = (i 0).val / 10000 := e0
  intro a
  match a with
  | ⟨0, _⟩ =>
    show win5_6.index ⟨(i 0).val / 10000, hlt⟩ (0 : Fin 2) * 10000 ≤ (i 0).val
      ∧ (i 0).val < win5_6.index ⟨(i 0).val / 10000, hlt⟩ (0 : Fin 2) * 10000 + 10000
    omega
  | ⟨1, _⟩ =>
    show win5_6.index ⟨(i 0).val / 10000, hlt⟩ (1 : Fin 2) * 64 ≤ (i 1).val
      ∧ (i 1).val < win5_6.index ⟨(i 0).val / 10000, hlt⟩ (1 : Fin 2) * 64 + 64
    omega

/-- After the last grid point the output array is the layer of the whole arrays. -/
theorem gin5_whole (c : Dev nD) :
    (dat5 V c).arrAt 6 cfg5.N
      = Cert.Net.layer (n := 100000) (V c (Pipeline.arrRef spec5 0)) (V c (Pipeline.arrRef spec5 1))
          (V c (Pipeline.arrRef spec5 2)) (V c (Pipeline.arrRef spec5 3)) (V c (Pipeline.arrRef spec5 4))
          (V c (Pipeline.arrRef spec5 5)) :=
  (dat5 V c).arrAt_eq_of_cover 6 _ (fun t _ => gin5_flushed V c t) gin5_cover

end Cert.KernelIdeal.Regions

end
-- ==== Proof.RegionGin6.lean ====
/-
  Layer region 6 on whole arrays.

  The region runs one layer's body at ten grid points; point t stages rows 10000·t … 10000·t + 9999 of the node
  array and of the aggregated array and the whole of the two weight matrices and bias rows, and writes the body's
  block back to the same rows of the output array.  Entry (r, q) of a layer reads row r of the two row-wise
  arrays alone, so the block written at point t is that block of rows of the layer of the whole arrays; the ten
  blocks tile the 100000 rows, so after the last point the output array is the layer of the whole arrays.
-/
import proofs.«124003_j47699906789506_1_alg».proof.Proof.Gen.KernelIdeal.Frame
import proofs.«124003_j47699906789506_1_alg».proof.Proof.Stages

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, as a constant function. -/
theorem gin6_zeros : (![0, 0] : Fin 2 → Nat) = fun _ => 0 := funext fun a => by fin_cases a <;> rfl

/-- The block indices of the seven windows at each of the ten grid points: the two row-wise input windows and the
    output window move down the rows with the point, the weight and bias windows stay. -/
theorem gin6_index : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

/-- Entry (p, j) of the node block at point t is entry (10000·t + p, j) of the node array. -/
theorem gin6_blk0 (c : Dev nD) (t : Fin cfg6.N) (p : Fin 10000) (h : t.val * 10000 + p.val < 100000) (j : Fin 64) :
    iblk6 V c 0 t (ix2 p j)
      = (V c (Pipeline.arrRef spec6 0) : S100000x64.Idx → EReal) (ix2 (⟨t.val * 10000 + p.val, h⟩ : Fin 100000) j) := by
  obtain ⟨e0, e1, -⟩ := gin6_index t
  show (V c (Pipeline.arrRef spec6 0) : S100000x64.Idx → EReal) (((cfg6.win 0).blk t).view.emb (ix2 p j)) = _
  have he : ((cfg6.win 0).blk t).view.emb (ix2 p j)
      = (ix2 (⟨t.val * 10000 + p.val, h⟩ : Fin 100000) j : S100000x64.Idx) := by
    funext a; apply Fin.ext
    match a with
    | ⟨0, _⟩ => show win6_0.index t (0 : Fin 2) * 10000 + 1 * p.val = t.val * 10000 + p.val; omega
    | ⟨1, _⟩ => show win6_0.index t (1 : Fin 2) * 64 + 1 * j.val = j.val; omega
  rw [he]

/-- Entry (p, j) of the aggregated block at point t is entry (10000·t + p, j) of the aggregated array. -/
theorem gin6_blk1 (c : Dev nD) (t : Fin cfg6.N) (p : Fin 10000) (h : t.val * 10000 + p.val < 100000) (j : Fin 64) :
    iblk6 V c 1 t (ix2 p j)
      = (V c (Pipeline.arrRef spec6 1) : S100000x64.Idx → EReal) (ix2 (⟨t.val * 10000 + p.val, h⟩ : Fin 100000) j) := by
  obtain ⟨-, -, e0, e1, -⟩ := gin6_index t
  show (V c (Pipeline.arrRef spec6 1) : S100000x64.Idx → EReal) (((cfg6.win 1).blk t).view.emb (ix2 p j)) = _
  have he : ((cfg6.win 1).blk t).view.emb (ix2 p j)
      = (ix2 (⟨t.val * 10000 + p.val, h⟩ : Fin 100000) j : S100000x64.Idx) := by
    funext a; apply Fin.ext
    match a with
    | ⟨0, _⟩ => show win6_1.index t (0 : Fin 2) * 10000 + 1 * p.val = t.val * 10000 + p.val; omega
    | ⟨1, _⟩ => show win6_1.index t (1 : Fin 2) * 64 + 1 * j.val = j.val; omega
  rw [he]

/-- The first weight block at any point is the whole first weight matrix. -/
theorem gin6_blk2 (c : Dev nD) (t : Fin cfg6.N) :
    (iblk6 V c 2 t : S64x64.Idx → EReal) = (V c (Pipeline.arrRef spec6 2) : S64x64.Idx → EReal) := by
  obtain ⟨-, -, -, -, e0, e1, -⟩ := gin6_index t
  funext y
  show (V c (Pipeline.arrRef spec6 2) : S64x64.Idx → EReal) (((cfg6.win 2).blk t).view.emb y) = _
  have he : ((cfg6.win 2).blk t).view.emb y = (y : S64x64.Idx) := by
    funext a; apply Fin.ext
    match a with
    | ⟨0, _⟩ => show win6_2.index t (0 : Fin 2) * 64 + 1 * (y 0).val = (y 0).val; omega
    | ⟨1, _⟩ => show win6_2.index t (1 : Fin 2) * 64 + 1 * (y 1).val = (y 1).val; omega
  rw [he]

/-- The first bias block at any point is the whole first bias row. -/
theorem gin6_blk3 (c : Dev nD) (t : Fin cfg6.N) :
    (iblk6 V c 3 t : S1x64.Idx → EReal) = (V c (Pipeline.arrRef spec6 3) : S1x64.Idx → EReal) := by
  obtain ⟨-, -, -, -, -, -, e0, e1, -⟩ := gin6_index t
  funext y
  show (V c (Pipeline.arrRef spec6 3) : S1x64.Idx → EReal) (((cfg6.win 3).blk t).view.emb y) = _
  have he : ((cfg6.win 3).blk t).view.emb y = (y : S1x64.Idx) := by
    funext a; apply Fin.ext
    match a with
    | ⟨0, _⟩ => show win6_3.index t (0 : Fin 2) * 1 + 1 * (y 0).val = (y 0).val; omega
    | ⟨1, _⟩ => show win6_3.index t (1 : Fin 2) * 64 + 1 * (y 1).val = (y 1).val; omega
  rw [he]

/-- The second weight block at any point is the whole second weight matrix. -/
theorem gin6_blk4 (c : Dev nD) (t : Fin cfg6.N) :
    (iblk6 V c 4 t : S64x64.Idx → EReal) = (V c (Pipeline.arrRef spec6 4) : S64x64.Idx → EReal) := by
  obtain ⟨-, -, -, -, -, -, -, -, e0, e1, -⟩ := gin6_index t
  funext y
  show (V c (Pipeline.arrRef spec6 4) : S64x64.Idx → EReal) (((cfg6.win 4).blk t).view.emb y) = _
  have he : ((cfg6.win 4).blk t).view.emb y = (y : S64x64.Idx) := by
    funext a; apply Fin.ext
    match a with
    | ⟨0, _⟩ => show win6_4.index t (0 : Fin 2) * 64 + 1 * (y 0).val = (y 0).val; omega
    | ⟨1, _⟩ => show win6_4.index t (1 : Fin 2) * 64 + 1 * (y 1).val = (y 1).val; omega
  rw [he]

/-- The second bias block at any point is the whole second bias row. -/
theorem gin6_blk5 (c : Dev nD) (t : Fin cfg6.N) :
    (iblk6 V c 5 t : S1x64.Idx → EReal) = (V c (Pipeline.arrRef spec6 5) : S1x64.Idx → EReal) := by
  obtain ⟨-, -, -, -, -, -, -, -, -, -, e0, e1, -⟩ := gin6_index t
  funext y
  show (V c (Pipeline.arrRef spec6 5) : S1x64.Idx → EReal) (((cfg6.win 5).blk t).view.emb y) = _
  have he : ((cfg6.win 5).blk t).view.emb y = (y : S1x64.Idx) := by
    funext a; apply Fin.ext
    match a with
    | ⟨0, _⟩ => show win6_5.index t (0 : Fin 2) * 1 + 1 * (y 0).val = (y 0).val; omega
    | ⟨1, _⟩ => show win6_5.index t (1 : Fin 2) * 64 + 1 * (y 1).val = (y 1).val; omega
  rw [he]

set_option maxHeartbeats 1000000 in
/-- What point t writes back is block t of the layer of the whole arrays. -/
theorem gin6_flushed (c : Dev nD) (t : Fin cfg6.N) :
    (dat6 V c).flushed 6 t = ((cfg6.win 6).blk t).view.read (Elt Ideal)
      (Cert.Net.layer (n := 100000) (V c (Pipeline.arrRef spec6 0)) (V c (Pipeline.arrRef spec6 1))
        (V c (Pipeline.arrRef spec6 2)) (V c (Pipeline.arrRef spec6 3)) (V c (Pipeline.arrRef spec6 4))
        (V c (Pipeline.arrRef spec6 5))) := by
  show (cfg6.win 6).cut (grid6.coords t) ((dat6 V c).after 6 t) = _
  rw [after6_6]
  unfold out6_6
  rw [View.canon_unit_zero gin6_zeros]
  simp only [View.ld_unit_zero (S := S10000x64) gin6_zeros, View.ld_unit_zero (S := S64x64) gin6_zeros,
    View.ld_unit_zero (S := S1x64) gin6_zeros]
  rw [Stages.pay_gin6]
  obtain ⟨-, -, -, -, -, -, -, -, -, -, -, -, e0, e1⟩ := gin6_index t
  funext j
  obtain ⟨p, q, rfl⟩ : ∃ (p : Fin 10000) (q : Fin 64), j = ix2 p q := ⟨j 0, j 1, eq_ix2 j⟩
  have ht : t.val < 10 := t.isLt
  have h : t.val * 10000 + p.val < 100000 := by have := p.isLt; omega
  show Cert.Net.layer (n := 10000) (iblk6 V c 0 t) (iblk6 V c 1 t) (iblk6 V c 2 t) (iblk6 V c 3 t)
      (iblk6 V c 4 t) (iblk6 V c 5 t) (ix2 p q)
    = Cert.Net.layer (n := 100000) (V c (Pipeline.arrRef spec6 0)) (V c (Pipeline.arrRef spec6 1))
        (V c (Pipeline.arrRef spec6 2)) (V c (Pipeline.arrRef spec6 3)) (V c (Pipeline.arrRef spec6 4))
        (V c (Pipeline.arrRef spec6 5)) (((cfg6.win 6).blk t).view.emb (ix2 p q))
  have he : ((cfg6.win 6).blk t).view.emb (ix2 p q)
      = (ix2 (⟨t.val * 10000 + p.val, h⟩ : Fin 100000) q : S100000x64.Idx) := by
    funext a; apply Fin.ext
    match a with
    | ⟨0, _⟩ => show win6_6.index t (0 : Fin 2) * 10000 + 1 * p.val = t.val * 10000 + p.val; omega
    | ⟨1, _⟩ => show win6_6.index t (1 : Fin 2) * 64 + 1 * q.val = q.val; omega
  rw [he]
  exact Stages.layer_row _ _ _ _ _ _ _ _ _ _ _ _ p ⟨t.val * 10000 + p.val, h⟩ q
    (fun j => gin6_blk0 V c t p h j) (fun j => gin6_blk1 V c t p h j)
    (gin6_blk2 V c t) (gin6_blk3 V c t) (gin6_blk4 V c t) (gin6_blk5 V c t)

/-- An entry of the output array is in point t's block iff each coordinate is in the block's range. -/
theorem gin6_mem_blk (t : Fin cfg6.N) (i : S100000x64.Idx) :
    i ∈ ((cfg6.win 6).blk t).view.set ↔ ∀ a : Fin 2, win6_6.index t a * S10000x64.size a ≤ (i a).val
      ∧ (i a).val < win6_6.index t a * S10000x64.size a + S10000x64.size a := by
  show i ∈ ((View.whole main_v136).slice (win6_6.rect t)).set ↔ _
  rw [View.set_slice_whole, Rect.mem_set_unit]
  exact Iff.rfl

/-- Row r of the output array is written back by point r / 10000. -/
theorem gin6_cover (i : S100000x64.Idx) :
    ∃ t : Fin cfg6.N, (cfg6.win 6).flush t = true ∧ i ∈ ((cfg6.win 6).blk t).view.set := by
  have hi0 : (i 0).val < 100000 := (i 0).isLt
  have hi1 : (i 1).val < 64 := (i 1).isLt
  have hlt : (i 0).val / 10000 < 10 := by omega
  refine ⟨⟨(i 0).val / 10000, hlt⟩, flush6_6 _, ?_⟩
  rw [gin6_mem_blk]
  obtain ⟨-, -, -, -, -, -, -, -, -, -, -, -, e0, e1⟩ := gin6_index ⟨(i 0).val / 10000, hlt⟩
  have e0' : win6_6.index ⟨(i 0).val / 10000, hlt⟩ (0 : Fin 2) = (i 0).val / 10000 := e0
  intro a
  match a with
  | ⟨0, _⟩ =>
    show win6_6.index ⟨(i 0).val / 10000, hlt⟩ (0 : Fin 2) * 10000 ≤ (i 0).val
      ∧ (i 0).val < win6_6.index ⟨(i 0).val / 10000, hlt⟩ (0 : Fin 2) * 10000 + 10000
    omega
  | ⟨1, _⟩ =>
    show win6_6.index ⟨(i 0).val / 10000, hlt⟩ (1 : Fin 2) * 64 ≤ (i 1).val
      ∧ (i 1).val < win6_6.index ⟨(i 0).val / 10000, hlt⟩ (1 : Fin 2) * 64 + 64
    omega

/-- After the last grid point the output array is the layer of the whole arrays. -/
theorem gin6_whole (c : Dev nD) :
    (dat6 V c).arrAt 6 cfg6.N
      = Cert.Net.layer (n := 100000) (V c (Pipeline.arrRef spec6 0)) (V c (Pipeline.arrRef spec6 1))
          (V c (Pipeline.arrRef spec6 2)) (V c (Pipeline.arrRef spec6 3)) (V c (Pipeline.arrRef spec6 4))
          (V c (Pipeline.arrRef spec6 5)) :=
  (dat6 V c).arrAt_eq_of_cover 6 _ (fun t _ => gin6_flushed V c t) gin6_cover

end Cert.KernelIdeal.Regions

end
-- ==== Proof.RegionGin7.lean ====
/-
  Layer region 7 on whole arrays.

  The region runs one layer's body at ten grid points; point t stages rows 10000·t … 10000·t + 9999 of the node
  array and of the aggregated array and the whole of the two weight matrices and bias rows, and writes the body's
  block back to the same rows of the output array.  Entry (r, q) of a layer reads row r of the two row-wise
  arrays alone, so the block written at point t is that block of rows of the layer of the whole arrays; the ten
  blocks tile the 100000 rows, so after the last point the output array is the layer of the whole arrays.
-/
import proofs.«124003_j47699906789506_1_alg».proof.Proof.Gen.KernelIdeal.Frame
import proofs.«124003_j47699906789506_1_alg».proof.Proof.Stages

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, as a constant function. -/
theorem gin7_zeros : (![0, 0] : Fin 2 → Nat) = fun _ => 0 := funext fun a => by fin_cases a <;> rfl

/-- The block indices of the seven windows at each of the ten grid points: the two row-wise input windows and the
    output window move down the rows with the point, the weight and bias windows stay. -/
theorem gin7_index : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0 :=
  (by decide +kernel : ∀ t : Fin grid7.N, _)

/-- Entry (p, j) of the node block at point t is entry (10000·t + p, j) of the node array. -/
theorem gin7_blk0 (c : Dev nD) (t : Fin cfg7.N) (p : Fin 10000) (h : t.val * 10000 + p.val < 100000) (j : Fin 64) :
    iblk7 V c 0 t (ix2 p j)
      = (V c (Pipeline.arrRef spec7 0) : S100000x64.Idx → EReal) (ix2 (⟨t.val * 10000 + p.val, h⟩ : Fin 100000) j) := by
  obtain ⟨e0, e1, -⟩ := gin7_index t
  show (V c (Pipeline.arrRef spec7 0) : S100000x64.Idx → EReal) (((cfg7.win 0).blk t).view.emb (ix2 p j)) = _
  have he : ((cfg7.win 0).blk t).view.emb (ix2 p j)
      = (ix2 (⟨t.val * 10000 + p.val, h⟩ : Fin 100000) j : S100000x64.Idx) := by
    funext a; apply Fin.ext
    match a with
    | ⟨0, _⟩ => show win7_0.index t (0 : Fin 2) * 10000 + 1 * p.val = t.val * 10000 + p.val; omega
    | ⟨1, _⟩ => show win7_0.index t (1 : Fin 2) * 64 + 1 * j.val = j.val; omega
  rw [he]

/-- Entry (p, j) of the aggregated block at point t is entry (10000·t + p, j) of the aggregated array. -/
theorem gin7_blk1 (c : Dev nD) (t : Fin cfg7.N) (p : Fin 10000) (h : t.val * 10000 + p.val < 100000) (j : Fin 64) :
    iblk7 V c 1 t (ix2 p j)
      = (V c (Pipeline.arrRef spec7 1) : S100000x64.Idx → EReal) (ix2 (⟨t.val * 10000 + p.val, h⟩ : Fin 100000) j) := by
  obtain ⟨-, -, e0, e1, -⟩ := gin7_index t
  show (V c (Pipeline.arrRef spec7 1) : S100000x64.Idx → EReal) (((cfg7.win 1).blk t).view.emb (ix2 p j)) = _
  have he : ((cfg7.win 1).blk t).view.emb (ix2 p j)
      = (ix2 (⟨t.val * 10000 + p.val, h⟩ : Fin 100000) j : S100000x64.Idx) := by
    funext a; apply Fin.ext
    match a with
    | ⟨0, _⟩ => show win7_1.index t (0 : Fin 2) * 10000 + 1 * p.val = t.val * 10000 + p.val; omega
    | ⟨1, _⟩ => show win7_1.index t (1 : Fin 2) * 64 + 1 * j.val = j.val; omega
  rw [he]

/-- The first weight block at any point is the whole first weight matrix. -/
theorem gin7_blk2 (c : Dev nD) (t : Fin cfg7.N) :
    (iblk7 V c 2 t : S64x64.Idx → EReal) = (V c (Pipeline.arrRef spec7 2) : S64x64.Idx → EReal) := by
  obtain ⟨-, -, -, -, e0, e1, -⟩ := gin7_index t
  funext y
  show (V c (Pipeline.arrRef spec7 2) : S64x64.Idx → EReal) (((cfg7.win 2).blk t).view.emb y) = _
  have he : ((cfg7.win 2).blk t).view.emb y = (y : S64x64.Idx) := by
    funext a; apply Fin.ext
    match a with
    | ⟨0, _⟩ => show win7_2.index t (0 : Fin 2) * 64 + 1 * (y 0).val = (y 0).val; omega
    | ⟨1, _⟩ => show win7_2.index t (1 : Fin 2) * 64 + 1 * (y 1).val = (y 1).val; omega
  rw [he]

/-- The first bias block at any point is the whole first bias row. -/
theorem gin7_blk3 (c : Dev nD) (t : Fin cfg7.N) :
    (iblk7 V c 3 t : S1x64.Idx → EReal) = (V c (Pipeline.arrRef spec7 3) : S1x64.Idx → EReal) := by
  obtain ⟨-, -, -, -, -, -, e0, e1, -⟩ := gin7_index t
  funext y
  show (V c (Pipeline.arrRef spec7 3) : S1x64.Idx → EReal) (((cfg7.win 3).blk t).view.emb y) = _
  have he : ((cfg7.win 3).blk t).view.emb y = (y : S1x64.Idx) := by
    funext a; apply Fin.ext
    match a with
    | ⟨0, _⟩ => show win7_3.index t (0 : Fin 2) * 1 + 1 * (y 0).val = (y 0).val; omega
    | ⟨1, _⟩ => show win7_3.index t (1 : Fin 2) * 64 + 1 * (y 1).val = (y 1).val; omega
  rw [he]

/-- The second weight block at any point is the whole second weight matrix. -/
theorem gin7_blk4 (c : Dev nD) (t : Fin cfg7.N) :
    (iblk7 V c 4 t : S64x64.Idx → EReal) = (V c (Pipeline.arrRef spec7 4) : S64x64.Idx → EReal) := by
  obtain ⟨-, -, -, -, -, -, -, -, e0, e1, -⟩ := gin7_index t
  funext y
  show (V c (Pipeline.arrRef spec7 4) : S64x64.Idx → EReal) (((cfg7.win 4).blk t).view.emb y) = _
  have he : ((cfg7.win 4).blk t).view.emb y = (y : S64x64.Idx) := by
    funext a; apply Fin.ext
    match a with
    | ⟨0, _⟩ => show win7_4.index t (0 : Fin 2) * 64 + 1 * (y 0).val = (y 0).val; omega
    | ⟨1, _⟩ => show win7_4.index t (1 : Fin 2) * 64 + 1 * (y 1).val = (y 1).val; omega
  rw [he]

/-- The second bias block at any point is the whole second bias row. -/
theorem gin7_blk5 (c : Dev nD) (t : Fin cfg7.N) :
    (iblk7 V c 5 t : S1x64.Idx → EReal) = (V c (Pipeline.arrRef spec7 5) : S1x64.Idx → EReal) := by
  obtain ⟨-, -, -, -, -, -, -, -, -, -, e0, e1, -⟩ := gin7_index t
  funext y
  show (V c (Pipeline.arrRef spec7 5) : S1x64.Idx → EReal) (((cfg7.win 5).blk t).view.emb y) = _
  have he : ((cfg7.win 5).blk t).view.emb y = (y : S1x64.Idx) := by
    funext a; apply Fin.ext
    match a with
    | ⟨0, _⟩ => show win7_5.index t (0 : Fin 2) * 1 + 1 * (y 0).val = (y 0).val; omega
    | ⟨1, _⟩ => show win7_5.index t (1 : Fin 2) * 64 + 1 * (y 1).val = (y 1).val; omega
  rw [he]

set_option maxHeartbeats 1000000 in
/-- What point t writes back is block t of the layer of the whole arrays. -/
theorem gin7_flushed (c : Dev nD) (t : Fin cfg7.N) :
    (dat7 V c).flushed 6 t = ((cfg7.win 6).blk t).view.read (Elt Ideal)
      (Cert.Net.layer (n := 100000) (V c (Pipeline.arrRef spec7 0)) (V c (Pipeline.arrRef spec7 1))
        (V c (Pipeline.arrRef spec7 2)) (V c (Pipeline.arrRef spec7 3)) (V c (Pipeline.arrRef spec7 4))
        (V c (Pipeline.arrRef spec7 5))) := by
  show (cfg7.win 6).cut (grid7.coords t) ((dat7 V c).after 6 t) = _
  rw [after7_6]
  unfold out7_6
  rw [View.canon_unit_zero gin7_zeros]
  simp only [View.ld_unit_zero (S := S10000x64) gin7_zeros, View.ld_unit_zero (S := S64x64) gin7_zeros,
    View.ld_unit_zero (S := S1x64) gin7_zeros]
  rw [Stages.pay_gin7]
  obtain ⟨-, -, -, -, -, -, -, -, -, -, -, -, e0, e1⟩ := gin7_index t
  funext j
  obtain ⟨p, q, rfl⟩ : ∃ (p : Fin 10000) (q : Fin 64), j = ix2 p q := ⟨j 0, j 1, eq_ix2 j⟩
  have ht : t.val < 10 := t.isLt
  have h : t.val * 10000 + p.val < 100000 := by have := p.isLt; omega
  show Cert.Net.layer (n := 10000) (iblk7 V c 0 t) (iblk7 V c 1 t) (iblk7 V c 2 t) (iblk7 V c 3 t)
      (iblk7 V c 4 t) (iblk7 V c 5 t) (ix2 p q)
    = Cert.Net.layer (n := 100000) (V c (Pipeline.arrRef spec7 0)) (V c (Pipeline.arrRef spec7 1))
        (V c (Pipeline.arrRef spec7 2)) (V c (Pipeline.arrRef spec7 3)) (V c (Pipeline.arrRef spec7 4))
        (V c (Pipeline.arrRef spec7 5)) (((cfg7.win 6).blk t).view.emb (ix2 p q))
  have he : ((cfg7.win 6).blk t).view.emb (ix2 p q)
      = (ix2 (⟨t.val * 10000 + p.val, h⟩ : Fin 100000) q : S100000x64.Idx) := by
    funext a; apply Fin.ext
    match a with
    | ⟨0, _⟩ => show win7_6.index t (0 : Fin 2) * 10000 + 1 * p.val = t.val * 10000 + p.val; omega
    | ⟨1, _⟩ => show win7_6.index t (1 : Fin 2) * 64 + 1 * q.val = q.val; omega
  rw [he]
  exact Stages.layer_row _ _ _ _ _ _ _ _ _ _ _ _ p ⟨t.val * 10000 + p.val, h⟩ q
    (fun j => gin7_blk0 V c t p h j) (fun j => gin7_blk1 V c t p h j)
    (gin7_blk2 V c t) (gin7_blk3 V c t) (gin7_blk4 V c t) (gin7_blk5 V c t)

/-- An entry of the output array is in point t's block iff each coordinate is in the block's range. -/
theorem gin7_mem_blk (t : Fin cfg7.N) (i : S100000x64.Idx) :
    i ∈ ((cfg7.win 6).blk t).view.set ↔ ∀ a : Fin 2, win7_6.index t a * S10000x64.size a ≤ (i a).val
      ∧ (i a).val < win7_6.index t a * S10000x64.size a + S10000x64.size a := by
  show i ∈ ((View.whole main_v157).slice (win7_6.rect t)).set ↔ _
  rw [View.set_slice_whole, Rect.mem_set_unit]
  exact Iff.rfl

/-- Row r of the output array is written back by point r / 10000. -/
theorem gin7_cover (i : S100000x64.Idx) :
    ∃ t : Fin cfg7.N, (cfg7.win 6).flush t = true ∧ i ∈ ((cfg7.win 6).blk t).view.set := by
  have hi0 : (i 0).val < 100000 := (i 0).isLt
  have hi1 : (i 1).val < 64 := (i 1).isLt
  have hlt : (i 0).val / 10000 < 10 := by omega
  refine ⟨⟨(i 0).val / 10000, hlt⟩, flush7_6 _, ?_⟩
  rw [gin7_mem_blk]
  obtain ⟨-, -, -, -, -, -, -, -, -, -, -, -, e0, e1⟩ := gin7_index ⟨(i 0).val / 10000, hlt⟩
  have e0' : win7_6.index ⟨(i 0).val / 10000, hlt⟩ (0 : Fin 2) = (i 0).val / 10000 := e0
  intro a
  match a with
  | ⟨0, _⟩ =>
    show win7_6.index ⟨(i 0).val / 10000, hlt⟩ (0 : Fin 2) * 10000 ≤ (i 0).val
      ∧ (i 0).val < win7_6.index ⟨(i 0).val / 10000, hlt⟩ (0 : Fin 2) * 10000 + 10000
    omega
  | ⟨1, _⟩ =>
    show win7_6.index ⟨(i 0).val / 10000, hlt⟩ (1 : Fin 2) * 64 ≤ (i 1).val
      ∧ (i 1).val < win7_6.index ⟨(i 0).val / 10000, hlt⟩ (1 : Fin 2) * 64 + 64
    omega

/-- After the last grid point the output array is the layer of the whole arrays. -/
theorem gin7_whole (c : Dev nD) :
    (dat7 V c).arrAt 6 cfg7.N
      = Cert.Net.layer (n := 100000) (V c (Pipeline.arrRef spec7 0)) (V c (Pipeline.arrRef spec7 1))
          (V c (Pipeline.arrRef spec7 2)) (V c (Pipeline.arrRef spec7 3)) (V c (Pipeline.arrRef spec7 4))
          (V c (Pipeline.arrRef spec7 5)) :=
  (dat7 V c).arrAt_eq_of_cover 6 _ (fun t _ => gin7_flushed V c t) gin7_cover

end Cert.KernelIdeal.Regions

end
-- ==== Proof.RegionGin8.lean ====
/-
  Layer region 8 on whole arrays.

  The region runs one layer's body at ten grid points; point t stages rows 10000·t … 10000·t + 9999 of the node
  array and of the aggregated array and the whole of the two weight matrices and bias rows, and writes the body's
  block back to the same rows of the output array.  Entry (r, q) of a layer reads row r of the two row-wise
  arrays alone, so the block written at point t is that block of rows of the layer of the whole arrays; the ten
  blocks tile the 100000 rows, so after the last point the output array is the layer of the whole arrays.
-/
import proofs.«124003_j47699906789506_1_alg».proof.Proof.Gen.KernelIdeal.Frame
import proofs.«124003_j47699906789506_1_alg».proof.Proof.Stages

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, as a constant function. -/
theorem gin8_zeros : (![0, 0] : Fin 2 → Nat) = fun _ => 0 := funext fun a => by fin_cases a <;> rfl

/-- The block indices of the seven windows at each of the ten grid points: the two row-wise input windows and the
    output window move down the rows with the point, the weight and bias windows stay. -/
theorem gin8_index : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = t.val ∧ win8_6.index t (1 : Fin 2) = 0 :=
  (by decide +kernel : ∀ t : Fin grid8.N, _)

/-- Entry (p, j) of the node block at point t is entry (10000·t + p, j) of the node array. -/
theorem gin8_blk0 (c : Dev nD) (t : Fin cfg8.N) (p : Fin 10000) (h : t.val * 10000 + p.val < 100000) (j : Fin 64) :
    iblk8 V c 0 t (ix2 p j)
      = (V c (Pipeline.arrRef spec8 0) : S100000x64.Idx → EReal) (ix2 (⟨t.val * 10000 + p.val, h⟩ : Fin 100000) j) := by
  obtain ⟨e0, e1, -⟩ := gin8_index t
  show (V c (Pipeline.arrRef spec8 0) : S100000x64.Idx → EReal) (((cfg8.win 0).blk t).view.emb (ix2 p j)) = _
  have he : ((cfg8.win 0).blk t).view.emb (ix2 p j)
      = (ix2 (⟨t.val * 10000 + p.val, h⟩ : Fin 100000) j : S100000x64.Idx) := by
    funext a; apply Fin.ext
    match a with
    | ⟨0, _⟩ => show win8_0.index t (0 : Fin 2) * 10000 + 1 * p.val = t.val * 10000 + p.val; omega
    | ⟨1, _⟩ => show win8_0.index t (1 : Fin 2) * 64 + 1 * j.val = j.val; omega
  rw [he]

/-- Entry (p, j) of the aggregated block at point t is entry (10000·t + p, j) of the aggregated array. -/
theorem gin8_blk1 (c : Dev nD) (t : Fin cfg8.N) (p : Fin 10000) (h : t.val * 10000 + p.val < 100000) (j : Fin 64) :
    iblk8 V c 1 t (ix2 p j)
      = (V c (Pipeline.arrRef spec8 1) : S100000x64.Idx → EReal) (ix2 (⟨t.val * 10000 + p.val, h⟩ : Fin 100000) j) := by
  obtain ⟨-, -, e0, e1, -⟩ := gin8_index t
  show (V c (Pipeline.arrRef spec8 1) : S100000x64.Idx → EReal) (((cfg8.win 1).blk t).view.emb (ix2 p j)) = _
  have he : ((cfg8.win 1).blk t).view.emb (ix2 p j)
      = (ix2 (⟨t.val * 10000 + p.val, h⟩ : Fin 100000) j : S100000x64.Idx) := by
    funext a; apply Fin.ext
    match a with
    | ⟨0, _⟩ => show win8_1.index t (0 : Fin 2) * 10000 + 1 * p.val = t.val * 10000 + p.val; omega
    | ⟨1, _⟩ => show win8_1.index t (1 : Fin 2) * 64 + 1 * j.val = j.val; omega
  rw [he]

/-- The first weight block at any point is the whole first weight matrix. -/
theorem gin8_blk2 (c : Dev nD) (t : Fin cfg8.N) :
    (iblk8 V c 2 t : S64x64.Idx → EReal) = (V c (Pipeline.arrRef spec8 2) : S64x64.Idx → EReal) := by
  obtain ⟨-, -, -, -, e0, e1, -⟩ := gin8_index t
  funext y
  show (V c (Pipeline.arrRef spec8 2) : S64x64.Idx → EReal) (((cfg8.win 2).blk t).view.emb y) = _
  have he : ((cfg8.win 2).blk t).view.emb y = (y : S64x64.Idx) := by
    funext a; apply Fin.ext
    match a with
    | ⟨0, _⟩ => show win8_2.index t (0 : Fin 2) * 64 + 1 * (y 0).val = (y 0).val; omega
    | ⟨1, _⟩ => show win8_2.index t (1 : Fin 2) * 64 + 1 * (y 1).val = (y 1).val; omega
  rw [he]

/-- The first bias block at any point is the whole first bias row. -/
theorem gin8_blk3 (c : Dev nD) (t : Fin cfg8.N) :
    (iblk8 V c 3 t : S1x64.Idx → EReal) = (V c (Pipeline.arrRef spec8 3) : S1x64.Idx → EReal) := by
  obtain ⟨-, -, -, -, -, -, e0, e1, -⟩ := gin8_index t
  funext y
  show (V c (Pipeline.arrRef spec8 3) : S1x64.Idx → EReal) (((cfg8.win 3).blk t).view.emb y) = _
  have he : ((cfg8.win 3).blk t).view.emb y = (y : S1x64.Idx) := by
    funext a; apply Fin.ext
    match a with
    | ⟨0, _⟩ => show win8_3.index t (0 : Fin 2) * 1 + 1 * (y 0).val = (y 0).val; omega
    | ⟨1, _⟩ => show win8_3.index t (1 : Fin 2) * 64 + 1 * (y 1).val = (y 1).val; omega
  rw [he]

/-- The second weight block at any point is the whole second weight matrix. -/
theorem gin8_blk4 (c : Dev nD) (t : Fin cfg8.N) :
    (iblk8 V c 4 t : S64x64.Idx → EReal) = (V c (Pipeline.arrRef spec8 4) : S64x64.Idx → EReal) := by
  obtain ⟨-, -, -, -, -, -, -, -, e0, e1, -⟩ := gin8_index t
  funext y
  show (V c (Pipeline.arrRef spec8 4) : S64x64.Idx → EReal) (((cfg8.win 4).blk t).view.emb y) = _
  have he : ((cfg8.win 4).blk t).view.emb y = (y : S64x64.Idx) := by
    funext a; apply Fin.ext
    match a with
    | ⟨0, _⟩ => show win8_4.index t (0 : Fin 2) * 64 + 1 * (y 0).val = (y 0).val; omega
    | ⟨1, _⟩ => show win8_4.index t (1 : Fin 2) * 64 + 1 * (y 1).val = (y 1).val; omega
  rw [he]

/-- The second bias block at any point is the whole second bias row. -/
theorem gin8_blk5 (c : Dev nD) (t : Fin cfg8.N) :
    (iblk8 V c 5 t : S1x64.Idx → EReal) = (V c (Pipeline.arrRef spec8 5) : S1x64.Idx → EReal) := by
  obtain ⟨-, -, -, -, -, -, -, -, -, -, e0, e1, -⟩ := gin8_index t
  funext y
  show (V c (Pipeline.arrRef spec8 5) : S1x64.Idx → EReal) (((cfg8.win 5).blk t).view.emb y) = _
  have he : ((cfg8.win 5).blk t).view.emb y = (y : S1x64.Idx) := by
    funext a; apply Fin.ext
    match a with
    | ⟨0, _⟩ => show win8_5.index t (0 : Fin 2) * 1 + 1 * (y 0).val = (y 0).val; omega
    | ⟨1, _⟩ => show win8_5.index t (1 : Fin 2) * 64 + 1 * (y 1).val = (y 1).val; omega
  rw [he]

set_option maxHeartbeats 1000000 in
/-- What point t writes back is block t of the layer of the whole arrays. -/
theorem gin8_flushed (c : Dev nD) (t : Fin cfg8.N) :
    (dat8 V c).flushed 6 t = ((cfg8.win 6).blk t).view.read (Elt Ideal)
      (Cert.Net.layer (n := 100000) (V c (Pipeline.arrRef spec8 0)) (V c (Pipeline.arrRef spec8 1))
        (V c (Pipeline.arrRef spec8 2)) (V c (Pipeline.arrRef spec8 3)) (V c (Pipeline.arrRef spec8 4))
        (V c (Pipeline.arrRef spec8 5))) := by
  show (cfg8.win 6).cut (grid8.coords t) ((dat8 V c).after 6 t) = _
  rw [after8_6]
  unfold out8_6
  rw [View.canon_unit_zero gin8_zeros]
  simp only [View.ld_unit_zero (S := S10000x64) gin8_zeros, View.ld_unit_zero (S := S64x64) gin8_zeros,
    View.ld_unit_zero (S := S1x64) gin8_zeros]
  rw [Stages.pay_gin8]
  obtain ⟨-, -, -, -, -, -, -, -, -, -, -, -, e0, e1⟩ := gin8_index t
  funext j
  obtain ⟨p, q, rfl⟩ : ∃ (p : Fin 10000) (q : Fin 64), j = ix2 p q := ⟨j 0, j 1, eq_ix2 j⟩
  have ht : t.val < 10 := t.isLt
  have h : t.val * 10000 + p.val < 100000 := by have := p.isLt; omega
  show Cert.Net.layer (n := 10000) (iblk8 V c 0 t) (iblk8 V c 1 t) (iblk8 V c 2 t) (iblk8 V c 3 t)
      (iblk8 V c 4 t) (iblk8 V c 5 t) (ix2 p q)
    = Cert.Net.layer (n := 100000) (V c (Pipeline.arrRef spec8 0)) (V c (Pipeline.arrRef spec8 1))
        (V c (Pipeline.arrRef spec8 2)) (V c (Pipeline.arrRef spec8 3)) (V c (Pipeline.arrRef spec8 4))
        (V c (Pipeline.arrRef spec8 5)) (((cfg8.win 6).blk t).view.emb (ix2 p q))
  have he : ((cfg8.win 6).blk t).view.emb (ix2 p q)
      = (ix2 (⟨t.val * 10000 + p.val, h⟩ : Fin 100000) q : S100000x64.Idx) := by
    funext a; apply Fin.ext
    match a with
    | ⟨0, _⟩ => show win8_6.index t (0 : Fin 2) * 10000 + 1 * p.val = t.val * 10000 + p.val; omega
    | ⟨1, _⟩ => show win8_6.index t (1 : Fin 2) * 64 + 1 * q.val = q.val; omega
  rw [he]
  exact Stages.layer_row _ _ _ _ _ _ _ _ _ _ _ _ p ⟨t.val * 10000 + p.val, h⟩ q
    (fun j => gin8_blk0 V c t p h j) (fun j => gin8_blk1 V c t p h j)
    (gin8_blk2 V c t) (gin8_blk3 V c t) (gin8_blk4 V c t) (gin8_blk5 V c t)

/-- An entry of the output array is in point t's block iff each coordinate is in the block's range. -/
theorem gin8_mem_blk (t : Fin cfg8.N) (i : S100000x64.Idx) :
    i ∈ ((cfg8.win 6).blk t).view.set ↔ ∀ a : Fin 2, win8_6.index t a * S10000x64.size a ≤ (i a).val
      ∧ (i a).val < win8_6.index t a * S10000x64.size a + S10000x64.size a := by
  show i ∈ ((View.whole main_v178).slice (win8_6.rect t)).set ↔ _
  rw [View.set_slice_whole, Rect.mem_set_unit]
  exact Iff.rfl

/-- Row r of the output array is written back by point r / 10000. -/
theorem gin8_cover (i : S100000x64.Idx) :
    ∃ t : Fin cfg8.N, (cfg8.win 6).flush t = true ∧ i ∈ ((cfg8.win 6).blk t).view.set := by
  have hi0 : (i 0).val < 100000 := (i 0).isLt
  have hi1 : (i 1).val < 64 := (i 1).isLt
  have hlt : (i 0).val / 10000 < 10 := by omega
  refine ⟨⟨(i 0).val / 10000, hlt⟩, flush8_6 _, ?_⟩
  rw [gin8_mem_blk]
  obtain ⟨-, -, -, -, -, -, -, -, -, -, -, -, e0, e1⟩ := gin8_index ⟨(i 0).val / 10000, hlt⟩
  have e0' : win8_6.index ⟨(i 0).val / 10000, hlt⟩ (0 : Fin 2) = (i 0).val / 10000 := e0
  intro a
  match a with
  | ⟨0, _⟩ =>
    show win8_6.index ⟨(i 0).val / 10000, hlt⟩ (0 : Fin 2) * 10000 ≤ (i 0).val
      ∧ (i 0).val < win8_6.index ⟨(i 0).val / 10000, hlt⟩ (0 : Fin 2) * 10000 + 10000
    omega
  | ⟨1, _⟩ =>
    show win8_6.index ⟨(i 0).val / 10000, hlt⟩ (1 : Fin 2) * 64 ≤ (i 1).val
      ∧ (i 1).val < win8_6.index ⟨(i 0).val / 10000, hlt⟩ (1 : Fin 2) * 64 + 64
    omega

/-- After the last grid point the output array is the layer of the whole arrays. -/
theorem gin8_whole (c : Dev nD) :
    (dat8 V c).arrAt 6 cfg8.N
      = Cert.Net.layer (n := 100000) (V c (Pipeline.arrRef spec8 0)) (V c (Pipeline.arrRef spec8 1))
          (V c (Pipeline.arrRef spec8 2)) (V c (Pipeline.arrRef spec8 3)) (V c (Pipeline.arrRef spec8 4))
          (V c (Pipeline.arrRef spec8 5)) :=
  (dat8 V c).arrAt_eq_of_cover 6 _ (fun t _ => gin8_flushed V c t) gin8_cover

end Cert.KernelIdeal.Regions

end
-- ==== Proof.RegionGin9.lean ====
/-
  Layer region 9 on whole arrays.

  The region runs one layer's body at ten grid points; point t stages rows 10000·t … 10000·t + 9999 of the node
  array and of the aggregated array and the whole of the two weight matrices and bias rows, and writes the body's
  block back to the same rows of the output array.  Entry (r, q) of a layer reads row r of the two row-wise
  arrays alone, so the block written at point t is that block of rows of the layer of the whole arrays; the ten
  blocks tile the 100000 rows, so after the last point the output array is the layer of the whole arrays.
-/
import proofs.«124003_j47699906789506_1_alg».proof.Proof.Gen.KernelIdeal.Frame
import proofs.«124003_j47699906789506_1_alg».proof.Proof.Stages

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, as a constant function. -/
theorem gin9_zeros : (![0, 0] : Fin 2 → Nat) = fun _ => 0 := funext fun a => by fin_cases a <;> rfl

/-- The block indices of the seven windows at each of the ten grid points: the two row-wise input windows and the
    output window move down the rows with the point, the weight and bias windows stay. -/
theorem gin9_index : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = t.val ∧ win9_6.index t (1 : Fin 2) = 0 :=
  (by decide +kernel : ∀ t : Fin grid9.N, _)

/-- Entry (p, j) of the node block at point t is entry (10000·t + p, j) of the node array. -/
theorem gin9_blk0 (c : Dev nD) (t : Fin cfg9.N) (p : Fin 10000) (h : t.val * 10000 + p.val < 100000) (j : Fin 64) :
    iblk9 V c 0 t (ix2 p j)
      = (V c (Pipeline.arrRef spec9 0) : S100000x64.Idx → EReal) (ix2 (⟨t.val * 10000 + p.val, h⟩ : Fin 100000) j) := by
  obtain ⟨e0, e1, -⟩ := gin9_index t
  show (V c (Pipeline.arrRef spec9 0) : S100000x64.Idx → EReal) (((cfg9.win 0).blk t).view.emb (ix2 p j)) = _
  have he : ((cfg9.win 0).blk t).view.emb (ix2 p j)
      = (ix2 (⟨t.val * 10000 + p.val, h⟩ : Fin 100000) j : S100000x64.Idx) := by
    funext a; apply Fin.ext
    match a with
    | ⟨0, _⟩ => show win9_0.index t (0 : Fin 2) * 10000 + 1 * p.val = t.val * 10000 + p.val; omega
    | ⟨1, _⟩ => show win9_0.index t (1 : Fin 2) * 64 + 1 * j.val = j.val; omega
  rw [he]

/-- Entry (p, j) of the aggregated block at point t is entry (10000·t + p, j) of the aggregated array. -/
theorem gin9_blk1 (c : Dev nD) (t : Fin cfg9.N) (p : Fin 10000) (h : t.val * 10000 + p.val < 100000) (j : Fin 64) :
    iblk9 V c 1 t (ix2 p j)
      = (V c (Pipeline.arrRef spec9 1) : S100000x64.Idx → EReal) (ix2 (⟨t.val * 10000 + p.val, h⟩ : Fin 100000) j) := by
  obtain ⟨-, -, e0, e1, -⟩ := gin9_index t
  show (V c (Pipeline.arrRef spec9 1) : S100000x64.Idx → EReal) (((cfg9.win 1).blk t).view.emb (ix2 p j)) = _
  have he : ((cfg9.win 1).blk t).view.emb (ix2 p j)
      = (ix2 (⟨t.val * 10000 + p.val, h⟩ : Fin 100000) j : S100000x64.Idx) := by
    funext a; apply Fin.ext
    match a with
    | ⟨0, _⟩ => show win9_1.index t (0 : Fin 2) * 10000 + 1 * p.val = t.val * 10000 + p.val; omega
    | ⟨1, _⟩ => show win9_1.index t (1 : Fin 2) * 64 + 1 * j.val = j.val; omega
  rw [he]

/-- The first weight block at any point is the whole first weight matrix. -/
theorem gin9_blk2 (c : Dev nD) (t : Fin cfg9.N) :
    (iblk9 V c 2 t : S64x64.Idx → EReal) = (V c (Pipeline.arrRef spec9 2) : S64x64.Idx → EReal) := by
  obtain ⟨-, -, -, -, e0, e1, -⟩ := gin9_index t
  funext y
  show (V c (Pipeline.arrRef spec9 2) : S64x64.Idx → EReal) (((cfg9.win 2).blk t).view.emb y) = _
  have he : ((cfg9.win 2).blk t).view.emb y = (y : S64x64.Idx) := by
    funext a; apply Fin.ext
    match a with
    | ⟨0, _⟩ => show win9_2.index t (0 : Fin 2) * 64 + 1 * (y 0).val = (y 0).val; omega
    | ⟨1, _⟩ => show win9_2.index t (1 : Fin 2) * 64 + 1 * (y 1).val = (y 1).val; omega
  rw [he]

/-- The first bias block at any point is the whole first bias row. -/
theorem gin9_blk3 (c : Dev nD) (t : Fin cfg9.N) :
    (iblk9 V c 3 t : S1x64.Idx → EReal) = (V c (Pipeline.arrRef spec9 3) : S1x64.Idx → EReal) := by
  obtain ⟨-, -, -, -, -, -, e0, e1, -⟩ := gin9_index t
  funext y
  show (V c (Pipeline.arrRef spec9 3) : S1x64.Idx → EReal) (((cfg9.win 3).blk t).view.emb y) = _
  have he : ((cfg9.win 3).blk t).view.emb y = (y : S1x64.Idx) := by
    funext a; apply Fin.ext
    match a with
    | ⟨0, _⟩ => show win9_3.index t (0 : Fin 2) * 1 + 1 * (y 0).val = (y 0).val; omega
    | ⟨1, _⟩ => show win9_3.index t (1 : Fin 2) * 64 + 1 * (y 1).val = (y 1).val; omega
  rw [he]

/-- The second weight block at any point is the whole second weight matrix. -/
theorem gin9_blk4 (c : Dev nD) (t : Fin cfg9.N) :
    (iblk9 V c 4 t : S64x64.Idx → EReal) = (V c (Pipeline.arrRef spec9 4) : S64x64.Idx → EReal) := by
  obtain ⟨-, -, -, -, -, -, -, -, e0, e1, -⟩ := gin9_index t
  funext y
  show (V c (Pipeline.arrRef spec9 4) : S64x64.Idx → EReal) (((cfg9.win 4).blk t).view.emb y) = _
  have he : ((cfg9.win 4).blk t).view.emb y = (y : S64x64.Idx) := by
    funext a; apply Fin.ext
    match a with
    | ⟨0, _⟩ => show win9_4.index t (0 : Fin 2) * 64 + 1 * (y 0).val = (y 0).val; omega
    | ⟨1, _⟩ => show win9_4.index t (1 : Fin 2) * 64 + 1 * (y 1).val = (y 1).val; omega
  rw [he]

/-- The second bias block at any point is the whole second bias row. -/
theorem gin9_blk5 (c : Dev nD) (t : Fin cfg9.N) :
    (iblk9 V c 5 t : S1x64.Idx → EReal) = (V c (Pipeline.arrRef spec9 5) : S1x64.Idx → EReal) := by
  obtain ⟨-, -, -, -, -, -, -, -, -, -, e0, e1, -⟩ := gin9_index t
  funext y
  show (V c (Pipeline.arrRef spec9 5) : S1x64.Idx → EReal) (((cfg9.win 5).blk t).view.emb y) = _
  have he : ((cfg9.win 5).blk t).view.emb y = (y : S1x64.Idx) := by
    funext a; apply Fin.ext
    match a with
    | ⟨0, _⟩ => show win9_5.index t (0 : Fin 2) * 1 + 1 * (y 0).val = (y 0).val; omega
    | ⟨1, _⟩ => show win9_5.index t (1 : Fin 2) * 64 + 1 * (y 1).val = (y 1).val; omega
  rw [he]

set_option maxHeartbeats 1000000 in
/-- What point t writes back is block t of the layer of the whole arrays. -/
theorem gin9_flushed (c : Dev nD) (t : Fin cfg9.N) :
    (dat9 V c).flushed 6 t = ((cfg9.win 6).blk t).view.read (Elt Ideal)
      (Cert.Net.layer (n := 100000) (V c (Pipeline.arrRef spec9 0)) (V c (Pipeline.arrRef spec9 1))
        (V c (Pipeline.arrRef spec9 2)) (V c (Pipeline.arrRef spec9 3)) (V c (Pipeline.arrRef spec9 4))
        (V c (Pipeline.arrRef spec9 5))) := by
  show (cfg9.win 6).cut (grid9.coords t) ((dat9 V c).after 6 t) = _
  rw [after9_6]
  unfold out9_6
  rw [View.canon_unit_zero gin9_zeros]
  simp only [View.ld_unit_zero (S := S10000x64) gin9_zeros, View.ld_unit_zero (S := S64x64) gin9_zeros,
    View.ld_unit_zero (S := S1x64) gin9_zeros]
  rw [Stages.pay_gin9]
  obtain ⟨-, -, -, -, -, -, -, -, -, -, -, -, e0, e1⟩ := gin9_index t
  funext j
  obtain ⟨p, q, rfl⟩ : ∃ (p : Fin 10000) (q : Fin 64), j = ix2 p q := ⟨j 0, j 1, eq_ix2 j⟩
  have ht : t.val < 10 := t.isLt
  have h : t.val * 10000 + p.val < 100000 := by have := p.isLt; omega
  show Cert.Net.layer (n := 10000) (iblk9 V c 0 t) (iblk9 V c 1 t) (iblk9 V c 2 t) (iblk9 V c 3 t)
      (iblk9 V c 4 t) (iblk9 V c 5 t) (ix2 p q)
    = Cert.Net.layer (n := 100000) (V c (Pipeline.arrRef spec9 0)) (V c (Pipeline.arrRef spec9 1))
        (V c (Pipeline.arrRef spec9 2)) (V c (Pipeline.arrRef spec9 3)) (V c (Pipeline.arrRef spec9 4))
        (V c (Pipeline.arrRef spec9 5)) (((cfg9.win 6).blk t).view.emb (ix2 p q))
  have he : ((cfg9.win 6).blk t).view.emb (ix2 p q)
      = (ix2 (⟨t.val * 10000 + p.val, h⟩ : Fin 100000) q : S100000x64.Idx) := by
    funext a; apply Fin.ext
    match a with
    | ⟨0, _⟩ => show win9_6.index t (0 : Fin 2) * 10000 + 1 * p.val = t.val * 10000 + p.val; omega
    | ⟨1, _⟩ => show win9_6.index t (1 : Fin 2) * 64 + 1 * q.val = q.val; omega
  rw [he]
  exact Stages.layer_row _ _ _ _ _ _ _ _ _ _ _ _ p ⟨t.val * 10000 + p.val, h⟩ q
    (fun j => gin9_blk0 V c t p h j) (fun j => gin9_blk1 V c t p h j)
    (gin9_blk2 V c t) (gin9_blk3 V c t) (gin9_blk4 V c t) (gin9_blk5 V c t)

/-- An entry of the output array is in point t's block iff each coordinate is in the block's range. -/
theorem gin9_mem_blk (t : Fin cfg9.N) (i : S100000x64.Idx) :
    i ∈ ((cfg9.win 6).blk t).view.set ↔ ∀ a : Fin 2, win9_6.index t a * S10000x64.size a ≤ (i a).val
      ∧ (i a).val < win9_6.index t a * S10000x64.size a + S10000x64.size a := by
  show i ∈ ((View.whole main_v199).slice (win9_6.rect t)).set ↔ _
  rw [View.set_slice_whole, Rect.mem_set_unit]
  exact Iff.rfl

/-- Row r of the output array is written back by point r / 10000. -/
theorem gin9_cover (i : S100000x64.Idx) :
    ∃ t : Fin cfg9.N, (cfg9.win 6).flush t = true ∧ i ∈ ((cfg9.win 6).blk t).view.set := by
  have hi0 : (i 0).val < 100000 := (i 0).isLt
  have hi1 : (i 1).val < 64 := (i 1).isLt
  have hlt : (i 0).val / 10000 < 10 := by omega
  refine ⟨⟨(i 0).val / 10000, hlt⟩, flush9_6 _, ?_⟩
  rw [gin9_mem_blk]
  obtain ⟨-, -, -, -, -, -, -, -, -, -, -, -, e0, e1⟩ := gin9_index ⟨(i 0).val / 10000, hlt⟩
  have e0' : win9_6.index ⟨(i 0).val / 10000, hlt⟩ (0 : Fin 2) = (i 0).val / 10000 := e0
  intro a
  match a with
  | ⟨0, _⟩ =>
    show win9_6.index ⟨(i 0).val / 10000, hlt⟩ (0 : Fin 2) * 10000 ≤ (i 0).val
      ∧ (i 0).val < win9_6.index ⟨(i 0).val / 10000, hlt⟩ (0 : Fin 2) * 10000 + 10000
    omega
  | ⟨1, _⟩ =>
    show win9_6.index ⟨(i 0).val / 10000, hlt⟩ (1 : Fin 2) * 64 ≤ (i 1).val
      ∧ (i 1).val < win9_6.index ⟨(i 0).val / 10000, hlt⟩ (1 : Fin 2) * 64 + 64
    omega

/-- After the last grid point the output array is the layer of the whole arrays. -/
theorem gin9_whole (c : Dev nD) :
    (dat9 V c).arrAt 6 cfg9.N
      = Cert.Net.layer (n := 100000) (V c (Pipeline.arrRef spec9 0)) (V c (Pipeline.arrRef spec9 1))
          (V c (Pipeline.arrRef spec9 2)) (V c (Pipeline.arrRef spec9 3)) (V c (Pipeline.arrRef spec9 4))
          (V c (Pipeline.arrRef spec9 5)) :=
  (dat9 V c).arrAt_eq_of_cover 6 _ (fun t _ => gin9_flushed V c t) gin9_cover

end Cert.KernelIdeal.Regions

end
-- ==== Proof.RegionGin10.lean ====
/-
  Layer region 10 on whole arrays.

  The region runs one layer's body at ten grid points; point t stages rows 10000·t … 10000·t + 9999 of the node
  array and of the aggregated array and the whole of the two weight matrices and bias rows, and writes the body's
  block back to the same rows of the output array.  Entry (r, q) of a layer reads row r of the two row-wise
  arrays alone, so the block written at point t is that block of rows of the layer of the whole arrays; the ten
  blocks tile the 100000 rows, so after the last point the output array is the layer of the whole arrays.
-/
import proofs.«124003_j47699906789506_1_alg».proof.Proof.Gen.KernelIdeal.Frame
import proofs.«124003_j47699906789506_1_alg».proof.Proof.Stages

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, as a constant function. -/
theorem gin10_zeros : (![0, 0] : Fin 2 → Nat) = fun _ => 0 := funext fun a => by fin_cases a <;> rfl

/-- The block indices of the seven windows at each of the ten grid points: the two row-wise input windows and the
    output window move down the rows with the point, the weight and bias windows stay. -/
theorem gin10_index : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = t.val ∧ win10_6.index t (1 : Fin 2) = 0 :=
  (by decide +kernel : ∀ t : Fin grid10.N, _)

/-- Entry (p, j) of the node block at point t is entry (10000·t + p, j) of the node array. -/
theorem gin10_blk0 (c : Dev nD) (t : Fin cfg10.N) (p : Fin 10000) (h : t.val * 10000 + p.val < 100000) (j : Fin 64) :
    iblk10 V c 0 t (ix2 p j)
      = (V c (Pipeline.arrRef spec10 0) : S100000x64.Idx → EReal) (ix2 (⟨t.val * 10000 + p.val, h⟩ : Fin 100000) j) := by
  obtain ⟨e0, e1, -⟩ := gin10_index t
  show (V c (Pipeline.arrRef spec10 0) : S100000x64.Idx → EReal) (((cfg10.win 0).blk t).view.emb (ix2 p j)) = _
  have he : ((cfg10.win 0).blk t).view.emb (ix2 p j)
      = (ix2 (⟨t.val * 10000 + p.val, h⟩ : Fin 100000) j : S100000x64.Idx) := by
    funext a; apply Fin.ext
    match a with
    | ⟨0, _⟩ => show win10_0.index t (0 : Fin 2) * 10000 + 1 * p.val = t.val * 10000 + p.val; omega
    | ⟨1, _⟩ => show win10_0.index t (1 : Fin 2) * 64 + 1 * j.val = j.val; omega
  rw [he]

/-- Entry (p, j) of the aggregated block at point t is entry (10000·t + p, j) of the aggregated array. -/
theorem gin10_blk1 (c : Dev nD) (t : Fin cfg10.N) (p : Fin 10000) (h : t.val * 10000 + p.val < 100000) (j : Fin 64) :
    iblk10 V c 1 t (ix2 p j)
      = (V c (Pipeline.arrRef spec10 1) : S100000x64.Idx → EReal) (ix2 (⟨t.val * 10000 + p.val, h⟩ : Fin 100000) j) := by
  obtain ⟨-, -, e0, e1, -⟩ := gin10_index t
  show (V c (Pipeline.arrRef spec10 1) : S100000x64.Idx → EReal) (((cfg10.win 1).blk t).view.emb (ix2 p j)) = _
  have he : ((cfg10.win 1).blk t).view.emb (ix2 p j)
      = (ix2 (⟨t.val * 10000 + p.val, h⟩ : Fin 100000) j : S100000x64.Idx) := by
    funext a; apply Fin.ext
    match a with
    | ⟨0, _⟩ => show win10_1.index t (0 : Fin 2) * 10000 + 1 * p.val = t.val * 10000 + p.val; omega
    | ⟨1, _⟩ => show win10_1.index t (1 : Fin 2) * 64 + 1 * j.val = j.val; omega
  rw [he]

/-- The first weight block at any point is the whole first weight matrix. -/
theorem gin10_blk2 (c : Dev nD) (t : Fin cfg10.N) :
    (iblk10 V c 2 t : S64x64.Idx → EReal) = (V c (Pipeline.arrRef spec10 2) : S64x64.Idx → EReal) := by
  obtain ⟨-, -, -, -, e0, e1, -⟩ := gin10_index t
  funext y
  show (V c (Pipeline.arrRef spec10 2) : S64x64.Idx → EReal) (((cfg10.win 2).blk t).view.emb y) = _
  have he : ((cfg10.win 2).blk t).view.emb y = (y : S64x64.Idx) := by
    funext a; apply Fin.ext
    match a with
    | ⟨0, _⟩ => show win10_2.index t (0 : Fin 2) * 64 + 1 * (y 0).val = (y 0).val; omega
    | ⟨1, _⟩ => show win10_2.index t (1 : Fin 2) * 64 + 1 * (y 1).val = (y 1).val; omega
  rw [he]

/-- The first bias block at any point is the whole first bias row. -/
theorem gin10_blk3 (c : Dev nD) (t : Fin cfg10.N) :
    (iblk10 V c 3 t : S1x64.Idx → EReal) = (V c (Pipeline.arrRef spec10 3) : S1x64.Idx → EReal) := by
  obtain ⟨-, -, -, -, -, -, e0, e1, -⟩ := gin10_index t
  funext y
  show (V c (Pipeline.arrRef spec10 3) : S1x64.Idx → EReal) (((cfg10.win 3).blk t).view.emb y) = _
  have he : ((cfg10.win 3).blk t).view.emb y = (y : S1x64.Idx) := by
    funext a; apply Fin.ext
    match a with
    | ⟨0, _⟩ => show win10_3.index t (0 : Fin 2) * 1 + 1 * (y 0).val = (y 0).val; omega
    | ⟨1, _⟩ => show win10_3.index t (1 : Fin 2) * 64 + 1 * (y 1).val = (y 1).val; omega
  rw [he]

/-- The second weight block at any point is the whole second weight matrix. -/
theorem gin10_blk4 (c : Dev nD) (t : Fin cfg10.N) :
    (iblk10 V c 4 t : S64x64.Idx → EReal) = (V c (Pipeline.arrRef spec10 4) : S64x64.Idx → EReal) := by
  obtain ⟨-, -, -, -, -, -, -, -, e0, e1, -⟩ := gin10_index t
  funext y
  show (V c (Pipeline.arrRef spec10 4) : S64x64.Idx → EReal) (((cfg10.win 4).blk t).view.emb y) = _
  have he : ((cfg10.win 4).blk t).view.emb y = (y : S64x64.Idx) := by
    funext a; apply Fin.ext
    match a with
    | ⟨0, _⟩ => show win10_4.index t (0 : Fin 2) * 64 + 1 * (y 0).val = (y 0).val; omega
    | ⟨1, _⟩ => show win10_4.index t (1 : Fin 2) * 64 + 1 * (y 1).val = (y 1).val; omega
  rw [he]

/-- The second bias block at any point is the whole second bias row. -/
theorem gin10_blk5 (c : Dev nD) (t : Fin cfg10.N) :
    (iblk10 V c 5 t : S1x64.Idx → EReal) = (V c (Pipeline.arrRef spec10 5) : S1x64.Idx → EReal) := by
  obtain ⟨-, -, -, -, -, -, -, -, -, -, e0, e1, -⟩ := gin10_index t
  funext y
  show (V c (Pipeline.arrRef spec10 5) : S1x64.Idx → EReal) (((cfg10.win 5).blk t).view.emb y) = _
  have he : ((cfg10.win 5).blk t).view.emb y = (y : S1x64.Idx) := by
    funext a; apply Fin.ext
    match a with
    | ⟨0, _⟩ => show win10_5.index t (0 : Fin 2) * 1 + 1 * (y 0).val = (y 0).val; omega
    | ⟨1, _⟩ => show win10_5.index t (1 : Fin 2) * 64 + 1 * (y 1).val = (y 1).val; omega
  rw [he]

set_option maxHeartbeats 1000000 in
/-- What point t writes back is block t of the layer of the whole arrays. -/
theorem gin10_flushed (c : Dev nD) (t : Fin cfg10.N) :
    (dat10 V c).flushed 6 t = ((cfg10.win 6).blk t).view.read (Elt Ideal)
      (Cert.Net.layer (n := 100000) (V c (Pipeline.arrRef spec10 0)) (V c (Pipeline.arrRef spec10 1))
        (V c (Pipeline.arrRef spec10 2)) (V c (Pipeline.arrRef spec10 3)) (V c (Pipeline.arrRef spec10 4))
        (V c (Pipeline.arrRef spec10 5))) := by
  show (cfg10.win 6).cut (grid10.coords t) ((dat10 V c).after 6 t) = _
  rw [after10_6]
  unfold out10_6
  rw [View.canon_unit_zero gin10_zeros]
  simp only [View.ld_unit_zero (S := S10000x64) gin10_zeros, View.ld_unit_zero (S := S64x64) gin10_zeros,
    View.ld_unit_zero (S := S1x64) gin10_zeros]
  rw [Stages.pay_gin10]
  obtain ⟨-, -, -, -, -, -, -, -, -, -, -, -, e0, e1⟩ := gin10_index t
  funext j
  obtain ⟨p, q, rfl⟩ : ∃ (p : Fin 10000) (q : Fin 64), j = ix2 p q := ⟨j 0, j 1, eq_ix2 j⟩
  have ht : t.val < 10 := t.isLt
  have h : t.val * 10000 + p.val < 100000 := by have := p.isLt; omega
  show Cert.Net.layer (n := 10000) (iblk10 V c 0 t) (iblk10 V c 1 t) (iblk10 V c 2 t) (iblk10 V c 3 t)
      (iblk10 V c 4 t) (iblk10 V c 5 t) (ix2 p q)
    = Cert.Net.layer (n := 100000) (V c (Pipeline.arrRef spec10 0)) (V c (Pipeline.arrRef spec10 1))
        (V c (Pipeline.arrRef spec10 2)) (V c (Pipeline.arrRef spec10 3)) (V c (Pipeline.arrRef spec10 4))
        (V c (Pipeline.arrRef spec10 5)) (((cfg10.win 6).blk t).view.emb (ix2 p q))
  have he : ((cfg10.win 6).blk t).view.emb (ix2 p q)
      = (ix2 (⟨t.val * 10000 + p.val, h⟩ : Fin 100000) q : S100000x64.Idx) := by
    funext a; apply Fin.ext
    match a with
    | ⟨0, _⟩ => show win10_6.index t (0 : Fin 2) * 10000 + 1 * p.val = t.val * 10000 + p.val; omega
    | ⟨1, _⟩ => show win10_6.index t (1 : Fin 2) * 64 + 1 * q.val = q.val; omega
  rw [he]
  exact Stages.layer_row _ _ _ _ _ _ _ _ _ _ _ _ p ⟨t.val * 10000 + p.val, h⟩ q
    (fun j => gin10_blk0 V c t p h j) (fun j => gin10_blk1 V c t p h j)
    (gin10_blk2 V c t) (gin10_blk3 V c t) (gin10_blk4 V c t) (gin10_blk5 V c t)

/-- An entry of the output array is in point t's block iff each coordinate is in the block's range. -/
theorem gin10_mem_blk (t : Fin cfg10.N) (i : S100000x64.Idx) :
    i ∈ ((cfg10.win 6).blk t).view.set ↔ ∀ a : Fin 2, win10_6.index t a * S10000x64.size a ≤ (i a).val
      ∧ (i a).val < win10_6.index t a * S10000x64.size a + S10000x64.size a := by
  show i ∈ ((View.whole main_v220).slice (win10_6.rect t)).set ↔ _
  rw [View.set_slice_whole, Rect.mem_set_unit]
  exact Iff.rfl

/-- Row r of the output array is written back by point r / 10000. -/
theorem gin10_cover (i : S100000x64.Idx) :
    ∃ t : Fin cfg10.N, (cfg10.win 6).flush t = true ∧ i ∈ ((cfg10.win 6).blk t).view.set := by
  have hi0 : (i 0).val < 100000 := (i 0).isLt
  have hi1 : (i 1).val < 64 := (i 1).isLt
  have hlt : (i 0).val / 10000 < 10 := by omega
  refine ⟨⟨(i 0).val / 10000, hlt⟩, flush10_6 _, ?_⟩
  rw [gin10_mem_blk]
  obtain ⟨-, -, -, -, -, -, -, -, -, -, -, -, e0, e1⟩ := gin10_index ⟨(i 0).val / 10000, hlt⟩
  have e0' : win10_6.index ⟨(i 0).val / 10000, hlt⟩ (0 : Fin 2) = (i 0).val / 10000 := e0
  intro a
  match a with
  | ⟨0, _⟩ =>
    show win10_6.index ⟨(i 0).val / 10000, hlt⟩ (0 : Fin 2) * 10000 ≤ (i 0).val
      ∧ (i 0).val < win10_6.index ⟨(i 0).val / 10000, hlt⟩ (0 : Fin 2) * 10000 + 10000
    omega
  | ⟨1, _⟩ =>
    show win10_6.index ⟨(i 0).val / 10000, hlt⟩ (1 : Fin 2) * 64 ≤ (i 1).val
      ∧ (i 1).val < win10_6.index ⟨(i 0).val / 10000, hlt⟩ (1 : Fin 2) * 64 + 64
    omega

/-- After the last grid point the output array is the layer of the whole arrays. -/
theorem gin10_whole (c : Dev nD) :
    (dat10 V c).arrAt 6 cfg10.N
      = Cert.Net.layer (n := 100000) (V c (Pipeline.arrRef spec10 0)) (V c (Pipeline.arrRef spec10 1))
          (V c (Pipeline.arrRef spec10 2)) (V c (Pipeline.arrRef spec10 3)) (V c (Pipeline.arrRef spec10 4))
          (V c (Pipeline.arrRef spec10 5)) :=
  (dat10 V c).arrAt_eq_of_cover 6 _ (fun t _ => gin10_flushed V c t) gin10_cover

end Cert.KernelIdeal.Regions

end
-- ==== Proof.RegionGin11.lean ====
/-
  Layer region 11 on whole arrays.

  The region runs one layer's body at ten grid points; point t stages rows 10000·t … 10000·t + 9999 of the node
  array and of the aggregated array and the whole of the two weight matrices and bias rows, and writes the body's
  block back to the same rows of the output array.  Entry (r, q) of a layer reads row r of the two row-wise
  arrays alone, so the block written at point t is that block of rows of the layer of the whole arrays; the ten
  blocks tile the 100000 rows, so after the last point the output array is the layer of the whole arrays.
-/
import proofs.«124003_j47699906789506_1_alg».proof.Proof.Gen.KernelIdeal.Frame
import proofs.«124003_j47699906789506_1_alg».proof.Proof.Stages

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, as a constant function. -/
theorem gin11_zeros : (![0, 0] : Fin 2 → Nat) = fun _ => 0 := funext fun a => by fin_cases a <;> rfl

/-- The block indices of the seven windows at each of the ten grid points: the two row-wise input windows and the
    output window move down the rows with the point, the weight and bias windows stay. -/
theorem gin11_index : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = 0 ∧ win11_5.index t (1 : Fin 2) = 0
    ∧ win11_6.index t (0 : Fin 2) = t.val ∧ win11_6.index t (1 : Fin 2) = 0 :=
  (by decide +kernel : ∀ t : Fin grid11.N, _)

/-- Entry (p, j) of the node block at point t is entry (10000·t + p, j) of the node array. -/
theorem gin11_blk0 (c : Dev nD) (t : Fin cfg11.N) (p : Fin 10000) (h : t.val * 10000 + p.val < 100000) (j : Fin 64) :
    iblk11 V c 0 t (ix2 p j)
      = (V c (Pipeline.arrRef spec11 0) : S100000x64.Idx → EReal) (ix2 (⟨t.val * 10000 + p.val, h⟩ : Fin 100000) j) := by
  obtain ⟨e0, e1, -⟩ := gin11_index t
  show (V c (Pipeline.arrRef spec11 0) : S100000x64.Idx → EReal) (((cfg11.win 0).blk t).view.emb (ix2 p j)) = _
  have he : ((cfg11.win 0).blk t).view.emb (ix2 p j)
      = (ix2 (⟨t.val * 10000 + p.val, h⟩ : Fin 100000) j : S100000x64.Idx) := by
    funext a; apply Fin.ext
    match a with
    | ⟨0, _⟩ => show win11_0.index t (0 : Fin 2) * 10000 + 1 * p.val = t.val * 10000 + p.val; omega
    | ⟨1, _⟩ => show win11_0.index t (1 : Fin 2) * 64 + 1 * j.val = j.val; omega
  rw [he]

/-- Entry (p, j) of the aggregated block at point t is entry (10000·t + p, j) of the aggregated array. -/
theorem gin11_blk1 (c : Dev nD) (t : Fin cfg11.N) (p : Fin 10000) (h : t.val * 10000 + p.val < 100000) (j : Fin 64) :
    iblk11 V c 1 t (ix2 p j)
      = (V c (Pipeline.arrRef spec11 1) : S100000x64.Idx → EReal) (ix2 (⟨t.val * 10000 + p.val, h⟩ : Fin 100000) j) := by
  obtain ⟨-, -, e0, e1, -⟩ := gin11_index t
  show (V c (Pipeline.arrRef spec11 1) : S100000x64.Idx → EReal) (((cfg11.win 1).blk t).view.emb (ix2 p j)) = _
  have he : ((cfg11.win 1).blk t).view.emb (ix2 p j)
      = (ix2 (⟨t.val * 10000 + p.val, h⟩ : Fin 100000) j : S100000x64.Idx) := by
    funext a; apply Fin.ext
    match a with
    | ⟨0, _⟩ => show win11_1.index t (0 : Fin 2) * 10000 + 1 * p.val = t.val * 10000 + p.val; omega
    | ⟨1, _⟩ => show win11_1.index t (1 : Fin 2) * 64 + 1 * j.val = j.val; omega
  rw [he]

/-- The first weight block at any point is the whole first weight matrix. -/
theorem gin11_blk2 (c : Dev nD) (t : Fin cfg11.N) :
    (iblk11 V c 2 t : S64x64.Idx → EReal) = (V c (Pipeline.arrRef spec11 2) : S64x64.Idx → EReal) := by
  obtain ⟨-, -, -, -, e0, e1, -⟩ := gin11_index t
  funext y
  show (V c (Pipeline.arrRef spec11 2) : S64x64.Idx → EReal) (((cfg11.win 2).blk t).view.emb y) = _
  have he : ((cfg11.win 2).blk t).view.emb y = (y : S64x64.Idx) := by
    funext a; apply Fin.ext
    match a with
    | ⟨0, _⟩ => show win11_2.index t (0 : Fin 2) * 64 + 1 * (y 0).val = (y 0).val; omega
    | ⟨1, _⟩ => show win11_2.index t (1 : Fin 2) * 64 + 1 * (y 1).val = (y 1).val; omega
  rw [he]

/-- The first bias block at any point is the whole first bias row. -/
theorem gin11_blk3 (c : Dev nD) (t : Fin cfg11.N) :
    (iblk11 V c 3 t : S1x64.Idx → EReal) = (V c (Pipeline.arrRef spec11 3) : S1x64.Idx → EReal) := by
  obtain ⟨-, -, -, -, -, -, e0, e1, -⟩ := gin11_index t
  funext y
  show (V c (Pipeline.arrRef spec11 3) : S1x64.Idx → EReal) (((cfg11.win 3).blk t).view.emb y) = _
  have he : ((cfg11.win 3).blk t).view.emb y = (y : S1x64.Idx) := by
    funext a; apply Fin.ext
    match a with
    | ⟨0, _⟩ => show win11_3.index t (0 : Fin 2) * 1 + 1 * (y 0).val = (y 0).val; omega
    | ⟨1, _⟩ => show win11_3.index t (1 : Fin 2) * 64 + 1 * (y 1).val = (y 1).val; omega
  rw [he]

/-- The second weight block at any point is the whole second weight matrix. -/
theorem gin11_blk4 (c : Dev nD) (t : Fin cfg11.N) :
    (iblk11 V c 4 t : S64x64.Idx → EReal) = (V c (Pipeline.arrRef spec11 4) : S64x64.Idx → EReal) := by
  obtain ⟨-, -, -, -, -, -, -, -, e0, e1, -⟩ := gin11_index t
  funext y
  show (V c (Pipeline.arrRef spec11 4) : S64x64.Idx → EReal) (((cfg11.win 4).blk t).view.emb y) = _
  have he : ((cfg11.win 4).blk t).view.emb y = (y : S64x64.Idx) := by
    funext a; apply Fin.ext
    match a with
    | ⟨0, _⟩ => show win11_4.index t (0 : Fin 2) * 64 + 1 * (y 0).val = (y 0).val; omega
    | ⟨1, _⟩ => show win11_4.index t (1 : Fin 2) * 64 + 1 * (y 1).val = (y 1).val; omega
  rw [he]

/-- The second bias block at any point is the whole second bias row. -/
theorem gin11_blk5 (c : Dev nD) (t : Fin cfg11.N) :
    (iblk11 V c 5 t : S1x64.Idx → EReal) = (V c (Pipeline.arrRef spec11 5) : S1x64.Idx → EReal) := by
  obtain ⟨-, -, -, -, -, -, -, -, -, -, e0, e1, -⟩ := gin11_index t
  funext y
  show (V c (Pipeline.arrRef spec11 5) : S1x64.Idx → EReal) (((cfg11.win 5).blk t).view.emb y) = _
  have he : ((cfg11.win 5).blk t).view.emb y = (y : S1x64.Idx) := by
    funext a; apply Fin.ext
    match a with
    | ⟨0, _⟩ => show win11_5.index t (0 : Fin 2) * 1 + 1 * (y 0).val = (y 0).val; omega
    | ⟨1, _⟩ => show win11_5.index t (1 : Fin 2) * 64 + 1 * (y 1).val = (y 1).val; omega
  rw [he]

set_option maxHeartbeats 1000000 in
/-- What point t writes back is block t of the layer of the whole arrays. -/
theorem gin11_flushed (c : Dev nD) (t : Fin cfg11.N) :
    (dat11 V c).flushed 6 t = ((cfg11.win 6).blk t).view.read (Elt Ideal)
      (Cert.Net.layer (n := 100000) (V c (Pipeline.arrRef spec11 0)) (V c (Pipeline.arrRef spec11 1))
        (V c (Pipeline.arrRef spec11 2)) (V c (Pipeline.arrRef spec11 3)) (V c (Pipeline.arrRef spec11 4))
        (V c (Pipeline.arrRef spec11 5))) := by
  show (cfg11.win 6).cut (grid11.coords t) ((dat11 V c).after 6 t) = _
  rw [after11_6]
  unfold out11_6
  rw [View.canon_unit_zero gin11_zeros]
  simp only [View.ld_unit_zero (S := S10000x64) gin11_zeros, View.ld_unit_zero (S := S64x64) gin11_zeros,
    View.ld_unit_zero (S := S1x64) gin11_zeros]
  rw [Stages.pay_gin11]
  obtain ⟨-, -, -, -, -, -, -, -, -, -, -, -, e0, e1⟩ := gin11_index t
  funext j
  obtain ⟨p, q, rfl⟩ : ∃ (p : Fin 10000) (q : Fin 64), j = ix2 p q := ⟨j 0, j 1, eq_ix2 j⟩
  have ht : t.val < 10 := t.isLt
  have h : t.val * 10000 + p.val < 100000 := by have := p.isLt; omega
  show Cert.Net.layer (n := 10000) (iblk11 V c 0 t) (iblk11 V c 1 t) (iblk11 V c 2 t) (iblk11 V c 3 t)
      (iblk11 V c 4 t) (iblk11 V c 5 t) (ix2 p q)
    = Cert.Net.layer (n := 100000) (V c (Pipeline.arrRef spec11 0)) (V c (Pipeline.arrRef spec11 1))
        (V c (Pipeline.arrRef spec11 2)) (V c (Pipeline.arrRef spec11 3)) (V c (Pipeline.arrRef spec11 4))
        (V c (Pipeline.arrRef spec11 5)) (((cfg11.win 6).blk t).view.emb (ix2 p q))
  have he : ((cfg11.win 6).blk t).view.emb (ix2 p q)
      = (ix2 (⟨t.val * 10000 + p.val, h⟩ : Fin 100000) q : S100000x64.Idx) := by
    funext a; apply Fin.ext
    match a with
    | ⟨0, _⟩ => show win11_6.index t (0 : Fin 2) * 10000 + 1 * p.val = t.val * 10000 + p.val; omega
    | ⟨1, _⟩ => show win11_6.index t (1 : Fin 2) * 64 + 1 * q.val = q.val; omega
  rw [he]
  exact Stages.layer_row _ _ _ _ _ _ _ _ _ _ _ _ p ⟨t.val * 10000 + p.val, h⟩ q
    (fun j => gin11_blk0 V c t p h j) (fun j => gin11_blk1 V c t p h j)
    (gin11_blk2 V c t) (gin11_blk3 V c t) (gin11_blk4 V c t) (gin11_blk5 V c t)

/-- An entry of the output array is in point t's block iff each coordinate is in the block's range. -/
theorem gin11_mem_blk (t : Fin cfg11.N) (i : S100000x64.Idx) :
    i ∈ ((cfg11.win 6).blk t).view.set ↔ ∀ a : Fin 2, win11_6.index t a * S10000x64.size a ≤ (i a).val
      ∧ (i a).val < win11_6.index t a * S10000x64.size a + S10000x64.size a := by
  show i ∈ ((View.whole main_v241).slice (win11_6.rect t)).set ↔ _
  rw [View.set_slice_whole, Rect.mem_set_unit]
  exact Iff.rfl

/-- Row r of the output array is written back by point r / 10000. -/
theorem gin11_cover (i : S100000x64.Idx) :
    ∃ t : Fin cfg11.N, (cfg11.win 6).flush t = true ∧ i ∈ ((cfg11.win 6).blk t).view.set := by
  have hi0 : (i 0).val < 100000 := (i 0).isLt
  have hi1 : (i 1).val < 64 := (i 1).isLt
  have hlt : (i 0).val / 10000 < 10 := by omega
  refine ⟨⟨(i 0).val / 10000, hlt⟩, flush11_6 _, ?_⟩
  rw [gin11_mem_blk]
  obtain ⟨-, -, -, -, -, -, -, -, -, -, -, -, e0, e1⟩ := gin11_index ⟨(i 0).val / 10000, hlt⟩
  have e0' : win11_6.index ⟨(i 0).val / 10000, hlt⟩ (0 : Fin 2) = (i 0).val / 10000 := e0
  intro a
  match a with
  | ⟨0, _⟩ =>
    show win11_6.index ⟨(i 0).val / 10000, hlt⟩ (0 : Fin 2) * 10000 ≤ (i 0).val
      ∧ (i 0).val < win11_6.index ⟨(i 0).val / 10000, hlt⟩ (0 : Fin 2) * 10000 + 10000
    omega
  | ⟨1, _⟩ =>
    show win11_6.index ⟨(i 0).val / 10000, hlt⟩ (1 : Fin 2) * 64 ≤ (i 1).val
      ∧ (i 1).val < win11_6.index ⟨(i 0).val / 10000, hlt⟩ (1 : Fin 2) * 64 + 64
    omega

/-- After the last grid point the output array is the layer of the whole arrays. -/
theorem gin11_whole (c : Dev nD) :
    (dat11 V c).arrAt 6 cfg11.N
      = Cert.Net.layer (n := 100000) (V c (Pipeline.arrRef spec11 0)) (V c (Pipeline.arrRef spec11 1))
          (V c (Pipeline.arrRef spec11 2)) (V c (Pipeline.arrRef spec11 3)) (V c (Pipeline.arrRef spec11 4))
          (V c (Pipeline.arrRef spec11 5)) :=
  (dat11 V c).arrAt_eq_of_cover 6 _ (fun t _ => gin11_flushed V c t) gin11_cover

end Cert.KernelIdeal.Regions

end
-- ==== Proof.RegionGin12.lean ====
/-
  Layer region 12 on whole arrays.

  The region runs one layer's body at ten grid points; point t stages rows 10000·t … 10000·t + 9999 of the node
  array and of the aggregated array and the whole of the two weight matrices and bias rows, and writes the body's
  block back to the same rows of the output array.  Entry (r, q) of a layer reads row r of the two row-wise
  arrays alone, so the block written at point t is that block of rows of the layer of the whole arrays; the ten
  blocks tile the 100000 rows, so after the last point the output array is the layer of the whole arrays.
-/
import proofs.«124003_j47699906789506_1_alg».proof.Proof.Gen.KernelIdeal.Frame
import proofs.«124003_j47699906789506_1_alg».proof.Proof.Stages

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, as a constant function. -/
theorem gin12_zeros : (![0, 0] : Fin 2 → Nat) = fun _ => 0 := funext fun a => by fin_cases a <;> rfl

/-- The block indices of the seven windows at each of the ten grid points: the two row-wise input windows and the
    output window move down the rows with the point, the weight and bias windows stay. -/
theorem gin12_index : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = 0 ∧ win12_5.index t (1 : Fin 2) = 0
    ∧ win12_6.index t (0 : Fin 2) = t.val ∧ win12_6.index t (1 : Fin 2) = 0 :=
  (by decide +kernel : ∀ t : Fin grid12.N, _)

/-- Entry (p, j) of the node block at point t is entry (10000·t + p, j) of the node array. -/
theorem gin12_blk0 (c : Dev nD) (t : Fin cfg12.N) (p : Fin 10000) (h : t.val * 10000 + p.val < 100000) (j : Fin 64) :
    iblk12 V c 0 t (ix2 p j)
      = (V c (Pipeline.arrRef spec12 0) : S100000x64.Idx → EReal) (ix2 (⟨t.val * 10000 + p.val, h⟩ : Fin 100000) j) := by
  obtain ⟨e0, e1, -⟩ := gin12_index t
  show (V c (Pipeline.arrRef spec12 0) : S100000x64.Idx → EReal) (((cfg12.win 0).blk t).view.emb (ix2 p j)) = _
  have he : ((cfg12.win 0).blk t).view.emb (ix2 p j)
      = (ix2 (⟨t.val * 10000 + p.val, h⟩ : Fin 100000) j : S100000x64.Idx) := by
    funext a; apply Fin.ext
    match a with
    | ⟨0, _⟩ => show win12_0.index t (0 : Fin 2) * 10000 + 1 * p.val = t.val * 10000 + p.val; omega
    | ⟨1, _⟩ => show win12_0.index t (1 : Fin 2) * 64 + 1 * j.val = j.val; omega
  rw [he]

/-- Entry (p, j) of the aggregated block at point t is entry (10000·t + p, j) of the aggregated array. -/
theorem gin12_blk1 (c : Dev nD) (t : Fin cfg12.N) (p : Fin 10000) (h : t.val * 10000 + p.val < 100000) (j : Fin 64) :
    iblk12 V c 1 t (ix2 p j)
      = (V c (Pipeline.arrRef spec12 1) : S100000x64.Idx → EReal) (ix2 (⟨t.val * 10000 + p.val, h⟩ : Fin 100000) j) := by
  obtain ⟨-, -, e0, e1, -⟩ := gin12_index t
  show (V c (Pipeline.arrRef spec12 1) : S100000x64.Idx → EReal) (((cfg12.win 1).blk t).view.emb (ix2 p j)) = _
  have he : ((cfg12.win 1).blk t).view.emb (ix2 p j)
      = (ix2 (⟨t.val * 10000 + p.val, h⟩ : Fin 100000) j : S100000x64.Idx) := by
    funext a; apply Fin.ext
    match a with
    | ⟨0, _⟩ => show win12_1.index t (0 : Fin 2) * 10000 + 1 * p.val = t.val * 10000 + p.val; omega
    | ⟨1, _⟩ => show win12_1.index t (1 : Fin 2) * 64 + 1 * j.val = j.val; omega
  rw [he]

/-- The first weight block at any point is the whole first weight matrix. -/
theorem gin12_blk2 (c : Dev nD) (t : Fin cfg12.N) :
    (iblk12 V c 2 t : S64x64.Idx → EReal) = (V c (Pipeline.arrRef spec12 2) : S64x64.Idx → EReal) := by
  obtain ⟨-, -, -, -, e0, e1, -⟩ := gin12_index t
  funext y
  show (V c (Pipeline.arrRef spec12 2) : S64x64.Idx → EReal) (((cfg12.win 2).blk t).view.emb y) = _
  have he : ((cfg12.win 2).blk t).view.emb y = (y : S64x64.Idx) := by
    funext a; apply Fin.ext
    match a with
    | ⟨0, _⟩ => show win12_2.index t (0 : Fin 2) * 64 + 1 * (y 0).val = (y 0).val; omega
    | ⟨1, _⟩ => show win12_2.index t (1 : Fin 2) * 64 + 1 * (y 1).val = (y 1).val; omega
  rw [he]

/-- The first bias block at any point is the whole first bias row. -/
theorem gin12_blk3 (c : Dev nD) (t : Fin cfg12.N) :
    (iblk12 V c 3 t : S1x64.Idx → EReal) = (V c (Pipeline.arrRef spec12 3) : S1x64.Idx → EReal) := by
  obtain ⟨-, -, -, -, -, -, e0, e1, -⟩ := gin12_index t
  funext y
  show (V c (Pipeline.arrRef spec12 3) : S1x64.Idx → EReal) (((cfg12.win 3).blk t).view.emb y) = _
  have he : ((cfg12.win 3).blk t).view.emb y = (y : S1x64.Idx) := by
    funext a; apply Fin.ext
    match a with
    | ⟨0, _⟩ => show win12_3.index t (0 : Fin 2) * 1 + 1 * (y 0).val = (y 0).val; omega
    | ⟨1, _⟩ => show win12_3.index t (1 : Fin 2) * 64 + 1 * (y 1).val = (y 1).val; omega
  rw [he]

/-- The second weight block at any point is the whole second weight matrix. -/
theorem gin12_blk4 (c : Dev nD) (t : Fin cfg12.N) :
    (iblk12 V c 4 t : S64x64.Idx → EReal) = (V c (Pipeline.arrRef spec12 4) : S64x64.Idx → EReal) := by
  obtain ⟨-, -, -, -, -, -, -, -, e0, e1, -⟩ := gin12_index t
  funext y
  show (V c (Pipeline.arrRef spec12 4) : S64x64.Idx → EReal) (((cfg12.win 4).blk t).view.emb y) = _
  have he : ((cfg12.win 4).blk t).view.emb y = (y : S64x64.Idx) := by
    funext a; apply Fin.ext
    match a with
    | ⟨0, _⟩ => show win12_4.index t (0 : Fin 2) * 64 + 1 * (y 0).val = (y 0).val; omega
    | ⟨1, _⟩ => show win12_4.index t (1 : Fin 2) * 64 + 1 * (y 1).val = (y 1).val; omega
  rw [he]

/-- The second bias block at any point is the whole second bias row. -/
theorem gin12_blk5 (c : Dev nD) (t : Fin cfg12.N) :
    (iblk12 V c 5 t : S1x64.Idx → EReal) = (V c (Pipeline.arrRef spec12 5) : S1x64.Idx → EReal) := by
  obtain ⟨-, -, -, -, -, -, -, -, -, -, e0, e1, -⟩ := gin12_index t
  funext y
  show (V c (Pipeline.arrRef spec12 5) : S1x64.Idx → EReal) (((cfg12.win 5).blk t).view.emb y) = _
  have he : ((cfg12.win 5).blk t).view.emb y = (y : S1x64.Idx) := by
    funext a; apply Fin.ext
    match a with
    | ⟨0, _⟩ => show win12_5.index t (0 : Fin 2) * 1 + 1 * (y 0).val = (y 0).val; omega
    | ⟨1, _⟩ => show win12_5.index t (1 : Fin 2) * 64 + 1 * (y 1).val = (y 1).val; omega
  rw [he]

set_option maxHeartbeats 1000000 in
/-- What point t writes back is block t of the layer of the whole arrays. -/
theorem gin12_flushed (c : Dev nD) (t : Fin cfg12.N) :
    (dat12 V c).flushed 6 t = ((cfg12.win 6).blk t).view.read (Elt Ideal)
      (Cert.Net.layer (n := 100000) (V c (Pipeline.arrRef spec12 0)) (V c (Pipeline.arrRef spec12 1))
        (V c (Pipeline.arrRef spec12 2)) (V c (Pipeline.arrRef spec12 3)) (V c (Pipeline.arrRef spec12 4))
        (V c (Pipeline.arrRef spec12 5))) := by
  show (cfg12.win 6).cut (grid12.coords t) ((dat12 V c).after 6 t) = _
  rw [after12_6]
  unfold out12_6
  rw [View.canon_unit_zero gin12_zeros]
  simp only [View.ld_unit_zero (S := S10000x64) gin12_zeros, View.ld_unit_zero (S := S64x64) gin12_zeros,
    View.ld_unit_zero (S := S1x64) gin12_zeros]
  rw [Stages.pay_gin12]
  obtain ⟨-, -, -, -, -, -, -, -, -, -, -, -, e0, e1⟩ := gin12_index t
  funext j
  obtain ⟨p, q, rfl⟩ : ∃ (p : Fin 10000) (q : Fin 64), j = ix2 p q := ⟨j 0, j 1, eq_ix2 j⟩
  have ht : t.val < 10 := t.isLt
  have h : t.val * 10000 + p.val < 100000 := by have := p.isLt; omega
  show Cert.Net.layer (n := 10000) (iblk12 V c 0 t) (iblk12 V c 1 t) (iblk12 V c 2 t) (iblk12 V c 3 t)
      (iblk12 V c 4 t) (iblk12 V c 5 t) (ix2 p q)
    = Cert.Net.layer (n := 100000) (V c (Pipeline.arrRef spec12 0)) (V c (Pipeline.arrRef spec12 1))
        (V c (Pipeline.arrRef spec12 2)) (V c (Pipeline.arrRef spec12 3)) (V c (Pipeline.arrRef spec12 4))
        (V c (Pipeline.arrRef spec12 5)) (((cfg12.win 6).blk t).view.emb (ix2 p q))
  have he : ((cfg12.win 6).blk t).view.emb (ix2 p q)
      = (ix2 (⟨t.val * 10000 + p.val, h⟩ : Fin 100000) q : S100000x64.Idx) := by
    funext a; apply Fin.ext
    match a with
    | ⟨0, _⟩ => show win12_6.index t (0 : Fin 2) * 10000 + 1 * p.val = t.val * 10000 + p.val; omega
    | ⟨1, _⟩ => show win12_6.index t (1 : Fin 2) * 64 + 1 * q.val = q.val; omega
  rw [he]
  exact Stages.layer_row _ _ _ _ _ _ _ _ _ _ _ _ p ⟨t.val * 10000 + p.val, h⟩ q
    (fun j => gin12_blk0 V c t p h j) (fun j => gin12_blk1 V c t p h j)
    (gin12_blk2 V c t) (gin12_blk3 V c t) (gin12_blk4 V c t) (gin12_blk5 V c t)

/-- An entry of the output array is in point t's block iff each coordinate is in the block's range. -/
theorem gin12_mem_blk (t : Fin cfg12.N) (i : S100000x64.Idx) :
    i ∈ ((cfg12.win 6).blk t).view.set ↔ ∀ a : Fin 2, win12_6.index t a * S10000x64.size a ≤ (i a).val
      ∧ (i a).val < win12_6.index t a * S10000x64.size a + S10000x64.size a := by
  show i ∈ ((View.whole main_v262).slice (win12_6.rect t)).set ↔ _
  rw [View.set_slice_whole, Rect.mem_set_unit]
  exact Iff.rfl

/-- Row r of the output array is written back by point r / 10000. -/
theorem gin12_cover (i : S100000x64.Idx) :
    ∃ t : Fin cfg12.N, (cfg12.win 6).flush t = true ∧ i ∈ ((cfg12.win 6).blk t).view.set := by
  have hi0 : (i 0).val < 100000 := (i 0).isLt
  have hi1 : (i 1).val < 64 := (i 1).isLt
  have hlt : (i 0).val / 10000 < 10 := by omega
  refine ⟨⟨(i 0).val / 10000, hlt⟩, flush12_6 _, ?_⟩
  rw [gin12_mem_blk]
  obtain ⟨-, -, -, -, -, -, -, -, -, -, -, -, e0, e1⟩ := gin12_index ⟨(i 0).val / 10000, hlt⟩
  have e0' : win12_6.index ⟨(i 0).val / 10000, hlt⟩ (0 : Fin 2) = (i 0).val / 10000 := e0
  intro a
  match a with
  | ⟨0, _⟩ =>
    show win12_6.index ⟨(i 0).val / 10000, hlt⟩ (0 : Fin 2) * 10000 ≤ (i 0).val
      ∧ (i 0).val < win12_6.index ⟨(i 0).val / 10000, hlt⟩ (0 : Fin 2) * 10000 + 10000
    omega
  | ⟨1, _⟩ =>
    show win12_6.index ⟨(i 0).val / 10000, hlt⟩ (1 : Fin 2) * 64 ≤ (i 1).val
      ∧ (i 1).val < win12_6.index ⟨(i 0).val / 10000, hlt⟩ (1 : Fin 2) * 64 + 64
    omega

/-- After the last grid point the output array is the layer of the whole arrays. -/
theorem gin12_whole (c : Dev nD) :
    (dat12 V c).arrAt 6 cfg12.N
      = Cert.Net.layer (n := 100000) (V c (Pipeline.arrRef spec12 0)) (V c (Pipeline.arrRef spec12 1))
          (V c (Pipeline.arrRef spec12 2)) (V c (Pipeline.arrRef spec12 3)) (V c (Pipeline.arrRef spec12 4))
          (V c (Pipeline.arrRef spec12 5)) :=
  (dat12 V c).arrAt_eq_of_cover 6 _ (fun t _ => gin12_flushed V c t) gin12_cover

end Cert.KernelIdeal.Regions

end
-- ==== Proof.RegionDec.lean ====
/-
  The decoder region on whole arrays.

  The region runs the decoder's body at its one grid point, with every window staging its whole array: the 256
  graph rows, the two weight matrices and the two bias rows.  Each block is its array and the block written back
  is the whole output array, so after the point the output array is the decoder of the whole arrays.
-/
import proofs.«124003_j47699906789506_1_alg».proof.Proof.Gen.KernelIdeal.Frame
import proofs.«124003_j47699906789506_1_alg».proof.Proof.Stages

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, as a constant function. -/
theorem dec_zeros : (![0, 0] : Fin 2 → Nat) = fun _ => 0 := funext fun a => by fin_cases a <;> rfl

/-- The block indices of the six windows at the one grid point: all zero. -/
theorem dec_index : ∀ t : Fin cfg13.N,
    win13_0.index t (0 : Fin 2) = 0 ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = 0 ∧ win13_5.index t (1 : Fin 2) = 0 ∧ True :=
  (by decide +kernel : ∀ t : Fin grid13.N, _)

/-- The graph block is the whole graph array. -/
theorem dec_blk0 (c : Dev nD) (t : Fin cfg13.N) :
    (iblk13 V c 0 t : S256x64.Idx → EReal) = (V c (Pipeline.arrRef spec13 0) : S256x64.Idx → EReal) := by
  obtain ⟨e0, e1, -⟩ := dec_index t
  funext y
  show (V c (Pipeline.arrRef spec13 0) : S256x64.Idx → EReal) (((cfg13.win 0).blk t).view.emb y) = _
  have he : ((cfg13.win 0).blk t).view.emb y = (y : S256x64.Idx) := by
    funext a; apply Fin.ext
    match a with
    | ⟨0, _⟩ => show win13_0.index t (0 : Fin 2) * 256 + 1 * (y 0).val = (y 0).val; omega
    | ⟨1, _⟩ => show win13_0.index t (1 : Fin 2) * 64 + 1 * (y 1).val = (y 1).val; omega
  rw [he]

/-- The first weight block is the whole first weight matrix. -/
theorem dec_blk1 (c : Dev nD) (t : Fin cfg13.N) :
    (iblk13 V c 1 t : S64x64.Idx → EReal) = (V c (Pipeline.arrRef spec13 1) : S64x64.Idx → EReal) := by
  obtain ⟨-, -, e0, e1, -⟩ := dec_index t
  funext y
  show (V c (Pipeline.arrRef spec13 1) : S64x64.Idx → EReal) (((cfg13.win 1).blk t).view.emb y) = _
  have he : ((cfg13.win 1).blk t).view.emb y = (y : S64x64.Idx) := by
    funext a; apply Fin.ext
    match a with
    | ⟨0, _⟩ => show win13_1.index t (0 : Fin 2) * 64 + 1 * (y 0).val = (y 0).val; omega
    | ⟨1, _⟩ => show win13_1.index t (1 : Fin 2) * 64 + 1 * (y 1).val = (y 1).val; omega
  rw [he]

/-- The first bias block is the whole first bias row. -/
theorem dec_blk2 (c : Dev nD) (t : Fin cfg13.N) :
    (iblk13 V c 2 t : S1x64.Idx → EReal) = (V c (Pipeline.arrRef spec13 2) : S1x64.Idx → EReal) := by
  obtain ⟨-, -, -, -, e0, e1, -⟩ := dec_index t
  funext y
  show (V c (Pipeline.arrRef spec13 2) : S1x64.Idx → EReal) (((cfg13.win 2).blk t).view.emb y) = _
  have he : ((cfg13.win 2).blk t).view.emb y = (y : S1x64.Idx) := by
    funext a; apply Fin.ext
    match a with
    | ⟨0, _⟩ => show win13_2.index t (0 : Fin 2) * 1 + 1 * (y 0).val = (y 0).val; omega
    | ⟨1, _⟩ => show win13_2.index t (1 : Fin 2) * 64 + 1 * (y 1).val = (y 1).val; omega
  rw [he]

/-- The second weight block is the whole second weight matrix. -/
theorem dec_blk3 (c : Dev nD) (t : Fin cfg13.N) :
    (iblk13 V c 3 t : S64x16.Idx → EReal) = (V c (Pipeline.arrRef spec13 3) : S64x16.Idx → EReal) := by
  obtain ⟨-, -, -, -, -, -, e0, e1, -⟩ := dec_index t
  funext y
  show (V c (Pipeline.arrRef spec13 3) : S64x16.Idx → EReal) (((cfg13.win 3).blk t).view.emb y) = _
  have he : ((cfg13.win 3).blk t).view.emb y = (y : S64x16.Idx) := by
    funext a; apply Fin.ext
    match a with
    | ⟨0, _⟩ => show win13_3.index t (0 : Fin 2) * 64 + 1 * (y 0).val = (y 0).val; omega
    | ⟨1, _⟩ => show win13_3.index t (1 : Fin 2) * 16 + 1 * (y 1).val = (y 1).val; omega
  rw [he]

/-- The second bias block is the whole second bias row. -/
theorem dec_blk4 (c : Dev nD) (t : Fin cfg13.N) :
    (iblk13 V c 4 t : S1x16.Idx → EReal) = (V c (Pipeline.arrRef spec13 4) : S1x16.Idx → EReal) := by
  obtain ⟨-, -, -, -, -, -, -, -, e0, e1, -⟩ := dec_index t
  funext y
  show (V c (Pipeline.arrRef spec13 4) : S1x16.Idx → EReal) (((cfg13.win 4).blk t).view.emb y) = _
  have he : ((cfg13.win 4).blk t).view.emb y = (y : S1x16.Idx) := by
    funext a; apply Fin.ext
    match a with
    | ⟨0, _⟩ => show win13_4.index t (0 : Fin 2) * 1 + 1 * (y 0).val = (y 0).val; omega
    | ⟨1, _⟩ => show win13_4.index t (1 : Fin 2) * 16 + 1 * (y 1).val = (y 1).val; omega
  rw [he]

set_option maxHeartbeats 1000000 in
/-- What the one point writes back is its block of the decoder of the whole arrays. -/
theorem dec_flushed (c : Dev nD) (t : Fin cfg13.N) :
    (dat13 V c).flushed 5 t = ((cfg13.win 5).blk t).view.read (Elt Ideal)
      (Cert.Net.decode (n := 256) (V c (Pipeline.arrRef spec13 0)) (V c (Pipeline.arrRef spec13 1))
        (V c (Pipeline.arrRef spec13 2)) (V c (Pipeline.arrRef spec13 3)) (V c (Pipeline.arrRef spec13 4))) := by
  show (cfg13.win 5).cut (grid13.coords t) ((dat13 V c).after 5 t) = _
  rw [after13_5]
  unfold out13_5
  rw [View.canon_unit_zero dec_zeros]
  simp only [View.ld_unit_zero (S := S256x64) dec_zeros, View.ld_unit_zero (S := S64x64) dec_zeros,
    View.ld_unit_zero (S := S1x64) dec_zeros, View.ld_unit_zero (S := S64x16) dec_zeros,
    View.ld_unit_zero (S := S1x16) dec_zeros]
  rw [Stages.pay_dec]
  obtain ⟨-, -, -, -, -, -, -, -, -, -, e0, e1, -⟩ := dec_index t
  funext j
  show Cert.Net.decode (n := 256) (iblk13 V c 0 t) (iblk13 V c 1 t) (iblk13 V c 2 t) (iblk13 V c 3 t)
      (iblk13 V c 4 t) j
    = Cert.Net.decode (n := 256) (V c (Pipeline.arrRef spec13 0)) (V c (Pipeline.arrRef spec13 1))
        (V c (Pipeline.arrRef spec13 2)) (V c (Pipeline.arrRef spec13 3)) (V c (Pipeline.arrRef spec13 4))
        (((cfg13.win 5).blk t).view.emb j)
  have he : ((cfg13.win 5).blk t).view.emb j = (j : S256x16.Idx) := by
    funext a; apply Fin.ext
    match a with
    | ⟨0, _⟩ => show win13_5.index t (0 : Fin 2) * 256 + 1 * (j 0).val = (j 0).val; omega
    | ⟨1, _⟩ => show win13_5.index t (1 : Fin 2) * 16 + 1 * (j 1).val = (j 1).val; omega
  rw [he]
  exact congrFun (Stages.decode_congr _ _ _ _ _ _ _ _ _ _
    (dec_blk0 V c t) (dec_blk1 V c t) (dec_blk2 V c t) (dec_blk3 V c t) (dec_blk4 V c t)) j

/-- An entry of the output array is in the point's block iff each coordinate is in the block's range. -/
theorem dec_mem_blk (t : Fin cfg13.N) (i : S256x16.Idx) :
    i ∈ ((cfg13.win 5).blk t).view.set ↔ ∀ a : Fin 2, win13_5.index t a * S256x16.size a ≤ (i a).val
      ∧ (i a).val < win13_5.index t a * S256x16.size a + S256x16.size a := by
  show i ∈ ((View.whole main_v268).slice (win13_5.rect t)).set ↔ _
  rw [View.set_slice_whole, Rect.mem_set_unit]
  exact Iff.rfl

/-- Every entry of the output array is written back by the one point. -/
theorem dec_cover (i : S256x16.Idx) :
    ∃ t : Fin cfg13.N, (cfg13.win 5).flush t = true ∧ i ∈ ((cfg13.win 5).blk t).view.set := by
  have hi0 : (i 0).val < 256 := (i 0).isLt
  have hi1 : (i 1).val < 16 := (i 1).isLt
  have hlt : (0 : ℕ) < 1 := Nat.zero_lt_one
  refine ⟨⟨0, hlt⟩, flush13_5 _, ?_⟩
  rw [dec_mem_blk]
  obtain ⟨-, -, -, -, -, -, -, -, -, -, e0, e1, -⟩ := dec_index ⟨0, hlt⟩
  intro a
  match a with
  | ⟨0, _⟩ =>
    show win13_5.index ⟨0, hlt⟩ (0 : Fin 2) * 256 ≤ (i 0).val
      ∧ (i 0).val < win13_5.index ⟨0, hlt⟩ (0 : Fin 2) * 256 + 256
    omega
  | ⟨1, _⟩ =>
    show win13_5.index ⟨0, hlt⟩ (1 : Fin 2) * 16 ≤ (i 1).val
      ∧ (i 1).val < win13_5.index ⟨0, hlt⟩ (1 : Fin 2) * 16 + 16
    omega

/-- After the one grid point the output array is the decoder of the whole arrays. -/
theorem dec_whole (c : Dev nD) :
    (dat13 V c).arrAt 5 cfg13.N
      = Cert.Net.decode (n := 256) (V c (Pipeline.arrRef spec13 0)) (V c (Pipeline.arrRef spec13 1))
          (V c (Pipeline.arrRef spec13 2)) (V c (Pipeline.arrRef spec13 3)) (V c (Pipeline.arrRef spec13 4)) :=
  (dat13 V c).arrAt_eq_of_cover 5 _ (fun t _ => dec_flushed V c t) dec_cover

end Cert.KernelIdeal.Regions

end
-- ==== Proof.KChain.lean ====
/-
  The idealized kernel program's result is the network's result.

  The buffer contents at the 28 segment boundaries are walked once, from the launch to the return: after region 0 the
  encoder's output holds the features after the encoder; each layer's stretch and region turn the features before
  the layer into the features after it, every region's output array being one whole-array stage of its inputs; the
  last stretch and region 13 turn the features after the twelfth layer into the network's result.  The buffers the
  layers read without writing are carried along unchanged.
-/
import proofs.«124003_j47699906789506_1_alg».proof.Proof.KRun
import proofs.«124003_j47699906789506_1_alg».proof.Proof.KBase
import proofs.«124003_j47699906789506_1_alg».proof.Proof.KStep1
import proofs.«124003_j47699906789506_1_alg».proof.Proof.KStep2
import proofs.«124003_j47699906789506_1_alg».proof.Proof.KStep3
import proofs.«124003_j47699906789506_1_alg».proof.Proof.KStep4
import proofs.«124003_j47699906789506_1_alg».proof.Proof.KStep5
import proofs.«124003_j47699906789506_1_alg».proof.Proof.KStep6
import proofs.«124003_j47699906789506_1_alg».proof.Proof.KStep7
import proofs.«124003_j47699906789506_1_alg».proof.Proof.KStep8
import proofs.«124003_j47699906789506_1_alg».proof.Proof.KStep9
import proofs.«124003_j47699906789506_1_alg».proof.Proof.KStep10
import proofs.«124003_j47699906789506_1_alg».proof.Proof.KStep11
import proofs.«124003_j47699906789506_1_alg».proof.Proof.KStep12
import proofs.«124003_j47699906789506_1_alg».proof.Proof.KFinal
import proofs.«124003_j47699906789506_1_alg».proof.Proof.RegionEnc
import proofs.«124003_j47699906789506_1_alg».proof.Proof.RegionGin1
import proofs.«124003_j47699906789506_1_alg».proof.Proof.RegionGin2
import proofs.«124003_j47699906789506_1_alg».proof.Proof.RegionGin3
import proofs.«124003_j47699906789506_1_alg».proof.Proof.RegionGin4
import proofs.«124003_j47699906789506_1_alg».proof.Proof.RegionGin5
import proofs.«124003_j47699906789506_1_alg».proof.Proof.RegionGin6
import proofs.«124003_j47699906789506_1_alg».proof.Proof.RegionGin7
import proofs.«124003_j47699906789506_1_alg».proof.Proof.RegionGin8
import proofs.«124003_j47699906789506_1_alg».proof.Proof.RegionGin9
import proofs.«124003_j47699906789506_1_alg».proof.Proof.RegionGin10
import proofs.«124003_j47699906789506_1_alg».proof.Proof.RegionGin11
import proofs.«124003_j47699906789506_1_alg».proof.Proof.RegionGin12
import proofs.«124003_j47699906789506_1_alg».proof.Proof.RegionDec

set_option maxRecDepth 16384

noncomputable section

namespace Cert.KernelIdeal.KChain

open Cert.KernelIdeal Cert.KernelIdeal.Gen Idealize.ShloMosaic Idealize.ShloMosaic.StableHlo Idealize.ShloMosaic.TcCoe Idealize.SL.Sem Cert.Net

variable (m : (ℓ : Loc nD τ sig) → Buf (Elt Ideal) ℓ) (ρ : Dev nD → PrngReg)

/-- At the last boundary the result buffer holds the network's result of the launch memory's arguments. -/
theorem result_eq (c : Dev nD) : W28 m ρ c (Proc.devRef .tc main_v268) = network (argsOf m c) := by
  have c0 := carried0 m ρ c
  have x0 := feat_step0 m ρ c (Cert.KernelIdeal.Regions.enc_whole (V1 m ρ) c)
  have x1 := feat_step1 m ρ _ c c0 x0 (Cert.KernelIdeal.Regions.gin1_whole (V3 m ρ) c)
  have c1 := carried1 m ρ _ c c0
  have x2 := feat_step2 m ρ _ c c1 x1 (Cert.KernelIdeal.Regions.gin2_whole (V5 m ρ) c)
  have c2 := carried2 m ρ _ c c1
  have x3 := feat_step3 m ρ _ c c2 x2 (Cert.KernelIdeal.Regions.gin3_whole (V7 m ρ) c)
  have c3 := carried3 m ρ _ c c2
  have x4 := feat_step4 m ρ _ c c3 x3 (Cert.KernelIdeal.Regions.gin4_whole (V9 m ρ) c)
  have c4 := carried4 m ρ _ c c3
  have x5 := feat_step5 m ρ _ c c4 x4 (Cert.KernelIdeal.Regions.gin5_whole (V11 m ρ) c)
  have c5 := carried5 m ρ _ c c4
  have x6 := feat_step6 m ρ _ c c5 x5 (Cert.KernelIdeal.Regions.gin6_whole (V13 m ρ) c)
  have c6 := carried6 m ρ _ c c5
  have x7 := feat_step7 m ρ _ c c6 x6 (Cert.KernelIdeal.Regions.gin7_whole (V15 m ρ) c)
  have c7 := carried7 m ρ _ c c6
  have x8 := feat_step8 m ρ _ c c7 x7 (Cert.KernelIdeal.Regions.gin8_whole (V17 m ρ) c)
  have c8 := carried8 m ρ _ c c7
  have x9 := feat_step9 m ρ _ c c8 x8 (Cert.KernelIdeal.Regions.gin9_whole (V19 m ρ) c)
  have c9 := carried9 m ρ _ c c8
  have x10 := feat_step10 m ρ _ c c9 x9 (Cert.KernelIdeal.Regions.gin10_whole (V21 m ρ) c)
  have c10 := carried10 m ρ _ c c9
  have x11 := feat_step11 m ρ _ c c10 x10 (Cert.KernelIdeal.Regions.gin11_whole (V23 m ρ) c)
  have c11 := carried11 m ρ _ c c10
  have x12 := feat_step12 m ρ _ c c11 x11 (Cert.KernelIdeal.Regions.gin12_whole (V25 m ρ) c)
  have c12 := carried12 m ρ _ c c11
  exact result_step m ρ _ c c12 x12 (Cert.KernelIdeal.Regions.dec_whole (V27 m ρ) c)

/-- The run: every weakly fair execution terminates without a fault, the result buffer at the network's result, every
    argument as launched. -/
theorem run : θ_run defs (onTc (τ := τ) (main (F := Ideal))) ⟨m, fun _ => 0, ρ⟩ (fun r => ∀ c : Dev nD,
      r.2.mem ((c.tc : Thread nD τ).loc main_v268) = network (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result_eq m ρ c), (h c).2⟩)
    (Cert.KernelIdeal.KValue.run_value (F := Ideal) m ρ)

end Cert.KernelIdeal.KChain

end
-- ==== Proof.RefChunks.lean ====
/-
  What the buffers hold after a list of operations run in order is what they hold after its blocks run one after
  the other: the reference program's operations are the encoder's block, the twelve layers' blocks and the decoder's
  block in order.
-/
import proofs.«124003_j47699906789506_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- What the buffers hold after two lists of operations run one after the other. -/
theorem after_append {Val : EltTy → Type} (a b : List (HloOp τ sig Val)) (V : Valuation τ sig Val) :
    after (a ++ b) V = after b (after a V) := by
  induction a generalizing V with
  | nil => rfl
  | cons op a ih => simp only [List.cons_append, after_cons, ih]

/-- What the buffers hold after all the operations: the blocks' effects composed in order. -/
theorem after_ops (V : Valuation τ sig (Elt F)) :
    after ops V = after opsPost (after opsL11 (after opsL10 (after opsL9 (after opsL8 (after opsL7 (after opsL6 (after opsL5 (after opsL4 (after opsL3 (after opsL2 (after opsL1 (after opsL0 (after opsPre (V)))))))))))))) := by
  simp only [ops, after_append]

end Cert.ReferenceIdeal.RefRun

end
-- ==== Proof.LibColumns.lean ====
/-
  One-column and one-row arrays read at an entry.  A vector of length n viewed as an n×1 column — by a shape cast
  or by a broadcast along a new last axis — reads its entry r at (r, 0), so the two views are one array; viewed
  as a 1×n row by a broadcast along a new first axis it reads its entry q at (0, q).  A column spread over k
  columns reads the column's entry r at every (r, q); a row spread over n rows reads the row's entry q at every
  (r, q).
-/
import Idealize.ShloMosaic.Lib.ValueIdx
import Idealize.ShloMosaic.Lib.ValueLayout
import Idealize.ShloMosaic.Lib.Pipeline.Value

noncomputable section

namespace Cert.Columns

open Idealize.ShloMosaic Idealize.ShloMosaic.ValueIdx

variable {α : Type}

/-- A vector cast to a column reads entry r at (r, 0). -/
theorem shapeCast_col_apply {n : ℕ} (v : (⟨1, ![n]⟩ : Shape).Idx → α) (h : (⟨1, ![n]⟩ : Shape).ShapeCasts ⟨2, ![n, 1]⟩)
    (r : Fin n) (u : Fin 1) : shapeCast ⟨2, ![n, 1]⟩ v h (ix2 r u) = v (ix1 r) :=
  shapeCast_apply v h _ _ (by
    have hu : u.val = 0 := by omega
    rw [Shape.rowMajor_val_two, Shape.rowMajor_val_one]
    show r.val = r.val * 1 + u.val
    omega)

/-- A vector broadcast to a column (its axis the column's first) reads entry r at (r, 0). -/
theorem bcast_col_apply {n : ℕ} (v : (⟨1, ![n]⟩ : Shape).Idx → α)
    (h : (⟨1, ![n]⟩ : Shape).BroadcastsInDim ⟨2, ![n, 1]⟩ (![0] : Fin 1 → Fin 2)) (r : Fin n) (u : Fin 1) :
    broadcastInDim ⟨2, ![n, 1]⟩ (![0] : Fin 1 → Fin 2) h v (ix2 r u) = v (ix1 r) := by
  refine broadcastInDim_apply (![0] : Fin 1 → Fin 2) h v (ix2 r u) (ix1 r) fun a => ?_
  match a with
  | ⟨0, _⟩ =>
    show r.val = if n = 1 then 0 else r.val
    split
    · have := r.isLt; omega
    · rfl

/-- The two column views of a vector are one array. -/
theorem shapeCast_col_eq_bcast {n : ℕ} (v : (⟨1, ![n]⟩ : Shape).Idx → α) (h : (⟨1, ![n]⟩ : Shape).ShapeCasts ⟨2, ![n, 1]⟩)
    (h' : (⟨1, ![n]⟩ : Shape).BroadcastsInDim ⟨2, ![n, 1]⟩ (![0] : Fin 1 → Fin 2)) :
    shapeCast ⟨2, ![n, 1]⟩ v h = broadcastInDim ⟨2, ![n, 1]⟩ (![0] : Fin 1 → Fin 2) h' v := by
  funext j
  obtain ⟨r, u, rfl⟩ : ∃ (r : Fin n) (u : Fin 1), j = ix2 r u := ⟨j 0, j 1, eq_ix2 j⟩
  rw [shapeCast_col_apply, bcast_col_apply]

/-- A vector broadcast to a row (its axis the row's second) reads entry q at (0, q). -/
theorem bcast_row_apply {n : ℕ} (v : (⟨1, ![n]⟩ : Shape).Idx → α)
    (h : (⟨1, ![n]⟩ : Shape).BroadcastsInDim ⟨2, ![1, n]⟩ (![1] : Fin 1 → Fin 2)) (u : Fin 1) (q : Fin n) :
    broadcastInDim ⟨2, ![1, n]⟩ (![1] : Fin 1 → Fin 2) h v (ix2 u q) = v (ix1 q) := by
  refine broadcastInDim_apply (![1] : Fin 1 → Fin 2) h v (ix2 u q) (ix1 q) fun a => ?_
  match a with
  | ⟨0, _⟩ =>
    show q.val = if n = 1 then 0 else q.val
    split
    · have := q.isLt; omega
    · rfl

/-- A column spread over k columns reads the column's entry r at (r, q). -/
theorem spread_col_apply {n k : ℕ} (v : (⟨2, ![n, 1]⟩ : Shape).Idx → α)
    (h : (⟨2, ![n, 1]⟩ : Shape).BroadcastsInDim ⟨2, ![n, k]⟩ (![0, 1] : Fin 2 → Fin 2)) (r : Fin n) (q : Fin k) :
    broadcastInDim ⟨2, ![n, k]⟩ (![0, 1] : Fin 2 → Fin 2) h v (ix2 r q) = v (ix2 r (0 : Fin 1)) := by
  refine broadcastInDim_apply (![0, 1] : Fin 2 → Fin 2) h v (ix2 r q) (ix2 r (0 : Fin 1)) fun a => ?_
  match a with
  | ⟨0, _⟩ =>
    show r.val = if n = 1 then 0 else r.val
    split
    · have := r.isLt; omega
    · rfl
  | ⟨1, _⟩ => rfl

/-- A row spread over n rows reads the row's entry q at (r, q). -/
theorem spread_row_apply {n k : ℕ} (v : (⟨2, ![1, k]⟩ : Shape).Idx → α)
    (h : (⟨2, ![1, k]⟩ : Shape).BroadcastsInDim ⟨2, ![n, k]⟩ (![0, 1] : Fin 2 → Fin 2)) (r : Fin n) (q : Fin k) :
    broadcastInDim ⟨2, ![n, k]⟩ (![0, 1] : Fin 2 → Fin 2) h v (ix2 r q) = v (ix2 (0 : Fin 1) q) := by
  refine broadcastInDim_apply (![0, 1] : Fin 2 → Fin 2) h v (ix2 r q) (ix2 (0 : Fin 1) q) fun a => ?_
  match a with
  | ⟨0, _⟩ => rfl
  | ⟨1, _⟩ =>
    show q.val = if k = 1 then 0 else q.val
    split
    · have := q.isLt; omega
    · rfl

end Cert.Columns

end
-- ==== Proof.HostStages.lean ====
/-
  The host's expressions for the stages of the graph network, at the ideal values, are the stages themselves.

  A plain product x·W plus a bias vector laid out as a row and repeated down the rows is the dense stage x·W + b
  with the bias recast as a one-row matrix: entry (r, q) of either is the sum over j of x(r, j)·W(j, q), plus b(q).
  The larger of an array and the splat of the float word 0 is the rectifier.  The encoder's product of the
  one-column array of degrees with the one-row weight contracts over a single index, so its entry (r, q) is
  d(r)·w(0, q); the column of degrees is the same array whether the vector is broadcast along a new last axis or
  recast.  A layer is two rectified dense stages on x + agg, the decoder a rectified dense stage then a plain one.
-/
import proofs.«124003_j47699906789506_1_alg».proof.Proof.Network
import proofs.«124003_j47699906789506_1_alg».proof.Proof.LibDense
import proofs.«124003_j47699906789506_1_alg».proof.Proof.LibColumns

noncomputable section

namespace Cert.ReferenceIdeal.HostStages

open Idealize.ShloMosaic Idealize.ShloMosaic.ValueIdx

/-- A vector cast to a one-row matrix reads entry q at (0, q). -/
theorem shapeCast_row_apply {α : Type} {n : ℕ} (v : (⟨1, ![n]⟩ : Shape).Idx → α)
    (h : (⟨1, ![n]⟩ : Shape).ShapeCasts ⟨2, ![1, n]⟩) (u : Fin 1) (q : Fin n) :
    shapeCast ⟨2, ![1, n]⟩ v h (ix2 u q) = v (ix1 q) :=
  shapeCast_apply v h _ _ (by
    have hu : u.val * n = 0 := by
      have : u.val = 0 := by omega
      rw [this, Nat.zero_mul]
    rw [Shape.rowMajor_val_two, Shape.rowMajor_val_one]
    show q.val = u.val * n + q.val
    omega)

section Stages
variable {n k : ℕ}

/-- The rectifier: the larger of an array and the splat of zero. -/
theorem host_rect {s : Shape} (h : (⟨0, ![]⟩ : Shape).BroadcastsInDim s ![]) (y : FVec Ideal s .f32) :
    maximumf y (broadcastInDim s ![] h (constant (F := Ideal) ⟨0, ![]⟩ .f32 0x00000000#32)) = Cert.Net.rect y := by
  funext i
  rw [Cert.Net.rect_apply, maximumf_apply, Cert.Dense.bcastScalar_apply, constant_apply]

/-- A dense stage: a plain product plus the bias vector laid out as a row and repeated down the rows. -/
theorem host_dense (w : DotDims.WF ⟨2, ![n, 64]⟩ ⟨2, ![64, k]⟩ ⟨2, ![n, k]⟩ [1] [0] [0] [1] [] [])
    (h₁ : (⟨1, ![k]⟩ : Shape).BroadcastsInDim ⟨2, ![1, k]⟩ (![1] : Fin 1 → Fin 2))
    (h₂ : (⟨2, ![1, k]⟩ : Shape).BroadcastsInDim ⟨2, ![n, k]⟩ (![0, 1] : Fin 2 → Fin 2))
    (hc : (⟨1, ![k]⟩ : Shape).ShapeCasts ⟨2, ![1, k]⟩)
    (x : FVec Ideal ⟨2, ![n, 64]⟩ .f32) (W : FVec Ideal ⟨2, ![64, k]⟩ .f32) (b : FVec Ideal ⟨1, ![k]⟩ .f32) :
    addf (Host.dotGeneral (⟨[1], [0], [0], [1], [], [], w⟩ : DotDims ⟨2, ![n, 64]⟩ ⟨2, ![64, k]⟩ ⟨2, ![n, k]⟩) none x W)
        (broadcastInDim ⟨2, ![n, k]⟩ (![0, 1] : Fin 2 → Fin 2) h₂
          (broadcastInDim ⟨2, ![1, k]⟩ (![1] : Fin 1 → Fin 2) h₁ b))
      = Cert.Net.dense x W (shapeCast ⟨2, ![1, k]⟩ b hc) := by
  funext j
  obtain ⟨r, q, rfl⟩ : ∃ (r : Fin n) (q : Fin k), j = ix2 r q := ⟨j 0, j 1, eq_ix2 j⟩
  rw [Cert.Net.dense_apply, addf_apply, Cert.Dense.hostDot_plain_apply, Cert.Columns.spread_row_apply,
    Cert.Columns.bcast_row_apply, shapeCast_row_apply]

/-- One layer: two rectified dense stages on x + agg. -/
theorem host_layer (w : DotDims.WF ⟨2, ![n, 64]⟩ ⟨2, ![64, 64]⟩ ⟨2, ![n, 64]⟩ [1] [0] [0] [1] [] [])
    (h₀ : (⟨0, ![]⟩ : Shape).BroadcastsInDim ⟨2, ![n, 64]⟩ ![])
    (h₁ : (⟨1, ![64]⟩ : Shape).BroadcastsInDim ⟨2, ![1, 64]⟩ (![1] : Fin 1 → Fin 2))
    (h₂ : (⟨2, ![1, 64]⟩ : Shape).BroadcastsInDim ⟨2, ![n, 64]⟩ (![0, 1] : Fin 2 → Fin 2))
    (hc : (⟨1, ![64]⟩ : Shape).ShapeCasts ⟨2, ![1, 64]⟩)
    (x agg : FVec Ideal ⟨2, ![n, 64]⟩ .f32) (W₁ : FVec Ideal ⟨2, ![64, 64]⟩ .f32) (b₁ : FVec Ideal ⟨1, ![64]⟩ .f32)
    (W₂ : FVec Ideal ⟨2, ![64, 64]⟩ .f32) (b₂ : FVec Ideal ⟨1, ![64]⟩ .f32) :
    maximumf
        (addf
          (Host.dotGeneral (⟨[1], [0], [0], [1], [], [], w⟩ : DotDims ⟨2, ![n, 64]⟩ ⟨2, ![64, 64]⟩ ⟨2, ![n, 64]⟩) none
            (maximumf
              (addf
                (Host.dotGeneral (⟨[1], [0], [0], [1], [], [], w⟩ : DotDims ⟨2, ![n, 64]⟩ ⟨2, ![64, 64]⟩ ⟨2, ![n, 64]⟩) none
                  (addf x agg) W₁)
                (broadcastInDim ⟨2, ![n, 64]⟩ (![0, 1] : Fin 2 → Fin 2) h₂
                  (broadcastInDim ⟨2, ![1, 64]⟩ (![1] : Fin 1 → Fin 2) h₁ b₁)))
              (broadcastInDim ⟨2, ![n, 64]⟩ ![] h₀ (constant (F := Ideal) ⟨0, ![]⟩ .f32 0x00000000#32)))
            W₂)
          (broadcastInDim ⟨2, ![n, 64]⟩ (![0, 1] : Fin 2 → Fin 2) h₂
            (broadcastInDim ⟨2, ![1, 64]⟩ (![1] : Fin 1 → Fin 2) h₁ b₂)))
        (broadcastInDim ⟨2, ![n, 64]⟩ ![] h₀ (constant (F := Ideal) ⟨0, ![]⟩ .f32 0x00000000#32))
      = Cert.Net.layer x agg W₁ (shapeCast ⟨2, ![1, 64]⟩ b₁ hc) W₂ (shapeCast ⟨2, ![1, 64]⟩ b₂ hc) := by
  rw [host_rect, host_dense w h₁ h₂ hc, host_rect, host_dense w h₁ h₂ hc]
  rfl

/-- The decoder: a rectified dense stage, then a plain one onto 16 columns. -/
theorem host_decode (w₁ : DotDims.WF ⟨2, ![n, 64]⟩ ⟨2, ![64, 64]⟩ ⟨2, ![n, 64]⟩ [1] [0] [0] [1] [] [])
    (w₂ : DotDims.WF ⟨2, ![n, 64]⟩ ⟨2, ![64, 16]⟩ ⟨2, ![n, 16]⟩ [1] [0] [0] [1] [] [])
    (h₀ : (⟨0, ![]⟩ : Shape).BroadcastsInDim ⟨2, ![n, 64]⟩ ![])
    (h₁ : (⟨1, ![64]⟩ : Shape).BroadcastsInDim ⟨2, ![1, 64]⟩ (![1] : Fin 1 → Fin 2))
    (h₂ : (⟨2, ![1, 64]⟩ : Shape).BroadcastsInDim ⟨2, ![n, 64]⟩ (![0, 1] : Fin 2 → Fin 2))
    (hc : (⟨1, ![64]⟩ : Shape).ShapeCasts ⟨2, ![1, 64]⟩)
    (h₁' : (⟨1, ![16]⟩ : Shape).BroadcastsInDim ⟨2, ![1, 16]⟩ (![1] : Fin 1 → Fin 2))
    (h₂' : (⟨2, ![1, 16]⟩ : Shape).BroadcastsInDim ⟨2, ![n, 16]⟩ (![0, 1] : Fin 2 → Fin 2))
    (hc' : (⟨1, ![16]⟩ : Shape).ShapeCasts ⟨2, ![1, 16]⟩)
    (g : FVec Ideal ⟨2, ![n, 64]⟩ .f32) (W₁ : FVec Ideal ⟨2, ![64, 64]⟩ .f32) (b₁ : FVec Ideal ⟨1, ![64]⟩ .f32)
    (W₂ : FVec Ideal ⟨2, ![64, 16]⟩ .f32) (b₂ : FVec Ideal ⟨1, ![16]⟩ .f32) :
    addf
        (Host.dotGeneral (⟨[1], [0], [0], [1], [], [], w₂⟩ : DotDims ⟨2, ![n, 64]⟩ ⟨2, ![64, 16]⟩ ⟨2, ![n, 16]⟩) none
          (maximumf
            (addf
              (Host.dotGeneral (⟨[1], [0], [0], [1], [], [], w₁⟩ : DotDims ⟨2, ![n, 64]⟩ ⟨2, ![64, 64]⟩ ⟨2, ![n, 64]⟩) none g W₁)
              (broadcastInDim ⟨2, ![n, 64]⟩ (![0, 1] : Fin 2 → Fin 2) h₂
                (broadcastInDim ⟨2, ![1, 64]⟩ (![1] : Fin 1 → Fin 2) h₁ b₁)))
            (broadcastInDim ⟨2, ![n, 64]⟩ ![] h₀ (constant (F := Ideal) ⟨0, ![]⟩ .f32 0x00000000#32)))
          W₂)
        (broadcastInDim ⟨2, ![n, 16]⟩ (![0, 1] : Fin 2 → Fin 2) h₂'
          (broadcastInDim ⟨2, ![1, 16]⟩ (![1] : Fin 1 → Fin 2) h₁' b₂))
      = Cert.Net.decode g W₁ (shapeCast ⟨2, ![1, 64]⟩ b₁ hc) W₂ (shapeCast ⟨2, ![1, 16]⟩ b₂ hc') := by
  rw [host_dense w₂ h₁' h₂' hc', host_rect, host_dense w₁ h₁ h₂ hc]
  rfl

/-- The encoder: the column of degrees times the one-row weight, plus the bias row, rectified.  The product
    contracts over a single index; the column is the degree vector broadcast along a new last axis, which is the
    vector recast as a column. -/
theorem host_encode (w : DotDims.WF ⟨2, ![n, 1]⟩ ⟨2, ![1, 64]⟩ ⟨2, ![n, 64]⟩ [1] [0] [0] [1] [] [])
    (h₀ : (⟨0, ![]⟩ : Shape).BroadcastsInDim ⟨2, ![n, 64]⟩ ![])
    (h₁ : (⟨1, ![64]⟩ : Shape).BroadcastsInDim ⟨2, ![1, 64]⟩ (![1] : Fin 1 → Fin 2))
    (h₂ : (⟨2, ![1, 64]⟩ : Shape).BroadcastsInDim ⟨2, ![n, 64]⟩ (![0, 1] : Fin 2 → Fin 2))
    (hc : (⟨1, ![64]⟩ : Shape).ShapeCasts ⟨2, ![1, 64]⟩)
    (hd : (⟨1, ![n]⟩ : Shape).BroadcastsInDim ⟨2, ![n, 1]⟩ (![0] : Fin 1 → Fin 2))
    (hd' : (⟨1, ![n]⟩ : Shape).ShapeCasts ⟨2, ![n, 1]⟩)
    (d : FVec Ideal ⟨1, ![n]⟩ .f32) (W : FVec Ideal ⟨2, ![1, 64]⟩ .f32) (b : FVec Ideal ⟨1, ![64]⟩ .f32) :
    maximumf
        (addf
          (Host.dotGeneral (⟨[1], [0], [0], [1], [], [], w⟩ : DotDims ⟨2, ![n, 1]⟩ ⟨2, ![1, 64]⟩ ⟨2, ![n, 64]⟩) none
            (broadcastInDim ⟨2, ![n, 1]⟩ (![0] : Fin 1 → Fin 2) hd d) W)
          (broadcastInDim ⟨2, ![n, 64]⟩ (![0, 1] : Fin 2 → Fin 2) h₂
            (broadcastInDim ⟨2, ![1, 64]⟩ (![1] : Fin 1 → Fin 2) h₁ b)))
        (broadcastInDim ⟨2, ![n, 64]⟩ ![] h₀ (constant (F := Ideal) ⟨0, ![]⟩ .f32 0x00000000#32))
      = Cert.Net.encode (shapeCast ⟨2, ![n, 1]⟩ d hd') W (shapeCast ⟨2, ![1, 64]⟩ b hc) := by
  funext j
  obtain ⟨r, q, rfl⟩ : ∃ (r : Fin n) (q : Fin 64), j = ix2 r q := ⟨j 0, j 1, eq_ix2 j⟩
  rw [Cert.Net.encode_apply, maximumf_apply, Cert.Dense.bcastScalar_apply, constant_apply, addf_apply,
    Cert.Dense.hostDot_plain_apply, Fin.sum_univ_one, Cert.Columns.spread_row_apply, Cert.Columns.bcast_row_apply,
    shapeCast_row_apply, Cert.Columns.shapeCast_col_eq_bcast d hd' hd]

end Stages

end Cert.ReferenceIdeal.HostStages

end
-- ==== Proof.RefStages.lean ====
/-
  What each block of the reference program's operations leaves, for any contents V of the buffers before it.

  The encoder's block leaves the two rows of the edge list (the source and the destination nodes) and the encoder's
  features of the degrees.  A layer's block leaves the layer applied to the features it reads and their neighbour
  sums, with that layer's slice of the stacked weights.  The last block leaves the decoder applied to the per-graph
  sums.  Each is the host's expression for the stage, which is the stage.
-/
import proofs.«124003_j47699906789506_1_alg».proof.Proof.RefChunks
import proofs.«124003_j47699906789506_1_alg».proof.Proof.HostStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable (V : Valuation τ sig (Elt Ideal))

/-- The source nodes after the encoder's block: row 0 of the edge list. -/
theorem pre_src : after (opsPre (F := Ideal)) V (Proc.devRef .tc main_v1) = Cert.Net.srcOf (V (Proc.devRef .tc main_arg0)) := by
  after_results_simp
  rfl

/-- The destination nodes after the encoder's block: row 1 of the edge list. -/
theorem pre_dst : after (opsPre (F := Ideal)) V (Proc.devRef .tc main_v3) = Cert.Net.dstOf (V (Proc.devRef .tc main_arg0)) := by
  after_results_simp
  rfl

section Encoder
variable {F : FTy → Type} [FloatOps F]

/-- The encoder's block up to the degrees (operations 0 to 9). -/
abbrev opsPreA : List (HloOp τ sig (Elt F)) :=
  [ unary main_arg0 main_v0 ((extractStridedSlice S1x1000000 ![0, 0] · slices_S2x1000000_S1x1000000_0_0) : (⟨S2x1000000, .i32⟩ : BufTy).Contents (Elt F) → (⟨S1x1000000, .i32⟩ : BufTy).Contents (Elt F)),
    reshape main_v0 main_v1 rfl shapeCasts_S1x1000000_S1000000,
    unary main_arg0 main_v2 ((extractStridedSlice S1x1000000 ![1, 0] · slices_S2x1000000_S1x1000000_1_0) : (⟨S2x1000000, .i32⟩ : BufTy).Contents (Elt F) → (⟨S1x1000000, .i32⟩ : BufTy).Contents (Elt F)),
    reshape main_v2 main_v3 rfl shapeCasts_S1x1000000_S1000000,
    nullary main_cst (constant S_ .f32 0x3F800000#32),
    unary main_cst main_v4 (broadcastInDim S1000000 ![] bcast_S_S1000000 : (⟨S_, .f32⟩ : BufTy).Contents (Elt F) → (⟨S1000000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v1 main_v6 (broadcastInDim S1000000x1 ![0] bcast_S1000000_S1000000x1_0 : (⟨S1000000, .i32⟩ : BufTy).Contents (Elt F) → (⟨S1000000x1, .i32⟩ : BufTy).Contents (Elt F)),
    ternary main_v5 main_v6 main_v4 main_v7 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)) ]

/-- The encoder's own operations (10 to 17): the column of degrees times the weight row, plus the bias, rectified. -/
abbrev opsPreB : List (HloOp τ sig (Elt F)) :=
  [ unary main_v7 main_v8 (broadcastInDim S100000x1 ![0] bcast_S100000_S100000x1_0 : (⟨S100000, .f32⟩ : BufTy).Contents (Elt F) → (⟨S100000x1, .f32⟩ : BufTy).Contents (Elt F)),
    binary main_v8 main_arg2 main_v9 ((fun l r => Host.dotGeneral dot_S100000x1_S1x64_S100000x64_1_0_0_1_n_n none l r) : (⟨S100000x1, .f32⟩ : BufTy).Contents (Elt F) → (⟨S1x64, .f32⟩ : BufTy).Contents (Elt F) → (⟨S100000x64, .f32⟩ : BufTy).Contents (Elt F)),
    unary main_arg3 main_v10 (broadcastInDim S1x64 ![1] bcast_S64_S1x64_1 : (⟨S64, .f32⟩ : BufTy).Contents (Elt F) → (⟨S1x64, .f32⟩ : BufTy).Contents (Elt F)),
    unary main_v10 main_v11 (broadcastInDim S100000x64 ![0, 1] bcast_S1x64_S100000x64_0_1 : (⟨S1x64, .f32⟩ : BufTy).Contents (Elt F) → (⟨S100000x64, .f32⟩ : BufTy).Contents (Elt F)),
    binary main_v9 main_v11 main_v12 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v12) (TRef.of (T := ⟨S100000x64, .f32⟩) main_call0_v0) (TRef.of (T := ⟨S100000x64, .f32⟩) main_v13) maximumf ]

theorem opsPre_split : (opsPre : List (HloOp τ sig (Elt F))) = opsPreA ++ opsPreB := rfl

end Encoder

/-- The degrees after the first ten operations: ones scatter-added at the source nodes. -/
theorem pre_deg :
    after (opsPreA (F := Ideal)) V (Proc.devRef .tc main_v7) = Cert.Net.degOf (Cert.Net.srcOf (V (Proc.devRef .tc main_arg0))) := by
  after_results_simp
  rfl

set_option maxHeartbeats 4000000 in
/-- The encoder's own operations, from any degrees: the encoder on their column. -/
theorem preB_result :
    after (opsPreB (F := Ideal)) V (Proc.devRef .tc main_v13)
      = Cert.Net.encode (n := 100000)
          (shapeCast ⟨2, ![100000, 1]⟩ (V (Proc.devRef .tc main_v7)) Cert.KernelIdeal.Gen.shapeCasts_S100000_S100000x1)
          (V (Proc.devRef .tc main_arg2)) (Cert.Net.row64 (V (Proc.devRef .tc main_arg3))) := by
  after_results_simp
  refine Eq.trans ?_ (HostStages.host_encode (n := 100000) dot_S100000x1_S1x64_S100000x64_1_0_0_1_n_n_wf
    bcast_S_S100000x64 bcast_S64_S1x64_1 bcast_S1x64_S100000x64_0_1 _ bcast_S100000_S100000x1_0 _ _ _ _)
  rfl

/-- The features after the encoder's block: the encoder on the column of degrees. -/
theorem pre_result :
    after (opsPre (F := Ideal)) V (Proc.devRef .tc main_v13)
      = Cert.Net.encode (n := 100000)
          (shapeCast ⟨2, ![100000, 1]⟩ (Cert.Net.degOf (Cert.Net.srcOf (V (Proc.devRef .tc main_arg0)))) Cert.KernelIdeal.Gen.shapeCasts_S100000_S100000x1)
          (V (Proc.devRef .tc main_arg2)) (Cert.Net.row64 (V (Proc.devRef .tc main_arg3))) := by
  rw [opsPre_split, after_append, preB_result, pre_deg,
    show after (opsPreA (F := Ideal)) V (Proc.devRef .tc main_arg2) = V (Proc.devRef .tc main_arg2) by after_results_simp,
    show after (opsPreA (F := Ideal)) V (Proc.devRef .tc main_arg3) = V (Proc.devRef .tc main_arg3) by after_results_simp]

set_option maxHeartbeats 4000000 in
/-- Layer 0's block: the layer on the features it reads and their neighbour sums, with slice 0 of the weights. -/
theorem layer0_result :
    after (opsL0 (F := Ideal)) V (Proc.devRef .tc main_v42)
      = Cert.Net.layer (n := 100000) (V (Proc.devRef .tc main_v13))
          (Cert.Net.aggOf (V (Proc.devRef .tc main_v1)) (V (Proc.devRef .tc main_v3)) (V (Proc.devRef .tc main_v13)))
          (Cert.Net.mat0 (V (Proc.devRef .tc main_arg4))) (Cert.Net.row64 (Cert.Net.vec0 (V (Proc.devRef .tc main_arg5))))
          (Cert.Net.mat0 (V (Proc.devRef .tc main_arg6))) (Cert.Net.row64 (Cert.Net.vec0 (V (Proc.devRef .tc main_arg7)))) := by
  after_results_simp
  refine Eq.trans ?_ (HostStages.host_layer (n := 100000) dot_S100000x64_S64x64_S100000x64_1_0_0_1_n_n_wf
    bcast_S_S100000x64 bcast_S64_S1x64_1 bcast_S1x64_S100000x64_0_1 _ _ _ _ _ _ _)
  rfl

set_option maxHeartbeats 4000000 in
/-- Layer 1's block: the layer on the features it reads and their neighbour sums, with slice 1 of the weights. -/
theorem layer1_result :
    after (opsL1 (F := Ideal)) V (Proc.devRef .tc main_v71)
      = Cert.Net.layer (n := 100000) (V (Proc.devRef .tc main_v42))
          (Cert.Net.aggOf (V (Proc.devRef .tc main_v1)) (V (Proc.devRef .tc main_v3)) (V (Proc.devRef .tc main_v42)))
          (Cert.Net.mat1 (V (Proc.devRef .tc main_arg4))) (Cert.Net.row64 (Cert.Net.vec1 (V (Proc.devRef .tc main_arg5))))
          (Cert.Net.mat1 (V (Proc.devRef .tc main_arg6))) (Cert.Net.row64 (Cert.Net.vec1 (V (Proc.devRef .tc main_arg7)))) := by
  simp only [opsL1, after_append]
  after_results_simp
  refine Eq.trans ?_ (HostStages.host_layer (n := 100000) dot_S100000x64_S64x64_S100000x64_1_0_0_1_n_n_wf
    bcast_S_S100000x64 bcast_S64_S1x64_1 bcast_S1x64_S100000x64_0_1 _ _ _ _ _ _ _)
  rfl

set_option maxHeartbeats 4000000 in
/-- Layer 2's block: the layer on the features it reads and their neighbour sums, with slice 2 of the weights. -/
theorem layer2_result :
    after (opsL2 (F := Ideal)) V (Proc.devRef .tc main_v100)
      = Cert.Net.layer (n := 100000) (V (Proc.devRef .tc main_v71))
          (Cert.Net.aggOf (V (Proc.devRef .tc main_v1)) (V (Proc.devRef .tc main_v3)) (V (Proc.devRef .tc main_v71)))
          (Cert.Net.mat2 (V (Proc.devRef .tc main_arg4))) (Cert.Net.row64 (Cert.Net.vec2 (V (Proc.devRef .tc main_arg5))))
          (Cert.Net.mat2 (V (Proc.devRef .tc main_arg6))) (Cert.Net.row64 (Cert.Net.vec2 (V (Proc.devRef .tc main_arg7)))) := by
  after_results_simp
  refine Eq.trans ?_ (HostStages.host_layer (n := 100000) dot_S100000x64_S64x64_S100000x64_1_0_0_1_n_n_wf
    bcast_S_S100000x64 bcast_S64_S1x64_1 bcast_S1x64_S100000x64_0_1 _ _ _ _ _ _ _)
  rfl

set_option maxHeartbeats 4000000 in
/-- Layer 3's block: the layer on the features it reads and their neighbour sums, with slice 3 of the weights. -/
theorem layer3_result :
    after (opsL3 (F := Ideal)) V (Proc.devRef .tc main_v129)
      = Cert.Net.layer (n := 100000) (V (Proc.devRef .tc main_v100))
          (Cert.Net.aggOf (V (Proc.devRef .tc main_v1)) (V (Proc.devRef .tc main_v3)) (V (Proc.devRef .tc main_v100)))
          (Cert.Net.mat3 (V (Proc.devRef .tc main_arg4))) (Cert.Net.row64 (Cert.Net.vec3 (V (Proc.devRef .tc main_arg5))))
          (Cert.Net.mat3 (V (Proc.devRef .tc main_arg6))) (Cert.Net.row64 (Cert.Net.vec3 (V (Proc.devRef .tc main_arg7)))) := by
  simp only [opsL3, after_append]
  after_results_simp
  refine Eq.trans ?_ (HostStages.host_layer (n := 100000) dot_S100000x64_S64x64_S100000x64_1_0_0_1_n_n_wf
    bcast_S_S100000x64 bcast_S64_S1x64_1 bcast_S1x64_S100000x64_0_1 _ _ _ _ _ _ _)
  rfl

set_option maxHeartbeats 4000000 in
/-- Layer 4's block: the layer on the features it reads and their neighbour sums, with slice 4 of the weights. -/
theorem layer4_result :
    after (opsL4 (F := Ideal)) V (Proc.devRef .tc main_v158)
      = Cert.Net.layer (n := 100000) (V (Proc.devRef .tc main_v129))
          (Cert.Net.aggOf (V (Proc.devRef .tc main_v1)) (V (Proc.devRef .tc main_v3)) (V (Proc.devRef .tc main_v129)))
          (Cert.Net.mat4 (V (Proc.devRef .tc main_arg4))) (Cert.Net.row64 (Cert.Net.vec4 (V (Proc.devRef .tc main_arg5))))
          (Cert.Net.mat4 (V (Proc.devRef .tc main_arg6))) (Cert.Net.row64 (Cert.Net.vec4 (V (Proc.devRef .tc main_arg7)))) := by
  after_results_simp
  refine Eq.trans ?_ (HostStages.host_layer (n := 100000) dot_S100000x64_S64x64_S100000x64_1_0_0_1_n_n_wf
    bcast_S_S100000x64 bcast_S64_S1x64_1 bcast_S1x64_S100000x64_0_1 _ _ _ _ _ _ _)
  rfl

set_option maxHeartbeats 4000000 in
/-- Layer 5's block: the layer on the features it reads and their neighbour sums, with slice 5 of the weights. -/
theorem layer5_result :
    after (opsL5 (F := Ideal)) V (Proc.devRef .tc main_v187)
      = Cert.Net.layer (n := 100000) (V (Proc.devRef .tc main_v158))
          (Cert.Net.aggOf (V (Proc.devRef .tc main_v1)) (V (Proc.devRef .tc main_v3)) (V (Proc.devRef .tc main_v158)))
          (Cert.Net.mat5 (V (Proc.devRef .tc main_arg4))) (Cert.Net.row64 (Cert.Net.vec5 (V (Proc.devRef .tc main_arg5))))
          (Cert.Net.mat5 (V (Proc.devRef .tc main_arg6))) (Cert.Net.row64 (Cert.Net.vec5 (V (Proc.devRef .tc main_arg7)))) := by
  simp only [opsL5, after_append]
  after_results_simp
  refine Eq.trans ?_ (HostStages.host_layer (n := 100000) dot_S100000x64_S64x64_S100000x64_1_0_0_1_n_n_wf
    bcast_S_S100000x64 bcast_S64_S1x64_1 bcast_S1x64_S100000x64_0_1 _ _ _ _ _ _ _)
  rfl

set_option maxHeartbeats 4000000 in
/-- Layer 6's block: the layer on the features it reads and their neighbour sums, with slice 6 of the weights. -/
theorem layer6_result :
    after (opsL6 (F := Ideal)) V (Proc.devRef .tc main_v216)
      = Cert.Net.layer (n := 100000) (V (Proc.devRef .tc main_v187))
          (Cert.Net.aggOf (V (Proc.devRef .tc main_v1)) (V (Proc.devRef .tc main_v3)) (V (Proc.devRef .tc main_v187)))
          (Cert.Net.mat6 (V (Proc.devRef .tc main_arg4))) (Cert.Net.row64 (Cert.Net.vec6 (V (Proc.devRef .tc main_arg5))))
          (Cert.Net.mat6 (V (Proc.devRef .tc main_arg6))) (Cert.Net.row64 (Cert.Net.vec6 (V (Proc.devRef .tc main_arg7)))) := by
  after_results_simp
  refine Eq.trans ?_ (HostStages.host_layer (n := 100000) dot_S100000x64_S64x64_S100000x64_1_0_0_1_n_n_wf
    bcast_S_S100000x64 bcast_S64_S1x64_1 bcast_S1x64_S100000x64_0_1 _ _ _ _ _ _ _)
  rfl

set_option maxHeartbeats 4000000 in
/-- Layer 7's block: the layer on the features it reads and their neighbour sums, with slice 7 of the weights. -/
theorem layer7_result :
    after (opsL7 (F := Ideal)) V (Proc.devRef .tc main_v245)
      = Cert.Net.layer (n := 100000) (V (Proc.devRef .tc main_v216))
          (Cert.Net.aggOf (V (Proc.devRef .tc main_v1)) (V (Proc.devRef .tc main_v3)) (V (Proc.devRef .tc main_v216)))
          (Cert.Net.mat7 (V (Proc.devRef .tc main_arg4))) (Cert.Net.row64 (Cert.Net.vec7 (V (Proc.devRef .tc main_arg5))))
          (Cert.Net.mat7 (V (Proc.devRef .tc main_arg6))) (Cert.Net.row64 (Cert.Net.vec7 (V (Proc.devRef .tc main_arg7)))) := by
  after_results_simp
  refine Eq.trans ?_ (HostStages.host_layer (n := 100000) dot_S100000x64_S64x64_S100000x64_1_0_0_1_n_n_wf
    bcast_S_S100000x64 bcast_S64_S1x64_1 bcast_S1x64_S100000x64_0_1 _ _ _ _ _ _ _)
  rfl

set_option maxHeartbeats 4000000 in
/-- Layer 8's block: the layer on the features it reads and their neighbour sums, with slice 8 of the weights. -/
theorem layer8_result :
    after (opsL8 (F := Ideal)) V (Proc.devRef .tc main_v274)
      = Cert.Net.layer (n := 100000) (V (Proc.devRef .tc main_v245))
          (Cert.Net.aggOf (V (Proc.devRef .tc main_v1)) (V (Proc.devRef .tc main_v3)) (V (Proc.devRef .tc main_v245)))
          (Cert.Net.mat8 (V (Proc.devRef .tc main_arg4))) (Cert.Net.row64 (Cert.Net.vec8 (V (Proc.devRef .tc main_arg5))))
          (Cert.Net.mat8 (V (Proc.devRef .tc main_arg6))) (Cert.Net.row64 (Cert.Net.vec8 (V (Proc.devRef .tc main_arg7)))) := by
  simp only [opsL8, after_append]
  after_results_simp
  refine Eq.trans ?_ (HostStages.host_layer (n := 100000) dot_S100000x64_S64x64_S100000x64_1_0_0_1_n_n_wf
    bcast_S_S100000x64 bcast_S64_S1x64_1 bcast_S1x64_S100000x64_0_1 _ _ _ _ _ _ _)
  rfl

set_option maxHeartbeats 4000000 in
/-- Layer 9's block: the layer on the features it reads and their neighbour sums, with slice 9 of the weights. -/
theorem layer9_result :
    after (opsL9 (F := Ideal)) V (Proc.devRef .tc main_v303)
      = Cert.Net.layer (n := 100000) (V (Proc.devRef .tc main_v274))
          (Cert.Net.aggOf (V (Proc.devRef .tc main_v1)) (V (Proc.devRef .tc main_v3)) (V (Proc.devRef .tc main_v274)))
          (Cert.Net.mat9 (V (Proc.devRef .tc main_arg4))) (Cert.Net.row64 (Cert.Net.vec9 (V (Proc.devRef .tc main_arg5))))
          (Cert.Net.mat9 (V (Proc.devRef .tc main_arg6))) (Cert.Net.row64 (Cert.Net.vec9 (V (Proc.devRef .tc main_arg7)))) := by
  after_results_simp
  refine Eq.trans ?_ (HostStages.host_layer (n := 100000) dot_S100000x64_S64x64_S100000x64_1_0_0_1_n_n_wf
    bcast_S_S100000x64 bcast_S64_S1x64_1 bcast_S1x64_S100000x64_0_1 _ _ _ _ _ _ _)
  rfl

set_option maxHeartbeats 4000000 in
/-- Layer 10's block: the layer on the features it reads and their neighbour sums, with slice 10 of the weights. -/
theorem layer10_result :
    after (opsL10 (F := Ideal)) V (Proc.devRef .tc main_v332)
      = Cert.Net.layer (n := 100000) (V (Proc.devRef .tc main_v303))
          (Cert.Net.aggOf (V (Proc.devRef .tc main_v1)) (V (Proc.devRef .tc main_v3)) (V (Proc.devRef .tc main_v303)))
          (Cert.Net.mat10 (V (Proc.devRef .tc main_arg4))) (Cert.Net.row64 (Cert.Net.vec10 (V (Proc.devRef .tc main_arg5))))
          (Cert.Net.mat10 (V (Proc.devRef .tc main_arg6))) (Cert.Net.row64 (Cert.Net.vec10 (V (Proc.devRef .tc main_arg7)))) := by
  simp only [opsL10, after_append]
  after_results_simp
  refine Eq.trans ?_ (HostStages.host_layer (n := 100000) dot_S100000x64_S64x64_S100000x64_1_0_0_1_n_n_wf
    bcast_S_S100000x64 bcast_S64_S1x64_1 bcast_S1x64_S100000x64_0_1 _ _ _ _ _ _ _)
  rfl

set_option maxHeartbeats 4000000 in
/-- Layer 11's block: the layer on the features it reads and their neighbour sums, with slice 11 of the weights. -/
theorem layer11_result :
    after (opsL11 (F := Ideal)) V (Proc.devRef .tc main_v361)
      = Cert.Net.layer (n := 100000) (V (Proc.devRef .tc main_v332))
          (Cert.Net.aggOf (V (Proc.devRef .tc main_v1)) (V (Proc.devRef .tc main_v3)) (V (Proc.devRef .tc main_v332)))
          (Cert.Net.mat11 (V (Proc.devRef .tc main_arg4))) (Cert.Net.row64 (Cert.Net.vec11 (V (Proc.devRef .tc main_arg5))))
          (Cert.Net.mat11 (V (Proc.devRef .tc main_arg6))) (Cert.Net.row64 (Cert.Net.vec11 (V (Proc.devRef .tc main_arg7)))) := by
  after_results_simp
  refine Eq.trans ?_ (HostStages.host_layer (n := 100000) dot_S100000x64_S64x64_S100000x64_1_0_0_1_n_n_wf
    bcast_S_S100000x64 bcast_S64_S1x64_1 bcast_S1x64_S100000x64_0_1 _ _ _ _ _ _ _)
  rfl

set_option maxHeartbeats 4000000 in
/-- The last block: the decoder on the per-graph sums of the features it reads. -/
theorem post_result :
    after (opsPost (F := Ideal)) V (Proc.devRef .tc main_v373)
      = Cert.Net.decode (n := 256) (Cert.Net.poolOf (V (Proc.devRef .tc main_arg1)) (V (Proc.devRef .tc main_v361)))
          (V (Proc.devRef .tc main_arg8)) (Cert.Net.row64 (V (Proc.devRef .tc main_arg9))) (V (Proc.devRef .tc main_arg10)) (Cert.Net.row16 (V (Proc.devRef .tc main_arg11))) := by
  after_results_simp
  refine Eq.trans ?_ (HostStages.host_decode (n := 256) dot_S256x64_S64x64_S256x64_1_0_0_1_n_n_wf
    dot_S256x64_S64x16_S256x16_1_0_0_1_n_n_wf bcast_S_S256x64 bcast_S64_S1x64_1 bcast_S1x64_S256x64_0_1 _
    bcast_S16_S1x16_1 bcast_S1x16_S256x16_0_1 _ _ _ _ _ _)
  rfl

end Cert.ReferenceIdeal.RefRun

end
-- ==== Proof.RefKept.lean ====
/-
  What the blocks of the reference program's operations leave alone.

  No operation writes an argument, and after the encoder's block none writes the source or the destination nodes:
  read from the arguments a, every later block starts from, and leaves, buffers holding a's twelve arrays at the
  arguments, row 0 of the edge list at the source nodes and row 1 at the destination nodes.  From such buffers a
  layer's block turns the features after l layers into the features after l + 1, and the last block turns the
  features after twelve layers into the network's result.
-/
import proofs.«124003_j47699906789506_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The twelve argument arrays as buffers' contents V hold them. -/
def argsOf (V : Valuation τ sig (Elt Ideal)) : Cert.Net.Args :=
  ⟨V (Proc.devRef .tc main_arg0),
   V (Proc.devRef .tc main_arg1),
   V (Proc.devRef .tc main_arg2),
   V (Proc.devRef .tc main_arg3),
   V (Proc.devRef .tc main_arg4),
   V (Proc.devRef .tc main_arg5),
   V (Proc.devRef .tc main_arg6),
   V (Proc.devRef .tc main_arg7),
   V (Proc.devRef .tc main_arg8),
   V (Proc.devRef .tc main_arg9),
   V (Proc.devRef .tc main_arg10),
   V (Proc.devRef .tc main_arg11)⟩

/-- Buffers' contents W hold the arguments a, and the two rows of a's edge list at the source and the destination
    nodes. -/
structure Holds (a : Cert.Net.Args) (W : Valuation τ sig (Elt Ideal)) : Prop where
  arg0 : W (Proc.devRef .tc main_arg0) = a.ei
  arg1 : W (Proc.devRef .tc main_arg1) = a.batch
  arg2 : W (Proc.devRef .tc main_arg2) = a.Wenc
  arg3 : W (Proc.devRef .tc main_arg3) = a.benc
  arg4 : W (Proc.devRef .tc main_arg4) = a.W1
  arg5 : W (Proc.devRef .tc main_arg5) = a.b1
  arg6 : W (Proc.devRef .tc main_arg6) = a.W2
  arg7 : W (Proc.devRef .tc main_arg7) = a.b2
  arg8 : W (Proc.devRef .tc main_arg8) = a.Wd1
  arg9 : W (Proc.devRef .tc main_arg9) = a.bd1
  arg10 : W (Proc.devRef .tc main_arg10) = a.Wd2
  arg11 : W (Proc.devRef .tc main_arg11) = a.bd2
  src : W (Proc.devRef .tc main_v1) = Cert.Net.srcOf a.ei
  dst : W (Proc.devRef .tc main_v3) = Cert.Net.dstOf a.ei

/-- After the encoder's block the buffers hold the arguments they started with and the edge list's two rows. -/
theorem holds_pre (V : Valuation τ sig (Elt Ideal)) : Holds (argsOf V) (after (opsPre (F := Ideal)) V) where
  arg0 := (by after_results_simp : after (opsPre (F := Ideal)) V (Proc.devRef .tc main_arg0) = V (Proc.devRef .tc main_arg0))
  arg1 := (by after_results_simp : after (opsPre (F := Ideal)) V (Proc.devRef .tc main_arg1) = V (Proc.devRef .tc main_arg1))
  arg2 := (by after_results_simp : after (opsPre (F := Ideal)) V (Proc.devRef .tc main_arg2) = V (Proc.devRef .tc main_arg2))
  arg3 := (by after_results_simp : after (opsPre (F := Ideal)) V (Proc.devRef .tc main_arg3) = V (Proc.devRef .tc main_arg3))
  arg4 := (by after_results_simp : after (opsPre (F := Ideal)) V (Proc.devRef .tc main_arg4) = V (Proc.devRef .tc main_arg4))
  arg5 := (by after_results_simp : after (opsPre (F := Ideal)) V (Proc.devRef .tc main_arg5) = V (Proc.devRef .tc main_arg5))
  arg6 := (by after_results_simp : after (opsPre (F := Ideal)) V (Proc.devRef .tc main_arg6) = V (Proc.devRef .tc main_arg6))
  arg7 := (by after_results_simp : after (opsPre (F := Ideal)) V (Proc.devRef .tc main_arg7) = V (Proc.devRef .tc main_arg7))
  arg8 := (by after_results_simp : after (opsPre (F := Ideal)) V (Proc.devRef .tc main_arg8) = V (Proc.devRef .tc main_arg8))
  arg9 := (by after_results_simp : after (opsPre (F := Ideal)) V (Proc.devRef .tc main_arg9) = V (Proc.devRef .tc main_arg9))
  arg10 := (by after_results_simp : after (opsPre (F := Ideal)) V (Proc.devRef .tc main_arg10) = V (Proc.devRef .tc main_arg10))
  arg11 := (by after_results_simp : after (opsPre (F := Ideal)) V (Proc.devRef .tc main_arg11) = V (Proc.devRef .tc main_arg11))
  src := pre_src V
  dst := pre_dst V

/-- The features after the encoder's block. -/
theorem feat_pre (V : Valuation τ sig (Elt Ideal)) :
    after (opsPre (F := Ideal)) V (Proc.devRef .tc main_v13) = Cert.Net.feat0 (argsOf V) :=
  pre_result V

variable {a : Cert.Net.Args} {W : Valuation τ sig (Elt Ideal)}

/-- Layer 0's block leaves the arguments and the edge list's two rows as they were. -/
theorem holds_L0 (h : Holds a W) : Holds a (after (opsL0 (F := Ideal)) W) where
  arg0 := (by after_results_simp : after (opsL0 (F := Ideal)) W (Proc.devRef .tc main_arg0) = W (Proc.devRef .tc main_arg0)).trans h.arg0
  arg1 := (by after_results_simp : after (opsL0 (F := Ideal)) W (Proc.devRef .tc main_arg1) = W (Proc.devRef .tc main_arg1)).trans h.arg1
  arg2 := (by after_results_simp : after (opsL0 (F := Ideal)) W (Proc.devRef .tc main_arg2) = W (Proc.devRef .tc main_arg2)).trans h.arg2
  arg3 := (by after_results_simp : after (opsL0 (F := Ideal)) W (Proc.devRef .tc main_arg3) = W (Proc.devRef .tc main_arg3)).trans h.arg3
  arg4 := (by after_results_simp : after (opsL0 (F := Ideal)) W (Proc.devRef .tc main_arg4) = W (Proc.devRef .tc main_arg4)).trans h.arg4
  arg5 := (by after_results_simp : after (opsL0 (F := Ideal)) W (Proc.devRef .tc main_arg5) = W (Proc.devRef .tc main_arg5)).trans h.arg5
  arg6 := (by after_results_simp : after (opsL0 (F := Ideal)) W (Proc.devRef .tc main_arg6) = W (Proc.devRef .tc main_arg6)).trans h.arg6
  arg7 := (by after_results_simp : after (opsL0 (F := Ideal)) W (Proc.devRef .tc main_arg7) = W (Proc.devRef .tc main_arg7)).trans h.arg7
  arg8 := (by after_results_simp : after (opsL0 (F := Ideal)) W (Proc.devRef .tc main_arg8) = W (Proc.devRef .tc main_arg8)).trans h.arg8
  arg9 := (by after_results_simp : after (opsL0 (F := Ideal)) W (Proc.devRef .tc main_arg9) = W (Proc.devRef .tc main_arg9)).trans h.arg9
  arg10 := (by after_results_simp : after (opsL0 (F := Ideal)) W (Proc.devRef .tc main_arg10) = W (Proc.devRef .tc main_arg10)).trans h.arg10
  arg11 := (by after_results_simp : after (opsL0 (F := Ideal)) W (Proc.devRef .tc main_arg11) = W (Proc.devRef .tc main_arg11)).trans h.arg11
  src := (by after_results_simp : after (opsL0 (F := Ideal)) W (Proc.devRef .tc main_v1) = W (Proc.devRef .tc main_v1)).trans h.src
  dst := (by after_results_simp : after (opsL0 (F := Ideal)) W (Proc.devRef .tc main_v3) = W (Proc.devRef .tc main_v3)).trans h.dst

/-- Layer 0's block turns the features after 0 layers into the features after 1. -/
theorem feat_L0 (h : Holds a W) (hx : W (Proc.devRef .tc main_v13) = Cert.Net.feat0 a) :
    after (opsL0 (F := Ideal)) W (Proc.devRef .tc main_v42) = Cert.Net.feat1 a := by
  rw [layer0_result, hx, h.src, h.dst, h.arg4, h.arg5, h.arg6, h.arg7]
  rfl

/-- Layer 1's block leaves the arguments and the edge list's two rows as they were. -/
theorem holds_L1 (h : Holds a W) : Holds a (after (opsL1 (F := Ideal)) W) where
  arg0 := (by simp only [opsL1, after_append]; after_results_simp : after (opsL1 (F := Ideal)) W (Proc.devRef .tc main_arg0) = W (Proc.devRef .tc main_arg0)).trans h.arg0
  arg1 := (by simp only [opsL1, after_append]; after_results_simp : after (opsL1 (F := Ideal)) W (Proc.devRef .tc main_arg1) = W (Proc.devRef .tc main_arg1)).trans h.arg1
  arg2 := (by simp only [opsL1, after_append]; after_results_simp : after (opsL1 (F := Ideal)) W (Proc.devRef .tc main_arg2) = W (Proc.devRef .tc main_arg2)).trans h.arg2
  arg3 := (by simp only [opsL1, after_append]; after_results_simp : after (opsL1 (F := Ideal)) W (Proc.devRef .tc main_arg3) = W (Proc.devRef .tc main_arg3)).trans h.arg3
  arg4 := (by simp only [opsL1, after_append]; after_results_simp : after (opsL1 (F := Ideal)) W (Proc.devRef .tc main_arg4) = W (Proc.devRef .tc main_arg4)).trans h.arg4
  arg5 := (by simp only [opsL1, after_append]; after_results_simp : after (opsL1 (F := Ideal)) W (Proc.devRef .tc main_arg5) = W (Proc.devRef .tc main_arg5)).trans h.arg5
  arg6 := (by simp only [opsL1, after_append]; after_results_simp : after (opsL1 (F := Ideal)) W (Proc.devRef .tc main_arg6) = W (Proc.devRef .tc main_arg6)).trans h.arg6
  arg7 := (by simp only [opsL1, after_append]; after_results_simp : after (opsL1 (F := Ideal)) W (Proc.devRef .tc main_arg7) = W (Proc.devRef .tc main_arg7)).trans h.arg7
  arg8 := (by simp only [opsL1, after_append]; after_results_simp : after (opsL1 (F := Ideal)) W (Proc.devRef .tc main_arg8) = W (Proc.devRef .tc main_arg8)).trans h.arg8
  arg9 := (by simp only [opsL1, after_append]; after_results_simp : after (opsL1 (F := Ideal)) W (Proc.devRef .tc main_arg9) = W (Proc.devRef .tc main_arg9)).trans h.arg9
  arg10 := (by simp only [opsL1, after_append]; after_results_simp : after (opsL1 (F := Ideal)) W (Proc.devRef .tc main_arg10) = W (Proc.devRef .tc main_arg10)).trans h.arg10
  arg11 := (by simp only [opsL1, after_append]; after_results_simp : after (opsL1 (F := Ideal)) W (Proc.devRef .tc main_arg11) = W (Proc.devRef .tc main_arg11)).trans h.arg11
  src := (by simp only [opsL1, after_append]; after_results_simp : after (opsL1 (F := Ideal)) W (Proc.devRef .tc main_v1) = W (Proc.devRef .tc main_v1)).trans h.src
  dst := (by simp only [opsL1, after_append]; after_results_simp : after (opsL1 (F := Ideal)) W (Proc.devRef .tc main_v3) = W (Proc.devRef .tc main_v3)).trans h.dst

/-- Layer 1's block turns the features after 1 layers into the features after 2. -/
theorem feat_L1 (h : Holds a W) (hx : W (Proc.devRef .tc main_v42) = Cert.Net.feat1 a) :
    after (opsL1 (F := Ideal)) W (Proc.devRef .tc main_v71) = Cert.Net.feat2 a := by
  rw [layer1_result, hx, h.src, h.dst, h.arg4, h.arg5, h.arg6, h.arg7]
  rfl

/-- Layer 2's block leaves the arguments and the edge list's two rows as they were. -/
theorem holds_L2 (h : Holds a W) : Holds a (after (opsL2 (F := Ideal)) W) where
  arg0 := (by after_results_simp : after (opsL2 (F := Ideal)) W (Proc.devRef .tc main_arg0) = W (Proc.devRef .tc main_arg0)).trans h.arg0
  arg1 := (by after_results_simp : after (opsL2 (F := Ideal)) W (Proc.devRef .tc main_arg1) = W (Proc.devRef .tc main_arg1)).trans h.arg1
  arg2 := (by after_results_simp : after (opsL2 (F := Ideal)) W (Proc.devRef .tc main_arg2) = W (Proc.devRef .tc main_arg2)).trans h.arg2
  arg3 := (by after_results_simp : after (opsL2 (F := Ideal)) W (Proc.devRef .tc main_arg3) = W (Proc.devRef .tc main_arg3)).trans h.arg3
  arg4 := (by after_results_simp : after (opsL2 (F := Ideal)) W (Proc.devRef .tc main_arg4) = W (Proc.devRef .tc main_arg4)).trans h.arg4
  arg5 := (by after_results_simp : after (opsL2 (F := Ideal)) W (Proc.devRef .tc main_arg5) = W (Proc.devRef .tc main_arg5)).trans h.arg5
  arg6 := (by after_results_simp : after (opsL2 (F := Ideal)) W (Proc.devRef .tc main_arg6) = W (Proc.devRef .tc main_arg6)).trans h.arg6
  arg7 := (by after_results_simp : after (opsL2 (F := Ideal)) W (Proc.devRef .tc main_arg7) = W (Proc.devRef .tc main_arg7)).trans h.arg7
  arg8 := (by after_results_simp : after (opsL2 (F := Ideal)) W (Proc.devRef .tc main_arg8) = W (Proc.devRef .tc main_arg8)).trans h.arg8
  arg9 := (by after_results_simp : after (opsL2 (F := Ideal)) W (Proc.devRef .tc main_arg9) = W (Proc.devRef .tc main_arg9)).trans h.arg9
  arg10 := (by after_results_simp : after (opsL2 (F := Ideal)) W (Proc.devRef .tc main_arg10) = W (Proc.devRef .tc main_arg10)).trans h.arg10
  arg11 := (by after_results_simp : after (opsL2 (F := Ideal)) W (Proc.devRef .tc main_arg11) = W (Proc.devRef .tc main_arg11)).trans h.arg11
  src := (by after_results_simp : after (opsL2 (F := Ideal)) W (Proc.devRef .tc main_v1) = W (Proc.devRef .tc main_v1)).trans h.src
  dst := (by after_results_simp : after (opsL2 (F := Ideal)) W (Proc.devRef .tc main_v3) = W (Proc.devRef .tc main_v3)).trans h.dst

/-- Layer 2's block turns the features after 2 layers into the features after 3. -/
theorem feat_L2 (h : Holds a W) (hx : W (Proc.devRef .tc main_v71) = Cert.Net.feat2 a) :
    after (opsL2 (F := Ideal)) W (Proc.devRef .tc main_v100) = Cert.Net.feat3 a := by
  rw [layer2_result, hx, h.src, h.dst, h.arg4, h.arg5, h.arg6, h.arg7]
  rfl

/-- Layer 3's block leaves the arguments and the edge list's two rows as they were. -/
theorem holds_L3 (h : Holds a W) : Holds a (after (opsL3 (F := Ideal)) W) where
  arg0 := (by simp only [opsL3, after_append]; after_results_simp : after (opsL3 (F := Ideal)) W (Proc.devRef .tc main_arg0) = W (Proc.devRef .tc main_arg0)).trans h.arg0
  arg1 := (by simp only [opsL3, after_append]; after_results_simp : after (opsL3 (F := Ideal)) W (Proc.devRef .tc main_arg1) = W (Proc.devRef .tc main_arg1)).trans h.arg1
  arg2 := (by simp only [opsL3, after_append]; after_results_simp : after (opsL3 (F := Ideal)) W (Proc.devRef .tc main_arg2) = W (Proc.devRef .tc main_arg2)).trans h.arg2
  arg3 := (by simp only [opsL3, after_append]; after_results_simp : after (opsL3 (F := Ideal)) W (Proc.devRef .tc main_arg3) = W (Proc.devRef .tc main_arg3)).trans h.arg3
  arg4 := (by simp only [opsL3, after_append]; after_results_simp : after (opsL3 (F := Ideal)) W (Proc.devRef .tc main_arg4) = W (Proc.devRef .tc main_arg4)).trans h.arg4
  arg5 := (by simp only [opsL3, after_append]; after_results_simp : after (opsL3 (F := Ideal)) W (Proc.devRef .tc main_arg5) = W (Proc.devRef .tc main_arg5)).trans h.arg5
  arg6 := (by simp only [opsL3, after_append]; after_results_simp : after (opsL3 (F := Ideal)) W (Proc.devRef .tc main_arg6) = W (Proc.devRef .tc main_arg6)).trans h.arg6
  arg7 := (by simp only [opsL3, after_append]; after_results_simp : after (opsL3 (F := Ideal)) W (Proc.devRef .tc main_arg7) = W (Proc.devRef .tc main_arg7)).trans h.arg7
  arg8 := (by simp only [opsL3, after_append]; after_results_simp : after (opsL3 (F := Ideal)) W (Proc.devRef .tc main_arg8) = W (Proc.devRef .tc main_arg8)).trans h.arg8
  arg9 := (by simp only [opsL3, after_append]; after_results_simp : after (opsL3 (F := Ideal)) W (Proc.devRef .tc main_arg9) = W (Proc.devRef .tc main_arg9)).trans h.arg9
  arg10 := (by simp only [opsL3, after_append]; after_results_simp : after (opsL3 (F := Ideal)) W (Proc.devRef .tc main_arg10) = W (Proc.devRef .tc main_arg10)).trans h.arg10
  arg11 := (by simp only [opsL3, after_append]; after_results_simp : after (opsL3 (F := Ideal)) W (Proc.devRef .tc main_arg11) = W (Proc.devRef .tc main_arg11)).trans h.arg11
  src := (by simp only [opsL3, after_append]; after_results_simp : after (opsL3 (F := Ideal)) W (Proc.devRef .tc main_v1) = W (Proc.devRef .tc main_v1)).trans h.src
  dst := (by simp only [opsL3, after_append]; after_results_simp : after (opsL3 (F := Ideal)) W (Proc.devRef .tc main_v3) = W (Proc.devRef .tc main_v3)).trans h.dst

/-- Layer 3's block turns the features after 3 layers into the features after 4. -/
theorem feat_L3 (h : Holds a W) (hx : W (Proc.devRef .tc main_v100) = Cert.Net.feat3 a) :
    after (opsL3 (F := Ideal)) W (Proc.devRef .tc main_v129) = Cert.Net.feat4 a := by
  rw [layer3_result, hx, h.src, h.dst, h.arg4, h.arg5, h.arg6, h.arg7]
  rfl

/-- Layer 4's block leaves the arguments and the edge list's two rows as they were. -/
theorem holds_L4 (h : Holds a W) : Holds a (after (opsL4 (F := Ideal)) W) where
  arg0 := (by after_results_simp : after (opsL4 (F := Ideal)) W (Proc.devRef .tc main_arg0) = W (Proc.devRef .tc main_arg0)).trans h.arg0
  arg1 := (by after_results_simp : after (opsL4 (F := Ideal)) W (Proc.devRef .tc main_arg1) = W (Proc.devRef .tc main_arg1)).trans h.arg1
  arg2 := (by after_results_simp : after (opsL4 (F := Ideal)) W (Proc.devRef .tc main_arg2) = W (Proc.devRef .tc main_arg2)).trans h.arg2
  arg3 := (by after_results_simp : after (opsL4 (F := Ideal)) W (Proc.devRef .tc main_arg3) = W (Proc.devRef .tc main_arg3)).trans h.arg3
  arg4 := (by after_results_simp : after (opsL4 (F := Ideal)) W (Proc.devRef .tc main_arg4) = W (Proc.devRef .tc main_arg4)).trans h.arg4
  arg5 := (by after_results_simp : after (opsL4 (F := Ideal)) W (Proc.devRef .tc main_arg5) = W (Proc.devRef .tc main_arg5)).trans h.arg5
  arg6 := (by after_results_simp : after (opsL4 (F := Ideal)) W (Proc.devRef .tc main_arg6) = W (Proc.devRef .tc main_arg6)).trans h.arg6
  arg7 := (by after_results_simp : after (opsL4 (F := Ideal)) W (Proc.devRef .tc main_arg7) = W (Proc.devRef .tc main_arg7)).trans h.arg7
  arg8 := (by after_results_simp : after (opsL4 (F := Ideal)) W (Proc.devRef .tc main_arg8) = W (Proc.devRef .tc main_arg8)).trans h.arg8
  arg9 := (by after_results_simp : after (opsL4 (F := Ideal)) W (Proc.devRef .tc main_arg9) = W (Proc.devRef .tc main_arg9)).trans h.arg9
  arg10 := (by after_results_simp : after (opsL4 (F := Ideal)) W (Proc.devRef .tc main_arg10) = W (Proc.devRef .tc main_arg10)).trans h.arg10
  arg11 := (by after_results_simp : after (opsL4 (F := Ideal)) W (Proc.devRef .tc main_arg11) = W (Proc.devRef .tc main_arg11)).trans h.arg11
  src := (by after_results_simp : after (opsL4 (F := Ideal)) W (Proc.devRef .tc main_v1) = W (Proc.devRef .tc main_v1)).trans h.src
  dst := (by after_results_simp : after (opsL4 (F := Ideal)) W (Proc.devRef .tc main_v3) = W (Proc.devRef .tc main_v3)).trans h.dst

/-- Layer 4's block turns the features after 4 layers into the features after 5. -/
theorem feat_L4 (h : Holds a W) (hx : W (Proc.devRef .tc main_v129) = Cert.Net.feat4 a) :
    after (opsL4 (F := Ideal)) W (Proc.devRef .tc main_v158) = Cert.Net.feat5 a := by
  rw [layer4_result, hx, h.src, h.dst, h.arg4, h.arg5, h.arg6, h.arg7]
  rfl

/-- Layer 5's block leaves the arguments and the edge list's two rows as they were. -/
theorem holds_L5 (h : Holds a W) : Holds a (after (opsL5 (F := Ideal)) W) where
  arg0 := (by simp only [opsL5, after_append]; after_results_simp : after (opsL5 (F := Ideal)) W (Proc.devRef .tc main_arg0) = W (Proc.devRef .tc main_arg0)).trans h.arg0
  arg1 := (by simp only [opsL5, after_append]; after_results_simp : after (opsL5 (F := Ideal)) W (Proc.devRef .tc main_arg1) = W (Proc.devRef .tc main_arg1)).trans h.arg1
  arg2 := (by simp only [opsL5, after_append]; after_results_simp : after (opsL5 (F := Ideal)) W (Proc.devRef .tc main_arg2) = W (Proc.devRef .tc main_arg2)).trans h.arg2
  arg3 := (by simp only [opsL5, after_append]; after_results_simp : after (opsL5 (F := Ideal)) W (Proc.devRef .tc main_arg3) = W (Proc.devRef .tc main_arg3)).trans h.arg3
  arg4 := (by simp only [opsL5, after_append]; after_results_simp : after (opsL5 (F := Ideal)) W (Proc.devRef .tc main_arg4) = W (Proc.devRef .tc main_arg4)).trans h.arg4
  arg5 := (by simp only [opsL5, after_append]; after_results_simp : after (opsL5 (F := Ideal)) W (Proc.devRef .tc main_arg5) = W (Proc.devRef .tc main_arg5)).trans h.arg5
  arg6 := (by simp only [opsL5, after_append]; after_results_simp : after (opsL5 (F := Ideal)) W (Proc.devRef .tc main_arg6) = W (Proc.devRef .tc main_arg6)).trans h.arg6
  arg7 := (by simp only [opsL5, after_append]; after_results_simp : after (opsL5 (F := Ideal)) W (Proc.devRef .tc main_arg7) = W (Proc.devRef .tc main_arg7)).trans h.arg7
  arg8 := (by simp only [opsL5, after_append]; after_results_simp : after (opsL5 (F := Ideal)) W (Proc.devRef .tc main_arg8) = W (Proc.devRef .tc main_arg8)).trans h.arg8
  arg9 := (by simp only [opsL5, after_append]; after_results_simp : after (opsL5 (F := Ideal)) W (Proc.devRef .tc main_arg9) = W (Proc.devRef .tc main_arg9)).trans h.arg9
  arg10 := (by simp only [opsL5, after_append]; after_results_simp : after (opsL5 (F := Ideal)) W (Proc.devRef .tc main_arg10) = W (Proc.devRef .tc main_arg10)).trans h.arg10
  arg11 := (by simp only [opsL5, after_append]; after_results_simp : after (opsL5 (F := Ideal)) W (Proc.devRef .tc main_arg11) = W (Proc.devRef .tc main_arg11)).trans h.arg11
  src := (by simp only [opsL5, after_append]; after_results_simp : after (opsL5 (F := Ideal)) W (Proc.devRef .tc main_v1) = W (Proc.devRef .tc main_v1)).trans h.src
  dst := (by simp only [opsL5, after_append]; after_results_simp : after (opsL5 (F := Ideal)) W (Proc.devRef .tc main_v3) = W (Proc.devRef .tc main_v3)).trans h.dst

/-- Layer 5's block turns the features after 5 layers into the features after 6. -/
theorem feat_L5 (h : Holds a W) (hx : W (Proc.devRef .tc main_v158) = Cert.Net.feat5 a) :
    after (opsL5 (F := Ideal)) W (Proc.devRef .tc main_v187) = Cert.Net.feat6 a := by
  rw [layer5_result, hx, h.src, h.dst, h.arg4, h.arg5, h.arg6, h.arg7]
  rfl

/-- Layer 6's block leaves the arguments and the edge list's two rows as they were. -/
theorem holds_L6 (h : Holds a W) : Holds a (after (opsL6 (F := Ideal)) W) where
  arg0 := (by after_results_simp : after (opsL6 (F := Ideal)) W (Proc.devRef .tc main_arg0) = W (Proc.devRef .tc main_arg0)).trans h.arg0
  arg1 := (by after_results_simp : after (opsL6 (F := Ideal)) W (Proc.devRef .tc main_arg1) = W (Proc.devRef .tc main_arg1)).trans h.arg1
  arg2 := (by after_results_simp : after (opsL6 (F := Ideal)) W (Proc.devRef .tc main_arg2) = W (Proc.devRef .tc main_arg2)).trans h.arg2
  arg3 := (by after_results_simp : after (opsL6 (F := Ideal)) W (Proc.devRef .tc main_arg3) = W (Proc.devRef .tc main_arg3)).trans h.arg3
  arg4 := (by after_results_simp : after (opsL6 (F := Ideal)) W (Proc.devRef .tc main_arg4) = W (Proc.devRef .tc main_arg4)).trans h.arg4
  arg5 := (by after_results_simp : after (opsL6 (F := Ideal)) W (Proc.devRef .tc main_arg5) = W (Proc.devRef .tc main_arg5)).trans h.arg5
  arg6 := (by after_results_simp : after (opsL6 (F := Ideal)) W (Proc.devRef .tc main_arg6) = W (Proc.devRef .tc main_arg6)).trans h.arg6
  arg7 := (by after_results_simp : after (opsL6 (F := Ideal)) W (Proc.devRef .tc main_arg7) = W (Proc.devRef .tc main_arg7)).trans h.arg7
  arg8 := (by after_results_simp : after (opsL6 (F := Ideal)) W (Proc.devRef .tc main_arg8) = W (Proc.devRef .tc main_arg8)).trans h.arg8
  arg9 := (by after_results_simp : after (opsL6 (F := Ideal)) W (Proc.devRef .tc main_arg9) = W (Proc.devRef .tc main_arg9)).trans h.arg9
  arg10 := (by after_results_simp : after (opsL6 (F := Ideal)) W (Proc.devRef .tc main_arg10) = W (Proc.devRef .tc main_arg10)).trans h.arg10
  arg11 := (by after_results_simp : after (opsL6 (F := Ideal)) W (Proc.devRef .tc main_arg11) = W (Proc.devRef .tc main_arg11)).trans h.arg11
  src := (by after_results_simp : after (opsL6 (F := Ideal)) W (Proc.devRef .tc main_v1) = W (Proc.devRef .tc main_v1)).trans h.src
  dst := (by after_results_simp : after (opsL6 (F := Ideal)) W (Proc.devRef .tc main_v3) = W (Proc.devRef .tc main_v3)).trans h.dst

/-- Layer 6's block turns the features after 6 layers into the features after 7. -/
theorem feat_L6 (h : Holds a W) (hx : W (Proc.devRef .tc main_v187) = Cert.Net.feat6 a) :
    after (opsL6 (F := Ideal)) W (Proc.devRef .tc main_v216) = Cert.Net.feat7 a := by
  rw [layer6_result, hx, h.src, h.dst, h.arg4, h.arg5, h.arg6, h.arg7]
  rfl

/-- Layer 7's block leaves the arguments and the edge list's two rows as they were. -/
theorem holds_L7 (h : Holds a W) : Holds a (after (opsL7 (F := Ideal)) W) where
  arg0 := (by after_results_simp : after (opsL7 (F := Ideal)) W (Proc.devRef .tc main_arg0) = W (Proc.devRef .tc main_arg0)).trans h.arg0
  arg1 := (by after_results_simp : after (opsL7 (F := Ideal)) W (Proc.devRef .tc main_arg1) = W (Proc.devRef .tc main_arg1)).trans h.arg1
  arg2 := (by after_results_simp : after (opsL7 (F := Ideal)) W (Proc.devRef .tc main_arg2) = W (Proc.devRef .tc main_arg2)).trans h.arg2
  arg3 := (by after_results_simp : after (opsL7 (F := Ideal)) W (Proc.devRef .tc main_arg3) = W (Proc.devRef .tc main_arg3)).trans h.arg3
  arg4 := (by after_results_simp : after (opsL7 (F := Ideal)) W (Proc.devRef .tc main_arg4) = W (Proc.devRef .tc main_arg4)).trans h.arg4
  arg5 := (by after_results_simp : after (opsL7 (F := Ideal)) W (Proc.devRef .tc main_arg5) = W (Proc.devRef .tc main_arg5)).trans h.arg5
  arg6 := (by after_results_simp : after (opsL7 (F := Ideal)) W (Proc.devRef .tc main_arg6) = W (Proc.devRef .tc main_arg6)).trans h.arg6
  arg7 := (by after_results_simp : after (opsL7 (F := Ideal)) W (Proc.devRef .tc main_arg7) = W (Proc.devRef .tc main_arg7)).trans h.arg7
  arg8 := (by after_results_simp : after (opsL7 (F := Ideal)) W (Proc.devRef .tc main_arg8) = W (Proc.devRef .tc main_arg8)).trans h.arg8
  arg9 := (by after_results_simp : after (opsL7 (F := Ideal)) W (Proc.devRef .tc main_arg9) = W (Proc.devRef .tc main_arg9)).trans h.arg9
  arg10 := (by after_results_simp : after (opsL7 (F := Ideal)) W (Proc.devRef .tc main_arg10) = W (Proc.devRef .tc main_arg10)).trans h.arg10
  arg11 := (by after_results_simp : after (opsL7 (F := Ideal)) W (Proc.devRef .tc main_arg11) = W (Proc.devRef .tc main_arg11)).trans h.arg11
  src := (by after_results_simp : after (opsL7 (F := Ideal)) W (Proc.devRef .tc main_v1) = W (Proc.devRef .tc main_v1)).trans h.src
  dst := (by after_results_simp : after (opsL7 (F := Ideal)) W (Proc.devRef .tc main_v3) = W (Proc.devRef .tc main_v3)).trans h.dst

/-- Layer 7's block turns the features after 7 layers into the features after 8. -/
theorem feat_L7 (h : Holds a W) (hx : W (Proc.devRef .tc main_v216) = Cert.Net.feat7 a) :
    after (opsL7 (F := Ideal)) W (Proc.devRef .tc main_v245) = Cert.Net.feat8 a := by
  rw [layer7_result, hx, h.src, h.dst, h.arg4, h.arg5, h.arg6, h.arg7]
  rfl

/-- Layer 8's block leaves the arguments and the edge list's two rows as they were. -/
theorem holds_L8 (h : Holds a W) : Holds a (after (opsL8 (F := Ideal)) W) where
  arg0 := (by simp only [opsL8, after_append]; after_results_simp : after (opsL8 (F := Ideal)) W (Proc.devRef .tc main_arg0) = W (Proc.devRef .tc main_arg0)).trans h.arg0
  arg1 := (by simp only [opsL8, after_append]; after_results_simp : after (opsL8 (F := Ideal)) W (Proc.devRef .tc main_arg1) = W (Proc.devRef .tc main_arg1)).trans h.arg1
  arg2 := (by simp only [opsL8, after_append]; after_results_simp : after (opsL8 (F := Ideal)) W (Proc.devRef .tc main_arg2) = W (Proc.devRef .tc main_arg2)).trans h.arg2
  arg3 := (by simp only [opsL8, after_append]; after_results_simp : after (opsL8 (F := Ideal)) W (Proc.devRef .tc main_arg3) = W (Proc.devRef .tc main_arg3)).trans h.arg3
  arg4 := (by simp only [opsL8, after_append]; after_results_simp : after (opsL8 (F := Ideal)) W (Proc.devRef .tc main_arg4) = W (Proc.devRef .tc main_arg4)).trans h.arg4
  arg5 := (by simp only [opsL8, after_append]; after_results_simp : after (opsL8 (F := Ideal)) W (Proc.devRef .tc main_arg5) = W (Proc.devRef .tc main_arg5)).trans h.arg5
  arg6 := (by simp only [opsL8, after_append]; after_results_simp : after (opsL8 (F := Ideal)) W (Proc.devRef .tc main_arg6) = W (Proc.devRef .tc main_arg6)).trans h.arg6
  arg7 := (by simp only [opsL8, after_append]; after_results_simp : after (opsL8 (F := Ideal)) W (Proc.devRef .tc main_arg7) = W (Proc.devRef .tc main_arg7)).trans h.arg7
  arg8 := (by simp only [opsL8, after_append]; after_results_simp : after (opsL8 (F := Ideal)) W (Proc.devRef .tc main_arg8) = W (Proc.devRef .tc main_arg8)).trans h.arg8
  arg9 := (by simp only [opsL8, after_append]; after_results_simp : after (opsL8 (F := Ideal)) W (Proc.devRef .tc main_arg9) = W (Proc.devRef .tc main_arg9)).trans h.arg9
  arg10 := (by simp only [opsL8, after_append]; after_results_simp : after (opsL8 (F := Ideal)) W (Proc.devRef .tc main_arg10) = W (Proc.devRef .tc main_arg10)).trans h.arg10
  arg11 := (by simp only [opsL8, after_append]; after_results_simp : after (opsL8 (F := Ideal)) W (Proc.devRef .tc main_arg11) = W (Proc.devRef .tc main_arg11)).trans h.arg11
  src := (by simp only [opsL8, after_append]; after_results_simp : after (opsL8 (F := Ideal)) W (Proc.devRef .tc main_v1) = W (Proc.devRef .tc main_v1)).trans h.src
  dst := (by simp only [opsL8, after_append]; after_results_simp : after (opsL8 (F := Ideal)) W (Proc.devRef .tc main_v3) = W (Proc.devRef .tc main_v3)).trans h.dst

/-- Layer 8's block turns the features after 8 layers into the features after 9. -/
theorem feat_L8 (h : Holds a W) (hx : W (Proc.devRef .tc main_v245) = Cert.Net.feat8 a) :
    after (opsL8 (F := Ideal)) W (Proc.devRef .tc main_v274) = Cert.Net.feat9 a := by
  rw [layer8_result, hx, h.src, h.dst, h.arg4, h.arg5, h.arg6, h.arg7]
  rfl

/-- Layer 9's block leaves the arguments and the edge list's two rows as they were. -/
theorem holds_L9 (h : Holds a W) : Holds a (after (opsL9 (F := Ideal)) W) where
  arg0 := (by after_results_simp : after (opsL9 (F := Ideal)) W (Proc.devRef .tc main_arg0) = W (Proc.devRef .tc main_arg0)).trans h.arg0
  arg1 := (by after_results_simp : after (opsL9 (F := Ideal)) W (Proc.devRef .tc main_arg1) = W (Proc.devRef .tc main_arg1)).trans h.arg1
  arg2 := (by after_results_simp : after (opsL9 (F := Ideal)) W (Proc.devRef .tc main_arg2) = W (Proc.devRef .tc main_arg2)).trans h.arg2
  arg3 := (by after_results_simp : after (opsL9 (F := Ideal)) W (Proc.devRef .tc main_arg3) = W (Proc.devRef .tc main_arg3)).trans h.arg3
  arg4 := (by after_results_simp : after (opsL9 (F := Ideal)) W (Proc.devRef .tc main_arg4) = W (Proc.devRef .tc main_arg4)).trans h.arg4
  arg5 := (by after_results_simp : after (opsL9 (F := Ideal)) W (Proc.devRef .tc main_arg5) = W (Proc.devRef .tc main_arg5)).trans h.arg5
  arg6 := (by after_results_simp : after (opsL9 (F := Ideal)) W (Proc.devRef .tc main_arg6) = W (Proc.devRef .tc main_arg6)).trans h.arg6
  arg7 := (by after_results_simp : after (opsL9 (F := Ideal)) W (Proc.devRef .tc main_arg7) = W (Proc.devRef .tc main_arg7)).trans h.arg7
  arg8 := (by after_results_simp : after (opsL9 (F := Ideal)) W (Proc.devRef .tc main_arg8) = W (Proc.devRef .tc main_arg8)).trans h.arg8
  arg9 := (by after_results_simp : after (opsL9 (F := Ideal)) W (Proc.devRef .tc main_arg9) = W (Proc.devRef .tc main_arg9)).trans h.arg9
  arg10 := (by after_results_simp : after (opsL9 (F := Ideal)) W (Proc.devRef .tc main_arg10) = W (Proc.devRef .tc main_arg10)).trans h.arg10
  arg11 := (by after_results_simp : after (opsL9 (F := Ideal)) W (Proc.devRef .tc main_arg11) = W (Proc.devRef .tc main_arg11)).trans h.arg11
  src := (by after_results_simp : after (opsL9 (F := Ideal)) W (Proc.devRef .tc main_v1) = W (Proc.devRef .tc main_v1)).trans h.src
  dst := (by after_results_simp : after (opsL9 (F := Ideal)) W (Proc.devRef .tc main_v3) = W (Proc.devRef .tc main_v3)).trans h.dst

/-- Layer 9's block turns the features after 9 layers into the features after 10. -/
theorem feat_L9 (h : Holds a W) (hx : W (Proc.devRef .tc main_v274) = Cert.Net.feat9 a) :
    after (opsL9 (F := Ideal)) W (Proc.devRef .tc main_v303) = Cert.Net.feat10 a := by
  rw [layer9_result, hx, h.src, h.dst, h.arg4, h.arg5, h.arg6, h.arg7]
  rfl

/-- Layer 10's block leaves the arguments and the edge list's two rows as they were. -/
theorem holds_L10 (h : Holds a W) : Holds a (after (opsL10 (F := Ideal)) W) where
  arg0 := (by simp only [opsL10, after_append]; after_results_simp : after (opsL10 (F := Ideal)) W (Proc.devRef .tc main_arg0) = W (Proc.devRef .tc main_arg0)).trans h.arg0
  arg1 := (by simp only [opsL10, after_append]; after_results_simp : after (opsL10 (F := Ideal)) W (Proc.devRef .tc main_arg1) = W (Proc.devRef .tc main_arg1)).trans h.arg1
  arg2 := (by simp only [opsL10, after_append]; after_results_simp : after (opsL10 (F := Ideal)) W (Proc.devRef .tc main_arg2) = W (Proc.devRef .tc main_arg2)).trans h.arg2
  arg3 := (by simp only [opsL10, after_append]; after_results_simp : after (opsL10 (F := Ideal)) W (Proc.devRef .tc main_arg3) = W (Proc.devRef .tc main_arg3)).trans h.arg3
  arg4 := (by simp only [opsL10, after_append]; after_results_simp : after (opsL10 (F := Ideal)) W (Proc.devRef .tc main_arg4) = W (Proc.devRef .tc main_arg4)).trans h.arg4
  arg5 := (by simp only [opsL10, after_append]; after_results_simp : after (opsL10 (F := Ideal)) W (Proc.devRef .tc main_arg5) = W (Proc.devRef .tc main_arg5)).trans h.arg5
  arg6 := (by simp only [opsL10, after_append]; after_results_simp : after (opsL10 (F := Ideal)) W (Proc.devRef .tc main_arg6) = W (Proc.devRef .tc main_arg6)).trans h.arg6
  arg7 := (by simp only [opsL10, after_append]; after_results_simp : after (opsL10 (F := Ideal)) W (Proc.devRef .tc main_arg7) = W (Proc.devRef .tc main_arg7)).trans h.arg7
  arg8 := (by simp only [opsL10, after_append]; after_results_simp : after (opsL10 (F := Ideal)) W (Proc.devRef .tc main_arg8) = W (Proc.devRef .tc main_arg8)).trans h.arg8
  arg9 := (by simp only [opsL10, after_append]; after_results_simp : after (opsL10 (F := Ideal)) W (Proc.devRef .tc main_arg9) = W (Proc.devRef .tc main_arg9)).trans h.arg9
  arg10 := (by simp only [opsL10, after_append]; after_results_simp : after (opsL10 (F := Ideal)) W (Proc.devRef .tc main_arg10) = W (Proc.devRef .tc main_arg10)).trans h.arg10
  arg11 := (by simp only [opsL10, after_append]; after_results_simp : after (opsL10 (F := Ideal)) W (Proc.devRef .tc main_arg11) = W (Proc.devRef .tc main_arg11)).trans h.arg11
  src := (by simp only [opsL10, after_append]; after_results_simp : after (opsL10 (F := Ideal)) W (Proc.devRef .tc main_v1) = W (Proc.devRef .tc main_v1)).trans h.src
  dst := (by simp only [opsL10, after_append]; after_results_simp : after (opsL10 (F := Ideal)) W (Proc.devRef .tc main_v3) = W (Proc.devRef .tc main_v3)).trans h.dst

/-- Layer 10's block turns the features after 10 layers into the features after 11. -/
theorem feat_L10 (h : Holds a W) (hx : W (Proc.devRef .tc main_v303) = Cert.Net.feat10 a) :
    after (opsL10 (F := Ideal)) W (Proc.devRef .tc main_v332) = Cert.Net.feat11 a := by
  rw [layer10_result, hx, h.src, h.dst, h.arg4, h.arg5, h.arg6, h.arg7]
  rfl

/-- Layer 11's block leaves the arguments and the edge list's two rows as they were. -/
theorem holds_L11 (h : Holds a W) : Holds a (after (opsL11 (F := Ideal)) W) where
  arg0 := (by after_results_simp : after (opsL11 (F := Ideal)) W (Proc.devRef .tc main_arg0) = W (Proc.devRef .tc main_arg0)).trans h.arg0
  arg1 := (by after_results_simp : after (opsL11 (F := Ideal)) W (Proc.devRef .tc main_arg1) = W (Proc.devRef .tc main_arg1)).trans h.arg1
  arg2 := (by after_results_simp : after (opsL11 (F := Ideal)) W (Proc.devRef .tc main_arg2) = W (Proc.devRef .tc main_arg2)).trans h.arg2
  arg3 := (by after_results_simp : after (opsL11 (F := Ideal)) W (Proc.devRef .tc main_arg3) = W (Proc.devRef .tc main_arg3)).trans h.arg3
  arg4 := (by after_results_simp : after (opsL11 (F := Ideal)) W (Proc.devRef .tc main_arg4) = W (Proc.devRef .tc main_arg4)).trans h.arg4
  arg5 := (by after_results_simp : after (opsL11 (F := Ideal)) W (Proc.devRef .tc main_arg5) = W (Proc.devRef .tc main_arg5)).trans h.arg5
  arg6 := (by after_results_simp : after (opsL11 (F := Ideal)) W (Proc.devRef .tc main_arg6) = W (Proc.devRef .tc main_arg6)).trans h.arg6
  arg7 := (by after_results_simp : after (opsL11 (F := Ideal)) W (Proc.devRef .tc main_arg7) = W (Proc.devRef .tc main_arg7)).trans h.arg7
  arg8 := (by after_results_simp : after (opsL11 (F := Ideal)) W (Proc.devRef .tc main_arg8) = W (Proc.devRef .tc main_arg8)).trans h.arg8
  arg9 := (by after_results_simp : after (opsL11 (F := Ideal)) W (Proc.devRef .tc main_arg9) = W (Proc.devRef .tc main_arg9)).trans h.arg9
  arg10 := (by after_results_simp : after (opsL11 (F := Ideal)) W (Proc.devRef .tc main_arg10) = W (Proc.devRef .tc main_arg10)).trans h.arg10
  arg11 := (by after_results_simp : after (opsL11 (F := Ideal)) W (Proc.devRef .tc main_arg11) = W (Proc.devRef .tc main_arg11)).trans h.arg11
  src := (by after_results_simp : after (opsL11 (F := Ideal)) W (Proc.devRef .tc main_v1) = W (Proc.devRef .tc main_v1)).trans h.src
  dst := (by after_results_simp : after (opsL11 (F := Ideal)) W (Proc.devRef .tc main_v3) = W (Proc.devRef .tc main_v3)).trans h.dst

/-- Layer 11's block turns the features after 11 layers into the features after 12. -/
theorem feat_L11 (h : Holds a W) (hx : W (Proc.devRef .tc main_v332) = Cert.Net.feat11 a) :
    after (opsL11 (F := Ideal)) W (Proc.devRef .tc main_v361) = Cert.Net.feat12 a := by
  rw [layer11_result, hx, h.src, h.dst, h.arg4, h.arg5, h.arg6, h.arg7]
  rfl

/-- The last block leaves the arguments as they were. -/
theorem kept_post (h : Holds a W) :
    after (opsPost (F := Ideal)) W (Proc.devRef .tc main_arg0) = a.ei
    ∧ after (opsPost (F := Ideal)) W (Proc.devRef .tc main_arg1) = a.batch
    ∧ after (opsPost (F := Ideal)) W (Proc.devRef .tc main_arg2) = a.Wenc
    ∧ after (opsPost (F := Ideal)) W (Proc.devRef .tc main_arg3) = a.benc
    ∧ after (opsPost (F := Ideal)) W (Proc.devRef .tc main_arg4) = a.W1
    ∧ after (opsPost (F := Ideal)) W (Proc.devRef .tc main_arg5) = a.b1
    ∧ after (opsPost (F := Ideal)) W (Proc.devRef .tc main_arg6) = a.W2
    ∧ after (opsPost (F := Ideal)) W (Proc.devRef .tc main_arg7) = a.b2
    ∧ after (opsPost (F := Ideal)) W (Proc.devRef .tc main_arg8) = a.Wd1
    ∧ after (opsPost (F := Ideal)) W (Proc.devRef .tc main_arg9) = a.bd1
    ∧ after (opsPost (F := Ideal)) W (Proc.devRef .tc main_arg10) = a.Wd2
    ∧ after (opsPost (F := Ideal)) W (Proc.devRef .tc main_arg11) = a.bd2 :=
  ⟨(by after_results_simp : after (opsPost (F := Ideal)) W (Proc.devRef .tc main_arg0) = W (Proc.devRef .tc main_arg0)).trans h.arg0,
   (by after_results_simp : after (opsPost (F := Ideal)) W (Proc.devRef .tc main_arg1) = W (Proc.devRef .tc main_arg1)).trans h.arg1,
   (by after_results_simp : after (opsPost (F := Ideal)) W (Proc.devRef .tc main_arg2) = W (Proc.devRef .tc main_arg2)).trans h.arg2,
   (by after_results_simp : after (opsPost (F := Ideal)) W (Proc.devRef .tc main_arg3) = W (Proc.devRef .tc main_arg3)).trans h.arg3,
   (by after_results_simp : after (opsPost (F := Ideal)) W (Proc.devRef .tc main_arg4) = W (Proc.devRef .tc main_arg4)).trans h.arg4,
   (by after_results_simp : after (opsPost (F := Ideal)) W (Proc.devRef .tc main_arg5) = W (Proc.devRef .tc main_arg5)).trans h.arg5,
   (by after_results_simp : after (opsPost (F := Ideal)) W (Proc.devRef .tc main_arg6) = W (Proc.devRef .tc main_arg6)).trans h.arg6,
   (by after_results_simp : after (opsPost (F := Ideal)) W (Proc.devRef .tc main_arg7) = W (Proc.devRef .tc main_arg7)).trans h.arg7,
   (by after_results_simp : after (opsPost (F := Ideal)) W (Proc.devRef .tc main_arg8) = W (Proc.devRef .tc main_arg8)).trans h.arg8,
   (by after_results_simp : after (opsPost (F := Ideal)) W (Proc.devRef .tc main_arg9) = W (Proc.devRef .tc main_arg9)).trans h.arg9,
   (by after_results_simp : after (opsPost (F := Ideal)) W (Proc.devRef .tc main_arg10) = W (Proc.devRef .tc main_arg10)).trans h.arg10,
   (by after_results_simp : after (opsPost (F := Ideal)) W (Proc.devRef .tc main_arg11) = W (Proc.devRef .tc main_arg11)).trans h.arg11⟩

/-- The last block turns the features after twelve layers into the network's result. -/
theorem value_post (h : Holds a W) (hx : W (Proc.devRef .tc main_v361) = Cert.Net.feat12 a) :
    after (opsPost (F := Ideal)) W (Proc.devRef .tc main_v373) = Cert.Net.network a := by
  rw [post_result, hx, h.arg1, h.arg8, h.arg9, h.arg10, h.arg11]
  rfl

end Cert.ReferenceIdeal.RefRun

end
-- ==== Proof.RefRun.lean ====
/-
  The reference program's value: run from any launch memory m, every weakly fair execution ends with the result
  buffer holding the network of m's twelve argument arrays, and the arguments as launched.

  The operations are the encoder's block, the twelve layers' blocks and the decoder's block in order; the features
  after each block are the network's features of the arguments, by the blocks' lemmas chained.
-/
import proofs.«124003_j47699906789506_1_alg».proof.Proof.RefKept

noncomputable section

namespace Cert.ReferenceIdeal.RefRun

open Cert.ReferenceIdeal Cert.ReferenceIdeal.Gen Idealize.ShloMosaic Idealize.ShloMosaic.TcCoe Idealize.SL.Sem Idealize.ShloMosaic.StableHlo

/-- From buffers' contents V, after the encoder's block and the twelve layers' blocks the buffers hold the arguments
    and the edge list's rows, and the features after twelve layers: the blocks' lemmas chained. -/
theorem chain (V : Valuation τ sig (Elt Ideal)) :
    Holds (argsOf V) (after (opsL11 (F := Ideal)) (after (opsL10 (F := Ideal)) (after (opsL9 (F := Ideal)) (after (opsL8 (F := Ideal)) (after (opsL7 (F := Ideal)) (after (opsL6 (F := Ideal)) (after (opsL5 (F := Ideal)) (after (opsL4 (F := Ideal)) (after (opsL3 (F := Ideal)) (after (opsL2 (F := Ideal)) (after (opsL1 (F := Ideal)) (after (opsL0 (F := Ideal)) (after (opsPre (F := Ideal)) V)))))))))))))
      ∧ (after (opsL11 (F := Ideal)) (after (opsL10 (F := Ideal)) (after (opsL9 (F := Ideal)) (after (opsL8 (F := Ideal)) (after (opsL7 (F := Ideal)) (after (opsL6 (F := Ideal)) (after (opsL5 (F := Ideal)) (after (opsL4 (F := Ideal)) (after (opsL3 (F := Ideal)) (after (opsL2 (F := Ideal)) (after (opsL1 (F := Ideal)) (after (opsL0 (F := Ideal)) (after (opsPre (F := Ideal)) V))))))))))))) (Proc.devRef .tc main_v361) = Cert.Net.feat12 (argsOf V) := by
  have i0 := holds_pre V
  have x0 := feat_pre V
  have x1 := feat_L0 i0 x0
  have i1 := holds_L0 i0
  have x2 := feat_L1 i1 x1
  have i2 := holds_L1 i1
  have x3 := feat_L2 i2 x2
  have i3 := holds_L2 i2
  have x4 := feat_L3 i3 x3
  have i4 := holds_L3 i3
  have x5 := feat_L4 i4 x4
  have i5 := holds_L4 i4
  have x6 := feat_L5 i5 x5
  have i6 := holds_L5 i5
  have x7 := feat_L6 i6 x6
  have i7 := holds_L6 i6
  have x8 := feat_L7 i7 x7
  have i8 := holds_L7 i7
  have x9 := feat_L8 i8 x8
  have i9 := holds_L8 i8
  have x10 := feat_L9 i9 x9
  have i10 := holds_L9 i9
  have x11 := feat_L10 i10 x10
  have i11 := holds_L10 i10
  have x12 := feat_L11 i11 x11
  have i12 := holds_L11 i11
  exact ⟨i12, x12⟩

/-- What the result buffer holds after all the operations: the network of the arguments. -/
theorem value_of (V : Valuation τ sig (Elt Ideal)) :
    after (ops (F := Ideal)) V (Proc.devRef .tc main_v373) = Cert.Net.network (argsOf V) := by
  rw [after_ops]
  exact value_post (chain V).1 (chain V).2

/-- What the arguments' buffers hold after all the operations: what they held. -/
theorem kept_of (V : Valuation τ sig (Elt Ideal)) :
    after (ops (F := Ideal)) V (Proc.devRef .tc main_arg0) = V (Proc.devRef .tc main_arg0)
    ∧ after (ops (F := Ideal)) V (Proc.devRef .tc main_arg1) = V (Proc.devRef .tc main_arg1)
    ∧ after (ops (F := Ideal)) V (Proc.devRef .tc main_arg2) = V (Proc.devRef .tc main_arg2)
    ∧ after (ops (F := Ideal)) V (Proc.devRef .tc main_arg3) = V (Proc.devRef .tc main_arg3)
    ∧ after (ops (F := Ideal)) V (Proc.devRef .tc main_arg4) = V (Proc.devRef .tc main_arg4)
    ∧ after (ops (F := Ideal)) V (Proc.devRef .tc main_arg5) = V (Proc.devRef .tc main_arg5)
    ∧ after (ops (F := Ideal)) V (Proc.devRef .tc main_arg6) = V (Proc.devRef .tc main_arg6)
    ∧ after (ops (F := Ideal)) V (Proc.devRef .tc main_arg7) = V (Proc.devRef .tc main_arg7)
    ∧ after (ops (F := Ideal)) V (Proc.devRef .tc main_arg8) = V (Proc.devRef .tc main_arg8)
    ∧ after (ops (F := Ideal)) V (Proc.devRef .tc main_arg9) = V (Proc.devRef .tc main_arg9)
    ∧ after (ops (F := Ideal)) V (Proc.devRef .tc main_arg10) = V (Proc.devRef .tc main_arg10)
    ∧ after (ops (F := Ideal)) V (Proc.devRef .tc main_arg11) = V (Proc.devRef .tc main_arg11) := by
  rw [after_ops]
  exact kept_post (chain V).1

end Cert.ReferenceIdeal.RefRun

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

section Launch
variable (m : (ℓ : Loc nD τ sig) → Buf (Elt Ideal) ℓ) (c : Dev nD)

/-- The result on device c, run from the launch memory m: the network of m's argument arrays. -/
theorem ref_value :
    after (ops (F := Ideal)) (launchContents m c) (Proc.devRef .tc main_v373)
      = Cert.Net.network ⟨m ((c.tc : Thread nD τ).loc main_arg0),
          m ((c.tc : Thread nD τ).loc main_arg1),
          m ((c.tc : Thread nD τ).loc main_arg2),
          m ((c.tc : Thread nD τ).loc main_arg3),
          m ((c.tc : Thread nD τ).loc main_arg4),
          m ((c.tc : Thread nD τ).loc main_arg5),
          m ((c.tc : Thread nD τ).loc main_arg6),
          m ((c.tc : Thread nD τ).loc main_arg7),
          m ((c.tc : Thread nD τ).loc main_arg8),
          m ((c.tc : Thread nD τ).loc main_arg9),
          m ((c.tc : Thread nD τ).loc main_arg10),
          m ((c.tc : Thread nD τ).loc main_arg11)⟩ :=
  value_of (launchContents m c)

/-- Argument 0 ends as launched. -/
theorem ref_kept_0 :
    after (ops (F := Ideal)) (launchContents m c) (Proc.devRef .tc main_arg0) = m ((c.tc : Thread nD τ).loc main_arg0) :=
  (kept_of (launchContents m c)).1
/-- Argument 1 ends as launched. -/
theorem ref_kept_1 :
    after (ops (F := Ideal)) (launchContents m c) (Proc.devRef .tc main_arg1) = m ((c.tc : Thread nD τ).loc main_arg1) :=
  (kept_of (launchContents m c)).2.1
/-- Argument 2 ends as launched. -/
theorem ref_kept_2 :
    after (ops (F := Ideal)) (launchContents m c) (Proc.devRef .tc main_arg2) = m ((c.tc : Thread nD τ).loc main_arg2) :=
  (kept_of (launchContents m c)).2.2.1
/-- Argument 3 ends as launched. -/
theorem ref_kept_3 :
    after (ops (F := Ideal)) (launchContents m c) (Proc.devRef .tc main_arg3) = m ((c.tc : Thread nD τ).loc main_arg3) :=
  (kept_of (launchContents m c)).2.2.2.1
/-- Argument 4 ends as launched. -/
theorem ref_kept_4 :
    after (ops (F := Ideal)) (launchContents m c) (Proc.devRef .tc main_arg4) = m ((c.tc : Thread nD τ).loc main_arg4) :=
  (kept_of (launchContents m c)).2.2.2.2.1
/-- Argument 5 ends as launched. -/
theorem ref_kept_5 :
    after (ops (F := Ideal)) (launchContents m c) (Proc.devRef .tc main_arg5) = m ((c.tc : Thread nD τ).loc main_arg5) :=
  (kept_of (launchContents m c)).2.2.2.2.2.1
/-- Argument 6 ends as launched. -/
theorem ref_kept_6 :
    after (ops (F := Ideal)) (launchContents m c) (Proc.devRef .tc main_arg6) = m ((c.tc : Thread nD τ).loc main_arg6) :=
  (kept_of (launchContents m c)).2.2.2.2.2.2.1
/-- Argument 7 ends as launched. -/
theorem ref_kept_7 :
    after (ops (F := Ideal)) (launchContents m c) (Proc.devRef .tc main_arg7) = m ((c.tc : Thread nD τ).loc main_arg7) :=
  (kept_of (launchContents m c)).2.2.2.2.2.2.2.1
/-- Argument 8 ends as launched. -/
theorem ref_kept_8 :
    after (ops (F := Ideal)) (launchContents m c) (Proc.devRef .tc main_arg8) = m ((c.tc : Thread nD τ).loc main_arg8) :=
  (kept_of (launchContents m c)).2.2.2.2.2.2.2.2.1
/-- Argument 9 ends as launched. -/
theorem ref_kept_9 :
    after (ops (F := Ideal)) (launchContents m c) (Proc.devRef .tc main_arg9) = m ((c.tc : Thread nD τ).loc main_arg9) :=
  (kept_of (launchContents m c)).2.2.2.2.2.2.2.2.2.1
/-- Argument 10 ends as launched. -/
theorem ref_kept_10 :
    after (ops (F := Ideal)) (launchContents m c) (Proc.devRef .tc main_arg10) = m ((c.tc : Thread nD τ).loc main_arg10) :=
  (kept_of (launchContents m c)).2.2.2.2.2.2.2.2.2.2.1
/-- Argument 11 ends as launched. -/
theorem ref_kept_11 :
    after (ops (F := Ideal)) (launchContents m c) (Proc.devRef .tc main_arg11) = m ((c.tc : Thread nD τ).loc main_arg11) :=
  (kept_of (launchContents m c)).2.2.2.2.2.2.2.2.2.2.2

end Launch

/-- From any launch memory with zero counters, every weakly fair execution of the reference program terminates with
    the result buffer at the network of the launch memory's argument arrays and the arguments as launched. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v373)
          = Cert.Net.network ⟨m ((c.tc : Thread nD τ).loc main_arg0),
              m ((c.tc : Thread nD τ).loc main_arg1),
              m ((c.tc : Thread nD τ).loc main_arg2),
              m ((c.tc : Thread nD τ).loc main_arg3),
              m ((c.tc : Thread nD τ).loc main_arg4),
              m ((c.tc : Thread nD τ).loc main_arg5),
              m ((c.tc : Thread nD τ).loc main_arg6),
              m ((c.tc : Thread nD τ).loc main_arg7),
              m ((c.tc : Thread nD τ).loc main_arg8),
              m ((c.tc : Thread nD τ).loc main_arg9),
              m ((c.tc : Thread nD τ).loc main_arg10),
              m ((c.tc : Thread nD τ).loc main_arg11)⟩
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v373).trans (ref_value m c),
      (h c main_arg0).trans (ref_kept_0 m c),
      (h c main_arg1).trans (ref_kept_1 m c),
      (h c main_arg2).trans (ref_kept_2 m c),
      (h c main_arg3).trans (ref_kept_3 m c),
      (h c main_arg4).trans (ref_kept_4 m c),
      (h c main_arg5).trans (ref_kept_5 m c),
      (h c main_arg6).trans (ref_kept_6 m c),
      (h c main_arg7).trans (ref_kept_7 m c),
      (h c main_arg8).trans (ref_kept_8 m c),
      (h c main_arg9).trans (ref_kept_9 m c),
      (h c main_arg10).trans (ref_kept_10 m c),
      (h c main_arg11).trans (ref_kept_11 m c)⟩)
    (run_after m ρ)

end Cert.ReferenceIdeal.RefValue

end
-- ==== Proof.lean ====
/-
  The certificate of the graph network: a degree count, an encoder, twelve message-passing layers, a per-graph sum and
  a decoder.  The kernel program runs the three dense parts — the encoder, each layer's two rectified dense stages,
  the decoder — as regions over blocks of 10000 node rows, with the sparse parts (the degree count, each layer's
  gather at src and scatter-add at dst, the per-graph sum) as host operations between them; the reference runs
  everything as host operations on the whole arrays.

  At the ideal values both programs compute one function of the twelve arguments, `Cert.Net.network`:
  a change of float format is the identity, a matrix product accumulated into zeros and the host's dot product are
  both the plain sum over the contracted index, a block of rows of a dense stage is the stage of that block of rows
  (entry (r, q) reads row r only), a vector recast or broadcast to a one-row or one-column matrix holds the same
  entries, and the sparse operations are the same operations applied to the same values.  No law that needs finite
  values is used: the precondition is never opened.

  The three frames: the two kernel programs' are the frame certificates of their 14 regions; the reference's is
  its run with the result dropped.  The idealization rewrote nothing, so there is nothing to preserve.
-/
import proofs.«124003_j47699906789506_1_alg».proof.Defs
import proofs.«124003_j47699906789506_1_alg».proof.Proof.Gen.Kernel
import proofs.«124003_j47699906789506_1_alg».proof.Proof.Gen.Kernel.Frame
import proofs.«124003_j47699906789506_1_alg».proof.Proof.Gen.KernelIdeal
import proofs.«124003_j47699906789506_1_alg».proof.Proof.Gen.KernelIdeal.Frame
import proofs.«124003_j47699906789506_1_alg».proof.Proof.Gen.ReferenceIdeal
import proofs.«124003_j47699906789506_1_alg».proof.Proof.Gen.Pre_finite_inputs
import proofs.«124003_j47699906789506_1_alg».proof.Proof.KChain
import proofs.«124003_j47699906789506_1_alg».proof.Proof.RefRun

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.RefValue.ref_run m ρ)

/-- Both programs end with the network's result of the arguments, which agree. -/
theorem algebraic : Cert.algebraic_KernelIdeal_ReferenceIdeal := by
  intro m ρ m' ρ' _ hagree
  refine ⟨fun c => Cert.Net.network (Cert.KernelIdeal.KChain.argsOf m c), Cert.KernelIdeal.KChain.run m ρ, ?_⟩
  refine (θ_run Cert.ReferenceIdeal.defs _ _).mono (fun _ h c => ⟨(h c).1.trans ?_, (h c).2⟩)
    (Cert.ReferenceIdeal.RefValue.ref_run m' ρ')
  obtain ⟨h0, h1, h2, h3, h4, h5, h6, h7, h8, h9, h10, h11⟩ := hagree c
  rw [h0, h1, h2, h3, h4, h5, h6, h7, h8, h9, h10, h11]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
